-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v243)) (v1 : (c : Dev Cert.KernelIdeal.nD) → Buf (Elt Ideal) ((c.tc : Thread Cert.KernelIdeal.nD Cert.KernelIdeal.τ).loc Cert.KernelIdeal.main_v233)) (v2 : (c : Dev Cert.KernelIdeal.nD) → Buf (Elt Ideal) ((c.tc : Thread Cert.KernelIdeal.nD Cert.KernelIdeal.τ).loc Cert.KernelIdeal.main_v245)) (v3 : (c : Dev Cert.KernelIdeal.nD) → Buf (Elt Ideal) ((c.tc : Thread Cert.KernelIdeal.nD Cert.KernelIdeal.τ).loc Cert.KernelIdeal.main_v74)) (v4 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243) = v0 c
          ∧ r.2.mem ((c.tc : Thread Cert.KernelIdeal.nD Cert.KernelIdeal.τ).loc Cert.KernelIdeal.main_v233) = v1 c
          ∧ r.2.mem ((c.tc : Thread Cert.KernelIdeal.nD Cert.KernelIdeal.τ).loc Cert.KernelIdeal.main_v245) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_v244) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v273) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v272) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S1x3 : Shape := ⟨2, ![1, 3]⟩
abbrev S2 : Shape := ⟨1, ![2]⟩
abbrev S4 : Shape := ⟨1, ![4]⟩
abbrev S3x1 : Shape := ⟨2, ![3, 1]⟩
abbrev S1 : Shape := ⟨1, ![1]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S1x3 : S_.BroadcastsInDim S1x3 (![] : Fin 0 → Fin S1x3.rank)
  reducesTo_S1x3_S_d0_1 : S1x3.ReducesTo [0, 1] S_
  bcast_S_S2 : S_.BroadcastsInDim S2 (![] : Fin 0 → Fin S2.rank)
  reducesTo_S2_S_d0 : S2.ReducesTo [0] S_
  bcast_S_S4 : S_.BroadcastsInDim S4 (![] : Fin 0 → Fin S4.rank)
  reducesTo_S4_S_d0 : S4.ReducesTo [0] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg5 : FVec F S4 .f32) (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S4 .f32 := mulf main_arg5 main_arg5
  let main_cst_14 : FVec F S_ .f32 := constant S_ .f32 0x00000000#32
  let main_v40 : FVec F S_ .f32 := (fun x v => Host.reduceAdd x v reducesTo_S4_S_d0 h_S_) main_v39 main_cst_14
  let main_cst_15 : FVec F S_ .f32 := constant S_ .f32 0x00000000#32
  let main_v41 : IVec S_ 1 := cmpf .ogt main_v40 main_cst_15
  let main_v42 : IVec S_ 1 := andi main_v38 main_v41
  main_v42

def fn_part1 {F : FTy → Type} [FloatOps F] (main_arg4 : FVec F S2 .f32) (main_arg5 : FVec F S4 .f32) (main_arg6 : FVec F S3x1 .f32) (main_arg7 : FVec F S1 .f32) (main_v13 : IVec S_ 1) (main_v16 : IVec S1x3 1) : IVec S_ 1 :=
  let main_c_5 : IVec S_ 1 := constantI S_ 1 1#1
  let main_v17 : IVec S_ 1 := (fun x v => Host.reduce IntOp.andi x v reducesTo_S1x3_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S3x1 .f32 := Host.absf main_arg6
  let main_cst_10 : FVec F S_ .f32 := constant S_ .f32 0x7F800000#32
  let main_v30 : FVec F S3x1 .f32 := broadcastInDim S3x1 ![] bcast_S_S3x1 main_cst_10
  let main_v31 : IVec S3x1 1 := cmpf .olt main_v29 main_v30
  let main_c_11 : IVec S_ 1 := constantI S_ 1 1#1
  let main_v32 : IVec S_ 1 := (fun x v => Host.reduce IntOp.andi x v reducesTo_S3x1_S_d0_1 h_S_) main_v31 main_c_11
  let main_v33 : IVec S_ 1 := andi main_v28 main_v32
  fn_part2 (F := F) main_arg5 main_arg7 main_v33

def fn {F : FTy → Type} [FloatOps F] (main_arg0 : FVec F S2x8192x3 .f32) (main_arg1 : FVec F S2x8192x3 .f32) (main_arg2 : FVec F S1x3 .f32) (main_arg3 : FVec F S1x3 .f32) (main_arg4 : FVec F S2 .f32) (main_arg5 : FVec F S4 .f32) (main_arg6 : FVec F S3x1 .f32) (main_arg7 : FVec F S1 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  let main_v9 : FVec F S1x3 .f32 := Host.absf main_arg2
  let main_cst_2 : FVec F S_ .f32 := constant S_ .f32 0x7F800000#32
  let main_v10 : FVec F S1x3 .f32 := broadcastInDim S1x3 ![] bcast_S_S1x3 main_cst_2
  let main_v11 : IVec S1x3 1 := cmpf .olt main_v9 main_v10
  let main_c_3 : IVec S_ 1 := constantI S_ 1 1#1
  let main_v12 : IVec S_ 1 := (fun x v => Host.reduce IntOp.andi x v reducesTo_S1x3_S_d0_1 h_S_) main_v11 main_c_3
  let main_v13 : IVec S_ 1 := andi main_v8 main_v12
  let main_v14 : FVec F S1x3 .f32 := Host.absf main_arg3
  let main_cst_4 : FVec F S_ .f32 := constant S_ .f32 0x7F800000#32
  let main_v15 : FVec F S1x3 .f32 := broadcastInDim S1x3 ![] bcast_S_S1x3 main_cst_4
  let main_v16 : IVec S1x3 1 := cmpf .olt main_v14 main_v15
  fn_part1 (F := F) main_arg4 main_arg5 main_arg6 main_arg7 main_v13 main_v16
-- ==== Kernel.lean ====
abbrev S2x8192x3 : Shape := ⟨3, ![2, 8192, 3]⟩
abbrev S1x3 : Shape := ⟨2, ![1, 3]⟩
abbrev S2 : Shape := ⟨1, ![2]⟩
abbrev S4 : Shape := ⟨1, ![4]⟩
abbrev S3x1 : Shape := ⟨2, ![3, 1]⟩
abbrev S1 : Shape := ⟨1, ![1]⟩
abbrev S1x4 : Shape := ⟨2, ![1, 4]⟩
abbrev S_ : Shape := ⟨0, ![]⟩
abbrev S2x8192x1 : Shape := ⟨3, ![2, 8192, 1]⟩
abbrev S2x8192x4 : Shape := ⟨3, ![2, 8192, 4]⟩
abbrev S9 : Shape := ⟨1, ![9]⟩
abbrev S3x3 : Shape := ⟨2, ![3, 3]⟩
abbrev S3x4 : Shape := ⟨2, ![3, 4]⟩
abbrev S4x4 : Shape := ⟨2, ![4, 4]⟩
abbrev S1x8192x4 : Shape := ⟨3, ![1, 8192, 4]⟩
abbrev S8192x4 : Shape := ⟨2, ![8192, 4]⟩
abbrev S3 : Shape := ⟨1, ![3]⟩
abbrev S12 : Shape := ⟨1, ![12]⟩
abbrev S2x4x8192 : Shape := ⟨3, ![2, 4, 8192]⟩
abbrev S2x1x8192 : Shape := ⟨3, ![2, 1, 8192]⟩
abbrev S1x1024x4 : Shape := ⟨3, ![1, 1024, 4]⟩
abbrev S1x4x1024 : Shape := ⟨3, ![1, 4, 1024]⟩
abbrev S1x1024x1 : Shape := ⟨3, ![1, 1024, 1]⟩
abbrev S1x1x8192 : Shape := ⟨3, ![1, 1, 8192]⟩
abbrev S1024x4 : Shape := ⟨2, ![1024, 4]⟩
abbrev S4x1024 : Shape := ⟨2, ![4, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1x8192 : Shape := ⟨2, ![1, 8192]⟩
abbrev S1x1x1024 : Shape := ⟨3, ![1, 1, 1024]⟩
abbrev S2x8192 : Shape := ⟨2, ![2, 8192]⟩
abbrev S1x4x4 : Shape := ⟨3, ![1, 4, 4]⟩

abbrev nBuf : Space → Nat
  | .hbm => 298
  | .vmem => 8
  | .smem => 0
  | _ => 0

abbrev hbmTy0_0 (i : Nat) : BufTy := match i % 128 with
  | 0 => ⟨S2x8192x3, .f32⟩
  | 1 => ⟨S2x8192x3, .f32⟩
  | 2 => ⟨S1x3, .f32⟩
  | 3 => ⟨S1x3, .f32⟩
  | 4 => ⟨S2, .f32⟩
  | 5 => ⟨S4, .f32⟩
  | 6 => ⟨S3x1, .f32⟩
  | 7 => ⟨S1, .f32⟩
  | 8 => ⟨S1x4, .f32⟩
  | 9 => ⟨S1x4, .f32⟩
  | 10 => ⟨S_, .f32⟩
  | 11 => ⟨S2x8192x1, .f32⟩
  | 12 => ⟨S2x8192x4, .f32⟩
  | 13 => ⟨S2x8192x4, .f32⟩
  | 14 => ⟨S4, .f32⟩
  | 15 => ⟨S_, .f32⟩
  | 16 => ⟨S_, .f32⟩
  | 17 => ⟨S_, .f32⟩
  | 18 => ⟨S4, .f32⟩
  | 19 => ⟨S4, .f32⟩
  | 20 => ⟨S1, .f32⟩
  | 21 => ⟨S_, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1, .f32⟩
  | 98 => ⟨S1, .f32⟩
  | 99 => ⟨S1, .f32⟩
  | 100 => ⟨S1, .f32⟩
  | 101 => ⟨S1, .f32⟩
  | 102 => ⟨S1, .f32⟩
  | 103 => ⟨S1, .f32⟩
  | 104 => ⟨S1, .f32⟩
  | 105 => ⟨S1, .f32⟩
  | 106 => ⟨S9, .f32⟩
  | 107 => ⟨S3x3, .f32⟩
  | 108 => ⟨S3x4, .f32⟩
  | 109 => ⟨S4x4, .f32⟩
  | 110 => ⟨S1x8192x4, .f32⟩
  | 111 => ⟨S8192x4, .f32⟩
  | 112 => ⟨S4x4, .f32⟩
  | 113 => ⟨S8192x4, .f32⟩
  | 114 => ⟨S3, .f32⟩
  | 115 => ⟨S3, .f32⟩
  | 116 => ⟨S_, .f32⟩
  | 117 => ⟨S1, .f32⟩
  | 118 => ⟨S_, .f32⟩
  | 119 => ⟨S1, .f32⟩
  | 120 => ⟨S_, .f32⟩
  | 121 => ⟨S1, .f32⟩
  | 122 => ⟨S_, .f32⟩
  | 123 => ⟨S1, .f32⟩
  | 124 => ⟨S_, .f32⟩
  | 125 => ⟨S1, .f32⟩
  | 126 => ⟨S_, .f32⟩
  | 127 => ⟨S1, .f32⟩
  | _ => ⟨S2x8192x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1, .f32⟩
  | 109 => ⟨S1, .f32⟩
  | 110 => ⟨S1, .f32⟩
  | 111 => ⟨S1, .f32⟩
  | 112 => ⟨S1, .f32⟩
  | 113 => ⟨S1, .f32⟩
  | 114 => ⟨S1, .f32⟩
  | 115 => ⟨S1, .f32⟩
  | 116 => ⟨S1, .f32⟩
  | 117 => ⟨S1, .f32⟩
  | 118 => ⟨S1, .f32⟩
  | 119 => ⟨S1, .f32⟩
  | 120 => ⟨S12, .f32⟩
  | 121 => ⟨S3x4, .f32⟩
  | 122 => ⟨S4x4, .f32⟩
  | 123 => ⟨S4x4, .f32⟩
  | 124 => ⟨S1x8192x4, .f32⟩
  | 125 => ⟨S8192x4, .f32⟩
  | 126 => ⟨S4x4, .f32⟩
  | 127 => ⟨S8192x4, .f32⟩
  | _ => ⟨S2x8192x3, .f32⟩

abbrev hbmTy0_2 (i : Nat) : BufTy := match i % 128 with
  | 0 => ⟨S1x8192x4, .f32⟩
  | 1 => ⟨S1x8192x4, .f32⟩
  | 2 => ⟨S2x8192x4, .f32⟩
  | 3 => ⟨S2x4x8192, .f32⟩
  | 4 => ⟨S2x8192x1, .f32⟩
  | 5 => ⟨S2x1x8192, .f32⟩
  | 6 => ⟨S2x8192, .f32⟩
  | 7 => ⟨S_, .f32⟩
  | 8 => ⟨S2x8192, .f32⟩
  | 9 => ⟨S2x8192, .f32⟩
  | 10 => ⟨S2x8192, .f32⟩
  | 11 => ⟨S2x8192, .f32⟩
  | 12 => ⟨S_, .f32⟩
  | 13 => ⟨S2x8192, .f32⟩
  | 14 => ⟨S2x8192, .f32⟩
  | 15 => ⟨S2x8192, .f32⟩
  | 16 => ⟨S_, .f32⟩
  | 17 => ⟨S2, .f32⟩
  | 18 => ⟨S_, .f32⟩
  | 19 => ⟨S2, .f32⟩
  | 20 => ⟨S2, .f32⟩
  | 21 => ⟨S_, .f32⟩
  | 22 => ⟨S2, .f32⟩
  | 23 => ⟨S_, .f32⟩
  | 24 => ⟨S2, .f32⟩
  | 25 => ⟨S2, .f32⟩
  | 26 => ⟨S2, .f32⟩
  | 27 => ⟨S1, .f32⟩
  | 28 => ⟨S_, .f32⟩
  | 29 => ⟨S1, .f32⟩
  | 30 => ⟨S_, .f32⟩
  | 31 => ⟨S_, .f32⟩
  | 32 => ⟨S1, .f32⟩
  | 33 => ⟨S_, .f32⟩
  | 34 => ⟨S1, .f32⟩
  | 35 => ⟨S_, .f32⟩
  | 36 => ⟨S_, .f32⟩
  | 37 => ⟨S_, .f32⟩
  | 38 => ⟨S_, .f32⟩
  | 39 => ⟨S_, .f32⟩
  | 40 => ⟨S1x4x4, .f32⟩
  | 41 => ⟨S1, .f32⟩
  | _ => ⟨S2x8192x3, .f32⟩

abbrev hbmTy (i : Nat) : BufTy := match i / 128 with
  | 0 => hbmTy0_0 i
  | 1 => hbmTy0_1 i
  | 2 => hbmTy0_2 i
  | _ => ⟨S2x8192x3, .f32⟩

abbrev bufTy : (tb : Table) → Fin (tcTables nBuf tb) → BufTy
  | .hbm, ⟨i, _⟩ => hbmTy i
  | .local _ .vmem, ⟨0, _⟩ => ⟨S1x1024x4, .f32⟩
  | .local _ .vmem, ⟨1, _⟩ => ⟨S1x1024x4, .f32⟩
  | .local _ .vmem, ⟨2, _⟩ => ⟨S1x4x1024, .f32⟩
  | .local _ .vmem, ⟨3, _⟩ => ⟨S1x4x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x8192, .f32⟩
  | .local _ .vmem, ⟨7, _⟩ => ⟨S1x1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_cst_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_14 : Ref sig .tc := ⟨.hbm, 67, rfl⟩
abbrev main_v41 : Ref sig .tc := ⟨.hbm, 68, rfl⟩
abbrev main_v42 : Ref sig .tc := ⟨.hbm, 69, rfl⟩
abbrev main_cst_15 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_16 : Ref sig .tc := ⟨.hbm, 74, rfl⟩
abbrev main_v46 : Ref sig .tc := ⟨.hbm, 75, rfl⟩
abbrev main_v47 : Ref sig .tc := ⟨.hbm, 76, rfl⟩
abbrev main_cst_17 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_18 : Ref sig .tc := ⟨.hbm, 81, rfl⟩
abbrev main_v51 : Ref sig .tc := ⟨.hbm, 82, rfl⟩
abbrev main_v52 : Ref sig .tc := ⟨.hbm, 83, rfl⟩
abbrev main_cst_19 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_20 : Ref sig .tc := ⟨.hbm, 88, rfl⟩
abbrev main_v56 : Ref sig .tc := ⟨.hbm, 89, rfl⟩
abbrev main_v57 : Ref sig .tc := ⟨.hbm, 90, rfl⟩
abbrev main_cst_21 : Ref sig .tc := ⟨.hbm, 91, rfl⟩
abbrev main_v58 : Ref sig .tc := ⟨.hbm, 92, rfl⟩
abbrev main_cst_22 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_23 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_24 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_25 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_26 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_27 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_28 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_29 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_30 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_31 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216_0 : Ref sig .tc := ⟨.hbm, 260, rfl⟩
abbrev main_v216_1 : Ref sig .tc := ⟨.hbm, 261, rfl⟩
abbrev main_v217 : Ref sig .tc := ⟨.hbm, 262, rfl⟩
abbrev main_cst_32 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_cst_33 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_cst_34 : Ref sig .tc := ⟨.hbm, 272, rfl⟩
abbrev main_v225 : Ref sig .tc := ⟨.hbm, 273, rfl⟩
abbrev main_cst_35 : Ref sig .tc := ⟨.hbm, 274, rfl⟩
abbrev main_v226 : Ref sig .tc := ⟨.hbm, 275, rfl⟩
abbrev main_v227 : Ref sig .tc := ⟨.hbm, 276, rfl⟩
abbrev main_cst_36 : Ref sig .tc := ⟨.hbm, 277, rfl⟩
abbrev main_v228 : Ref sig .tc := ⟨.hbm, 278, rfl⟩
abbrev main_cst_37 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_cst_38 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c1024_i32 : BitVec 32 := 1024#32
  let v48 : BitVec 32 := Scalar.muli arg2 c1024_i32
  v48
def k0_off1 (i : grid0.Coords) : Fin 3 → Nat :=
  let c0_13 : Index := 0#32
  let c0_14 : Index := 0#32
  let arg2 : BitVec 32 := BitVec.ofNat 32 (i 2).val
  let c1024_i32 : BitVec 32 := 1024#32
  let v48 : BitVec 32 := Scalar.muli arg2 c1024_i32
  let v49 : BitVec 32 := v48
  let v50 : Index := Scalar.indexCast v49
  ![0, 0, v50.toNat]
def k0_cond1 (i : grid0.Coords) : BitVec 1 :=
  let arg2 : BitVec 32 := BitVec.ofNat 32 (i 2).val
  let c0_i32 : BitVec 32 := 0#32
  let v37 : BitVec 1 := Scalar.cmpi .eq arg2 c0_i32
  let v38 : BitVec 32 := Scalar.extui v37
  let c0_i32_7 : BitVec 32 := 0#32
  let v39 : BitVec 1 := Scalar.cmpi .ne v38 c0_i32_7
  v39

def k0_cond2 (i : grid0.Coords) : BitVec 1 :=
  let arg2 : BitVec 32 := BitVec.ofNat 32 (i 2).val
  let c0_i32_8 : BitVec 32 := 0#32
  let v40 : BitVec 1 := Scalar.cmpi .ne arg2 c0_i32_8
  let v41 : BitVec 32 := Scalar.extui v40
  let c0_i32_9 : BitVec 32 := 0#32
  let v42 : BitVec 1 := Scalar.cmpi .ne v41 c0_i32_9
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  bcast_S_S2x8192x1 : S_.BroadcastsInDim S2x8192x1 (![] : Fin 0 → Fin S2x8192x1.rank)
  concatenates_S2x8192x3_S2x8192x1_S2x8192x4_d2 : Shape.Concatenates [S2x8192x3, S2x8192x1] S2x8192x4 2
  reducesTo_S4_S_d0 : S4.ReducesTo [0] S_
  h_S_ : 0 < S_.numel
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  shapeCasts_S9_S3x3 : S9.ShapeCasts S3x3
  concatenates_S3x3_S3x1_S3x4_d1 : Shape.Concatenates [S3x3, S3x1] S3x4 1
  concatenates_S3x4_S1x4_S4x4_d0 : Shape.Concatenates [S3x4, S1x4] S4x4 0
  slices_S2x8192x4_S1x8192x4_0_0_0 : S2x8192x4.Slices ![0, 0, 0] S1x8192x4
  shapeCasts_S1x8192x4_S8192x4 : S1x8192x4.ShapeCasts S8192x4
  transposes_S4x4_S4x4_1_0 : S4x4.Transposes [1, 0] S4x4
  shapeCasts_S1x3_S3 : S1x3.ShapeCasts S3
  slices_S3_S1_0 : S3.Slices ![0] S1
  slices_S3_S1_1 : S3.Slices ![1] S1
  slices_S3_S1_2 : S3.Slices ![2] S1
  concatenates_S1_S1_S1_S1_S1_S1_S1_S1_S1_S1_S1_S1_S12_d0 : Shape.Concatenates [S1, S1, S1, S1, S1, S1, S1, S1, S1, S1, S1, S1] S12 0
  shapeCasts_S12_S3x4 : S12.ShapeCasts S3x4
  slices_S2x8192x4_S1x8192x4_1_0_0 : S2x8192x4.Slices ![1, 0, 0] S1x8192x4
  bcast_S8192x4_S1x8192x4_1_2 : S8192x4.BroadcastsInDim S1x8192x4 (![1, 2] : Fin 2 → Fin S1x8192x4.rank)
  concatenates_S1x8192x4_S1x8192x4_S2x8192x4_d0 : Shape.Concatenates [S1x8192x4, S1x8192x4] S2x8192x4 0
  transposes_S2x8192x4_S2x4x8192_0_2_1 : S2x8192x4.Transposes [0, 2, 1] S2x4x8192
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  slices_S1024x4_o0_0_S1024x1 : S1024x4.Slices ![0, 0] S1024x1
  slices_S4x1024_o0_0_S1x1024 : S4x1024.Slices ![0, 0] S1x1024
  broadcasts_S1024x1_S1024x1024 : S1024x1.Broadcasts S1024x1024
  broadcasts_S1x1024_S1024x1024 : S1x1024.Broadcasts S1024x1024
  slices_S1024x4_o0_1_S1024x1 : S1024x4.Slices ![0, 1] S1024x1
  slices_S4x1024_o1_0_S1x1024 : S4x1024.Slices ![1, 0] S1x1024
  slices_S1024x4_o0_2_S1024x1 : S1024x4.Slices ![0, 2] S1024x1
  slices_S4x1024_o2_0_S1x1024 : S4x1024.Slices ![2, 0] S1x1024
  slices_S1024x4_o0_3_S1024x1 : S1024x4.Slices ![0, 3] S1024x1
  slices_S4x1024_o3_0_S1x1024 : S4x1024.Slices ![3, 0] S1x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S2x8192x1_S2x8192 : S2x8192x1.ShapeCasts S2x8192
  bcast_S_S2x8192 : S_.BroadcastsInDim S2x8192 (![] : Fin 0 → Fin S2x8192.rank)
  shapeCasts_S2x1x8192_S2x8192 : S2x1x8192.ShapeCasts S2x8192
  reducesTo_S2x8192_S2_d1 : S2x8192.ReducesTo [1] S2
  bcast_S_S2 : S_.BroadcastsInDim S2 (![] : Fin 0 → Fin S2.rank)
  slices_S2_S1_0 : S2.Slices ![0] S1
  slices_S2_S1_1 : S2.Slices ![1] S1
  bcast_S4x4_S1x4x4_1_2 : S4x4.BroadcastsInDim S1x4x4 (![1, 2] : Fin 2 → Fin S1x4x4.rank)
  dot_S8192x4_S4x4_S8192x4_1_0_0_1_n_n_wf : DotDims.WF S8192x4 S4x4 S8192x4 [1] [0] [0] [1] [] []
  dot_S4x4_S4x4_S4x4_1_0_0_1_n_n_wf : DotDims.WF S4x4 S4x4 S4x4 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S2x8192x4.size a
  hwx0_0 : ∀ i : grid0.Coords, EltTy.bits .f32 = 32 ∨ (Rect.block (s := S2x8192x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1024.size a ≤ S2x4x8192.size a
  hwx0_1 : ∀ i : grid0.Coords, EltTy.bits .f32 = 32 ∨ (Rect.block (s := S2x4x8192) S1x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x8192x1.size a
  hwx0_2 : ∀ i : grid0.Coords, EltTy.bits .f32 = 32 ∨ (Rect.block (s := S2x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)

variable [Facts₀]

def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf

abbrev win0_0 : Pipeline.Window sig grid0 :=
  Pipeline.Window.ofSpec (Memref.whole main_v214) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v215) S1x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v216_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v216_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S1x3 : Shape := ⟨2, ![1, 3]⟩
abbrev S2 : Shape := ⟨1, ![2]⟩
abbrev S4 : Shape := ⟨1, ![4]⟩
abbrev S3x1 : Shape := ⟨2, ![3, 1]⟩
abbrev S1 : Shape := ⟨1, ![1]⟩
abbrev S1x4 : Shape := ⟨2, ![1, 4]⟩
abbrev S_ : Shape := ⟨0, ![]⟩
abbrev S2x8192x1 : Shape := ⟨3, ![2, 8192, 1]⟩
abbrev S2x8192x4 : Shape := ⟨3, ![2, 8192, 4]⟩
abbrev S9 : Shape := ⟨1, ![9]⟩
abbrev S3x3 : Shape := ⟨2, ![3, 3]⟩
abbrev S3x4 : Shape := ⟨2, ![3, 4]⟩
abbrev S4x4 : Shape := ⟨2, ![4, 4]⟩
abbrev S1x8192x4 : Shape := ⟨3, ![1, 8192, 4]⟩
abbrev S8192x4 : Shape := ⟨2, ![8192, 4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192 : Shape := ⟨2, ![4, 8192]⟩
abbrev S3 : Shape := ⟨1, ![3]⟩
abbrev S12 : Shape := ⟨1, ![12]⟩
abbrev S1x4x4 : Shape := ⟨3, ![1, 4, 4]⟩

abbrev nBuf : Space → Nat
  | .hbm => 339
  | .vmem => 0
  | .smem => 0
  | _ => 0

abbrev hbmTy0_0 (i : Nat) : BufTy := match i % 128 with
  | 0 => ⟨S2x8192x3, .f32⟩
  | 1 => ⟨S2x8192x3, .f32⟩
  | 2 => ⟨S1x3, .f32⟩
  | 3 => ⟨S1x3, .f32⟩
  | 4 => ⟨S2, .f32⟩
  | 5 => ⟨S4, .f32⟩
  | 6 => ⟨S3x1, .f32⟩
  | 7 => ⟨S1, .f32⟩
  | 8 => ⟨S1x4, .f32⟩
  | 9 => ⟨S1x4, .f32⟩
  | 10 => ⟨S_, .f32⟩
  | 11 => ⟨S2x8192x1, .f32⟩
  | 12 => ⟨S2x8192x4, .f32⟩
  | 13 => ⟨S2x8192x4, .f32⟩
  | 14 => ⟨S4, .f32⟩
  | 15 => ⟨S_, .f32⟩
  | 16 => ⟨S_, .f32⟩
  | 17 => ⟨S_, .f32⟩
  | 18 => ⟨S4, .f32⟩
  | 19 => ⟨S4, .f32⟩
  | 20 => ⟨S1, .f32⟩
  | 21 => ⟨S_, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1, .f32⟩
  | 98 => ⟨S1, .f32⟩
  | 99 => ⟨S1, .f32⟩
  | 100 => ⟨S1, .f32⟩
  | 101 => ⟨S1, .f32⟩
  | 102 => ⟨S1, .f32⟩
  | 103 => ⟨S1, .f32⟩
  | 104 => ⟨S1, .f32⟩
  | 105 => ⟨S1, .f32⟩
  | 106 => ⟨S9, .f32⟩
  | 107 => ⟨S3x3, .f32⟩
  | 108 => ⟨S3x4, .f32⟩
  | 109 => ⟨S4x4, .f32⟩
  | 110 => ⟨S1x8192x4, .f32⟩
  | 111 => ⟨S8192x4, .f32⟩
  | 112 => ⟨S4x4, .f32⟩
  | 113 => ⟨S8192x4, .f32⟩
  | 114 => ⟨S1x8192x4, .f32⟩
  | 115 => ⟨S8192x4, .f32⟩
  | 116 => ⟨S8192x4, .f32⟩
  | 117 => ⟨S_, .f32⟩
  | 118 => ⟨S8192, .f32⟩
  | 119 => ⟨S8192x1, .f32⟩
  | 120 => ⟨S8192x4, .f32⟩
  | 121 => ⟨S_, .f32⟩
  | 122 => ⟨S8192, .f32⟩
  | 123 => ⟨S1x8192, .f32⟩
  | 124 => ⟨S8192x8192, .f32⟩
  | 125 => ⟨S8192x8192, .f32⟩
  | 126 => ⟨S8192x8192, .f32⟩
  | 127 => ⟨S_, .f32⟩
  | _ => ⟨S2x8192x3, .f32⟩

abbrev hbmTy0_1 (i : Nat) : BufTy := match i % 128 with
  | 0 => ⟨S8192x4, .f32⟩
  | 1 => ⟨S8192x4, .f32⟩
  | 2 => ⟨S4x8192, .f32⟩
  | 3 => ⟨S8192x8192, .f32⟩
  | 4 => ⟨S8192x8192, .f32⟩
  | 5 => ⟨S_, .f32⟩
  | 6 => ⟨S8192x8192, .f32⟩
  | 7 => ⟨S8192x8192, .f32⟩
  | 8 => ⟨S8192x8192, .f32⟩
  | 9 => ⟨S_, .f32⟩
  | 10 => ⟨S8192, .f32⟩
  | 11 => ⟨S_, .f32⟩
  | 12 => ⟨S_, .f32⟩
  | 13 => ⟨S_, .f32⟩
  | 14 => ⟨S_, .f32⟩
  | 15 => ⟨S_, .f32⟩
  | 16 => ⟨S8192, .f32⟩
  | 17 => ⟨S_, .f32⟩
  | 18 => ⟨S_, .f32⟩
  | 19 => ⟨S_, .f32⟩
  | 20 => ⟨S_, .f32⟩
  | 21 => ⟨S_, .f32⟩
  | 22 => ⟨S1, .f32⟩
  | 23 => ⟨S_, .f32⟩
  | 24 => ⟨S_, .f32⟩
  | 25 => ⟨S3, .f32⟩
  | 26 => ⟨S3, .f32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x8192x3, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S12, .f32⟩
  | 32 => ⟨S3x4, .f32⟩
  | 33 => ⟨S4x4, .f32⟩
  | 34 => ⟨S4x4, .f32⟩
  | 35 => ⟨S1x8192x4, .f32⟩
  | 36 => ⟨S8192x4, .f32⟩
  | 37 => ⟨S4x4, .f32⟩
  | 38 => ⟨S8192x4, .f32⟩
  | 39 => ⟨S1x8192x4, .f32⟩
  | 40 => ⟨S8192x4, .f32⟩
  | 41 => ⟨S8192x4, .f32⟩
  | 42 => ⟨S_, .f32⟩
  | 43 => ⟨S8192, .f32⟩
  | 44 => ⟨S8192x1, .f32⟩
  | 45 => ⟨S8192x4, .f32⟩
  | 46 => ⟨S_, .f32⟩
  | 47 => ⟨S8192, .f32⟩
  | 48 => ⟨S1x8192, .f32⟩
  | 49 => ⟨S8192x8192, .f32⟩
  | 50 => ⟨S8192x8192, .f32⟩
  | 51 => ⟨S8192x8192, .f32⟩
  | 52 => ⟨S_, .f32⟩
  | 53 => ⟨S8192x4, .f32⟩
  | 54 => ⟨S8192x4, .f32⟩
  | 55 => ⟨S4x8192, .f32⟩
  | 56 => ⟨S8192x8192, .f32⟩
  | 57 => ⟨S8192x8192, .f32⟩
  | 58 => ⟨S_, .f32⟩
  | 59 => ⟨S8192x8192, .f32⟩
  | 60 => ⟨S8192x8192, .f32⟩
  | 61 => ⟨S8192x8192, .f32⟩
  | 62 => ⟨S_, .f32⟩
  | 63 => ⟨S8192, .f32⟩
  | 64 => ⟨S_, .f32⟩
  | 65 => ⟨S_, .f32⟩
  | 66 => ⟨S_, .f32⟩
  | 67 => ⟨S_, .f32⟩
  | 68 => ⟨S_, .f32⟩
  | 69 => ⟨S8192, .f32⟩
  | 70 => ⟨S_, .f32⟩
  | 71 => ⟨S_, .f32⟩
  | 72 => ⟨S_, .f32⟩
  | 73 => ⟨S_, .f32⟩
  | 74 => ⟨S_, .f32⟩
  | 75 => ⟨S1, .f32⟩
  | 76 => ⟨S_, .f32⟩
  | 77 => ⟨S_, .f32⟩
  | 78 => ⟨S_, .f32⟩
  | 79 => ⟨S_, .f32⟩
  | 80 => ⟨S_, .f32⟩
  | 81 => ⟨S1x4x4, .f32⟩
  | 82 => ⟨S1, .f32⟩
  | _ => ⟨S2x8192x3, .f32⟩

abbrev hbmTy (i : Nat) : BufTy := match i / 128 with
  | 0 => hbmTy0_0 i
  | 1 => hbmTy0_1 i
  | 2 => hbmTy0_2 i
  | _ => ⟨S2x8192x3, .f32⟩

abbrev bufTy : (tb : Table) → Fin (tcTables nBuf tb) → BufTy
  | .hbm, ⟨i, _⟩ => hbmTy i
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_cst_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_14 : Ref sig .tc := ⟨.hbm, 67, rfl⟩
abbrev main_v41 : Ref sig .tc := ⟨.hbm, 68, rfl⟩
abbrev main_v42 : Ref sig .tc := ⟨.hbm, 69, rfl⟩
abbrev main_cst_15 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_16 : Ref sig .tc := ⟨.hbm, 74, rfl⟩
abbrev main_v46 : Ref sig .tc := ⟨.hbm, 75, rfl⟩
abbrev main_v47 : Ref sig .tc := ⟨.hbm, 76, rfl⟩
abbrev main_cst_17 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_18 : Ref sig .tc := ⟨.hbm, 81, rfl⟩
abbrev main_v51 : Ref sig .tc := ⟨.hbm, 82, rfl⟩
abbrev main_v52 : Ref sig .tc := ⟨.hbm, 83, rfl⟩
abbrev main_cst_19 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_20 : Ref sig .tc := ⟨.hbm, 88, rfl⟩
abbrev main_v56 : Ref sig .tc := ⟨.hbm, 89, rfl⟩
abbrev main_v57 : Ref sig .tc := ⟨.hbm, 90, rfl⟩
abbrev main_cst_21 : Ref sig .tc := ⟨.hbm, 91, rfl⟩
abbrev main_v58 : Ref sig .tc := ⟨.hbm, 92, rfl⟩
abbrev main_cst_22 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_23 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_24 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_25 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_26 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_27 : Ref sig .tc := ⟨.hbm, 137, rfl⟩
abbrev main_v98 : Ref sig .tc := ⟨.hbm, 138, rfl⟩
abbrev main_cst_28 : Ref sig .tc := ⟨.hbm, 139, rfl⟩
abbrev main_v99 : Ref sig .tc := ⟨.hbm, 140, rfl⟩
abbrev main_cst_29 : Ref sig .tc := ⟨.hbm, 141, rfl⟩
abbrev main_v100 : Ref sig .tc := ⟨.hbm, 142, rfl⟩
abbrev main_cst_30 : Ref sig .tc := ⟨.hbm, 143, rfl⟩
abbrev main_v101 : Ref sig .tc := ⟨.hbm, 144, rfl⟩
abbrev main_cst_31 : Ref sig .tc := ⟨.hbm, 145, rfl⟩
abbrev main_v102 : Ref sig .tc := ⟨.hbm, 146, rfl⟩
abbrev main_cst_32 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_33 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_34 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_35 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_36 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_37 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_38 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_39 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_40 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_cst_41 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_cst_42 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_cst_43 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_cst_44 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_cst_45 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_cst_46 : Ref sig .tc := ⟨.hbm, 318, rfl⟩
abbrev main_v260 : Ref sig .tc := ⟨.hbm, 319, rfl⟩
abbrev main_cst_47 : Ref sig .tc := ⟨.hbm, 320, rfl⟩
abbrev main_v261 : Ref sig .tc := ⟨.hbm, 321, rfl⟩
abbrev main_cst_48 : Ref sig .tc := ⟨.hbm, 322, rfl⟩
abbrev main_v262 : Ref sig .tc := ⟨.hbm, 323, rfl⟩
abbrev main_cst_49 : Ref sig .tc := ⟨.hbm, 324, rfl⟩
abbrev main_v263 : Ref sig .tc := ⟨.hbm, 325, rfl⟩
abbrev main_cst_50 : Ref sig .tc := ⟨.hbm, 326, rfl⟩
abbrev main_v264 : Ref sig .tc := ⟨.hbm, 327, rfl⟩
abbrev main_cst_51 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_cst_52 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩

abbrev nD : Nat := 1
abbrev τ : Topo := Topo.v7x

variable {F : FTy → Type} [FloatOps F]

class Facts₀ : Prop where
  bcast_S_S2x8192x1 : S_.BroadcastsInDim S2x8192x1 (![] : Fin 0 → Fin S2x8192x1.rank)
  concatenates_S2x8192x3_S2x8192x1_S2x8192x4_d2 : Shape.Concatenates [S2x8192x3, S2x8192x1] S2x8192x4 2
  reducesTo_S4_S_d0 : S4.ReducesTo [0] S_
  h_S_ : 0 < S_.numel
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  shapeCasts_S9_S3x3 : S9.ShapeCasts S3x3
  concatenates_S3x3_S3x1_S3x4_d1 : Shape.Concatenates [S3x3, S3x1] S3x4 1
  concatenates_S3x4_S1x4_S4x4_d0 : Shape.Concatenates [S3x4, S1x4] S4x4 0
  slices_S2x8192x4_S1x8192x4_0_0_0 : S2x8192x4.Slices ![0, 0, 0] S1x8192x4
  shapeCasts_S1x8192x4_S8192x4 : S1x8192x4.ShapeCasts S8192x4
  transposes_S4x4_S4x4_1_0 : S4x4.Transposes [1, 0] S4x4
  reducesTo_S8192x4_S8192_d1 : S8192x4.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x4 : S_.BroadcastsInDim S8192x4 (![] : Fin 0 → Fin S8192x4.rank)
  transposes_S8192x4_S4x8192_1_0 : S8192x4.Transposes [1, 0] S4x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  slices_S2_S1_0 : S2.Slices ![0] S1
  shapeCasts_S1x3_S3 : S1x3.ShapeCasts S3
  slices_S3_S1_0 : S3.Slices ![0] S1
  slices_S3_S1_1 : S3.Slices ![1] S1
  slices_S3_S1_2 : S3.Slices ![2] S1
  concatenates_S1_S1_S1_S1_S1_S1_S1_S1_S1_S1_S1_S1_S12_d0 : Shape.Concatenates [S1, S1, S1, S1, S1, S1, S1, S1, S1, S1, S1, S1] S12 0
  shapeCasts_S12_S3x4 : S12.ShapeCasts S3x4
  slices_S2x8192x4_S1x8192x4_1_0_0 : S2x8192x4.Slices ![1, 0, 0] S1x8192x4
  slices_S2_S1_1 : S2.Slices ![1] S1
  bcast_S4x4_S1x4x4_1_2 : S4x4.BroadcastsInDim S1x4x4 (![1, 2] : Fin 2 → Fin S1x4x4.rank)
  dot_S8192x4_S4x4_S8192x4_1_0_0_1_n_n_wf : DotDims.WF S8192x4 S4x4 S8192x4 [1] [0] [0] [1] [] []
  dot_S8192x4_S4x8192_S8192x8192_1_0_0_1_n_n_wf : DotDims.WF S8192x4 S4x8192 S8192x8192 [1] [0] [0] [1] [] []
  dot_S4x4_S4x4_S4x4_1_0_0_1_n_n_wf : DotDims.WF S4x4 S4x4 S4x4 [1] [0] [0] [1] [] []

variable [Facts₀]

def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S8192x4_S4x8192_S8192x8192_1_0_0_1_n_n : DotDims S8192x4 S4x8192 S8192x8192 where
  lhsContracting := [1]
  rhsContracting := [0]
  lhsNonContracting := [0]
  rhsNonContracting := [1]
  lhsBatch := []
  rhsBatch := []
  wf := dot_S8192x4_S4x8192_S8192x8192_1_0_0_1_n_n_wf
def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf

class Facts : Prop extends Facts₀ where

variable [Facts]
-- ==== Proof.KFBitsDefs.lean ====
/- The frame run of the kernel's pipeline: what the region finds in its arrays, the closed forms of
   the body's three conditions over the grid, and what the two outputs' staging buffers hold after the body
   at each point, as pure functions of the input blocks and of what the point before left. -/
import proofs.«128588_j377957122581_2_alg».proof.Proof.Gen.Kernel.Launch
import proofs.«128588_j377957122581_2_alg».proof.Proof.Gen.Kernel.Skeleton
import proofs.«128588_j377957122581_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.WholeRead
import Idealize.ShloMosaic.Lib.WritesUnit
import Idealize.ShloMosaic.Lib.Tactic

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered, as a valuation: the launch memory after the host
    operations before the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions, in closed form over the grid -/

/-- The first conditional (the last grid coordinate is zero). -/
abbrev cond1 (i : grid0.Coords) : Prop := k0_cond1 i = 1#1
/-- The second conditional (the last grid coordinate is not zero). -/
abbrev cond2 (i : grid0.Coords) : Prop := k0_cond2 i = 1#1
/-- The third conditional (the last two grid coordinates are both zero), as the body computes it. -/
abbrev cond3 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)
theorem hcond3 : ∀ t : Fin cfg0.N, cond3 (grid0.coords t) ↔ t.val % 64 = 0 :=
  (by decide +kernel : ∀ t : Fin grid0.N, cond3 (grid0.coords t) ↔ t.val % 64 = 0)

/-- No window is idle at any point: windows 0, 1, 3 by the table, window 2 because one of the first two
    conditionals holds everywhere. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel

/-- The offsets of the slice of window 3 the body reads and stores: lane block `j` of eight. -/
theorem k0_off1_eq : ∀ i : grid0.Coords, k0_off1 i = ![0, 0, 1024 * (i 2).val] := by decide +kernel

/-! ## The staging memrefs at a point -/

abbrev ms0_0 (t : Fin cfg0.N) : Memref sig .tc .vmem S1x1024x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

/-! ## What the outputs hold after the body -/

/-- One staging buffer of window 3, through which its contents are stated. -/
abbrev MO3 : Memref sig .tc .vmem S1x1x8192 .f32 := Memref.whole cc0_stg3_0
abbrev VO3 : View sig .tc .vmem S1x1x8192 .f32 := (MO3).view
theorem hMO3 : (MO3).IsWhole := Memref.isWhole_whole _

/-- The rectangle of window 3's block the body reads and stores at grid coordinates `i`. -/
abbrev rect3 (i : grid0.Coords) : Rect S1x1x8192 := Rect.unit (s := S1x1x8192) (k0_off1 i) S1x1x1024.size (k0_off1_inb i)

/-- Window 2 after a point whose last coordinate is zero: the row minima of this point's distances. -/
def row2A (x : Vec F S1x1024x4 .f32) (y : Vec F S1x4x1024 .f32) : Vec F S1x1024x1 .f32 := k0_pay7 x y
/-- Window 2 after any other point: the minimum of what it held and this point's row minima. -/
def row2C (x : Vec F S1x1024x4 .f32) (y : Vec F S1x4x1024 .f32) (prev : Vec F S1x1024x1 .f32) : Vec F S1x1024x1 .f32 :=
  k0_pay1 (k0_pay5 x y) prev

/-- The slice of window 3's contents `base` the body reads at `i`. -/
def slice3 (i : grid0.Coords) (base : Vec F S1x1x8192 .f32) : Vec F S1x1x1024 .f32 :=
  View.readAt (Elt F) VO3 (rect3 i).toLoadRect (hMO3.unread base)

/-- Window 3 after a point: `base` with the slice at `i` replaced by the minimum of that slice and this
    point's column minima. -/
def col3 (i : grid0.Coords) (x : Vec F S1x1024x4 .f32) (y : Vec F S1x4x1024 .f32) (base : Vec F S1x1x8192 .f32) : Vec F S1x1x8192 .f32 :=
  VO3.read (Elt F) (VO3.writes (Elt F) (hMO3.unread base) [⟨rect3 i, k0_pay3 (k0_pay6 x y) (slice3 i base)⟩])

/-- What the two outputs' staging buffers hold after the body at position `n`: by recursion on the point,
    the case selected by `n % 8` and `n % 64`. -/
def outsAt (c : Dev nD) : (n : ℕ) → n < cfg0.N → Vec F S1x1024x1 .f32 × Vec F S1x1x8192 .f32
  | 0, hn => (row2A (iblk m c 0 ⟨0, hn⟩) (iblk m c 1 ⟨0, hn⟩),
      col3 (grid0.coords ⟨0, hn⟩) (iblk m c 0 ⟨0, hn⟩) (iblk m c 1 ⟨0, hn⟩) k0_pay2)
  | n + 1, hn =>
    if h8 : (n + 1) % 8 = 0 then
      if h64 : (n + 1) % 64 = 0 then
        (row2A (iblk m c 0 ⟨n + 1, hn⟩) (iblk m c 1 ⟨n + 1, hn⟩),
          col3 (grid0.coords ⟨n + 1, hn⟩) (iblk m c 0 ⟨n + 1, hn⟩) (iblk m c 1 ⟨n + 1, hn⟩) k0_pay2)
      else
        (row2A (iblk m c 0 ⟨n + 1, hn⟩) (iblk m c 1 ⟨n + 1, hn⟩),
          col3 (grid0.coords ⟨n + 1, hn⟩) (iblk m c 0 ⟨n + 1, hn⟩) (iblk m c 1 ⟨n + 1, hn⟩) (outsAt c n (Nat.lt_of_succ_lt hn)).2)
    else
      (row2C (iblk m c 0 ⟨n + 1, hn⟩) (iblk m c 1 ⟨n + 1, hn⟩) (outsAt c n (Nat.lt_of_succ_lt hn)).1,
        col3 (grid0.coords ⟨n + 1, hn⟩) (iblk m c 0 ⟨n + 1, hn⟩) (iblk m c 1 ⟨n + 1, hn⟩) (outsAt c n (Nat.lt_of_succ_lt hn)).2)

/-- What the point before `t` left (meaningful when `t` is not the first point). -/
abbrev prevAt (c : Dev nD) (t : Fin cfg0.N) : Vec F S1x1024x1 .f32 × Vec F S1x1x8192 .f32 :=
  outsAt m c (t.val - 1) (Nat.lt_of_le_of_lt (Nat.sub_le _ _) t.isLt)

/-- Case A (`t % 64 = 0`): both outputs start afresh. -/
theorem outsAt_A (c : Dev nD) (t : Fin cfg0.N) (h64 : t.val % 64 = 0) :
    outsAt m c t.val t.isLt = (row2A (iblk m c 0 t) (iblk m c 1 t), col3 (grid0.coords t) (iblk m c 0 t) (iblk m c 1 t) k0_pay2) := by
  obtain ⟨n, hn⟩ := t
  cases n with
  | zero => exact rfl
  | succ n =>
    have h8 : (n + 1) % 8 = 0 := by dsimp only at h64; omega
    exact (dif_pos h8).trans ((dif_pos h64).trans rfl)

/-- Case B (`t % 8 = 0`, `t % 64 ≠ 0`): the row minima start afresh, the column minima go on. -/
theorem outsAt_B (c : Dev nD) (t : Fin cfg0.N) (h8 : t.val % 8 = 0) (h64 : ¬ t.val % 64 = 0) :
    outsAt m c t.val t.isLt = (row2A (iblk m c 0 t) (iblk m c 1 t), col3 (grid0.coords t) (iblk m c 0 t) (iblk m c 1 t) (prevAt m c t).2) := by
  obtain ⟨n, hn⟩ := t
  cases n with
  | zero => exact absurd (Nat.zero_mod _) h64
  | succ n => exact (dif_pos h8).trans ((dif_neg h64).trans rfl)

/-- Case C (`t % 8 ≠ 0`): both outputs go on from what the point before left. -/
theorem outsAt_C (c : Dev nD) (t : Fin cfg0.N) (h8 : ¬ t.val % 8 = 0) :
    outsAt m c t.val t.isLt = (row2C (iblk m c 0 t) (iblk m c 1 t) (prevAt m c t).1, col3 (grid0.coords t) (iblk m c 0 t) (iblk m c 1 t) (prevAt m c t).2) := by
  obtain ⟨n, hn⟩ := t
  cases n with
  | zero => exact absurd (Nat.zero_mod _) h8
  | succ n => exact (dif_neg h8).trans rfl

/-! ## The outputs' contents element by element -/

/-- The slice read is `base` under the slice's rectangle. -/
theorem slice3_apply (i : grid0.Coords) (base : Vec F S1x1x8192 .f32) (j : S1x1x1024.Idx) :
    slice3 i base j = base ((rect3 i).toLoadRect.idx j) :=
  Memref.IsWhole.readAt_unread hMO3 base (rect3 i).toLoadRect j

/-- Window 3 after a point, element by element: inside lane block `j` of the point the new minimum, elsewhere `base`. -/
theorem col3_apply (i : grid0.Coords) (x : Vec F S1x1024x4 .f32) (y : Vec F S1x4x1024 .f32) (base : Vec F S1x1x8192 .f32)
    (z : S1x1x8192.Idx) :
    col3 i x y base z
      = if h : ∀ a, (![0, 0, 1024 * (i 2).val] : Fin 3 → ℕ) a ≤ (z a).val ∧ (z a).val < (![0, 0, 1024 * (i 2).val] : Fin 3 → ℕ) a + S1x1x1024.size a then
          k0_pay3 (k0_pay6 x y) (slice3 i base) (Rect.unitLocal (s := S1x1x8192) (off := ![0, 0, 1024 * (i 2).val]) (size := S1x1x1024.size) z h)
        else base z := by
  unfold col3
  rw [View.read_writes_cons_unit VO3 _ (k0_off1_inb i) _ [] z (k0_off1_eq i)]
  split
  · rfl
  · rw [View.writes_nil, hMO3.read_unread]

/-! ## Whole memrefs: loads and stores through the whole block, and independence of the buffer -/

section Whole

variable {Val : EltTy → Type} {S : Shape} {e : EltTy} {κ : Kind} {sp : Space}

/-- A load of the whole block of a whole memref held at the contents that read `X` reads `X`. -/
theorem readAt_unit0_unread {mm : Memref sig κ sp S e} (h : mm.IsWhole) (X : S.Idx → Val e) {off : Fin S.rank → ℕ}
    (hoff : off = fun _ => 0) (inb : ∀ a, off a + S.size a ≤ S.size a) :
    View.readAt Val mm.view (Rect.unit (s := S) off S.size inb).toLoadRect (h.unread X) = X := by
  subst hoff
  funext j
  refine (h.readAt_unread X _ j).trans (congrArg X ?_)
  funext a
  exact Fin.ext (by show 0 + 1 * (j a).val = (j a).val; omega)

/-- A store of the whole block leaves the payload, whatever was there and whatever was stored before. -/
theorem read_writes_unit0 (v : View sig κ sp S e) (f : v.ty.Contents Val) {off : Fin S.rank → ℕ}
    (hoff : off = fun _ => 0) (inb : ∀ a, off a + S.size a ≤ S.size a) (w : S.Idx → Val e) (L : List (View.Piece Val S e)) :
    v.read Val (v.writes Val f ((⟨Rect.unit (s := S) off S.size inb, w⟩ : View.Piece Val S e) :: L)) = w :=
  funext fun y => View.read_writes_cons_unit_of_mem v f inb w L y y hoff (fun a => (Nat.zero_add _).symm)

/-- What stores through a whole memref leave over contents that read `X` reads the same through any whole memref. -/
theorem read_writes_unread_eq {mm mm' : Memref sig κ sp S e} (h : mm.IsWhole) (h' : mm'.IsWhole) (X : S.Idx → Val e)
    (L : List (View.Piece Val S e)) :
    mm.view.read Val (mm.view.writes Val (h.unread X) L) = mm'.view.read Val (mm'.view.writes Val (h'.unread X) L) := by
  funext y
  by_cases hy : ∃ p ∈ L, y ∈ p.1.set
  · exact View.read_writes_apply_eq _ _ _ _ y L hy
  · have hn : ∀ p ∈ L, y ∉ p.1.set := fun p hp hm => hy ⟨p, hp, hm⟩
    rw [View.read_writes_apply_of_forall_not_mem _ _ y L hn, View.read_writes_apply_of_forall_not_mem _ _ y L hn,
      h.read_unread, h'.read_unread]

/-- A load through a whole memref held at the contents that read `X` reads the same through any whole memref. -/
theorem readAt_unread_eq {mm mm' : Memref sig κ sp S e} (h : mm.IsWhole) (h' : mm'.IsWhole) (X : S.Idx → Val e) (B : LoadRect S) :
    View.readAt Val mm.view B (h.unread X) = View.readAt Val mm'.view B (h'.unread X) :=
  funext fun j => (h.readAt_unread X B j).trans (h'.readAt_unread X B j).symm

theorem off3_zero : (![0, 0, 0] : Fin 3 → ℕ) = fun _ => 0 := by
  funext a; fin_cases a <;> rfl

end Whole

/-! ## What the body's stores into window 3 leave, as `col3` -/

/-- The slice store over contents that read `base`, through any whole memref: `col3`. -/
theorem col3_of_run {a6 : Memref sig .tc .vmem S1x1x8192 .f32} (h6 : a6.IsWhole) (i : grid0.Coords)
    (x : Vec F S1x1024x4 .f32) (y : Vec F S1x4x1024 .f32) (base : Vec F S1x1x8192 .f32) :
    a6.view.read (Elt F) (a6.view.writes (Elt F) (h6.unread base)
        [⟨rect3 i, k0_pay3 (k0_pay6 x y) (View.readAt (Elt F) a6.view (rect3 i).toLoadRect (h6.unread base))⟩])
      = col3 i x y base := by
  unfold col3 slice3
  rw [readAt_unread_eq h6 hMO3 base]
  exact read_writes_unread_eq h6 hMO3 base _

/-- A store of the whole block leaves the contents that read its payload. -/
theorem writes_whole_eq_unread {Val : EltTy → Type} {S : Shape} {e : EltTy} {κ : Kind} {sp : Space}
    {mm : Memref sig κ sp S e} (h : mm.IsWhole) (f : mm.view.ty.Contents Val) {off : Fin S.rank → ℕ}
    (hoff : off = fun _ => 0) (inb : ∀ a, off a + S.size a ≤ S.size a) (w : S.Idx → Val e) :
    mm.view.writes Val f [(⟨Rect.unit (s := S) off S.size inb, w⟩ : View.Piece Val S e)] = h.unread w :=
  h.eq_unread (read_writes_unit0 mm.view f hoff inb w [])

/-- The slice store after a store of the whole block at `base`, whatever was there before: `col3` over `base`. -/
theorem col3_of_run_A {a6 : Memref sig .tc .vmem S1x1x8192 .f32} (h6 : a6.IsWhole) (i : grid0.Coords)
    (x : Vec F S1x1024x4 .f32) (y : Vec F S1x4x1024 .f32) (base : Vec F S1x1x8192 .f32) (f : a6.view.ty.Contents (Elt F))
    {off : Fin 3 → ℕ} (hoff : off = fun _ => 0) (inb : ∀ a, off a + S1x1x8192.size a ≤ S1x1x8192.size a) :
    a6.view.read (Elt F) (a6.view.writes (Elt F) f
        [⟨rect3 i, k0_pay3 (k0_pay6 x y) (View.readAt (Elt F) a6.view (rect3 i).toLoadRect
            (a6.view.writes (Elt F) f [(⟨Rect.unit (s := S1x1x8192) off S1x1x8192.size inb, base⟩ : View.Piece (Elt F) S1x1x8192 .f32)]))⟩,
         (⟨Rect.unit (s := S1x1x8192) off S1x1x8192.size inb, base⟩ : View.Piece (Elt F) S1x1x8192 .f32)])
      = col3 i x y base := by
  rw [writes_whole_eq_unread h6 f hoff inb base]
  refine (congrArg (a6.view.read (Elt F)) ?_).trans (col3_of_run h6 i x y base)
  refine (View.writes_append a6.view f [_] [_]).trans ?_
  rw [writes_whole_eq_unread h6 f hoff inb base]

end Cert.Kernel.KF

end
-- ==== Proof.KFBitsMain.lean ====
/- @main around the region: the host operations before it allocate nothing, so @main reduces to the region
   continued by the operations after it; those touch only the pipeline's arrays and the bypassing buffers, allocate
   nothing, and write no array of the pipeline. -/
import proofs.«128588_j377957122581_2_alg».proof.Proof.KFBitsDefs

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ :=
  ⟨rfl, rfl, rfl, rfl, rfl, rfl⟩
theorem hostOps0_1_fresh : (hostOps0_1 : List (HloOp τ sig (Elt F))).Forall fun op => op.fresh = ∅ :=
  ⟨rfl, rfl, rfl, rfl⟩
set_option maxHeartbeats 40000000 in
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main reduces to the region continued by the host operations after it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1000000 in
/-- and write no array of the pipeline: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

end Cert.Kernel.KF

end
-- ==== Proof.KFBitsBodyA.lean ====
/- The kernel body at a point of case A: from the four staging buffers at their contents to the two inputs
   unchanged and the two outputs at their closed forms. -/
import proofs.«128588_j377957122581_2_alg».proof.Proof.KFBitsDefs

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (the last two grid coordinates zero): window 2 is stored whole with this point's row minima; window 3 is stored whole with +∞ and then its slice with the minimum of that and this point's column minima. Neither reads what its buffer held. -/
theorem body_A (c : Dev nD) (i : grid0.Coords)
    (a3 : Memref sig .tc .vmem S1x1024x4 .f32) (h3 : a3.IsWhole) (a4 : Memref sig .tc .vmem S1x4x1024 .f32) (h4 : a4.IsWhole)
    (a5 : Memref sig .tc .vmem S1x1024x1 .f32) (h5 : a5.IsWhole) (a6 : Memref sig .tc .vmem S1x1x8192 .f32) (h6 : a6.IsWhole)
    (hc1 : cond1 i) (hc2 : ¬cond2 i) (hc3 : cond3 i)
    (x : Vec F S1x1024x4 .f32) (y : Vec F S1x4x1024 .f32) (E : Set ℕ) (K : PUnit → sProp 𝕄) :
    iprop(owns (c : Thread nD τ) a3 fullShare x ∗ owns (c : Thread nD τ) a4 fullShare y
        ∗ (∃ d, owns (c : Thread nD τ) a5 fullShare d) ∗ (∃ d, owns (c : Thread nD τ) a6 fullShare d)
        ∗ (iprop(owns (c : Thread nD τ) a3 fullShare x ∗ owns (c : Thread nD τ) a4 fullShare y
            ∗ owns (c : Thread nD τ) a5 fullShare (row2A x y) ∗ owns (c : Thread nD τ) a6 fullShare (col3 i x y k0_pay2)) -∗ K ⟨⟩))
      ⊢ wp frame (wpE (defs₀ (F := F)) Variants.none c none) E (cc0__chamfer_kernel i a3 h3 a4 h4 a5 h5 a6 h6) K := by
  letI : ClosedOff (k0_off1 i) := ⟨![0, 0, 1024 * (i 2).val], k0_off1_eq i⟩
  simp only [cc0__chamfer_kernel_eq_skeleton]; unfold cc0__chamfer_kernel_skel
  simp only [k0_part1_eq_skeleton]
  unfold owns
  iintro ⟨⟨%f3, %hf3, H3⟩, ⟨%f4, %hf4, H4⟩, ⟨%d5, %f5, -, H5⟩, ⟨%d6, %f6, -, H6⟩, Hk⟩
  obtain rfl := h3.eq_unread hf3; obtain rfl := h4.eq_unread hf4
  sl_exec (disch := first | exact hc1 | exact hc2 | exact hc3)
  sl_step
  sl_unfold_run_names
  have hX := readAt_unit0_unread (Val := Elt F) h3 x off3_zero inb_S1x1024x4_S1x1024x4_0_0_0
  have hY := readAt_unit0_unread (Val := Elt F) h4 y off3_zero inb_S1x4x1024_S1x4x1024_0_0_0
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    exact (read_writes_unit0 a5.view _ off3_zero _ _ []).trans (congrArg₂ k0_pay7 hX hY)
  iexists _; isplitr
  swap; · iexact H6
  ipureintro
  rw [hX, hY]
  exact col3_of_run_A h6 i x y k0_pay2 _ off3_zero _

end Cert.Kernel.KF

end
-- ==== Proof.KFBitsBodyB.lean ====
/- The kernel body at a point of case B: from the four staging buffers at their contents to the two inputs
   unchanged and the two outputs at their closed forms. -/
import proofs.«128588_j377957122581_2_alg».proof.Proof.KFBitsDefs

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (the last grid coordinate zero, the middle one not): window 2 is stored whole with this point's row minima; window 3's slice is replaced by the minimum of what it held and this point's column minima. -/
theorem body_B (c : Dev nD) (i : grid0.Coords)
    (a3 : Memref sig .tc .vmem S1x1024x4 .f32) (h3 : a3.IsWhole) (a4 : Memref sig .tc .vmem S1x4x1024 .f32) (h4 : a4.IsWhole)
    (a5 : Memref sig .tc .vmem S1x1024x1 .f32) (h5 : a5.IsWhole) (a6 : Memref sig .tc .vmem S1x1x8192 .f32) (h6 : a6.IsWhole)
    (hc1 : cond1 i) (hc2 : ¬cond2 i) (hc3 : ¬cond3 i)
    (x : Vec F S1x1024x4 .f32) (y : Vec F S1x4x1024 .f32) (prev3 : Vec F S1x1x8192 .f32) (E : Set ℕ) (K : PUnit → sProp 𝕄) :
    iprop(owns (c : Thread nD τ) a3 fullShare x ∗ owns (c : Thread nD τ) a4 fullShare y
        ∗ (∃ d, owns (c : Thread nD τ) a5 fullShare d) ∗ owns (c : Thread nD τ) a6 fullShare prev3
        ∗ (iprop(owns (c : Thread nD τ) a3 fullShare x ∗ owns (c : Thread nD τ) a4 fullShare y
            ∗ owns (c : Thread nD τ) a5 fullShare (row2A x y) ∗ owns (c : Thread nD τ) a6 fullShare (col3 i x y prev3)) -∗ K ⟨⟩))
      ⊢ wp frame (wpE (defs₀ (F := F)) Variants.none c none) E (cc0__chamfer_kernel i a3 h3 a4 h4 a5 h5 a6 h6) K := by
  letI : ClosedOff (k0_off1 i) := ⟨![0, 0, 1024 * (i 2).val], k0_off1_eq i⟩
  simp only [cc0__chamfer_kernel_eq_skeleton]; unfold cc0__chamfer_kernel_skel
  simp only [k0_part1_eq_skeleton]
  unfold owns
  iintro ⟨⟨%f3, %hf3, H3⟩, ⟨%f4, %hf4, H4⟩, ⟨%d5, %f5, -, H5⟩, ⟨%f6, %hf6, H6⟩, Hk⟩
  obtain rfl := h3.eq_unread hf3; obtain rfl := h4.eq_unread hf4; obtain rfl := h6.eq_unread hf6
  sl_exec (disch := first | exact hc1 | exact hc2 | exact hc3)
  sl_step
  sl_unfold_run_names
  have hX := readAt_unit0_unread (Val := Elt F) h3 x off3_zero inb_S1x1024x4_S1x1024x4_0_0_0
  have hY := readAt_unit0_unread (Val := Elt F) h4 y off3_zero inb_S1x4x1024_S1x4x1024_0_0_0
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    exact (read_writes_unit0 a5.view _ off3_zero _ _ []).trans (congrArg₂ k0_pay7 hX hY)
  iexists _; isplitr
  swap; · iexact H6
  ipureintro
  rw [hX, hY]
  exact col3_of_run h6 i x y prev3

end Cert.Kernel.KF

end
-- ==== Proof.KFBitsBodyC.lean ====
/- The kernel body at a point of case C: from the four staging buffers at their contents to the two inputs
   unchanged and the two outputs at their closed forms. -/
import proofs.«128588_j377957122581_2_alg».proof.Proof.KFBitsDefs

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (the last grid coordinate not zero): window 2 becomes the minimum of what it held and this point's row minima; window 3's slice the minimum of what it held and this point's column minima. -/
theorem body_C (c : Dev nD) (i : grid0.Coords)
    (a3 : Memref sig .tc .vmem S1x1024x4 .f32) (h3 : a3.IsWhole) (a4 : Memref sig .tc .vmem S1x4x1024 .f32) (h4 : a4.IsWhole)
    (a5 : Memref sig .tc .vmem S1x1024x1 .f32) (h5 : a5.IsWhole) (a6 : Memref sig .tc .vmem S1x1x8192 .f32) (h6 : a6.IsWhole)
    (hc1 : ¬cond1 i) (hc2 : cond2 i) (hc3 : ¬cond3 i)
    (x : Vec F S1x1024x4 .f32) (y : Vec F S1x4x1024 .f32) (prev2 : Vec F S1x1024x1 .f32) (prev3 : Vec F S1x1x8192 .f32) (E : Set ℕ) (K : PUnit → sProp 𝕄) :
    iprop(owns (c : Thread nD τ) a3 fullShare x ∗ owns (c : Thread nD τ) a4 fullShare y
        ∗ owns (c : Thread nD τ) a5 fullShare prev2 ∗ owns (c : Thread nD τ) a6 fullShare prev3
        ∗ (iprop(owns (c : Thread nD τ) a3 fullShare x ∗ owns (c : Thread nD τ) a4 fullShare y
            ∗ owns (c : Thread nD τ) a5 fullShare (row2C x y prev2) ∗ owns (c : Thread nD τ) a6 fullShare (col3 i x y prev3)) -∗ K ⟨⟩))
      ⊢ wp frame (wpE (defs₀ (F := F)) Variants.none c none) E (cc0__chamfer_kernel i a3 h3 a4 h4 a5 h5 a6 h6) K := by
  letI : ClosedOff (k0_off1 i) := ⟨![0, 0, 1024 * (i 2).val], k0_off1_eq i⟩
  simp only [cc0__chamfer_kernel_eq_skeleton]; unfold cc0__chamfer_kernel_skel
  simp only [k0_part1_eq_skeleton]
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc1 | exact hc2 | exact hc3)
  sl_step
  sl_unfold_run_names
  have hX := readAt_unit0_unread (Val := Elt F) h3 x off3_zero inb_S1x1024x4_S1x1024x4_0_0_0
  have hY := readAt_unit0_unread (Val := Elt F) h4 y off3_zero inb_S1x4x1024_S1x4x1024_0_0_0
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    exact (read_writes_unit0 a5.view _ off3_zero _ _ []).trans (congrArg₂ k0_pay1 (congrArg₂ k0_pay5 hX hY) (readAt_unit0_unread (Val := Elt F) h5 prev2 off3_zero inb_S1x1024x1_S1x1024x1_0_0_0))
  iexists _; isplitr
  swap; · iexact H6
  ipureintro
  rw [hX, hY]
  exact col3_of_run h6 i x y prev3

end Cert.Kernel.KF

end
-- ==== Proof.KFBitsDats.lean ====
/- The pipeline's proof data: what the region finds in its arrays, what each staging buffer holds after the body
   at each point, what it holds when the body is called, and the body obligation at every point by the three cases. -/
import proofs.«128588_j377957122581_2_alg».proof.Proof.KFBitsBodyA
import proofs.«128588_j377957122581_2_alg».proof.Proof.KFBitsBodyB
import proofs.«128588_j377957122581_2_alg».proof.Proof.KFBitsBodyC

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and the
    two outputs' at `outsAt`; the launch's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2 := by dsimp only [dats]

/-! ## What the body finds in each staging buffer -/

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Window 2 is live at every grid point: one of the body's first two conditionals holds there. -/
theorem live_2 : ∀ i : grid0.Coords, cfg0.idle 2 i = false := by decide +kernel

/-- Where the last grid coordinate is not zero, window 2's buffer holds what the point before left: that point
    did not write it back. -/
theorem before_2 (c : Dev nD) (t : Fin cfg0.N) (h8 : ¬ t.val % 8 = 0) (d) :
    (dats m 0 c).before 2 t d = (prevAt m c t).1 := by
  rw [Dat.before_out_kept _ 2 rfl t (by omega) (Bool.eq_false_iff.mpr fun h => by have := (flush0_2 _).mp h; dsimp only at this; omega)
    live_2 (fun _ _ => rfl)]
  dsimp only [dats]

/-- Where the last two grid coordinates are not both zero, window 3's buffer holds what the point before left. -/
theorem before_3 (c : Dev nD) (t : Fin cfg0.N) (h64 : ¬ t.val % 64 = 0) (d) :
    (dats m 0 c).before 3 t d = (prevAt m c t).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; the closed forms of the conditionals select
    the case; an output the case reads before storing holds what the point before left; the case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt_0 t], after_0]
  rw [show (dats m 0 c).leavesExact 1 t = owns (c : Thread nD τ) (ms0_1 t) fullShare ((dats m 0 c).after 1 t) from by
      unfold Dat.leavesExact; rw [liveAt_1 t], after_1]
  rw [show (dats m 0 c).leavesExact 2 t = owns (c : Thread nD τ) (ms0_2 t) fullShare ((dats m 0 c).after 2 t) from by
      unfold Dat.leavesExact; rw [liveAt_2 t], after_2]
  rw [show (dats m 0 c).leavesExact 3 t = owns (c : Thread nD τ) (ms0_3 t) fullShare ((dats m 0 c).after 3 t) from by
      unfold Dat.leavesExact; rw [liveAt_3 t], after_3]
  have hN : t.val < 128 := lt_of_lt_of_eq t.isLt (show cfg0.N = 128 from N_0)
  by_cases h8 : t.val % 8 = 0
  · by_cases h64 : t.val % 64 = 0
    · have e2 : (outsAt m c t.val t.isLt).1 = row2A (iblk m c 0 t) (iblk m c 1 t) := by rw [outsAt_A m c t h64]
      have e3 : (outsAt m c t.val t.isLt).2 = col3 (grid0.coords t) (iblk m c 0 t) (iblk m c 1 t) k0_pay2 := by rw [outsAt_A m c t h64]
      rw [e2, e3]
      iintro ⟨HΦ, Ho, ⟨%d0, H0⟩, ⟨%d1, H1⟩, ⟨%d2, H2⟩, ⟨%d3, H3⟩⟩
      iapply (body_A c (grid0.coords t) _ _ _ _ _ _ _ _ ((hcond1 t).mpr h8) (fun h => (hcond2 t).mp h h8) ((hcond3 t).mpr h64)
        (iblk m c 0 t) (iblk m c 1 t) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · have e2 : (outsAt m c t.val t.isLt).1 = row2A (iblk m c 0 t) (iblk m c 1 t) := by rw [outsAt_B m c t h8 h64]
      have e3 : (outsAt m c t.val t.isLt).2 = col3 (grid0.coords t) (iblk m c 0 t) (iblk m c 1 t) (prevAt m c t).2 := by rw [outsAt_B m c t h8 h64]
      rw [e2, e3]
      simp only [before_3 m c t h64]
      iintro ⟨HΦ, Ho, ⟨%d0, H0⟩, ⟨%d1, H1⟩, ⟨%d2, H2⟩, ⟨%d3, H3⟩⟩
      iapply (body_B c (grid0.coords t) _ _ _ _ _ _ _ _ ((hcond1 t).mpr h8) (fun h => (hcond2 t).mp h h8) (fun h => h64 ((hcond3 t).mp h))
        (iblk m c 0 t) (iblk m c 1 t) (prevAt m c t).2 Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h64 : ¬ t.val % 64 = 0 := by omega
    have e2 : (outsAt m c t.val t.isLt).1 = row2C (iblk m c 0 t) (iblk m c 1 t) (prevAt m c t).1 := by rw [outsAt_C m c t h8]
    have e3 : (outsAt m c t.val t.isLt).2 = col3 (grid0.coords t) (iblk m c 0 t) (iblk m c 1 t) (prevAt m c t).2 := by rw [outsAt_C m c t h8]
    rw [e2, e3]
    simp only [before_2 m c t h8, before_3 m c t h64]
    iintro ⟨HΦ, Ho, ⟨%d0, H0⟩, ⟨%d1, H1⟩, ⟨%d2, H2⟩, ⟨%d3, H3⟩⟩
    iapply (body_C c (grid0.coords t) _ _ _ _ _ _ _ _ (fun h => h8 ((hcond1 t).mp h)) ((hcond2 t).mpr h8) (fun h => h64 ((hcond3 t).mp h))
      (iblk m c 0 t) (iblk m c 1 t) (prevAt m c t).1 (prevAt m c t).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.KF

end
-- ==== Proof.KFBitsArgs.lean ====
/- No host operation of @main writes an argument array: each writes its own result buffer only. Hence an
   argument array holds, when the region is entered and after the operations that follow it, what it was launched with. -/
import proofs.«128588_j377957122581_2_alg».proof.Proof.KFBitsDefs

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operation writes none of the eight argument arrays. -/
abbrev NoArg (op : HloOp τ sig (Elt F)) : Prop :=
  Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes ∧ Proc.devRef .tc main_arg5 ∉ op.writes ∧ Proc.devRef .tc main_arg6 ∉ op.writes ∧ Proc.devRef .tc main_arg7 ∉ op.writes

theorem hostOps0_noarg : (hostOps0 : List (HloOp τ sig (Elt F))).Forall NoArg := by
  simp only [NoArg, hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_noarg : (hostOps0_1 : List (HloOp τ sig (Elt F))).Forall NoArg := by
  simp only [NoArg, hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 16000000 in
theorem hostOps0_2_noarg : (hostOps0_2 : List (HloOp τ sig (Elt F))).Forall NoArg := by
  simp only [NoArg, hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 2000000 in
theorem hostOps1_noarg : (hostOps1 : List (HloOp τ sig (Elt F))).Forall NoArg := by
  simp only [NoArg, hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

theorem pre_noarg : ∀ op ∈ (List.flatten [hostOps0, hostOps0_1, hostOps0_2] : List (HloOp τ sig (Elt F))), NoArg op := by
  intro op hop
  obtain ⟨l, hl, hop⟩ := List.mem_flatten.mp hop
  simp only [List.mem_cons, List.mem_nil_iff, or_false] at hl
  rcases hl with rfl | rfl | rfl
  · exact (List.forall_iff_forall_mem.mp hostOps0_noarg) op hop
  · exact (List.forall_iff_forall_mem.mp hostOps0_1_noarg) op hop
  · exact (List.forall_iff_forall_mem.mp hostOps0_2_noarg) op hop

theorem sfx_noarg : ∀ op ∈ (List.flatten [hostOps1] : List (HloOp τ sig (Elt F))), NoArg op := by
  intro op hop
  obtain ⟨l, hl, hop⟩ := List.mem_flatten.mp hop
  simp only [List.mem_cons, List.mem_nil_iff, or_false] at hl
  rcases hl with rfl
  exact (List.forall_iff_forall_mem.mp hostOps1_noarg) op hop

end Cert.Kernel.KF

end
-- ==== Proof.KFBitsRun.lean ====
/- The frame run of the kernel's pipeline and the frame claim. -/
import proofs.«128588_j377957122581_2_alg».proof.Proof.KFBitsMain
import proofs.«128588_j377957122581_2_alg».proof.Proof.KFBitsDats
import proofs.«128588_j377957122581_2_alg».proof.Proof.KFBitsArgs

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters, every weakly fair execution of @main on the TensorCores terminates, every
    array of the pipeline ends at what the library computes from the proof data, and every other unscoped buffer at
    what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The frame claim -/

/-- An unscoped buffer that is no array of the pipeline and that no host operation writes ends as launched: the
    region leaves it, the operations after the region do not write it, and those before had not. -/
theorem arg_kept (c : Dev nD) (b : Ref sig .tc) (hs : b.isScoped = false) (ha : ∀ w, (spec0 w).arr.view.ref ≠ b)
    (hpre : ∀ op ∈ (List.flatten [hostOps0, hostOps0_1, hostOps0_2] : List (HloOp τ sig (Elt F))), Proc.devRef .tc b ∉ op.writes)
    (hsfx : ∀ op ∈ (List.flatten [hostOps1] : List (HloOp τ sig (Elt F))), Proc.devRef .tc b ∉ op.writes)
    (r : PUnit × MemSt nD τ sig (Elt F))
    (h : Pipeline.FramePost cfgs (dats m) 0 (Pipeline.afterTail₀ cfgs (dats m) 0 (V0 m) [hostOps1]) r) :
    r.2.mem ((c.tc : Thread nD τ).loc b) = m ((c.tc : Thread nD τ).loc b) :=
  ((h c).2 b (Pipeline.mem_restRefs_of b hs ha)).trans
    ((StableHlo.after_of_forall_not_mem (b := Proc.devRef .tc b) _ _ hsfx).trans
      ((Pipeline.withArrays_of_ne _ c _ _ b ha).trans
        (StableHlo.after_of_forall_not_mem (b := Proc.devRef .tc b) _ _ hpre)))

/-- THE FRAME: every weakly fair execution of @main terminates and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨arg_kept m c main_arg0 (by decide) (by decide) (fun op hop => (pre_noarg op hop).1) (fun op hop => (sfx_noarg op hop).1) _ h,
      arg_kept m c main_arg1 (by decide) (by decide) (fun op hop => (pre_noarg op hop).2.1) (fun op hop => (sfx_noarg op hop).2.1) _ h,
      arg_kept m c main_arg2 (by decide) (by decide) (fun op hop => (pre_noarg op hop).2.2.1) (fun op hop => (sfx_noarg op hop).2.2.1) _ h,
      arg_kept m c main_arg3 (by decide) (by decide) (fun op hop => (pre_noarg op hop).2.2.2.1) (fun op hop => (sfx_noarg op hop).2.2.2.1) _ h,
      arg_kept m c main_arg4 (by decide) (by decide) (fun op hop => (pre_noarg op hop).2.2.2.2.1) (fun op hop => (sfx_noarg op hop).2.2.2.2.1) _ h,
      arg_kept m c main_arg5 (by decide) (by decide) (fun op hop => (pre_noarg op hop).2.2.2.2.2.1) (fun op hop => (sfx_noarg op hop).2.2.2.2.2.1) _ h,
      arg_kept m c main_arg6 (by decide) (by decide) (fun op hop => (pre_noarg op hop).2.2.2.2.2.2.1) (fun op hop => (sfx_noarg op hop).2.2.2.2.2.2.1) _ h,
      arg_kept m c main_arg7 (by decide) (by decide) (fun op hop => (pre_noarg op hop).2.2.2.2.2.2.2) (fun op hop => (sfx_noarg op hop).2.2.2.2.2.2.2) _ h⟩) (run_main m ρ)

end Cert.Kernel.KF

end
-- ==== Proof.KFDefs.lean ====
/- The frame run of the kernel's pipeline: what the region finds in its arrays, the closed forms of
   the body's three conditions over the grid, and what the two outputs' staging buffers hold after the body
   at each point, as pure functions of the input blocks and of what the point before left. -/
import proofs.«128588_j377957122581_2_alg».proof.Proof.Gen.KernelIdeal.Launch
import proofs.«128588_j377957122581_2_alg».proof.Proof.Gen.KernelIdeal.Skeleton
import proofs.«128588_j377957122581_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.WholeRead
import Idealize.ShloMosaic.Lib.WritesUnit
import Idealize.ShloMosaic.Lib.Tactic

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered, as a valuation: the launch memory after the host
    operations before the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions, in closed form over the grid -/

/-- The first conditional (the last grid coordinate is zero). -/
abbrev cond1 (i : grid0.Coords) : Prop := k0_cond1 i = 1#1
/-- The second conditional (the last grid coordinate is not zero). -/
abbrev cond2 (i : grid0.Coords) : Prop := k0_cond2 i = 1#1
/-- The third conditional (the last two grid coordinates are both zero), as the body computes it. -/
abbrev cond3 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)
theorem hcond3 : ∀ t : Fin cfg0.N, cond3 (grid0.coords t) ↔ t.val % 64 = 0 :=
  (by decide +kernel : ∀ t : Fin grid0.N, cond3 (grid0.coords t) ↔ t.val % 64 = 0)

/-- No window is idle at any point: windows 0, 1, 3 by the table, window 2 because one of the first two
    conditionals holds everywhere. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel

/-- The offsets of the slice of window 3 the body reads and stores: lane block `j` of eight. -/
theorem k0_off1_eq : ∀ i : grid0.Coords, k0_off1 i = ![0, 0, 1024 * (i 2).val] := by decide +kernel

/-! ## The staging memrefs at a point -/

abbrev ms0_0 (t : Fin cfg0.N) : Memref sig .tc .vmem S1x1024x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

/-! ## What the outputs hold after the body -/

/-- One staging buffer of window 3, through which its contents are stated. -/
abbrev MO3 : Memref sig .tc .vmem S1x1x8192 .f32 := Memref.whole cc0_stg3_0
abbrev VO3 : View sig .tc .vmem S1x1x8192 .f32 := (MO3).view
theorem hMO3 : (MO3).IsWhole := Memref.isWhole_whole _

/-- The rectangle of window 3's block the body reads and stores at grid coordinates `i`. -/
abbrev rect3 (i : grid0.Coords) : Rect S1x1x8192 := Rect.unit (s := S1x1x8192) (k0_off1 i) S1x1x1024.size (k0_off1_inb i)

/-- Window 2 after a point whose last coordinate is zero: the row minima of this point's distances. -/
def row2A (x : Vec F S1x1024x4 .f32) (y : Vec F S1x4x1024 .f32) : Vec F S1x1024x1 .f32 := k0_pay7 x y
/-- Window 2 after any other point: the minimum of what it held and this point's row minima. -/
def row2C (x : Vec F S1x1024x4 .f32) (y : Vec F S1x4x1024 .f32) (prev : Vec F S1x1024x1 .f32) : Vec F S1x1024x1 .f32 :=
  k0_pay1 (k0_pay5 x y) prev

/-- The slice of window 3's contents `base` the body reads at `i`. -/
def slice3 (i : grid0.Coords) (base : Vec F S1x1x8192 .f32) : Vec F S1x1x1024 .f32 :=
  View.readAt (Elt F) VO3 (rect3 i).toLoadRect (hMO3.unread base)

/-- Window 3 after a point: `base` with the slice at `i` replaced by the minimum of that slice and this
    point's column minima. -/
def col3 (i : grid0.Coords) (x : Vec F S1x1024x4 .f32) (y : Vec F S1x4x1024 .f32) (base : Vec F S1x1x8192 .f32) : Vec F S1x1x8192 .f32 :=
  VO3.read (Elt F) (VO3.writes (Elt F) (hMO3.unread base) [⟨rect3 i, k0_pay3 (k0_pay6 x y) (slice3 i base)⟩])

/-- What the two outputs' staging buffers hold after the body at position `n`: by recursion on the point,
    the case selected by `n % 8` and `n % 64`. -/
def outsAt (c : Dev nD) : (n : ℕ) → n < cfg0.N → Vec F S1x1024x1 .f32 × Vec F S1x1x8192 .f32
  | 0, hn => (row2A (iblk m c 0 ⟨0, hn⟩) (iblk m c 1 ⟨0, hn⟩),
      col3 (grid0.coords ⟨0, hn⟩) (iblk m c 0 ⟨0, hn⟩) (iblk m c 1 ⟨0, hn⟩) k0_pay2)
  | n + 1, hn =>
    if h8 : (n + 1) % 8 = 0 then
      if h64 : (n + 1) % 64 = 0 then
        (row2A (iblk m c 0 ⟨n + 1, hn⟩) (iblk m c 1 ⟨n + 1, hn⟩),
          col3 (grid0.coords ⟨n + 1, hn⟩) (iblk m c 0 ⟨n + 1, hn⟩) (iblk m c 1 ⟨n + 1, hn⟩) k0_pay2)
      else
        (row2A (iblk m c 0 ⟨n + 1, hn⟩) (iblk m c 1 ⟨n + 1, hn⟩),
          col3 (grid0.coords ⟨n + 1, hn⟩) (iblk m c 0 ⟨n + 1, hn⟩) (iblk m c 1 ⟨n + 1, hn⟩) (outsAt c n (Nat.lt_of_succ_lt hn)).2)
    else
      (row2C (iblk m c 0 ⟨n + 1, hn⟩) (iblk m c 1 ⟨n + 1, hn⟩) (outsAt c n (Nat.lt_of_succ_lt hn)).1,
        col3 (grid0.coords ⟨n + 1, hn⟩) (iblk m c 0 ⟨n + 1, hn⟩) (iblk m c 1 ⟨n + 1, hn⟩) (outsAt c n (Nat.lt_of_succ_lt hn)).2)

/-- What the point before `t` left (meaningful when `t` is not the first point). -/
abbrev prevAt (c : Dev nD) (t : Fin cfg0.N) : Vec F S1x1024x1 .f32 × Vec F S1x1x8192 .f32 :=
  outsAt m c (t.val - 1) (Nat.lt_of_le_of_lt (Nat.sub_le _ _) t.isLt)

/-- Case A (`t % 64 = 0`): both outputs start afresh. -/
theorem outsAt_A (c : Dev nD) (t : Fin cfg0.N) (h64 : t.val % 64 = 0) :
    outsAt m c t.val t.isLt = (row2A (iblk m c 0 t) (iblk m c 1 t), col3 (grid0.coords t) (iblk m c 0 t) (iblk m c 1 t) k0_pay2) := by
  obtain ⟨n, hn⟩ := t
  cases n with
  | zero => exact rfl
  | succ n =>
    have h8 : (n + 1) % 8 = 0 := by dsimp only at h64; omega
    exact (dif_pos h8).trans ((dif_pos h64).trans rfl)

/-- Case B (`t % 8 = 0`, `t % 64 ≠ 0`): the row minima start afresh, the column minima go on. -/
theorem outsAt_B (c : Dev nD) (t : Fin cfg0.N) (h8 : t.val % 8 = 0) (h64 : ¬ t.val % 64 = 0) :
    outsAt m c t.val t.isLt = (row2A (iblk m c 0 t) (iblk m c 1 t), col3 (grid0.coords t) (iblk m c 0 t) (iblk m c 1 t) (prevAt m c t).2) := by
  obtain ⟨n, hn⟩ := t
  cases n with
  | zero => exact absurd (Nat.zero_mod _) h64
  | succ n => exact (dif_pos h8).trans ((dif_neg h64).trans rfl)

/-- Case C (`t % 8 ≠ 0`): both outputs go on from what the point before left. -/
theorem outsAt_C (c : Dev nD) (t : Fin cfg0.N) (h8 : ¬ t.val % 8 = 0) :
    outsAt m c t.val t.isLt = (row2C (iblk m c 0 t) (iblk m c 1 t) (prevAt m c t).1, col3 (grid0.coords t) (iblk m c 0 t) (iblk m c 1 t) (prevAt m c t).2) := by
  obtain ⟨n, hn⟩ := t
  cases n with
  | zero => exact absurd (Nat.zero_mod _) h8
  | succ n => exact (dif_neg h8).trans rfl

/-! ## The outputs' contents element by element -/

/-- The slice read is `base` under the slice's rectangle. -/
theorem slice3_apply (i : grid0.Coords) (base : Vec F S1x1x8192 .f32) (j : S1x1x1024.Idx) :
    slice3 i base j = base ((rect3 i).toLoadRect.idx j) :=
  Memref.IsWhole.readAt_unread hMO3 base (rect3 i).toLoadRect j

/-- Window 3 after a point, element by element: inside lane block `j` of the point the new minimum, elsewhere `base`. -/
theorem col3_apply (i : grid0.Coords) (x : Vec F S1x1024x4 .f32) (y : Vec F S1x4x1024 .f32) (base : Vec F S1x1x8192 .f32)
    (z : S1x1x8192.Idx) :
    col3 i x y base z
      = if h : ∀ a, (![0, 0, 1024 * (i 2).val] : Fin 3 → ℕ) a ≤ (z a).val ∧ (z a).val < (![0, 0, 1024 * (i 2).val] : Fin 3 → ℕ) a + S1x1x1024.size a then
          k0_pay3 (k0_pay6 x y) (slice3 i base) (Rect.unitLocal (s := S1x1x8192) (off := ![0, 0, 1024 * (i 2).val]) (size := S1x1x1024.size) z h)
        else base z := by
  unfold col3
  rw [View.read_writes_cons_unit VO3 _ (k0_off1_inb i) _ [] z (k0_off1_eq i)]
  split
  · rfl
  · rw [View.writes_nil, hMO3.read_unread]

/-! ## Whole memrefs: loads and stores through the whole block, and independence of the buffer -/

section Whole

variable {Val : EltTy → Type} {S : Shape} {e : EltTy} {κ : Kind} {sp : Space}

/-- A load of the whole block of a whole memref held at the contents that read `X` reads `X`. -/
theorem readAt_unit0_unread {mm : Memref sig κ sp S e} (h : mm.IsWhole) (X : S.Idx → Val e) {off : Fin S.rank → ℕ}
    (hoff : off = fun _ => 0) (inb : ∀ a, off a + S.size a ≤ S.size a) :
    View.readAt Val mm.view (Rect.unit (s := S) off S.size inb).toLoadRect (h.unread X) = X := by
  subst hoff
  funext j
  refine (h.readAt_unread X _ j).trans (congrArg X ?_)
  funext a
  exact Fin.ext (by show 0 + 1 * (j a).val = (j a).val; omega)

/-- A store of the whole block leaves the payload, whatever was there and whatever was stored before. -/
theorem read_writes_unit0 (v : View sig κ sp S e) (f : v.ty.Contents Val) {off : Fin S.rank → ℕ}
    (hoff : off = fun _ => 0) (inb : ∀ a, off a + S.size a ≤ S.size a) (w : S.Idx → Val e) (L : List (View.Piece Val S e)) :
    v.read Val (v.writes Val f ((⟨Rect.unit (s := S) off S.size inb, w⟩ : View.Piece Val S e) :: L)) = w :=
  funext fun y => View.read_writes_cons_unit_of_mem v f inb w L y y hoff (fun a => (Nat.zero_add _).symm)

/-- What stores through a whole memref leave over contents that read `X` reads the same through any whole memref. -/
theorem read_writes_unread_eq {mm mm' : Memref sig κ sp S e} (h : mm.IsWhole) (h' : mm'.IsWhole) (X : S.Idx → Val e)
    (L : List (View.Piece Val S e)) :
    mm.view.read Val (mm.view.writes Val (h.unread X) L) = mm'.view.read Val (mm'.view.writes Val (h'.unread X) L) := by
  funext y
  by_cases hy : ∃ p ∈ L, y ∈ p.1.set
  · exact View.read_writes_apply_eq _ _ _ _ y L hy
  · have hn : ∀ p ∈ L, y ∉ p.1.set := fun p hp hm => hy ⟨p, hp, hm⟩
    rw [View.read_writes_apply_of_forall_not_mem _ _ y L hn, View.read_writes_apply_of_forall_not_mem _ _ y L hn,
      h.read_unread, h'.read_unread]

/-- A load through a whole memref held at the contents that read `X` reads the same through any whole memref. -/
theorem readAt_unread_eq {mm mm' : Memref sig κ sp S e} (h : mm.IsWhole) (h' : mm'.IsWhole) (X : S.Idx → Val e) (B : LoadRect S) :
    View.readAt Val mm.view B (h.unread X) = View.readAt Val mm'.view B (h'.unread X) :=
  funext fun j => (h.readAt_unread X B j).trans (h'.readAt_unread X B j).symm

theorem off3_zero : (![0, 0, 0] : Fin 3 → ℕ) = fun _ => 0 := by
  funext a; fin_cases a <;> rfl

end Whole

/-! ## What the body's stores into window 3 leave, as `col3` -/

/-- The slice store over contents that read `base`, through any whole memref: `col3`. -/
theorem col3_of_run {a6 : Memref sig .tc .vmem S1x1x8192 .f32} (h6 : a6.IsWhole) (i : grid0.Coords)
    (x : Vec F S1x1024x4 .f32) (y : Vec F S1x4x1024 .f32) (base : Vec F S1x1x8192 .f32) :
    a6.view.read (Elt F) (a6.view.writes (Elt F) (h6.unread base)
        [⟨rect3 i, k0_pay3 (k0_pay6 x y) (View.readAt (Elt F) a6.view (rect3 i).toLoadRect (h6.unread base))⟩])
      = col3 i x y base := by
  unfold col3 slice3
  rw [readAt_unread_eq h6 hMO3 base]
  exact read_writes_unread_eq h6 hMO3 base _

/-- A store of the whole block leaves the contents that read its payload. -/
theorem writes_whole_eq_unread {Val : EltTy → Type} {S : Shape} {e : EltTy} {κ : Kind} {sp : Space}
    {mm : Memref sig κ sp S e} (h : mm.IsWhole) (f : mm.view.ty.Contents Val) {off : Fin S.rank → ℕ}
    (hoff : off = fun _ => 0) (inb : ∀ a, off a + S.size a ≤ S.size a) (w : S.Idx → Val e) :
    mm.view.writes Val f [(⟨Rect.unit (s := S) off S.size inb, w⟩ : View.Piece Val S e)] = h.unread w :=
  h.eq_unread (read_writes_unit0 mm.view f hoff inb w [])

/-- The slice store after a store of the whole block at `base`, whatever was there before: `col3` over `base`. -/
theorem col3_of_run_A {a6 : Memref sig .tc .vmem S1x1x8192 .f32} (h6 : a6.IsWhole) (i : grid0.Coords)
    (x : Vec F S1x1024x4 .f32) (y : Vec F S1x4x1024 .f32) (base : Vec F S1x1x8192 .f32) (f : a6.view.ty.Contents (Elt F))
    {off : Fin 3 → ℕ} (hoff : off = fun _ => 0) (inb : ∀ a, off a + S1x1x8192.size a ≤ S1x1x8192.size a) :
    a6.view.read (Elt F) (a6.view.writes (Elt F) f
        [⟨rect3 i, k0_pay3 (k0_pay6 x y) (View.readAt (Elt F) a6.view (rect3 i).toLoadRect
            (a6.view.writes (Elt F) f [(⟨Rect.unit (s := S1x1x8192) off S1x1x8192.size inb, base⟩ : View.Piece (Elt F) S1x1x8192 .f32)]))⟩,
         (⟨Rect.unit (s := S1x1x8192) off S1x1x8192.size inb, base⟩ : View.Piece (Elt F) S1x1x8192 .f32)])
      = col3 i x y base := by
  rw [writes_whole_eq_unread h6 f hoff inb base]
  refine (congrArg (a6.view.read (Elt F)) ?_).trans (col3_of_run h6 i x y base)
  refine (View.writes_append a6.view f [_] [_]).trans ?_
  rw [writes_whole_eq_unread h6 f hoff inb base]

end Cert.KernelIdeal.KF

end
-- ==== Proof.KFMain.lean ====
/- @main around the region: the host operations before it allocate nothing, so @main reduces to the region
   continued by the operations after it; those touch only the pipeline's arrays and the bypassing buffers, allocate
   nothing, and write no array of the pipeline. -/
import proofs.«128588_j377957122581_2_alg».proof.Proof.KFDefs

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ :=
  ⟨rfl, rfl, rfl, rfl, rfl, rfl⟩
theorem hostOps0_1_fresh : (hostOps0_1 : List (HloOp τ sig (Elt F))).Forall fun op => op.fresh = ∅ :=
  ⟨rfl, rfl, rfl, rfl⟩
set_option maxHeartbeats 40000000 in
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main reduces to the region continued by the host operations after it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1000000 in
/-- and write no array of the pipeline: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

end Cert.KernelIdeal.KF

end
-- ==== Proof.KFBodyA.lean ====
/- The kernel body at a point of case A: from the four staging buffers at their contents to the two inputs
   unchanged and the two outputs at their closed forms. -/
import proofs.«128588_j377957122581_2_alg».proof.Proof.KFDefs

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (the last two grid coordinates zero): window 2 is stored whole with this point's row minima; window 3 is stored whole with +∞ and then its slice with the minimum of that and this point's column minima. Neither reads what its buffer held. -/
theorem body_A (c : Dev nD) (i : grid0.Coords)
    (a3 : Memref sig .tc .vmem S1x1024x4 .f32) (h3 : a3.IsWhole) (a4 : Memref sig .tc .vmem S1x4x1024 .f32) (h4 : a4.IsWhole)
    (a5 : Memref sig .tc .vmem S1x1024x1 .f32) (h5 : a5.IsWhole) (a6 : Memref sig .tc .vmem S1x1x8192 .f32) (h6 : a6.IsWhole)
    (hc1 : cond1 i) (hc2 : ¬cond2 i) (hc3 : cond3 i)
    (x : Vec F S1x1024x4 .f32) (y : Vec F S1x4x1024 .f32) (E : Set ℕ) (K : PUnit → sProp 𝕄) :
    iprop(owns (c : Thread nD τ) a3 fullShare x ∗ owns (c : Thread nD τ) a4 fullShare y
        ∗ (∃ d, owns (c : Thread nD τ) a5 fullShare d) ∗ (∃ d, owns (c : Thread nD τ) a6 fullShare d)
        ∗ (iprop(owns (c : Thread nD τ) a3 fullShare x ∗ owns (c : Thread nD τ) a4 fullShare y
            ∗ owns (c : Thread nD τ) a5 fullShare (row2A x y) ∗ owns (c : Thread nD τ) a6 fullShare (col3 i x y k0_pay2)) -∗ K ⟨⟩))
      ⊢ wp frame (wpE (defs₀ (F := F)) Variants.none c none) E (cc0__chamfer_kernel i a3 h3 a4 h4 a5 h5 a6 h6) K := by
  letI : ClosedOff (k0_off1 i) := ⟨![0, 0, 1024 * (i 2).val], k0_off1_eq i⟩
  simp only [cc0__chamfer_kernel_eq_skeleton]; unfold cc0__chamfer_kernel_skel
  simp only [k0_part1_eq_skeleton]
  unfold owns
  iintro ⟨⟨%f3, %hf3, H3⟩, ⟨%f4, %hf4, H4⟩, ⟨%d5, %f5, -, H5⟩, ⟨%d6, %f6, -, H6⟩, Hk⟩
  obtain rfl := h3.eq_unread hf3; obtain rfl := h4.eq_unread hf4
  sl_exec (disch := first | exact hc1 | exact hc2 | exact hc3)
  sl_step
  sl_unfold_run_names
  have hX := readAt_unit0_unread (Val := Elt F) h3 x off3_zero inb_S1x1024x4_S1x1024x4_0_0_0
  have hY := readAt_unit0_unread (Val := Elt F) h4 y off3_zero inb_S1x4x1024_S1x4x1024_0_0_0
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    exact (read_writes_unit0 a5.view _ off3_zero _ _ []).trans (congrArg₂ k0_pay7 hX hY)
  iexists _; isplitr
  swap; · iexact H6
  ipureintro
  rw [hX, hY]
  exact col3_of_run_A h6 i x y k0_pay2 _ off3_zero _

end Cert.KernelIdeal.KF

end
-- ==== Proof.KFBodyB.lean ====
/- The kernel body at a point of case B: from the four staging buffers at their contents to the two inputs
   unchanged and the two outputs at their closed forms. -/
import proofs.«128588_j377957122581_2_alg».proof.Proof.KFDefs

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (the last grid coordinate zero, the middle one not): window 2 is stored whole with this point's row minima; window 3's slice is replaced by the minimum of what it held and this point's column minima. -/
theorem body_B (c : Dev nD) (i : grid0.Coords)
    (a3 : Memref sig .tc .vmem S1x1024x4 .f32) (h3 : a3.IsWhole) (a4 : Memref sig .tc .vmem S1x4x1024 .f32) (h4 : a4.IsWhole)
    (a5 : Memref sig .tc .vmem S1x1024x1 .f32) (h5 : a5.IsWhole) (a6 : Memref sig .tc .vmem S1x1x8192 .f32) (h6 : a6.IsWhole)
    (hc1 : cond1 i) (hc2 : ¬cond2 i) (hc3 : ¬cond3 i)
    (x : Vec F S1x1024x4 .f32) (y : Vec F S1x4x1024 .f32) (prev3 : Vec F S1x1x8192 .f32) (E : Set ℕ) (K : PUnit → sProp 𝕄) :
    iprop(owns (c : Thread nD τ) a3 fullShare x ∗ owns (c : Thread nD τ) a4 fullShare y
        ∗ (∃ d, owns (c : Thread nD τ) a5 fullShare d) ∗ owns (c : Thread nD τ) a6 fullShare prev3
        ∗ (iprop(owns (c : Thread nD τ) a3 fullShare x ∗ owns (c : Thread nD τ) a4 fullShare y
            ∗ owns (c : Thread nD τ) a5 fullShare (row2A x y) ∗ owns (c : Thread nD τ) a6 fullShare (col3 i x y prev3)) -∗ K ⟨⟩))
      ⊢ wp frame (wpE (defs₀ (F := F)) Variants.none c none) E (cc0__chamfer_kernel i a3 h3 a4 h4 a5 h5 a6 h6) K := by
  letI : ClosedOff (k0_off1 i) := ⟨![0, 0, 1024 * (i 2).val], k0_off1_eq i⟩
  simp only [cc0__chamfer_kernel_eq_skeleton]; unfold cc0__chamfer_kernel_skel
  simp only [k0_part1_eq_skeleton]
  unfold owns
  iintro ⟨⟨%f3, %hf3, H3⟩, ⟨%f4, %hf4, H4⟩, ⟨%d5, %f5, -, H5⟩, ⟨%f6, %hf6, H6⟩, Hk⟩
  obtain rfl := h3.eq_unread hf3; obtain rfl := h4.eq_unread hf4; obtain rfl := h6.eq_unread hf6
  sl_exec (disch := first | exact hc1 | exact hc2 | exact hc3)
  sl_step
  sl_unfold_run_names
  have hX := readAt_unit0_unread (Val := Elt F) h3 x off3_zero inb_S1x1024x4_S1x1024x4_0_0_0
  have hY := readAt_unit0_unread (Val := Elt F) h4 y off3_zero inb_S1x4x1024_S1x4x1024_0_0_0
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    exact (read_writes_unit0 a5.view _ off3_zero _ _ []).trans (congrArg₂ k0_pay7 hX hY)
  iexists _; isplitr
  swap; · iexact H6
  ipureintro
  rw [hX, hY]
  exact col3_of_run h6 i x y prev3

end Cert.KernelIdeal.KF

end
-- ==== Proof.KFBodyC.lean ====
/- The kernel body at a point of case C: from the four staging buffers at their contents to the two inputs
   unchanged and the two outputs at their closed forms. -/
import proofs.«128588_j377957122581_2_alg».proof.Proof.KFDefs

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (the last grid coordinate not zero): window 2 becomes the minimum of what it held and this point's row minima; window 3's slice the minimum of what it held and this point's column minima. -/
theorem body_C (c : Dev nD) (i : grid0.Coords)
    (a3 : Memref sig .tc .vmem S1x1024x4 .f32) (h3 : a3.IsWhole) (a4 : Memref sig .tc .vmem S1x4x1024 .f32) (h4 : a4.IsWhole)
    (a5 : Memref sig .tc .vmem S1x1024x1 .f32) (h5 : a5.IsWhole) (a6 : Memref sig .tc .vmem S1x1x8192 .f32) (h6 : a6.IsWhole)
    (hc1 : ¬cond1 i) (hc2 : cond2 i) (hc3 : ¬cond3 i)
    (x : Vec F S1x1024x4 .f32) (y : Vec F S1x4x1024 .f32) (prev2 : Vec F S1x1024x1 .f32) (prev3 : Vec F S1x1x8192 .f32) (E : Set ℕ) (K : PUnit → sProp 𝕄) :
    iprop(owns (c : Thread nD τ) a3 fullShare x ∗ owns (c : Thread nD τ) a4 fullShare y
        ∗ owns (c : Thread nD τ) a5 fullShare prev2 ∗ owns (c : Thread nD τ) a6 fullShare prev3
        ∗ (iprop(owns (c : Thread nD τ) a3 fullShare x ∗ owns (c : Thread nD τ) a4 fullShare y
            ∗ owns (c : Thread nD τ) a5 fullShare (row2C x y prev2) ∗ owns (c : Thread nD τ) a6 fullShare (col3 i x y prev3)) -∗ K ⟨⟩))
      ⊢ wp frame (wpE (defs₀ (F := F)) Variants.none c none) E (cc0__chamfer_kernel i a3 h3 a4 h4 a5 h5 a6 h6) K := by
  letI : ClosedOff (k0_off1 i) := ⟨![0, 0, 1024 * (i 2).val], k0_off1_eq i⟩
  simp only [cc0__chamfer_kernel_eq_skeleton]; unfold cc0__chamfer_kernel_skel
  simp only [k0_part1_eq_skeleton]
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc1 | exact hc2 | exact hc3)
  sl_step
  sl_unfold_run_names
  have hX := readAt_unit0_unread (Val := Elt F) h3 x off3_zero inb_S1x1024x4_S1x1024x4_0_0_0
  have hY := readAt_unit0_unread (Val := Elt F) h4 y off3_zero inb_S1x4x1024_S1x4x1024_0_0_0
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    exact (read_writes_unit0 a5.view _ off3_zero _ _ []).trans (congrArg₂ k0_pay1 (congrArg₂ k0_pay5 hX hY) (readAt_unit0_unread (Val := Elt F) h5 prev2 off3_zero inb_S1x1024x1_S1x1024x1_0_0_0))
  iexists _; isplitr
  swap; · iexact H6
  ipureintro
  rw [hX, hY]
  exact col3_of_run h6 i x y prev3

end Cert.KernelIdeal.KF

end
-- ==== Proof.KFDats.lean ====
/- The pipeline's proof data: what the region finds in its arrays, what each staging buffer holds after the body
   at each point, what it holds when the body is called, and the body obligation at every point by the three cases. -/
import proofs.«128588_j377957122581_2_alg».proof.Proof.KFBodyA
import proofs.«128588_j377957122581_2_alg».proof.Proof.KFBodyB
import proofs.«128588_j377957122581_2_alg».proof.Proof.KFBodyC

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and the
    two outputs' at `outsAt`; the launch's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2 := by dsimp only [dats]

/-! ## What the body finds in each staging buffer -/

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Window 2 is live at every grid point: one of the body's first two conditionals holds there. -/
theorem live_2 : ∀ i : grid0.Coords, cfg0.idle 2 i = false := by decide +kernel

/-- Where the last grid coordinate is not zero, window 2's buffer holds what the point before left: that point
    did not write it back. -/
theorem before_2 (c : Dev nD) (t : Fin cfg0.N) (h8 : ¬ t.val % 8 = 0) (d) :
    (dats m 0 c).before 2 t d = (prevAt m c t).1 := by
  rw [Dat.before_out_kept _ 2 rfl t (by omega) (Bool.eq_false_iff.mpr fun h => by have := (flush0_2 _).mp h; dsimp only at this; omega)
    live_2 (fun _ _ => rfl)]
  dsimp only [dats]

/-- Where the last two grid coordinates are not both zero, window 3's buffer holds what the point before left. -/
theorem before_3 (c : Dev nD) (t : Fin cfg0.N) (h64 : ¬ t.val % 64 = 0) (d) :
    (dats m 0 c).before 3 t d = (prevAt m c t).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; the closed forms of the conditionals select
    the case; an output the case reads before storing holds what the point before left; the case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt_0 t], after_0]
  rw [show (dats m 0 c).leavesExact 1 t = owns (c : Thread nD τ) (ms0_1 t) fullShare ((dats m 0 c).after 1 t) from by
      unfold Dat.leavesExact; rw [liveAt_1 t], after_1]
  rw [show (dats m 0 c).leavesExact 2 t = owns (c : Thread nD τ) (ms0_2 t) fullShare ((dats m 0 c).after 2 t) from by
      unfold Dat.leavesExact; rw [liveAt_2 t], after_2]
  rw [show (dats m 0 c).leavesExact 3 t = owns (c : Thread nD τ) (ms0_3 t) fullShare ((dats m 0 c).after 3 t) from by
      unfold Dat.leavesExact; rw [liveAt_3 t], after_3]
  have hN : t.val < 128 := lt_of_lt_of_eq t.isLt (show cfg0.N = 128 from N_0)
  by_cases h8 : t.val % 8 = 0
  · by_cases h64 : t.val % 64 = 0
    · have e2 : (outsAt m c t.val t.isLt).1 = row2A (iblk m c 0 t) (iblk m c 1 t) := by rw [outsAt_A m c t h64]
      have e3 : (outsAt m c t.val t.isLt).2 = col3 (grid0.coords t) (iblk m c 0 t) (iblk m c 1 t) k0_pay2 := by rw [outsAt_A m c t h64]
      rw [e2, e3]
      iintro ⟨HΦ, Ho, ⟨%d0, H0⟩, ⟨%d1, H1⟩, ⟨%d2, H2⟩, ⟨%d3, H3⟩⟩
      iapply (body_A c (grid0.coords t) _ _ _ _ _ _ _ _ ((hcond1 t).mpr h8) (fun h => (hcond2 t).mp h h8) ((hcond3 t).mpr h64)
        (iblk m c 0 t) (iblk m c 1 t) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · have e2 : (outsAt m c t.val t.isLt).1 = row2A (iblk m c 0 t) (iblk m c 1 t) := by rw [outsAt_B m c t h8 h64]
      have e3 : (outsAt m c t.val t.isLt).2 = col3 (grid0.coords t) (iblk m c 0 t) (iblk m c 1 t) (prevAt m c t).2 := by rw [outsAt_B m c t h8 h64]
      rw [e2, e3]
      simp only [before_3 m c t h64]
      iintro ⟨HΦ, Ho, ⟨%d0, H0⟩, ⟨%d1, H1⟩, ⟨%d2, H2⟩, ⟨%d3, H3⟩⟩
      iapply (body_B c (grid0.coords t) _ _ _ _ _ _ _ _ ((hcond1 t).mpr h8) (fun h => (hcond2 t).mp h h8) (fun h => h64 ((hcond3 t).mp h))
        (iblk m c 0 t) (iblk m c 1 t) (prevAt m c t).2 Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h64 : ¬ t.val % 64 = 0 := by omega
    have e2 : (outsAt m c t.val t.isLt).1 = row2C (iblk m c 0 t) (iblk m c 1 t) (prevAt m c t).1 := by rw [outsAt_C m c t h8]
    have e3 : (outsAt m c t.val t.isLt).2 = col3 (grid0.coords t) (iblk m c 0 t) (iblk m c 1 t) (prevAt m c t).2 := by rw [outsAt_C m c t h8]
    rw [e2, e3]
    simp only [before_2 m c t h8, before_3 m c t h64]
    iintro ⟨HΦ, Ho, ⟨%d0, H0⟩, ⟨%d1, H1⟩, ⟨%d2, H2⟩, ⟨%d3, H3⟩⟩
    iapply (body_C c (grid0.coords t) _ _ _ _ _ _ _ _ (fun h => h8 ((hcond1 t).mp h)) ((hcond2 t).mpr h8) (fun h => h64 ((hcond3 t).mp h))
      (iblk m c 0 t) (iblk m c 1 t) (prevAt m c t).1 (prevAt m c t).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.KF

end
-- ==== Proof.KFArgs.lean ====
/- No host operation of @main writes an argument array: each writes its own result buffer only. Hence an
   argument array holds, when the region is entered and after the operations that follow it, what it was launched with. -/
import proofs.«128588_j377957122581_2_alg».proof.Proof.KFDefs

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operation writes none of the eight argument arrays. -/
abbrev NoArg (op : HloOp τ sig (Elt F)) : Prop :=
  Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes ∧ Proc.devRef .tc main_arg5 ∉ op.writes ∧ Proc.devRef .tc main_arg6 ∉ op.writes ∧ Proc.devRef .tc main_arg7 ∉ op.writes

theorem hostOps0_noarg : (hostOps0 : List (HloOp τ sig (Elt F))).Forall NoArg := by
  simp only [NoArg, hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_noarg : (hostOps0_1 : List (HloOp τ sig (Elt F))).Forall NoArg := by
  simp only [NoArg, hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 16000000 in
theorem hostOps0_2_noarg : (hostOps0_2 : List (HloOp τ sig (Elt F))).Forall NoArg := by
  simp only [NoArg, hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 2000000 in
theorem hostOps1_noarg : (hostOps1 : List (HloOp τ sig (Elt F))).Forall NoArg := by
  simp only [NoArg, hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

theorem pre_noarg : ∀ op ∈ (List.flatten [hostOps0, hostOps0_1, hostOps0_2] : List (HloOp τ sig (Elt F))), NoArg op := by
  intro op hop
  obtain ⟨l, hl, hop⟩ := List.mem_flatten.mp hop
  simp only [List.mem_cons, List.mem_nil_iff, or_false] at hl
  rcases hl with rfl | rfl | rfl
  · exact (List.forall_iff_forall_mem.mp hostOps0_noarg) op hop
  · exact (List.forall_iff_forall_mem.mp hostOps0_1_noarg) op hop
  · exact (List.forall_iff_forall_mem.mp hostOps0_2_noarg) op hop

theorem sfx_noarg : ∀ op ∈ (List.flatten [hostOps1] : List (HloOp τ sig (Elt F))), NoArg op := by
  intro op hop
  obtain ⟨l, hl, hop⟩ := List.mem_flatten.mp hop
  simp only [List.mem_cons, List.mem_nil_iff, or_false] at hl
  rcases hl with rfl
  exact (List.forall_iff_forall_mem.mp hostOps1_noarg) op hop

end Cert.KernelIdeal.KF

end
-- ==== Proof.KFRun.lean ====
/- The frame run of the kernel's pipeline and the frame claim. -/
import proofs.«128588_j377957122581_2_alg».proof.Proof.KFMain
import proofs.«128588_j377957122581_2_alg».proof.Proof.KFDats
import proofs.«128588_j377957122581_2_alg».proof.Proof.KFArgs

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters, every weakly fair execution of @main on the TensorCores terminates, every
    array of the pipeline ends at what the library computes from the proof data, and every other unscoped buffer at
    what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The frame claim -/

/-- An unscoped buffer that is no array of the pipeline and that no host operation writes ends as launched: the
    region leaves it, the operations after the region do not write it, and those before had not. -/
theorem arg_kept (c : Dev nD) (b : Ref sig .tc) (hs : b.isScoped = false) (ha : ∀ w, (spec0 w).arr.view.ref ≠ b)
    (hpre : ∀ op ∈ (List.flatten [hostOps0, hostOps0_1, hostOps0_2] : List (HloOp τ sig (Elt F))), Proc.devRef .tc b ∉ op.writes)
    (hsfx : ∀ op ∈ (List.flatten [hostOps1] : List (HloOp τ sig (Elt F))), Proc.devRef .tc b ∉ op.writes)
    (r : PUnit × MemSt nD τ sig (Elt F))
    (h : Pipeline.FramePost cfgs (dats m) 0 (Pipeline.afterTail₀ cfgs (dats m) 0 (V0 m) [hostOps1]) r) :
    r.2.mem ((c.tc : Thread nD τ).loc b) = m ((c.tc : Thread nD τ).loc b) :=
  ((h c).2 b (Pipeline.mem_restRefs_of b hs ha)).trans
    ((StableHlo.after_of_forall_not_mem (b := Proc.devRef .tc b) _ _ hsfx).trans
      ((Pipeline.withArrays_of_ne _ c _ _ b ha).trans
        (StableHlo.after_of_forall_not_mem (b := Proc.devRef .tc b) _ _ hpre)))

/-- THE FRAME: every weakly fair execution of @main terminates and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨arg_kept m c main_arg0 (by decide) (by decide) (fun op hop => (pre_noarg op hop).1) (fun op hop => (sfx_noarg op hop).1) _ h,
      arg_kept m c main_arg1 (by decide) (by decide) (fun op hop => (pre_noarg op hop).2.1) (fun op hop => (sfx_noarg op hop).2.1) _ h,
      arg_kept m c main_arg2 (by decide) (by decide) (fun op hop => (pre_noarg op hop).2.2.1) (fun op hop => (sfx_noarg op hop).2.2.1) _ h,
      arg_kept m c main_arg3 (by decide) (by decide) (fun op hop => (pre_noarg op hop).2.2.2.1) (fun op hop => (sfx_noarg op hop).2.2.2.1) _ h,
      arg_kept m c main_arg4 (by decide) (by decide) (fun op hop => (pre_noarg op hop).2.2.2.2.1) (fun op hop => (sfx_noarg op hop).2.2.2.2.1) _ h,
      arg_kept m c main_arg5 (by decide) (by decide) (fun op hop => (pre_noarg op hop).2.2.2.2.2.1) (fun op hop => (sfx_noarg op hop).2.2.2.2.2.1) _ h,
      arg_kept m c main_arg6 (by decide) (by decide) (fun op hop => (pre_noarg op hop).2.2.2.2.2.2.1) (fun op hop => (sfx_noarg op hop).2.2.2.2.2.2.1) _ h,
      arg_kept m c main_arg7 (by decide) (by decide) (fun op hop => (pre_noarg op hop).2.2.2.2.2.2.2) (fun op hop => (sfx_noarg op hop).2.2.2.2.2.2.2) _ h⟩) (run_main m ρ)

end Cert.KernelIdeal.KF

end
-- ==== Proof.RROps.lean ====
/-
  The reference program's @main as a LIST of its 331 host operations, in order: every printed statement of
  `main_part0 … main_part5` is one operation (the call of @norm is its four operations over the call's buffers),
  so @main is the straight line `StableHlo.seq ops`. The list is cut into short pieces `p0 … p16` (at the
  printed windows' ends, around the call, and after the operations whose results are main_v80, main_v104, main_v242
  and main_v266), and grouped twice: by printed window, to prove each window equal to the line of its pieces, and
  into five consecutive stretches —
    opsPre  up to and including the operation whose result is main_v80;
    opsCh0  the operations whose results are main_v81 … main_v104 (with the constants among them);
    opsMid  those of main_v105 … main_v242;
    opsCh1  those of main_v243 … main_v266 (with the constants among them);
    opsEnd  those of main_v267 … main_v273.
  Also here: every operation touches TensorCore references only, and none allocates (each determines its result).
-/
import proofs.«128588_j377957122581_2_alg».proof.Proof.Gen.ReferenceIdeal
import Idealize.ShloMosaic.Lib.StableHlo.Run
import Idealize.ShloMosaic.Lib.Pipeline.Regions

set_option synthInstance.maxSize 4096

noncomputable section

namespace Cert.ReferenceIdeal.RR

open Idealize.ShloMosaic Idealize.SL.Sem
open Cert.ReferenceIdeal
open Facts₀ Facts

variable {F : FTy → Type} [FloatOps F] [Facts]

/-! ## The pieces -/

/-- Operations 1 … 6 of the reference's 331, in order (results main_cst … main_v2). -/
abbrev p0 : List (HloOp τ sig (Elt F)) :=
  ( StableHlo.nullary main_cst (fun i => FloatOps.ofBits .f32 (lit0 (S1x4.rowMajor i)))
  :: StableHlo.nullary main_cst_0 (fun i => FloatOps.ofBits .f32 (lit1 (S1x4.rowMajor i)))
  :: StableHlo.nullary main_cst_1 (constant S_ .f32 0x3F800000#32)
  :: StableHlo.unary main_cst_1 main_v0 (broadcastInDim S2x8192x1 ![] bcast_S_S2x8192x1 : (⟨S_, .f32⟩ : BufTy).Contents (Elt F) → (⟨S2x8192x1, .f32⟩ : BufTy).Contents (Elt F))
  :: StableHlo.binary main_arg0 main_v0 main_v1 ((fun a b => concatenate S2x8192x4 2 [⟨S2x8192x3, a⟩, ⟨S2x8192x1, b⟩] concatenates_S2x8192x3_S2x8192x1_S2x8192x4_d2) : (⟨S2x8192x3, .f32⟩ : BufTy).Contents (Elt F) → (⟨S2x8192x1, .f32⟩ : BufTy).Contents (Elt F) → (⟨S2x8192x4, .f32⟩ : BufTy).Contents (Elt F))
  :: StableHlo.binary main_arg1 main_v0 main_v2 ((fun a b => concatenate S2x8192x4 2 [⟨S2x8192x3, a⟩, ⟨S2x8192x1, b⟩] concatenates_S2x8192x3_S2x8192x1_S2x8192x4_d2) : (⟨S2x8192x3, .f32⟩ : BufTy).Contents (Elt F) → (⟨S2x8192x1, .f32⟩ : BufTy).Contents (Elt F) → (⟨S2x8192x4, .f32⟩ : BufTy).Contents (Elt F))
  :: [] )
theorem p0_sub : (p0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub ..⟩
theorem p0_fresh : ∀ op ∈ (p0 : List (HloOp τ sig (Elt F))), op.fresh = ∅ := by
  intro _ h; (repeat (cases h with | head => rfl | tail _ h => ?_)); exact nomatch h

/-- Operations 7 … 10 of the reference's 331, in order (results main_call0_v0 … main_v3). -/
abbrev p1 : List (HloOp τ sig (Elt F)) :=
  ( StableHlo.TRef.binary (.of main_arg5 : StableHlo.TRef sig ⟨S4, .f32⟩) (.of main_arg5 : StableHlo.TRef sig ⟨S4, .f32⟩) (.of main_call0_v0 : StableHlo.TRef sig ⟨S4, .f32⟩) mulf
  :: StableHlo.TRef.nullary (.of main_call0_cst : StableHlo.TRef sig ⟨S_, .f32⟩) (constant S_ .f32 0x00000000#32)
  :: StableHlo.TRef.binary (.of main_call0_v0 : StableHlo.TRef sig ⟨S4, .f32⟩) (.of main_call0_cst : StableHlo.TRef sig ⟨S_, .f32⟩) (.of main_call0_v1 : StableHlo.TRef sig ⟨S_, .f32⟩) (fun x v => Host.reduceAdd x v reducesTo_S4_S_d0 h_S_)
  :: StableHlo.TRef.unary (.of main_call0_v1 : StableHlo.TRef sig ⟨S_, .f32⟩) (.of main_v3 : StableHlo.TRef sig ⟨S_, .f32⟩) Host.sqrt
  :: [] )
theorem p1_sub : (p1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
theorem p1_fresh : ∀ op ∈ (p1 : List (HloOp τ sig (Elt F))), op.fresh = ∅ := by
  intro _ h; (repeat (cases h with | head => rfl | tail _ h => ?_)); exact nomatch h

/-- Operations 11 … 37 of the reference's 331, in order (results main_v4 … main_cst_7). -/
abbrev p2 : List (HloOp τ sig (Elt F)) :=
  ( StableHlo.unary main_v3 main_v4 (broadcastInDim S4 ![] bcast_S_S4 : (⟨S_, .f32⟩ : BufTy).Contents (Elt F) → (⟨S4, .f32⟩ : BufTy).Contents (Elt F))
  :: StableHlo.binary main_arg5 main_v4 main_v5 (Host.divf : (⟨S4, .f32⟩ : BufTy).Contents (Elt F) → (⟨S4, .f32⟩ : BufTy).Contents (Elt F) → (⟨S4, .f32⟩ : BufTy).Contents (Elt F))
  :: StableHlo.unary main_v5 main_v6 ((extractStridedSlice S1 ![0] · slices_S4_S1_0) : (⟨S4, .f32⟩ : BufTy).Contents (Elt F) → (⟨S1, .f32⟩ : BufTy).Contents (Elt F))
  :: StableHlo.reshape main_v6 main_v7 rfl shapeCasts_S1_S_
  :: StableHlo.unary main_v5 main_v8 ((extractStridedSlice S1 ![1] · slices_S4_S1_1) : (⟨S4, .f32⟩ : BufTy).Contents (Elt F) → (⟨S1, .f32⟩ : BufTy).Contents (Elt F))
  :: StableHlo.reshape main_v8 main_v9 rfl shapeCasts_S1_S_
  :: StableHlo.unary main_v5 main_v10 ((extractStridedSlice S1 ![2] · slices_S4_S1_2) : (⟨S4, .f32⟩ : BufTy).Contents (Elt F) → (⟨S1, .f32⟩ : BufTy).Contents (Elt F))
  :: StableHlo.reshape main_v10 main_v11 rfl shapeCasts_S1_S_
  :: StableHlo.unary main_v5 main_v12 ((extractStridedSlice S1 ![3] · slices_S4_S1_3) : (⟨S4, .f32⟩ : BufTy).Contents (Elt F) → (⟨S1, .f32⟩ : BufTy).Contents (Elt F))
  :: StableHlo.reshape main_v12 main_v13 rfl shapeCasts_S1_S_
  :: StableHlo.nullary main_cst_2 (constant S_ .f32 0x40000000#32)
  :: StableHlo.binary main_cst_2 main_v11 main_v14 (mulf : (⟨S_, .f32⟩ : BufTy).Contents (Elt F) → (⟨S_, .f32⟩ : BufTy).Contents (Elt F) → (⟨S_, .f32⟩ : BufTy).Contents (Elt F))
  :: StableHlo.binary main_v14 main_v11 main_v15 (mulf : (⟨S_, .f32⟩ : BufTy).Contents (Elt F) → (⟨S_, .f32⟩ : BufTy).Contents (Elt F) → (⟨S_, .f32⟩ : BufTy).Contents (Elt F))
  :: StableHlo.nullary main_cst_3 (constant S_ .f32 0x3F800000#32)
  :: StableHlo.binary main_cst_3 main_v15 main_v16 (subf : (⟨S_, .f32⟩ : BufTy).Contents (Elt F) → (⟨S_, .f32⟩ : BufTy).Contents (Elt F) → (⟨S_, .f32⟩ : BufTy).Contents (Elt F))
  :: StableHlo.nullary main_cst_4 (constant S_ .f32 0x40000000#32)
  :: StableHlo.binary main_cst_4 main_v13 main_v17 (mulf : (⟨S_, .f32⟩ : BufTy).Contents (Elt F) → (⟨S_, .f32⟩ : BufTy).Contents (Elt F) → (⟨S_, .f32⟩ : BufTy).Contents (Elt F))
  :: StableHlo.binary main_v17 main_v13 main_v18 (mulf : (⟨S_, .f32⟩ : BufTy).Contents (Elt F) → (⟨S_, .f32⟩ : BufTy).Contents (Elt F) → (⟨S_, .f32⟩ : BufTy).Contents (Elt F))
  :: StableHlo.binary main_v16 main_v18 main_v19 (subf : (⟨S_, .f32⟩ : BufTy).Contents (Elt F) → (⟨S_, .f32⟩ : BufTy).Contents (Elt F) → (⟨S_, .f32⟩ : BufTy).Contents (Elt F))
  :: StableHlo.nullary main_cst_5 (constant S_ .f32 0x40000000#32)
  :: StableHlo.binary main_cst_5 main_v9 main_v20 (mulf : (⟨S_, .f32⟩ : BufTy).Contents (Elt F) → (⟨S_, .f32⟩ : BufTy).Contents (Elt F) → (⟨S_, .f32⟩ : BufTy).Contents (Elt F))
  :: StableHlo.binary main_v20 main_v11 main_v21 (mulf : (⟨S_, .f32⟩ : BufTy).Contents (Elt F) → (⟨S_, .f32⟩ : BufTy).Contents (Elt F) → (⟨S_, .f32⟩ : BufTy).Contents (Elt F))
  :: StableHlo.nullary main_cst_6 (constant S_ .f32 0x40000000#32)
  :: StableHlo.binary main_cst_6 main_v7 main_v22 (mulf : (⟨S_, .f32⟩ : BufTy).Contents (Elt F) → (⟨S_, .f32⟩ : BufTy).Contents (Elt F) → (⟨S_, .f32⟩ : BufTy).Contents (Elt F))
  :: StableHlo.binary main_v22 main_v13 main_v23 (mulf : (⟨S_, .f32⟩ : BufTy).Contents (Elt F) → (⟨S_, .f32⟩ : BufTy).Contents (Elt F) → (⟨S_, .f32⟩ : BufTy).Contents (Elt F))
  :: StableHlo.binary main_v21 main_v23 main_v24 (subf : (⟨S_, .f32⟩ : BufTy).Contents (Elt F) → (⟨S_, .f32⟩ : BufTy).Contents (Elt F) → (⟨S_, .f32⟩ : BufTy).Contents (Elt F))
  :: StableHlo.nullary main_cst_7 (constant S_ .f32 0x40000000#32)
  :: [] )
theorem p2_sub : (p2 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub ..⟩
theorem p2_fresh : ∀ op ∈ (p2 : List (HloOp τ sig (Elt F))), op.fresh = ∅ := by
  intro _ h; (repeat (cases h with | head => rfl | tail _ h => ?_)); exact nomatch h

/-- Operations 38 … 63 of the reference's 331, in order (results main_v25 … main_cst_15). -/
abbrev p3 : List (HloOp τ sig (Elt F)) :=
  ( StableHlo.binary main_cst_7 main_v7 main_v25 (mulf : (⟨S_, .f32⟩ : BufTy).Contents (Elt F) → (⟨S_, .f32⟩ : BufTy).Contents (Elt F) → (⟨S_, .f32⟩ : BufTy).Contents (Elt F))
  :: StableHlo.binary main_v25 main_v11 main_v26 (mulf : (⟨S_, .f32⟩ : BufTy).Contents (Elt F) → (⟨S_, .f32⟩ : BufTy).Contents (Elt F) → (⟨S_, .f32⟩ : BufTy).Contents (Elt F))
  :: StableHlo.nullary main_cst_8 (constant S_ .f32 0x40000000#32)
  :: StableHlo.binary main_cst_8 main_v9 main_v27 (mulf : (⟨S_, .f32⟩ : BufTy).Contents (Elt F) → (⟨S_, .f32⟩ : BufTy).Contents (Elt F) → (⟨S_, .f32⟩ : BufTy).Contents (Elt F))
  :: StableHlo.binary main_v27 main_v13 main_v28 (mulf : (⟨S_, .f32⟩ : BufTy).Contents (Elt F) → (⟨S_, .f32⟩ : BufTy).Contents (Elt F) → (⟨S_, .f32⟩ : BufTy).Contents (Elt F))
  :: StableHlo.binary main_v26 main_v28 main_v29 (addf : (⟨S_, .f32⟩ : BufTy).Contents (Elt F) → (⟨S_, .f32⟩ : BufTy).Contents (Elt F) → (⟨S_, .f32⟩ : BufTy).Contents (Elt F))
  :: StableHlo.nullary main_cst_9 (constant S_ .f32 0x40000000#32)
  :: StableHlo.binary main_cst_9 main_v9 main_v30 (mulf : (⟨S_, .f32⟩ : BufTy).Contents (Elt F) → (⟨S_, .f32⟩ : BufTy).Contents (Elt F) → (⟨S_, .f32⟩ : BufTy).Contents (Elt F))
  :: StableHlo.binary main_v30 main_v11 main_v31 (mulf : (⟨S_, .f32⟩ : BufTy).Contents (Elt F) → (⟨S_, .f32⟩ : BufTy).Contents (Elt F) → (⟨S_, .f32⟩ : BufTy).Contents (Elt F))
  :: StableHlo.nullary main_cst_10 (constant S_ .f32 0x40000000#32)
  :: StableHlo.binary main_cst_10 main_v7 main_v32 (mulf : (⟨S_, .f32⟩ : BufTy).Contents (Elt F) → (⟨S_, .f32⟩ : BufTy).Contents (Elt F) → (⟨S_, .f32⟩ : BufTy).Contents (Elt F))
  :: StableHlo.binary main_v32 main_v13 main_v33 (mulf : (⟨S_, .f32⟩ : BufTy).Contents (Elt F) → (⟨S_, .f32⟩ : BufTy).Contents (Elt F) → (⟨S_, .f32⟩ : BufTy).Contents (Elt F))
  :: StableHlo.binary main_v31 main_v33 main_v34 (addf : (⟨S_, .f32⟩ : BufTy).Contents (Elt F) → (⟨S_, .f32⟩ : BufTy).Contents (Elt F) → (⟨S_, .f32⟩ : BufTy).Contents (Elt F))
  :: StableHlo.nullary main_cst_11 (constant S_ .f32 0x40000000#32)
  :: StableHlo.binary main_cst_11 main_v9 main_v35 (mulf : (⟨S_, .f32⟩ : BufTy).Contents (Elt F) → (⟨S_, .f32⟩ : BufTy).Contents (Elt F) → (⟨S_, .f32⟩ : BufTy).Contents (Elt F))
  :: StableHlo.binary main_v35 main_v9 main_v36 (mulf : (⟨S_, .f32⟩ : BufTy).Contents (Elt F) → (⟨S_, .f32⟩ : BufTy).Contents (Elt F) → (⟨S_, .f32⟩ : BufTy).Contents (Elt F))
  :: StableHlo.nullary main_cst_12 (constant S_ .f32 0x3F800000#32)
  :: StableHlo.binary main_cst_12 main_v36 main_v37 (subf : (⟨S_, .f32⟩ : BufTy).Contents (Elt F) → (⟨S_, .f32⟩ : BufTy).Contents (Elt F) → (⟨S_, .f32⟩ : BufTy).Contents (Elt F))
  :: StableHlo.nullary main_cst_13 (constant S_ .f32 0x40000000#32)
  :: StableHlo.binary main_cst_13 main_v13 main_v38 (mulf : (⟨S_, .f32⟩ : BufTy).Contents (Elt F) → (⟨S_, .f32⟩ : BufTy).Contents (Elt F) → (⟨S_, .f32⟩ : BufTy).Contents (Elt F))
  :: StableHlo.binary main_v38 main_v13 main_v39 (mulf : (⟨S_, .f32⟩ : BufTy).Contents (Elt F) → (⟨S_, .f32⟩ : BufTy).Contents (Elt F) → (⟨S_, .f32⟩ : BufTy).Contents (Elt F))
  :: StableHlo.binary main_v37 main_v39 main_v40 (subf : (⟨S_, .f32⟩ : BufTy).Contents (Elt F) → (⟨S_, .f32⟩ : BufTy).Contents (Elt F) → (⟨S_, .f32⟩ : BufTy).Contents (Elt F))
  :: StableHlo.nullary main_cst_14 (constant S_ .f32 0x40000000#32)
  :: StableHlo.binary main_cst_14 main_v11 main_v41 (mulf : (⟨S_, .f32⟩ : BufTy).Contents (Elt F) → (⟨S_, .f32⟩ : BufTy).Contents (Elt F) → (⟨S_, .f32⟩ : BufTy).Contents (Elt F))
  :: StableHlo.binary main_v41 main_v13 main_v42 (mulf : (⟨S_, .f32⟩ : BufTy).Contents (Elt F) → (⟨S_, .f32⟩ : BufTy).Contents (Elt F) → (⟨S_, .f32⟩ : BufTy).Contents (Elt F))
  :: StableHlo.nullary main_cst_15 (constant S_ .f32 0x40000000#32)
  :: [] )
theorem p3_sub : (p3 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub ..⟩
theorem p3_fresh : ∀ op ∈ (p3 : List (HloOp τ sig (Elt F))), op.fresh = ∅ := by
  intro _ h; (repeat (cases h with | head => rfl | tail _ h => ?_)); exact nomatch h

/-- Operations 64 … 86 of the reference's 331, in order (results main_v43 … main_cst_22). -/
abbrev p4 : List (HloOp τ sig (Elt F)) :=
  ( StableHlo.binary main_cst_15 main_v7 main_v43 (mulf : (⟨S_, .f32⟩ : BufTy).Contents (Elt F) → (⟨S_, .f32⟩ : BufTy).Contents (Elt F) → (⟨S_, .f32⟩ : BufTy).Contents (Elt F))
  :: StableHlo.binary main_v43 main_v9 main_v44 (mulf : (⟨S_, .f32⟩ : BufTy).Contents (Elt F) → (⟨S_, .f32⟩ : BufTy).Contents (Elt F) → (⟨S_, .f32⟩ : BufTy).Contents (Elt F))
  :: StableHlo.binary main_v42 main_v44 main_v45 (subf : (⟨S_, .f32⟩ : BufTy).Contents (Elt F) → (⟨S_, .f32⟩ : BufTy).Contents (Elt F) → (⟨S_, .f32⟩ : BufTy).Contents (Elt F))
  :: StableHlo.nullary main_cst_16 (constant S_ .f32 0x40000000#32)
  :: StableHlo.binary main_cst_16 main_v9 main_v46 (mulf : (⟨S_, .f32⟩ : BufTy).Contents (Elt F) → (⟨S_, .f32⟩ : BufTy).Contents (Elt F) → (⟨S_, .f32⟩ : BufTy).Contents (Elt F))
  :: StableHlo.binary main_v46 main_v13 main_v47 (mulf : (⟨S_, .f32⟩ : BufTy).Contents (Elt F) → (⟨S_, .f32⟩ : BufTy).Contents (Elt F) → (⟨S_, .f32⟩ : BufTy).Contents (Elt F))
  :: StableHlo.nullary main_cst_17 (constant S_ .f32 0x40000000#32)
  :: StableHlo.binary main_cst_17 main_v7 main_v48 (mulf : (⟨S_, .f32⟩ : BufTy).Contents (Elt F) → (⟨S_, .f32⟩ : BufTy).Contents (Elt F) → (⟨S_, .f32⟩ : BufTy).Contents (Elt F))
  :: StableHlo.binary main_v48 main_v11 main_v49 (mulf : (⟨S_, .f32⟩ : BufTy).Contents (Elt F) → (⟨S_, .f32⟩ : BufTy).Contents (Elt F) → (⟨S_, .f32⟩ : BufTy).Contents (Elt F))
  :: StableHlo.binary main_v47 main_v49 main_v50 (subf : (⟨S_, .f32⟩ : BufTy).Contents (Elt F) → (⟨S_, .f32⟩ : BufTy).Contents (Elt F) → (⟨S_, .f32⟩ : BufTy).Contents (Elt F))
  :: StableHlo.nullary main_cst_18 (constant S_ .f32 0x40000000#32)
  :: StableHlo.binary main_cst_18 main_v7 main_v51 (mulf : (⟨S_, .f32⟩ : BufTy).Contents (Elt F) → (⟨S_, .f32⟩ : BufTy).Contents (Elt F) → (⟨S_, .f32⟩ : BufTy).Contents (Elt F))
  :: StableHlo.binary main_v51 main_v9 main_v52 (mulf : (⟨S_, .f32⟩ : BufTy).Contents (Elt F) → (⟨S_, .f32⟩ : BufTy).Contents (Elt F) → (⟨S_, .f32⟩ : BufTy).Contents (Elt F))
  :: StableHlo.nullary main_cst_19 (constant S_ .f32 0x40000000#32)
  :: StableHlo.binary main_cst_19 main_v11 main_v53 (mulf : (⟨S_, .f32⟩ : BufTy).Contents (Elt F) → (⟨S_, .f32⟩ : BufTy).Contents (Elt F) → (⟨S_, .f32⟩ : BufTy).Contents (Elt F))
  :: StableHlo.binary main_v53 main_v13 main_v54 (mulf : (⟨S_, .f32⟩ : BufTy).Contents (Elt F) → (⟨S_, .f32⟩ : BufTy).Contents (Elt F) → (⟨S_, .f32⟩ : BufTy).Contents (Elt F))
  :: StableHlo.binary main_v52 main_v54 main_v55 (addf : (⟨S_, .f32⟩ : BufTy).Contents (Elt F) → (⟨S_, .f32⟩ : BufTy).Contents (Elt F) → (⟨S_, .f32⟩ : BufTy).Contents (Elt F))
  :: StableHlo.nullary main_cst_20 (constant S_ .f32 0x40000000#32)
  :: StableHlo.binary main_cst_20 main_v9 main_v56 (mulf : (⟨S_, .f32⟩ : BufTy).Contents (Elt F) → (⟨S_, .f32⟩ : BufTy).Contents (Elt F) → (⟨S_, .f32⟩ : BufTy).Contents (Elt F))
  :: StableHlo.binary main_v56 main_v9 main_v57 (mulf : (⟨S_, .f32⟩ : BufTy).Contents (Elt F) → (⟨S_, .f32⟩ : BufTy).Contents (Elt F) → (⟨S_, .f32⟩ : BufTy).Contents (Elt F))
  :: StableHlo.nullary main_cst_21 (constant S_ .f32 0x3F800000#32)
  :: StableHlo.binary main_cst_21 main_v57 main_v58 (subf : (⟨S_, .f32⟩ : BufTy).Contents (Elt F) → (⟨S_, .f32⟩ : BufTy).Contents (Elt F) → (⟨S_, .f32⟩ : BufTy).Contents (Elt F))
  :: StableHlo.nullary main_cst_22 (constant S_ .f32 0x40000000#32)
  :: [] )
theorem p4_sub : (p4 : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub ..⟩
theorem p4_fresh : ∀ op ∈ (p4 : List (HloOp τ sig (Elt F))), op.fresh = ∅ := by
  intro _ h; (repeat (cases h with | head => rfl | tail _ h => ?_)); exact nomatch h

/-- Operations 87 … 108 of the reference's 331, in order (results main_v59 … main_v80). -/
abbrev p5 : List (HloOp τ sig (Elt F)) :=
  ( StableHlo.binary main_cst_22 main_v11 main_v59 (mulf : (⟨S_, .f32⟩ : BufTy).Contents (Elt F) → (⟨S_, .f32⟩ : BufTy).Contents (Elt F) → (⟨S_, .f32⟩ : BufTy).Contents (Elt F))
  :: StableHlo.binary main_v59 main_v11 main_v60 (mulf : (⟨S_, .f32⟩ : BufTy).Contents (Elt F) → (⟨S_, .f32⟩ : BufTy).Contents (Elt F) → (⟨S_, .f32⟩ : BufTy).Contents (Elt F))
  :: StableHlo.binary main_v58 main_v60 main_v61 (subf : (⟨S_, .f32⟩ : BufTy).Contents (Elt F) → (⟨S_, .f32⟩ : BufTy).Contents (Elt F) → (⟨S_, .f32⟩ : BufTy).Contents (Elt F))
  :: StableHlo.unary main_v19 main_v62 (broadcastInDim S1 ![] bcast_S_S1 : (⟨S_, .f32⟩ : BufTy).Contents (Elt F) → (⟨S1, .f32⟩ : BufTy).Contents (Elt F))
  :: StableHlo.unary main_v24 main_v63 (broadcastInDim S1 ![] bcast_S_S1 : (⟨S_, .f32⟩ : BufTy).Contents (Elt F) → (⟨S1, .f32⟩ : BufTy).Contents (Elt F))
  :: StableHlo.unary main_v29 main_v64 (broadcastInDim S1 ![] bcast_S_S1 : (⟨S_, .f32⟩ : BufTy).Contents (Elt F) → (⟨S1, .f32⟩ : BufTy).Contents (Elt F))
  :: StableHlo.unary main_v34 main_v65 (broadcastInDim S1 ![] bcast_S_S1 : (⟨S_, .f32⟩ : BufTy).Contents (Elt F) → (⟨S1, .f32⟩ : BufTy).Contents (Elt F))
  :: StableHlo.unary main_v40 main_v66 (broadcastInDim S1 ![] bcast_S_S1 : (⟨S_, .f32⟩ : BufTy).Contents (Elt F) → (⟨S1, .f32⟩ : BufTy).Contents (Elt F))
  :: StableHlo.unary main_v45 main_v67 (broadcastInDim S1 ![] bcast_S_S1 : (⟨S_, .f32⟩ : BufTy).Contents (Elt F) → (⟨S1, .f32⟩ : BufTy).Contents (Elt F))
  :: StableHlo.unary main_v50 main_v68 (broadcastInDim S1 ![] bcast_S_S1 : (⟨S_, .f32⟩ : BufTy).Contents (Elt F) → (⟨S1, .f32⟩ : BufTy).Contents (Elt F))
  :: StableHlo.unary main_v55 main_v69 (broadcastInDim S1 ![] bcast_S_S1 : (⟨S_, .f32⟩ : BufTy).Contents (Elt F) → (⟨S1, .f32⟩ : BufTy).Contents (Elt F))
  :: StableHlo.unary main_v61 main_v70 (broadcastInDim S1 ![] bcast_S_S1 : (⟨S_, .f32⟩ : BufTy).Contents (Elt F) → (⟨S1, .f32⟩ : BufTy).Contents (Elt F))
  :: StableHlo.nary ![main_v62, main_v63, main_v64, main_v65, main_v66, main_v67, main_v68, main_v69, main_v70] main_v71 (fun u => concatenate S9 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩] concatenates_S1_S1_S1_S1_S1_S1_S1_S1_S1_S9_d0)
  :: StableHlo.reshape main_v71 main_v72 rfl shapeCasts_S9_S3x3
  :: StableHlo.binary main_v72 main_arg6 main_v73 ((fun a b => concatenate S3x4 1 [⟨S3x3, a⟩, ⟨S3x1, b⟩] concatenates_S3x3_S3x1_S3x4_d1) : (⟨S3x3, .f32⟩ : BufTy).Contents (Elt F) → (⟨S3x1, .f32⟩ : BufTy).Contents (Elt F) → (⟨S3x4, .f32⟩ : BufTy).Contents (Elt F))
  :: StableHlo.binary main_v73 main_cst main_v74 ((fun a b => concatenate S4x4 0 [⟨S3x4, a⟩, ⟨S1x4, b⟩] concatenates_S3x4_S1x4_S4x4_d0) : (⟨S3x4, .f32⟩ : BufTy).Contents (Elt F) → (⟨S1x4, .f32⟩ : BufTy).Contents (Elt F) → (⟨S4x4, .f32⟩ : BufTy).Contents (Elt F))
  :: StableHlo.unary main_v2 main_v75 ((extractStridedSlice S1x8192x4 ![0, 0, 0] · slices_S2x8192x4_S1x8192x4_0_0_0) : (⟨S2x8192x4, .f32⟩ : BufTy).Contents (Elt F) → (⟨S1x8192x4, .f32⟩ : BufTy).Contents (Elt F))
  :: StableHlo.reshape main_v75 main_v76 rfl shapeCasts_S1x8192x4_S8192x4
  :: StableHlo.unary main_v74 main_v77 ((transpose S4x4 [1, 0] · transposes_S4x4_S4x4_1_0) : (⟨S4x4, .f32⟩ : BufTy).Contents (Elt F) → (⟨S4x4, .f32⟩ : BufTy).Contents (Elt F))
  :: StableHlo.binary main_v76 main_v77 main_v78 ((fun l r => Host.dotGeneral dot_S8192x4_S4x4_S8192x4_1_0_0_1_n_n none l r) : (⟨S8192x4, .f32⟩ : BufTy).Contents (Elt F) → (⟨S4x4, .f32⟩ : BufTy).Contents (Elt F) → (⟨S8192x4, .f32⟩ : BufTy).Contents (Elt F))
  :: StableHlo.unary main_v1 main_v79 ((extractStridedSlice S1x8192x4 ![0, 0, 0] · slices_S2x8192x4_S1x8192x4_0_0_0) : (⟨S2x8192x4, .f32⟩ : BufTy).Contents (Elt F) → (⟨S1x8192x4, .f32⟩ : BufTy).Contents (Elt F))
  :: StableHlo.reshape main_v79 main_v80 rfl shapeCasts_S1x8192x4_S8192x4
  :: [] )
theorem p5_sub : (p5 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub ..⟩
theorem p5_fresh : ∀ op ∈ (p5 : List (HloOp τ sig (Elt F))), op.fresh = ∅ := by
  intro _ h; (repeat (cases h with | head => rfl | tail _ h => ?_)); exact nomatch h

/-- Operations 109 … 123 of the reference's 331, in order (results main_v81 … main_v92). -/
abbrev p6 : List (HloOp τ sig (Elt F)) :=
  ( StableHlo.binary main_v78 main_v78 main_v81 (mulf : (⟨S8192x4, .f32⟩ : BufTy).Contents (Elt F) → (⟨S8192x4, .f32⟩ : BufTy).Contents (Elt F) → (⟨S8192x4, .f32⟩ : BufTy).Contents (Elt F))
  :: StableHlo.nullary main_cst_23 (constant S_ .f32 0x00000000#32)
  :: StableHlo.binary main_v81 main_cst_23 main_v82 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F))
  :: StableHlo.unary main_v82 main_v83 (broadcastInDim S8192x1 ![0] bcast_S8192_S8192x1_0 : (⟨S8192, .f32⟩ : BufTy).Contents (Elt F) → (⟨S8192x1, .f32⟩ : BufTy).Contents (Elt F))
  :: StableHlo.binary main_v80 main_v80 main_v84 (mulf : (⟨S8192x4, .f32⟩ : BufTy).Contents (Elt F) → (⟨S8192x4, .f32⟩ : BufTy).Contents (Elt F) → (⟨S8192x4, .f32⟩ : BufTy).Contents (Elt F))
  :: StableHlo.nullary main_cst_24 (constant S_ .f32 0x00000000#32)
  :: StableHlo.binary main_v84 main_cst_24 main_v85 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F))
  :: StableHlo.unary main_v85 main_v86 (broadcastInDim S1x8192 ![1] bcast_S8192_S1x8192_1 : (⟨S8192, .f32⟩ : BufTy).Contents (Elt F) → (⟨S1x8192, .f32⟩ : BufTy).Contents (Elt F))
  :: StableHlo.unary main_v83 main_v87 (broadcastInDim S8192x8192 ![0, 1] bcast_S8192x1_S8192x8192_0_1 : (⟨S8192x1, .f32⟩ : BufTy).Contents (Elt F) → (⟨S8192x8192, .f32⟩ : BufTy).Contents (Elt F))
  :: StableHlo.unary main_v86 main_v88 (broadcastInDim S8192x8192 ![0, 1] bcast_S1x8192_S8192x8192_0_1 : (⟨S1x8192, .f32⟩ : BufTy).Contents (Elt F) → (⟨S8192x8192, .f32⟩ : BufTy).Contents (Elt F))
  :: StableHlo.binary main_v87 main_v88 main_v89 (addf : (⟨S8192x8192, .f32⟩ : BufTy).Contents (Elt F) → (⟨S8192x8192, .f32⟩ : BufTy).Contents (Elt F) → (⟨S8192x8192, .f32⟩ : BufTy).Contents (Elt F))
  :: StableHlo.nullary main_cst_25 (constant S_ .f32 0x40000000#32)
  :: StableHlo.unary main_cst_25 main_v90 (broadcastInDim S8192x4 ![] bcast_S_S8192x4 : (⟨S_, .f32⟩ : BufTy).Contents (Elt F) → (⟨S8192x4, .f32⟩ : BufTy).Contents (Elt F))
  :: StableHlo.binary main_v90 main_v78 main_v91 (mulf : (⟨S8192x4, .f32⟩ : BufTy).Contents (Elt F) → (⟨S8192x4, .f32⟩ : BufTy).Contents (Elt F) → (⟨S8192x4, .f32⟩ : BufTy).Contents (Elt F))
  :: StableHlo.unary main_v80 main_v92 ((transpose S4x8192 [1, 0] · transposes_S8192x4_S4x8192_1_0) : (⟨S8192x4, .f32⟩ : BufTy).Contents (Elt F) → (⟨S4x8192, .f32⟩ : BufTy).Contents (Elt F))
  :: [] )
theorem p6_sub : (p6 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩
theorem p6_fresh : ∀ op ∈ (p6 : List (HloOp τ sig (Elt F))), op.fresh = ∅ := by
  intro _ h; (repeat (cases h with | head => rfl | tail _ h => ?_)); exact nomatch h

/-- Operations 124 … 142 of the reference's 331, in order (results main_v93 … main_v104). -/
abbrev p7 : List (HloOp τ sig (Elt F)) :=
  ( StableHlo.binary main_v91 main_v92 main_v93 ((fun l r => Host.dotGeneral dot_S8192x4_S4x8192_S8192x8192_1_0_0_1_n_n none l r) : (⟨S8192x4, .f32⟩ : BufTy).Contents (Elt F) → (⟨S4x8192, .f32⟩ : BufTy).Contents (Elt F) → (⟨S8192x8192, .f32⟩ : BufTy).Contents (Elt F))
  :: StableHlo.binary main_v89 main_v93 main_v94 (subf : (⟨S8192x8192, .f32⟩ : BufTy).Contents (Elt F) → (⟨S8192x8192, .f32⟩ : BufTy).Contents (Elt F) → (⟨S8192x8192, .f32⟩ : BufTy).Contents (Elt F))
  :: StableHlo.nullary main_cst_26 (constant S_ .f32 0x00000000#32)
  :: StableHlo.unary main_cst_26 main_v95 (broadcastInDim S8192x8192 ![] bcast_S_S8192x8192 : (⟨S_, .f32⟩ : BufTy).Contents (Elt F) → (⟨S8192x8192, .f32⟩ : BufTy).Contents (Elt F))
  :: StableHlo.binary main_v94 main_v95 main_v96 (maximumf : (⟨S8192x8192, .f32⟩ : BufTy).Contents (Elt F) → (⟨S8192x8192, .f32⟩ : BufTy).Contents (Elt F) → (⟨S8192x8192, .f32⟩ : BufTy).Contents (Elt F))
  :: StableHlo.unary main_v96 main_v97 (Host.sqrt : (⟨S8192x8192, .f32⟩ : BufTy).Contents (Elt F) → (⟨S8192x8192, .f32⟩ : BufTy).Contents (Elt F))
  :: StableHlo.nullary main_cst_27 (constant S_ .f32 0x7F800000#32)
  :: StableHlo.binary main_v97 main_cst_27 main_v98 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F))
  :: StableHlo.nullary main_cst_28 (constant S_ .f32 0x00000000#32)
  :: StableHlo.binary main_v98 main_cst_28 main_v99 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_29 (constant S_ .f32 0x46000000#32)
  :: StableHlo.binary main_v99 main_cst_29 main_v100 (Host.divf : (⟨S_, .f32⟩ : BufTy).Contents (Elt F) → (⟨S_, .f32⟩ : BufTy).Contents (Elt F) → (⟨S_, .f32⟩ : BufTy).Contents (Elt F))
  :: StableHlo.nullary main_cst_30 (constant S_ .f32 0x7F800000#32)
  :: StableHlo.binary main_v97 main_cst_30 main_v101 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F))
  :: StableHlo.nullary main_cst_31 (constant S_ .f32 0x00000000#32)
  :: StableHlo.binary main_v101 main_cst_31 main_v102 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_32 (constant S_ .f32 0x46000000#32)
  :: StableHlo.binary main_v102 main_cst_32 main_v103 (Host.divf : (⟨S_, .f32⟩ : BufTy).Contents (Elt F) → (⟨S_, .f32⟩ : BufTy).Contents (Elt F) → (⟨S_, .f32⟩ : BufTy).Contents (Elt F))
  :: StableHlo.binary main_v100 main_v103 main_v104 (addf : (⟨S_, .f32⟩ : BufTy).Contents (Elt F) → (⟨S_, .f32⟩ : BufTy).Contents (Elt F) → (⟨S_, .f32⟩ : BufTy).Contents (Elt F))
  :: [] )
theorem p7_sub : (p7 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
theorem p7_fresh : ∀ op ∈ (p7 : List (HloOp τ sig (Elt F))), op.fresh = ∅ := by
  intro _ h; (repeat (cases h with | head => rfl | tail _ h => ?_)); exact nomatch h

/-- Operations 143 … 163 of the reference's 331, in order (results main_v105 … main_v125). -/
abbrev p8 : List (HloOp τ sig (Elt F)) :=
  ( StableHlo.unary main_arg4 main_v105 ((extractStridedSlice S1 ![0] · slices_S2_S1_0) : (⟨S2, .f32⟩ : BufTy).Contents (Elt F) → (⟨S1, .f32⟩ : BufTy).Contents (Elt F))
  :: StableHlo.reshape main_v105 main_v106 rfl shapeCasts_S1_S_
  :: StableHlo.binary main_v106 main_v104 main_v107 (mulf : (⟨S_, .f32⟩ : BufTy).Contents (Elt F) → (⟨S_, .f32⟩ : BufTy).Contents (Elt F) → (⟨S_, .f32⟩ : BufTy).Contents (Elt F))
  :: StableHlo.reshape main_arg2 main_v108 rfl shapeCasts_S1x3_S3
  :: StableHlo.reshape main_arg3 main_v109 rfl shapeCasts_S1x3_S3
  :: StableHlo.reshape main_arg7 main_v110 rfl shapeCasts_S1_S_
  :: StableHlo.unary main_v108 main_v111 ((extractStridedSlice S1 ![0] · slices_S3_S1_0) : (⟨S3, .f32⟩ : BufTy).Contents (Elt F) → (⟨S1, .f32⟩ : BufTy).Contents (Elt F))
  :: StableHlo.reshape main_v111 main_v112 rfl shapeCasts_S1_S_
  :: StableHlo.unary main_v108 main_v113 ((extractStridedSlice S1 ![1] · slices_S3_S1_1) : (⟨S3, .f32⟩ : BufTy).Contents (Elt F) → (⟨S1, .f32⟩ : BufTy).Contents (Elt F))
  :: StableHlo.reshape main_v113 main_v114 rfl shapeCasts_S1_S_
  :: StableHlo.unary main_v108 main_v115 ((extractStridedSlice S1 ![2] · slices_S3_S1_2) : (⟨S3, .f32⟩ : BufTy).Contents (Elt F) → (⟨S1, .f32⟩ : BufTy).Contents (Elt F))
  :: StableHlo.reshape main_v115 main_v116 rfl shapeCasts_S1_S_
  :: StableHlo.unary main_v109 main_v117 ((extractStridedSlice S1 ![0] · slices_S3_S1_0) : (⟨S3, .f32⟩ : BufTy).Contents (Elt F) → (⟨S1, .f32⟩ : BufTy).Contents (Elt F))
  :: StableHlo.reshape main_v117 main_v118 rfl shapeCasts_S1_S_
  :: StableHlo.unary main_v109 main_v119 ((extractStridedSlice S1 ![1] · slices_S3_S1_1) : (⟨S3, .f32⟩ : BufTy).Contents (Elt F) → (⟨S1, .f32⟩ : BufTy).Contents (Elt F))
  :: StableHlo.reshape main_v119 main_v120 rfl shapeCasts_S1_S_
  :: StableHlo.unary main_v109 main_v121 ((extractStridedSlice S1 ![2] · slices_S3_S1_2) : (⟨S3, .f32⟩ : BufTy).Contents (Elt F) → (⟨S1, .f32⟩ : BufTy).Contents (Elt F))
  :: StableHlo.reshape main_v121 main_v122 rfl shapeCasts_S1_S_
  :: StableHlo.unary main_v110 main_v123 (Host.cos : (⟨S_, .f32⟩ : BufTy).Contents (Elt F) → (⟨S_, .f32⟩ : BufTy).Contents (Elt F))
  :: StableHlo.unary main_v110 main_v124 (Host.sin : (⟨S_, .f32⟩ : BufTy).Contents (Elt F) → (⟨S_, .f32⟩ : BufTy).Contents (Elt F))
  :: StableHlo.binary main_v118 main_v118 main_v125 (mulf : (⟨S_, .f32⟩ : BufTy).Contents (Elt F) → (⟨S_, .f32⟩ : BufTy).Contents (Elt F) → (⟨S_, .f32⟩ : BufTy).Contents (Elt F))
  :: [] )
theorem p8_sub : (p8 : List (HloOp τ sig (Elt F))).Forall fun op => op.bufs ⊆ StableHlo.tcRefs τ sig :=
  ⟨StableHlo.unary_bufs_sub .., StableHlo.reshape_bufs_sub .., StableHlo.binary_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub ..⟩
theorem p8_fresh : ∀ op ∈ (p8 : List (HloOp τ sig (Elt F))), op.fresh = ∅ := by
  intro _ h; (repeat (cases h with | head => rfl | tail _ h => ?_)); exact nomatch h

/-- Operations 164 … 183 of the reference's 331, in order (results main_v126 … main_v143). -/
abbrev p9 : List (HloOp τ sig (Elt F)) :=
  ( StableHlo.binary main_v120 main_v120 main_v126 (mulf : (⟨S_, .f32⟩ : BufTy).Contents (Elt F) → (⟨S_, .f32⟩ : BufTy).Contents (Elt F) → (⟨S_, .f32⟩ : BufTy).Contents (Elt F))
  :: StableHlo.binary main_v122 main_v122 main_v127 (mulf : (⟨S_, .f32⟩ : BufTy).Contents (Elt F) → (⟨S_, .f32⟩ : BufTy).Contents (Elt F) → (⟨S_, .f32⟩ : BufTy).Contents (Elt F))
  :: StableHlo.binary main_v126 main_v127 main_v128 (addf : (⟨S_, .f32⟩ : BufTy).Contents (Elt F) → (⟨S_, .f32⟩ : BufTy).Contents (Elt F) → (⟨S_, .f32⟩ : BufTy).Contents (Elt F))
  :: StableHlo.binary main_v128 main_v123 main_v129 (mulf : (⟨S_, .f32⟩ : BufTy).Contents (Elt F) → (⟨S_, .f32⟩ : BufTy).Contents (Elt F) → (⟨S_, .f32⟩ : BufTy).Contents (Elt F))
  :: StableHlo.binary main_v125 main_v129 main_v130 (addf : (⟨S_, .f32⟩ : BufTy).Contents (Elt F) → (⟨S_, .f32⟩ : BufTy).Contents (Elt F) → (⟨S_, .f32⟩ : BufTy).Contents (Elt F))
  :: StableHlo.binary main_v118 main_v120 main_v131 (mulf : (⟨S_, .f32⟩ : BufTy).Contents (Elt F) → (⟨S_, .f32⟩ : BufTy).Contents (Elt F) → (⟨S_, .f32⟩ : BufTy).Contents (Elt F))
  :: StableHlo.nullary main_cst_33 (constant S_ .f32 0x3F800000#32)
  :: StableHlo.binary main_cst_33 main_v123 main_v132 (subf : (⟨S_, .f32⟩ : BufTy).Contents (Elt F) → (⟨S_, .f32⟩ : BufTy).Contents (Elt F) → (⟨S_, .f32⟩ : BufTy).Contents (Elt F))
  :: StableHlo.binary main_v131 main_v132 main_v133 (mulf : (⟨S_, .f32⟩ : BufTy).Contents (Elt F) → (⟨S_, .f32⟩ : BufTy).Contents (Elt F) → (⟨S_, .f32⟩ : BufTy).Contents (Elt F))
  :: StableHlo.binary main_v122 main_v124 main_v134 (mulf : (⟨S_, .f32⟩ : BufTy).Contents (Elt F) → (⟨S_, .f32⟩ : BufTy).Contents (Elt F) → (⟨S_, .f32⟩ : BufTy).Contents (Elt F))
  :: StableHlo.binary main_v133 main_v134 main_v135 (subf : (⟨S_, .f32⟩ : BufTy).Contents (Elt F) → (⟨S_, .f32⟩ : BufTy).Contents (Elt F) → (⟨S_, .f32⟩ : BufTy).Contents (Elt F))
  :: StableHlo.binary main_v118 main_v122 main_v136 (mulf : (⟨S_, .f32⟩ : BufTy).Contents (Elt F) → (⟨S_, .f32⟩ : BufTy).Contents (Elt F) → (⟨S_, .f32⟩ : BufTy).Contents (Elt F))
  :: StableHlo.nullary main_cst_34 (constant S_ .f32 0x3F800000#32)
  :: StableHlo.binary main_cst_34 main_v123 main_v137 (subf : (⟨S_, .f32⟩ : BufTy).Contents (Elt F) → (⟨S_, .f32⟩ : BufTy).Contents (Elt F) → (⟨S_, .f32⟩ : BufTy).Contents (Elt F))
  :: StableHlo.binary main_v136 main_v137 main_v138 (mulf : (⟨S_, .f32⟩ : BufTy).Contents (Elt F) → (⟨S_, .f32⟩ : BufTy).Contents (Elt F) → (⟨S_, .f32⟩ : BufTy).Contents (Elt F))
  :: StableHlo.binary main_v120 main_v124 main_v139 (mulf : (⟨S_, .f32⟩ : BufTy).Contents (Elt F) → (⟨S_, .f32⟩ : BufTy).Contents (Elt F) → (⟨S_, .f32⟩ : BufTy).Contents (Elt F))
  :: StableHlo.binary main_v138 main_v139 main_v140 (addf : (⟨S_, .f32⟩ : BufTy).Contents (Elt F) → (⟨S_, .f32⟩ : BufTy).Contents (Elt F) → (⟨S_, .f32⟩ : BufTy).Contents (Elt F))
  :: StableHlo.binary main_v120 main_v120 main_v141 (mulf : (⟨S_, .f32⟩ : BufTy).Contents (Elt F) → (⟨S_, .f32⟩ : BufTy).Contents (Elt F) → (⟨S_, .f32⟩ : BufTy).Contents (Elt F))
  :: StableHlo.binary main_v122 main_v122 main_v142 (mulf : (⟨S_, .f32⟩ : BufTy).Contents (Elt F) → (⟨S_, .f32⟩ : BufTy).Contents (Elt F) → (⟨S_, .f32⟩ : BufTy).Contents (Elt F))
  :: StableHlo.binary main_v141 main_v142 main_v143 (addf : (⟨S_, .f32⟩ : BufTy).Contents (Elt F) → (⟨S_, .f32⟩ : BufTy).Contents (Elt F) → (⟨S_, .f32⟩ : BufTy).Contents (Elt F))
  :: [] )
theorem p9_sub : (p9 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem p9_fresh : ∀ op ∈ (p9 : List (HloOp τ sig (Elt F))), op.fresh = ∅ := by
  intro _ h; (repeat (cases h with | head => rfl | tail _ h => ?_)); exact nomatch h

/-- Operations 184 … 213 of the reference's 331, in order (results main_v144 … main_v170). -/
abbrev p10 : List (HloOp τ sig (Elt F)) :=
  ( StableHlo.binary main_v112 main_v143 main_v144 (mulf : (⟨S_, .f32⟩ : BufTy).Contents (Elt F) → (⟨S_, .f32⟩ : BufTy).Contents (Elt F) → (⟨S_, .f32⟩ : BufTy).Contents (Elt F))
  :: StableHlo.binary main_v114 main_v120 main_v145 (mulf : (⟨S_, .f32⟩ : BufTy).Contents (Elt F) → (⟨S_, .f32⟩ : BufTy).Contents (Elt F) → (⟨S_, .f32⟩ : BufTy).Contents (Elt F))
  :: StableHlo.binary main_v116 main_v122 main_v146 (mulf : (⟨S_, .f32⟩ : BufTy).Contents (Elt F) → (⟨S_, .f32⟩ : BufTy).Contents (Elt F) → (⟨S_, .f32⟩ : BufTy).Contents (Elt F))
  :: StableHlo.binary main_v145 main_v146 main_v147 (addf : (⟨S_, .f32⟩ : BufTy).Contents (Elt F) → (⟨S_, .f32⟩ : BufTy).Contents (Elt F) → (⟨S_, .f32⟩ : BufTy).Contents (Elt F))
  :: StableHlo.binary main_v118 main_v147 main_v148 (mulf : (⟨S_, .f32⟩ : BufTy).Contents (Elt F) → (⟨S_, .f32⟩ : BufTy).Contents (Elt F) → (⟨S_, .f32⟩ : BufTy).Contents (Elt F))
  :: StableHlo.binary main_v144 main_v148 main_v149 (subf : (⟨S_, .f32⟩ : BufTy).Contents (Elt F) → (⟨S_, .f32⟩ : BufTy).Contents (Elt F) → (⟨S_, .f32⟩ : BufTy).Contents (Elt F))
  :: StableHlo.nullary main_cst_35 (constant S_ .f32 0x3F800000#32)
  :: StableHlo.binary main_cst_35 main_v123 main_v150 (subf : (⟨S_, .f32⟩ : BufTy).Contents (Elt F) → (⟨S_, .f32⟩ : BufTy).Contents (Elt F) → (⟨S_, .f32⟩ : BufTy).Contents (Elt F))
  :: StableHlo.binary main_v149 main_v150 main_v151 (mulf : (⟨S_, .f32⟩ : BufTy).Contents (Elt F) → (⟨S_, .f32⟩ : BufTy).Contents (Elt F) → (⟨S_, .f32⟩ : BufTy).Contents (Elt F))
  :: StableHlo.binary main_v114 main_v122 main_v152 (mulf : (⟨S_, .f32⟩ : BufTy).Contents (Elt F) → (⟨S_, .f32⟩ : BufTy).Contents (Elt F) → (⟨S_, .f32⟩ : BufTy).Contents (Elt F))
  :: StableHlo.binary main_v116 main_v120 main_v153 (mulf : (⟨S_, .f32⟩ : BufTy).Contents (Elt F) → (⟨S_, .f32⟩ : BufTy).Contents (Elt F) → (⟨S_, .f32⟩ : BufTy).Contents (Elt F))
  :: StableHlo.binary main_v152 main_v153 main_v154 (subf : (⟨S_, .f32⟩ : BufTy).Contents (Elt F) → (⟨S_, .f32⟩ : BufTy).Contents (Elt F) → (⟨S_, .f32⟩ : BufTy).Contents (Elt F))
  :: StableHlo.binary main_v154 main_v124 main_v155 (mulf : (⟨S_, .f32⟩ : BufTy).Contents (Elt F) → (⟨S_, .f32⟩ : BufTy).Contents (Elt F) → (⟨S_, .f32⟩ : BufTy).Contents (Elt F))
  :: StableHlo.binary main_v151 main_v155 main_v156 (addf : (⟨S_, .f32⟩ : BufTy).Contents (Elt F) → (⟨S_, .f32⟩ : BufTy).Contents (Elt F) → (⟨S_, .f32⟩ : BufTy).Contents (Elt F))
  :: StableHlo.binary main_v118 main_v120 main_v157 (mulf : (⟨S_, .f32⟩ : BufTy).Contents (Elt F) → (⟨S_, .f32⟩ : BufTy).Contents (Elt F) → (⟨S_, .f32⟩ : BufTy).Contents (Elt F))
  :: StableHlo.nullary main_cst_36 (constant S_ .f32 0x3F800000#32)
  :: StableHlo.binary main_cst_36 main_v123 main_v158 (subf : (⟨S_, .f32⟩ : BufTy).Contents (Elt F) → (⟨S_, .f32⟩ : BufTy).Contents (Elt F) → (⟨S_, .f32⟩ : BufTy).Contents (Elt F))
  :: StableHlo.binary main_v157 main_v158 main_v159 (mulf : (⟨S_, .f32⟩ : BufTy).Contents (Elt F) → (⟨S_, .f32⟩ : BufTy).Contents (Elt F) → (⟨S_, .f32⟩ : BufTy).Contents (Elt F))
  :: StableHlo.binary main_v122 main_v124 main_v160 (mulf : (⟨S_, .f32⟩ : BufTy).Contents (Elt F) → (⟨S_, .f32⟩ : BufTy).Contents (Elt F) → (⟨S_, .f32⟩ : BufTy).Contents (Elt F))
  :: StableHlo.binary main_v159 main_v160 main_v161 (addf : (⟨S_, .f32⟩ : BufTy).Contents (Elt F) → (⟨S_, .f32⟩ : BufTy).Contents (Elt F) → (⟨S_, .f32⟩ : BufTy).Contents (Elt F))
  :: StableHlo.binary main_v120 main_v120 main_v162 (mulf : (⟨S_, .f32⟩ : BufTy).Contents (Elt F) → (⟨S_, .f32⟩ : BufTy).Contents (Elt F) → (⟨S_, .f32⟩ : BufTy).Contents (Elt F))
  :: StableHlo.binary main_v118 main_v118 main_v163 (mulf : (⟨S_, .f32⟩ : BufTy).Contents (Elt F) → (⟨S_, .f32⟩ : BufTy).Contents (Elt F) → (⟨S_, .f32⟩ : BufTy).Contents (Elt F))
  :: StableHlo.binary main_v122 main_v122 main_v164 (mulf : (⟨S_, .f32⟩ : BufTy).Contents (Elt F) → (⟨S_, .f32⟩ : BufTy).Contents (Elt F) → (⟨S_, .f32⟩ : BufTy).Contents (Elt F))
  :: StableHlo.binary main_v163 main_v164 main_v165 (addf : (⟨S_, .f32⟩ : BufTy).Contents (Elt F) → (⟨S_, .f32⟩ : BufTy).Contents (Elt F) → (⟨S_, .f32⟩ : BufTy).Contents (Elt F))
  :: StableHlo.binary main_v165 main_v123 main_v166 (mulf : (⟨S_, .f32⟩ : BufTy).Contents (Elt F) → (⟨S_, .f32⟩ : BufTy).Contents (Elt F) → (⟨S_, .f32⟩ : BufTy).Contents (Elt F))
  :: StableHlo.binary main_v162 main_v166 main_v167 (addf : (⟨S_, .f32⟩ : BufTy).Contents (Elt F) → (⟨S_, .f32⟩ : BufTy).Contents (Elt F) → (⟨S_, .f32⟩ : BufTy).Contents (Elt F))
  :: StableHlo.binary main_v120 main_v122 main_v168 (mulf : (⟨S_, .f32⟩ : BufTy).Contents (Elt F) → (⟨S_, .f32⟩ : BufTy).Contents (Elt F) → (⟨S_, .f32⟩ : BufTy).Contents (Elt F))
  :: StableHlo.nullary main_cst_37 (constant S_ .f32 0x3F800000#32)
  :: StableHlo.binary main_cst_37 main_v123 main_v169 (subf : (⟨S_, .f32⟩ : BufTy).Contents (Elt F) → (⟨S_, .f32⟩ : BufTy).Contents (Elt F) → (⟨S_, .f32⟩ : BufTy).Contents (Elt F))
  :: StableHlo.binary main_v168 main_v169 main_v170 (mulf : (⟨S_, .f32⟩ : BufTy).Contents (Elt F) → (⟨S_, .f32⟩ : BufTy).Contents (Elt F) → (⟨S_, .f32⟩ : BufTy).Contents (Elt F))
  :: [] )
theorem p10_sub : (p10 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub ..⟩
theorem p10_fresh : ∀ op ∈ (p10 : List (HloOp τ sig (Elt F))), op.fresh = ∅ := by
  intro _ h; (repeat (cases h with | head => rfl | tail _ h => ?_)); exact nomatch h

/-- Operations 214 … 243 of the reference's 331, in order (results main_v171 … main_v197). -/
abbrev p11 : List (HloOp τ sig (Elt F)) :=
  ( StableHlo.binary main_v118 main_v124 main_v171 (mulf : (⟨S_, .f32⟩ : BufTy).Contents (Elt F) → (⟨S_, .f32⟩ : BufTy).Contents (Elt F) → (⟨S_, .f32⟩ : BufTy).Contents (Elt F))
  :: StableHlo.binary main_v170 main_v171 main_v172 (subf : (⟨S_, .f32⟩ : BufTy).Contents (Elt F) → (⟨S_, .f32⟩ : BufTy).Contents (Elt F) → (⟨S_, .f32⟩ : BufTy).Contents (Elt F))
  :: StableHlo.binary main_v118 main_v118 main_v173 (mulf : (⟨S_, .f32⟩ : BufTy).Contents (Elt F) → (⟨S_, .f32⟩ : BufTy).Contents (Elt F) → (⟨S_, .f32⟩ : BufTy).Contents (Elt F))
  :: StableHlo.binary main_v122 main_v122 main_v174 (mulf : (⟨S_, .f32⟩ : BufTy).Contents (Elt F) → (⟨S_, .f32⟩ : BufTy).Contents (Elt F) → (⟨S_, .f32⟩ : BufTy).Contents (Elt F))
  :: StableHlo.binary main_v173 main_v174 main_v175 (addf : (⟨S_, .f32⟩ : BufTy).Contents (Elt F) → (⟨S_, .f32⟩ : BufTy).Contents (Elt F) → (⟨S_, .f32⟩ : BufTy).Contents (Elt F))
  :: StableHlo.binary main_v114 main_v175 main_v176 (mulf : (⟨S_, .f32⟩ : BufTy).Contents (Elt F) → (⟨S_, .f32⟩ : BufTy).Contents (Elt F) → (⟨S_, .f32⟩ : BufTy).Contents (Elt F))
  :: StableHlo.binary main_v112 main_v118 main_v177 (mulf : (⟨S_, .f32⟩ : BufTy).Contents (Elt F) → (⟨S_, .f32⟩ : BufTy).Contents (Elt F) → (⟨S_, .f32⟩ : BufTy).Contents (Elt F))
  :: StableHlo.binary main_v116 main_v122 main_v178 (mulf : (⟨S_, .f32⟩ : BufTy).Contents (Elt F) → (⟨S_, .f32⟩ : BufTy).Contents (Elt F) → (⟨S_, .f32⟩ : BufTy).Contents (Elt F))
  :: StableHlo.binary main_v177 main_v178 main_v179 (addf : (⟨S_, .f32⟩ : BufTy).Contents (Elt F) → (⟨S_, .f32⟩ : BufTy).Contents (Elt F) → (⟨S_, .f32⟩ : BufTy).Contents (Elt F))
  :: StableHlo.binary main_v120 main_v179 main_v180 (mulf : (⟨S_, .f32⟩ : BufTy).Contents (Elt F) → (⟨S_, .f32⟩ : BufTy).Contents (Elt F) → (⟨S_, .f32⟩ : BufTy).Contents (Elt F))
  :: StableHlo.binary main_v176 main_v180 main_v181 (subf : (⟨S_, .f32⟩ : BufTy).Contents (Elt F) → (⟨S_, .f32⟩ : BufTy).Contents (Elt F) → (⟨S_, .f32⟩ : BufTy).Contents (Elt F))
  :: StableHlo.nullary main_cst_38 (constant S_ .f32 0x3F800000#32)
  :: StableHlo.binary main_cst_38 main_v123 main_v182 (subf : (⟨S_, .f32⟩ : BufTy).Contents (Elt F) → (⟨S_, .f32⟩ : BufTy).Contents (Elt F) → (⟨S_, .f32⟩ : BufTy).Contents (Elt F))
  :: StableHlo.binary main_v181 main_v182 main_v183 (mulf : (⟨S_, .f32⟩ : BufTy).Contents (Elt F) → (⟨S_, .f32⟩ : BufTy).Contents (Elt F) → (⟨S_, .f32⟩ : BufTy).Contents (Elt F))
  :: StableHlo.binary main_v116 main_v118 main_v184 (mulf : (⟨S_, .f32⟩ : BufTy).Contents (Elt F) → (⟨S_, .f32⟩ : BufTy).Contents (Elt F) → (⟨S_, .f32⟩ : BufTy).Contents (Elt F))
  :: StableHlo.binary main_v112 main_v122 main_v185 (mulf : (⟨S_, .f32⟩ : BufTy).Contents (Elt F) → (⟨S_, .f32⟩ : BufTy).Contents (Elt F) → (⟨S_, .f32⟩ : BufTy).Contents (Elt F))
  :: StableHlo.binary main_v184 main_v185 main_v186 (subf : (⟨S_, .f32⟩ : BufTy).Contents (Elt F) → (⟨S_, .f32⟩ : BufTy).Contents (Elt F) → (⟨S_, .f32⟩ : BufTy).Contents (Elt F))
  :: StableHlo.binary main_v186 main_v124 main_v187 (mulf : (⟨S_, .f32⟩ : BufTy).Contents (Elt F) → (⟨S_, .f32⟩ : BufTy).Contents (Elt F) → (⟨S_, .f32⟩ : BufTy).Contents (Elt F))
  :: StableHlo.binary main_v183 main_v187 main_v188 (addf : (⟨S_, .f32⟩ : BufTy).Contents (Elt F) → (⟨S_, .f32⟩ : BufTy).Contents (Elt F) → (⟨S_, .f32⟩ : BufTy).Contents (Elt F))
  :: StableHlo.binary main_v118 main_v122 main_v189 (mulf : (⟨S_, .f32⟩ : BufTy).Contents (Elt F) → (⟨S_, .f32⟩ : BufTy).Contents (Elt F) → (⟨S_, .f32⟩ : BufTy).Contents (Elt F))
  :: StableHlo.nullary main_cst_39 (constant S_ .f32 0x3F800000#32)
  :: StableHlo.binary main_cst_39 main_v123 main_v190 (subf : (⟨S_, .f32⟩ : BufTy).Contents (Elt F) → (⟨S_, .f32⟩ : BufTy).Contents (Elt F) → (⟨S_, .f32⟩ : BufTy).Contents (Elt F))
  :: StableHlo.binary main_v189 main_v190 main_v191 (mulf : (⟨S_, .f32⟩ : BufTy).Contents (Elt F) → (⟨S_, .f32⟩ : BufTy).Contents (Elt F) → (⟨S_, .f32⟩ : BufTy).Contents (Elt F))
  :: StableHlo.binary main_v120 main_v124 main_v192 (mulf : (⟨S_, .f32⟩ : BufTy).Contents (Elt F) → (⟨S_, .f32⟩ : BufTy).Contents (Elt F) → (⟨S_, .f32⟩ : BufTy).Contents (Elt F))
  :: StableHlo.binary main_v191 main_v192 main_v193 (subf : (⟨S_, .f32⟩ : BufTy).Contents (Elt F) → (⟨S_, .f32⟩ : BufTy).Contents (Elt F) → (⟨S_, .f32⟩ : BufTy).Contents (Elt F))
  :: StableHlo.binary main_v120 main_v122 main_v194 (mulf : (⟨S_, .f32⟩ : BufTy).Contents (Elt F) → (⟨S_, .f32⟩ : BufTy).Contents (Elt F) → (⟨S_, .f32⟩ : BufTy).Contents (Elt F))
  :: StableHlo.nullary main_cst_40 (constant S_ .f32 0x3F800000#32)
  :: StableHlo.binary main_cst_40 main_v123 main_v195 (subf : (⟨S_, .f32⟩ : BufTy).Contents (Elt F) → (⟨S_, .f32⟩ : BufTy).Contents (Elt F) → (⟨S_, .f32⟩ : BufTy).Contents (Elt F))
  :: StableHlo.binary main_v194 main_v195 main_v196 (mulf : (⟨S_, .f32⟩ : BufTy).Contents (Elt F) → (⟨S_, .f32⟩ : BufTy).Contents (Elt F) → (⟨S_, .f32⟩ : BufTy).Contents (Elt F))
  :: StableHlo.binary main_v118 main_v124 main_v197 (mulf : (⟨S_, .f32⟩ : BufTy).Contents (Elt F) → (⟨S_, .f32⟩ : BufTy).Contents (Elt F) → (⟨S_, .f32⟩ : BufTy).Contents (Elt F))
  :: [] )
theorem p11_sub : (p11 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub ..⟩
theorem p11_fresh : ∀ op ∈ (p11 : List (HloOp τ sig (Elt F))), op.fresh = ∅ := by
  intro _ h; (repeat (cases h with | head => rfl | tail _ h => ?_)); exact nomatch h

/-- Operations 244 … 266 of the reference's 331, in order (results main_v198 … main_v219). -/
abbrev p12 : List (HloOp τ sig (Elt F)) :=
  ( StableHlo.binary main_v196 main_v197 main_v198 (addf : (⟨S_, .f32⟩ : BufTy).Contents (Elt F) → (⟨S_, .f32⟩ : BufTy).Contents (Elt F) → (⟨S_, .f32⟩ : BufTy).Contents (Elt F))
  :: StableHlo.binary main_v122 main_v122 main_v199 (mulf : (⟨S_, .f32⟩ : BufTy).Contents (Elt F) → (⟨S_, .f32⟩ : BufTy).Contents (Elt F) → (⟨S_, .f32⟩ : BufTy).Contents (Elt F))
  :: StableHlo.binary main_v118 main_v118 main_v200 (mulf : (⟨S_, .f32⟩ : BufTy).Contents (Elt F) → (⟨S_, .f32⟩ : BufTy).Contents (Elt F) → (⟨S_, .f32⟩ : BufTy).Contents (Elt F))
  :: StableHlo.binary main_v120 main_v120 main_v201 (mulf : (⟨S_, .f32⟩ : BufTy).Contents (Elt F) → (⟨S_, .f32⟩ : BufTy).Contents (Elt F) → (⟨S_, .f32⟩ : BufTy).Contents (Elt F))
  :: StableHlo.binary main_v200 main_v201 main_v202 (addf : (⟨S_, .f32⟩ : BufTy).Contents (Elt F) → (⟨S_, .f32⟩ : BufTy).Contents (Elt F) → (⟨S_, .f32⟩ : BufTy).Contents (Elt F))
  :: StableHlo.binary main_v202 main_v123 main_v203 (mulf : (⟨S_, .f32⟩ : BufTy).Contents (Elt F) → (⟨S_, .f32⟩ : BufTy).Contents (Elt F) → (⟨S_, .f32⟩ : BufTy).Contents (Elt F))
  :: StableHlo.binary main_v199 main_v203 main_v204 (addf : (⟨S_, .f32⟩ : BufTy).Contents (Elt F) → (⟨S_, .f32⟩ : BufTy).Contents (Elt F) → (⟨S_, .f32⟩ : BufTy).Contents (Elt F))
  :: StableHlo.binary main_v118 main_v118 main_v205 (mulf : (⟨S_, .f32⟩ : BufTy).Contents (Elt F) → (⟨S_, .f32⟩ : BufTy).Contents (Elt F) → (⟨S_, .f32⟩ : BufTy).Contents (Elt F))
  :: StableHlo.binary main_v120 main_v120 main_v206 (mulf : (⟨S_, .f32⟩ : BufTy).Contents (Elt F) → (⟨S_, .f32⟩ : BufTy).Contents (Elt F) → (⟨S_, .f32⟩ : BufTy).Contents (Elt F))
  :: StableHlo.binary main_v205 main_v206 main_v207 (addf : (⟨S_, .f32⟩ : BufTy).Contents (Elt F) → (⟨S_, .f32⟩ : BufTy).Contents (Elt F) → (⟨S_, .f32⟩ : BufTy).Contents (Elt F))
  :: StableHlo.binary main_v116 main_v207 main_v208 (mulf : (⟨S_, .f32⟩ : BufTy).Contents (Elt F) → (⟨S_, .f32⟩ : BufTy).Contents (Elt F) → (⟨S_, .f32⟩ : BufTy).Contents (Elt F))
  :: StableHlo.binary main_v112 main_v118 main_v209 (mulf : (⟨S_, .f32⟩ : BufTy).Contents (Elt F) → (⟨S_, .f32⟩ : BufTy).Contents (Elt F) → (⟨S_, .f32⟩ : BufTy).Contents (Elt F))
  :: StableHlo.binary main_v114 main_v120 main_v210 (mulf : (⟨S_, .f32⟩ : BufTy).Contents (Elt F) → (⟨S_, .f32⟩ : BufTy).Contents (Elt F) → (⟨S_, .f32⟩ : BufTy).Contents (Elt F))
  :: StableHlo.binary main_v209 main_v210 main_v211 (addf : (⟨S_, .f32⟩ : BufTy).Contents (Elt F) → (⟨S_, .f32⟩ : BufTy).Contents (Elt F) → (⟨S_, .f32⟩ : BufTy).Contents (Elt F))
  :: StableHlo.binary main_v122 main_v211 main_v212 (mulf : (⟨S_, .f32⟩ : BufTy).Contents (Elt F) → (⟨S_, .f32⟩ : BufTy).Contents (Elt F) → (⟨S_, .f32⟩ : BufTy).Contents (Elt F))
  :: StableHlo.binary main_v208 main_v212 main_v213 (subf : (⟨S_, .f32⟩ : BufTy).Contents (Elt F) → (⟨S_, .f32⟩ : BufTy).Contents (Elt F) → (⟨S_, .f32⟩ : BufTy).Contents (Elt F))
  :: StableHlo.nullary main_cst_41 (constant S_ .f32 0x3F800000#32)
  :: StableHlo.binary main_cst_41 main_v123 main_v214 (subf : (⟨S_, .f32⟩ : BufTy).Contents (Elt F) → (⟨S_, .f32⟩ : BufTy).Contents (Elt F) → (⟨S_, .f32⟩ : BufTy).Contents (Elt F))
  :: StableHlo.binary main_v213 main_v214 main_v215 (mulf : (⟨S_, .f32⟩ : BufTy).Contents (Elt F) → (⟨S_, .f32⟩ : BufTy).Contents (Elt F) → (⟨S_, .f32⟩ : BufTy).Contents (Elt F))
  :: StableHlo.binary main_v112 main_v120 main_v216 (mulf : (⟨S_, .f32⟩ : BufTy).Contents (Elt F) → (⟨S_, .f32⟩ : BufTy).Contents (Elt F) → (⟨S_, .f32⟩ : BufTy).Contents (Elt F))
  :: StableHlo.binary main_v114 main_v118 main_v217 (mulf : (⟨S_, .f32⟩ : BufTy).Contents (Elt F) → (⟨S_, .f32⟩ : BufTy).Contents (Elt F) → (⟨S_, .f32⟩ : BufTy).Contents (Elt F))
  :: StableHlo.binary main_v216 main_v217 main_v218 (subf : (⟨S_, .f32⟩ : BufTy).Contents (Elt F) → (⟨S_, .f32⟩ : BufTy).Contents (Elt F) → (⟨S_, .f32⟩ : BufTy).Contents (Elt F))
  :: StableHlo.binary main_v218 main_v124 main_v219 (mulf : (⟨S_, .f32⟩ : BufTy).Contents (Elt F) → (⟨S_, .f32⟩ : BufTy).Contents (Elt F) → (⟨S_, .f32⟩ : BufTy).Contents (Elt F))
  :: [] )
theorem p12_sub : (p12 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub ..⟩
theorem p12_fresh : ∀ op ∈ (p12 : List (HloOp τ sig (Elt F))), op.fresh = ∅ := by
  intro _ h; (repeat (cases h with | head => rfl | tail _ h => ?_)); exact nomatch h

/-- Operations 267 … 289 of the reference's 331, in order (results main_v220 … main_v242). -/
abbrev p13 : List (HloOp τ sig (Elt F)) :=
  ( StableHlo.binary main_v215 main_v219 main_v220 (addf : (⟨S_, .f32⟩ : BufTy).Contents (Elt F) → (⟨S_, .f32⟩ : BufTy).Contents (Elt F) → (⟨S_, .f32⟩ : BufTy).Contents (Elt F))
  :: StableHlo.unary main_v130 main_v221 (broadcastInDim S1 ![] bcast_S_S1 : (⟨S_, .f32⟩ : BufTy).Contents (Elt F) → (⟨S1, .f32⟩ : BufTy).Contents (Elt F))
  :: StableHlo.unary main_v135 main_v222 (broadcastInDim S1 ![] bcast_S_S1 : (⟨S_, .f32⟩ : BufTy).Contents (Elt F) → (⟨S1, .f32⟩ : BufTy).Contents (Elt F))
  :: StableHlo.unary main_v140 main_v223 (broadcastInDim S1 ![] bcast_S_S1 : (⟨S_, .f32⟩ : BufTy).Contents (Elt F) → (⟨S1, .f32⟩ : BufTy).Contents (Elt F))
  :: StableHlo.unary main_v156 main_v224 (broadcastInDim S1 ![] bcast_S_S1 : (⟨S_, .f32⟩ : BufTy).Contents (Elt F) → (⟨S1, .f32⟩ : BufTy).Contents (Elt F))
  :: StableHlo.unary main_v161 main_v225 (broadcastInDim S1 ![] bcast_S_S1 : (⟨S_, .f32⟩ : BufTy).Contents (Elt F) → (⟨S1, .f32⟩ : BufTy).Contents (Elt F))
  :: StableHlo.unary main_v167 main_v226 (broadcastInDim S1 ![] bcast_S_S1 : (⟨S_, .f32⟩ : BufTy).Contents (Elt F) → (⟨S1, .f32⟩ : BufTy).Contents (Elt F))
  :: StableHlo.unary main_v172 main_v227 (broadcastInDim S1 ![] bcast_S_S1 : (⟨S_, .f32⟩ : BufTy).Contents (Elt F) → (⟨S1, .f32⟩ : BufTy).Contents (Elt F))
  :: StableHlo.unary main_v188 main_v228 (broadcastInDim S1 ![] bcast_S_S1 : (⟨S_, .f32⟩ : BufTy).Contents (Elt F) → (⟨S1, .f32⟩ : BufTy).Contents (Elt F))
  :: StableHlo.unary main_v193 main_v229 (broadcastInDim S1 ![] bcast_S_S1 : (⟨S_, .f32⟩ : BufTy).Contents (Elt F) → (⟨S1, .f32⟩ : BufTy).Contents (Elt F))
  :: StableHlo.unary main_v198 main_v230 (broadcastInDim S1 ![] bcast_S_S1 : (⟨S_, .f32⟩ : BufTy).Contents (Elt F) → (⟨S1, .f32⟩ : BufTy).Contents (Elt F))
  :: StableHlo.unary main_v204 main_v231 (broadcastInDim S1 ![] bcast_S_S1 : (⟨S_, .f32⟩ : BufTy).Contents (Elt F) → (⟨S1, .f32⟩ : BufTy).Contents (Elt F))
  :: StableHlo.unary main_v220 main_v232 (broadcastInDim S1 ![] bcast_S_S1 : (⟨S_, .f32⟩ : BufTy).Contents (Elt F) → (⟨S1, .f32⟩ : BufTy).Contents (Elt F))
  :: StableHlo.nary ![main_v221, main_v222, main_v223, main_v224, main_v225, main_v226, main_v227, main_v228, main_v229, main_v230, main_v231, main_v232] main_v233 (fun u => concatenate S12 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩, ⟨S1, u 9⟩, ⟨S1, u 10⟩, ⟨S1, u 11⟩] concatenates_S1_S1_S1_S1_S1_S1_S1_S1_S1_S1_S1_S1_S12_d0)
  :: StableHlo.reshape main_v233 main_v234 rfl shapeCasts_S12_S3x4
  :: StableHlo.binary main_v234 main_cst_0 main_v235 ((fun a b => concatenate S4x4 0 [⟨S3x4, a⟩, ⟨S1x4, b⟩] concatenates_S3x4_S1x4_S4x4_d0) : (⟨S3x4, .f32⟩ : BufTy).Contents (Elt F) → (⟨S1x4, .f32⟩ : BufTy).Contents (Elt F) → (⟨S4x4, .f32⟩ : BufTy).Contents (Elt F))
  :: StableHlo.binary main_v235 main_v74 main_v236 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F))
  :: StableHlo.unary main_v2 main_v237 ((extractStridedSlice S1x8192x4 ![1, 0, 0] · slices_S2x8192x4_S1x8192x4_1_0_0) : (⟨S2x8192x4, .f32⟩ : BufTy).Contents (Elt F) → (⟨S1x8192x4, .f32⟩ : BufTy).Contents (Elt F))
  :: StableHlo.reshape main_v237 main_v238 rfl shapeCasts_S1x8192x4_S8192x4
  :: StableHlo.unary main_v236 main_v239 ((transpose S4x4 [1, 0] · transposes_S4x4_S4x4_1_0) : (⟨S4x4, .f32⟩ : BufTy).Contents (Elt F) → (⟨S4x4, .f32⟩ : BufTy).Contents (Elt F))
  :: StableHlo.binary main_v238 main_v239 main_v240 ((fun l r => Host.dotGeneral dot_S8192x4_S4x4_S8192x4_1_0_0_1_n_n none l r) : (⟨S8192x4, .f32⟩ : BufTy).Contents (Elt F) → (⟨S4x4, .f32⟩ : BufTy).Contents (Elt F) → (⟨S8192x4, .f32⟩ : BufTy).Contents (Elt F))
  :: StableHlo.unary main_v1 main_v241 ((extractStridedSlice S1x8192x4 ![1, 0, 0] · slices_S2x8192x4_S1x8192x4_1_0_0) : (⟨S2x8192x4, .f32⟩ : BufTy).Contents (Elt F) → (⟨S1x8192x4, .f32⟩ : BufTy).Contents (Elt F))
  :: StableHlo.reshape main_v241 main_v242 rfl shapeCasts_S1x8192x4_S8192x4
  :: [] )
theorem p13_sub : (p13 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub ..⟩
theorem p13_fresh : ∀ op ∈ (p13 : List (HloOp τ sig (Elt F))), op.fresh = ∅ := by
  intro _ h; (repeat (cases h with | head => rfl | tail _ h => ?_)); exact nomatch h

/-- Operations 290 … 303 of the reference's 331, in order (results main_v243 … main_v253). -/
abbrev p14 : List (HloOp τ sig (Elt F)) :=
  ( StableHlo.binary main_v240 main_v240 main_v243 (mulf : (⟨S8192x4, .f32⟩ : BufTy).Contents (Elt F) → (⟨S8192x4, .f32⟩ : BufTy).Contents (Elt F) → (⟨S8192x4, .f32⟩ : BufTy).Contents (Elt F))
  :: StableHlo.nullary main_cst_42 (constant S_ .f32 0x00000000#32)
  :: StableHlo.binary main_v243 main_cst_42 main_v244 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F))
  :: StableHlo.unary main_v244 main_v245 (broadcastInDim S8192x1 ![0] bcast_S8192_S8192x1_0 : (⟨S8192, .f32⟩ : BufTy).Contents (Elt F) → (⟨S8192x1, .f32⟩ : BufTy).Contents (Elt F))
  :: StableHlo.binary main_v242 main_v242 main_v246 (mulf : (⟨S8192x4, .f32⟩ : BufTy).Contents (Elt F) → (⟨S8192x4, .f32⟩ : BufTy).Contents (Elt F) → (⟨S8192x4, .f32⟩ : BufTy).Contents (Elt F))
  :: StableHlo.nullary main_cst_43 (constant S_ .f32 0x00000000#32)
  :: StableHlo.binary main_v246 main_cst_43 main_v247 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F))
  :: StableHlo.unary main_v247 main_v248 (broadcastInDim S1x8192 ![1] bcast_S8192_S1x8192_1 : (⟨S8192, .f32⟩ : BufTy).Contents (Elt F) → (⟨S1x8192, .f32⟩ : BufTy).Contents (Elt F))
  :: StableHlo.unary main_v245 main_v249 (broadcastInDim S8192x8192 ![0, 1] bcast_S8192x1_S8192x8192_0_1 : (⟨S8192x1, .f32⟩ : BufTy).Contents (Elt F) → (⟨S8192x8192, .f32⟩ : BufTy).Contents (Elt F))
  :: StableHlo.unary main_v248 main_v250 (broadcastInDim S8192x8192 ![0, 1] bcast_S1x8192_S8192x8192_0_1 : (⟨S1x8192, .f32⟩ : BufTy).Contents (Elt F) → (⟨S8192x8192, .f32⟩ : BufTy).Contents (Elt F))
  :: StableHlo.binary main_v249 main_v250 main_v251 (addf : (⟨S8192x8192, .f32⟩ : BufTy).Contents (Elt F) → (⟨S8192x8192, .f32⟩ : BufTy).Contents (Elt F) → (⟨S8192x8192, .f32⟩ : BufTy).Contents (Elt F))
  :: StableHlo.nullary main_cst_44 (constant S_ .f32 0x40000000#32)
  :: StableHlo.unary main_cst_44 main_v252 (broadcastInDim S8192x4 ![] bcast_S_S8192x4 : (⟨S_, .f32⟩ : BufTy).Contents (Elt F) → (⟨S8192x4, .f32⟩ : BufTy).Contents (Elt F))
  :: StableHlo.binary main_v252 main_v240 main_v253 (mulf : (⟨S8192x4, .f32⟩ : BufTy).Contents (Elt F) → (⟨S8192x4, .f32⟩ : BufTy).Contents (Elt F) → (⟨S8192x4, .f32⟩ : BufTy).Contents (Elt F))
  :: [] )
theorem p14_sub : (p14 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub ..⟩
theorem p14_fresh : ∀ op ∈ (p14 : List (HloOp τ sig (Elt F))), op.fresh = ∅ := by
  intro _ h; (repeat (cases h with | head => rfl | tail _ h => ?_)); exact nomatch h

/-- Operations 304 … 323 of the reference's 331, in order (results main_v254 … main_v266). -/
abbrev p15 : List (HloOp τ sig (Elt F)) :=
  ( StableHlo.unary main_v242 main_v254 ((transpose S4x8192 [1, 0] · transposes_S8192x4_S4x8192_1_0) : (⟨S8192x4, .f32⟩ : BufTy).Contents (Elt F) → (⟨S4x8192, .f32⟩ : BufTy).Contents (Elt F))
  :: StableHlo.binary main_v253 main_v254 main_v255 ((fun l r => Host.dotGeneral dot_S8192x4_S4x8192_S8192x8192_1_0_0_1_n_n none l r) : (⟨S8192x4, .f32⟩ : BufTy).Contents (Elt F) → (⟨S4x8192, .f32⟩ : BufTy).Contents (Elt F) → (⟨S8192x8192, .f32⟩ : BufTy).Contents (Elt F))
  :: StableHlo.binary main_v251 main_v255 main_v256 (subf : (⟨S8192x8192, .f32⟩ : BufTy).Contents (Elt F) → (⟨S8192x8192, .f32⟩ : BufTy).Contents (Elt F) → (⟨S8192x8192, .f32⟩ : BufTy).Contents (Elt F))
  :: StableHlo.nullary main_cst_45 (constant S_ .f32 0x00000000#32)
  :: StableHlo.unary main_cst_45 main_v257 (broadcastInDim S8192x8192 ![] bcast_S_S8192x8192 : (⟨S_, .f32⟩ : BufTy).Contents (Elt F) → (⟨S8192x8192, .f32⟩ : BufTy).Contents (Elt F))
  :: StableHlo.binary main_v256 main_v257 main_v258 (maximumf : (⟨S8192x8192, .f32⟩ : BufTy).Contents (Elt F) → (⟨S8192x8192, .f32⟩ : BufTy).Contents (Elt F) → (⟨S8192x8192, .f32⟩ : BufTy).Contents (Elt F))
  :: StableHlo.unary main_v258 main_v259 (Host.sqrt : (⟨S8192x8192, .f32⟩ : BufTy).Contents (Elt F) → (⟨S8192x8192, .f32⟩ : BufTy).Contents (Elt F))
  :: StableHlo.nullary main_cst_46 (constant S_ .f32 0x7F800000#32)
  :: StableHlo.binary main_v259 main_cst_46 main_v260 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F))
  :: StableHlo.nullary main_cst_47 (constant S_ .f32 0x00000000#32)
  :: StableHlo.binary main_v260 main_cst_47 main_v261 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_48 (constant S_ .f32 0x46000000#32)
  :: StableHlo.binary main_v261 main_cst_48 main_v262 (Host.divf : (⟨S_, .f32⟩ : BufTy).Contents (Elt F) → (⟨S_, .f32⟩ : BufTy).Contents (Elt F) → (⟨S_, .f32⟩ : BufTy).Contents (Elt F))
  :: StableHlo.nullary main_cst_49 (constant S_ .f32 0x7F800000#32)
  :: StableHlo.binary main_v259 main_cst_49 main_v263 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F))
  :: StableHlo.nullary main_cst_50 (constant S_ .f32 0x00000000#32)
  :: StableHlo.binary main_v263 main_cst_50 main_v264 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_51 (constant S_ .f32 0x46000000#32)
  :: StableHlo.binary main_v264 main_cst_51 main_v265 (Host.divf : (⟨S_, .f32⟩ : BufTy).Contents (Elt F) → (⟨S_, .f32⟩ : BufTy).Contents (Elt F) → (⟨S_, .f32⟩ : BufTy).Contents (Elt F))
  :: StableHlo.binary main_v262 main_v265 main_v266 (addf : (⟨S_, .f32⟩ : BufTy).Contents (Elt F) → (⟨S_, .f32⟩ : BufTy).Contents (Elt F) → (⟨S_, .f32⟩ : BufTy).Contents (Elt F))
  :: [] )
theorem p15_sub : (p15 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
theorem p15_fresh : ∀ op ∈ (p15 : List (HloOp τ sig (Elt F))), op.fresh = ∅ := by
  intro _ h; (repeat (cases h with | head => rfl | tail _ h => ?_)); exact nomatch h

/-- Operations 324 … 331 of the reference's 331, in order (results main_v267 … main_v273). -/
abbrev p16 : List (HloOp τ sig (Elt F)) :=
  ( StableHlo.unary main_arg4 main_v267 ((extractStridedSlice S1 ![1] · slices_S2_S1_1) : (⟨S2, .f32⟩ : BufTy).Contents (Elt F) → (⟨S1, .f32⟩ : BufTy).Contents (Elt F))
  :: StableHlo.reshape main_v267 main_v268 rfl shapeCasts_S1_S_
  :: StableHlo.binary main_v268 main_v266 main_v269 (mulf : (⟨S_, .f32⟩ : BufTy).Contents (Elt F) → (⟨S_, .f32⟩ : BufTy).Contents (Elt F) → (⟨S_, .f32⟩ : BufTy).Contents (Elt F))
  :: StableHlo.binary main_v107 main_v269 main_v270 (addf : (⟨S_, .f32⟩ : BufTy).Contents (Elt F) → (⟨S_, .f32⟩ : BufTy).Contents (Elt F) → (⟨S_, .f32⟩ : BufTy).Contents (Elt F))
  :: StableHlo.nullary main_cst_52 (constant S_ .f32 0x40000000#32)
  :: StableHlo.binary main_v270 main_cst_52 main_v271 (Host.divf : (⟨S_, .f32⟩ : BufTy).Contents (Elt F) → (⟨S_, .f32⟩ : BufTy).Contents (Elt F) → (⟨S_, .f32⟩ : BufTy).Contents (Elt F))
  :: StableHlo.unary main_v235 main_v272 (broadcastInDim S1x4x4 ![1, 2] bcast_S4x4_S1x4x4_1_2 : (⟨S4x4, .f32⟩ : BufTy).Contents (Elt F) → (⟨S1x4x4, .f32⟩ : BufTy).Contents (Elt F))
  :: StableHlo.unary main_v266 main_v273 (broadcastInDim S1 ![] bcast_S_S1 : (⟨S_, .f32⟩ : BufTy).Contents (Elt F) → (⟨S1, .f32⟩ : BufTy).Contents (Elt F))
  :: [] )
theorem p16_sub : (p16 : List (HloOp τ sig (Elt F))).Forall fun op => op.bufs ⊆ StableHlo.tcRefs τ sig :=
  ⟨StableHlo.unary_bufs_sub .., StableHlo.reshape_bufs_sub .., StableHlo.binary_bufs_sub .., StableHlo.binary_bufs_sub .., StableHlo.nullary_bufs_sub .., StableHlo.binary_bufs_sub .., StableHlo.unary_bufs_sub .., StableHlo.unary_bufs_sub ..⟩
theorem p16_fresh : ∀ op ∈ (p16 : List (HloOp τ sig (Elt F))), op.fresh = ∅ := by
  intro _ h; (repeat (cases h with | head => rfl | tail _ h => ?_)); exact nomatch h

/-! ## The stages -/

abbrev opsPre : List (HloOp τ sig (Elt F)) := p0 ++ p1 ++ p2 ++ p3 ++ p4 ++ p5
abbrev opsCh0 : List (HloOp τ sig (Elt F)) := p6 ++ p7
abbrev opsMid : List (HloOp τ sig (Elt F)) := p8 ++ p9 ++ p10 ++ p11 ++ p12 ++ p13
abbrev opsCh1 : List (HloOp τ sig (Elt F)) := p14 ++ p15
abbrev opsEnd : List (HloOp τ sig (Elt F)) := p16

/-- The reference's 331 operations, in order. -/
abbrev ops : List (HloOp τ sig (Elt F)) := opsPre ++ opsCh0 ++ opsMid ++ opsCh1 ++ opsEnd

/-! ## Each printed window is the line of its pieces -/

theorem part0_eq (c : Dev nD) : main_part0 (F := F) c = StableHlo.seq (p0 ++ p1 ++ p2 ++ p3) := by
  chain_rfl
theorem part1_eq (c : Dev nD) : main_part1 (F := F) c = StableHlo.seq (p4 ++ p5 ++ p6) := by
  chain_rfl
theorem part2_eq (c : Dev nD) : main_part2 (F := F) c = StableHlo.seq (p7 ++ p8 ++ p9) := by
  chain_rfl
theorem part3_eq (c : Dev nD) : main_part3 (F := F) c = StableHlo.seq (p10 ++ p11) := by
  chain_rfl
theorem part4_eq (c : Dev nD) : main_part4 (F := F) c = StableHlo.seq (p12 ++ p13 ++ p14) := by
  chain_rfl
theorem part5_eq (c : Dev nD) : main_part5 (F := F) c = StableHlo.seq (p15 ++ p16) := by
  chain_rfl

/-- @main is the line of all the operations: window after window (`seq_append`), the pieces regrouped. -/
theorem main_eq (c : Dev nD) : main (F := F) c = StableHlo.seq ops := by
  simp only [main, part0_eq, part1_eq, part2_eq, part3_eq, part4_eq, part5_eq, ops, opsPre, opsCh0, opsMid, opsCh1, opsEnd,
    StableHlo.seq_append, bind_assoc]

/-! ## Side conditions of the run -/

private theorem fa {p : HloOp τ sig (Elt F) → Prop} {xs ys : List (HloOp τ sig (Elt F))} (h₁ : xs.Forall p) (h₂ : ys.Forall p) :
    (xs ++ ys).Forall p := List.forall_append.2 ⟨h₁, h₂⟩
private theorem fr {p : HloOp τ sig (Elt F) → Prop} {xs ys : List (HloOp τ sig (Elt F))} (h₁ : ∀ op ∈ xs, p op) (h₂ : ∀ op ∈ ys, p op) :
    ∀ op ∈ xs ++ ys, p op := fun op h => (List.mem_append.1 h).elim (h₁ op) (h₂ op)

theorem opsPre_sub : (opsPre : List (HloOp τ sig (Elt F))).Forall fun op => op.bufs ⊆ StableHlo.tcRefs τ sig :=
  (fa (fa (fa (fa (fa p0_sub p1_sub) p2_sub) p3_sub) p4_sub) p5_sub)
theorem opsPre_fresh : ∀ op ∈ (opsPre : List (HloOp τ sig (Elt F))), op.fresh = ∅ :=
  (fr (fr (fr (fr (fr p0_fresh p1_fresh) p2_fresh) p3_fresh) p4_fresh) p5_fresh)
theorem opsCh0_sub : (opsCh0 : List (HloOp τ sig (Elt F))).Forall fun op => op.bufs ⊆ StableHlo.tcRefs τ sig :=
  (fa p6_sub p7_sub)
theorem opsCh0_fresh : ∀ op ∈ (opsCh0 : List (HloOp τ sig (Elt F))), op.fresh = ∅ :=
  (fr p6_fresh p7_fresh)
theorem opsMid_sub : (opsMid : List (HloOp τ sig (Elt F))).Forall fun op => op.bufs ⊆ StableHlo.tcRefs τ sig :=
  (fa (fa (fa (fa (fa p8_sub p9_sub) p10_sub) p11_sub) p12_sub) p13_sub)
theorem opsMid_fresh : ∀ op ∈ (opsMid : List (HloOp τ sig (Elt F))), op.fresh = ∅ :=
  (fr (fr (fr (fr (fr p8_fresh p9_fresh) p10_fresh) p11_fresh) p12_fresh) p13_fresh)
theorem opsCh1_sub : (opsCh1 : List (HloOp τ sig (Elt F))).Forall fun op => op.bufs ⊆ StableHlo.tcRefs τ sig :=
  (fa p14_sub p15_sub)
theorem opsCh1_fresh : ∀ op ∈ (opsCh1 : List (HloOp τ sig (Elt F))), op.fresh = ∅ :=
  (fr p14_fresh p15_fresh)
theorem opsEnd_sub : (opsEnd : List (HloOp τ sig (Elt F))).Forall fun op => op.bufs ⊆ StableHlo.tcRefs τ sig :=
  p16_sub
theorem opsEnd_fresh : ∀ op ∈ (opsEnd : List (HloOp τ sig (Elt F))), op.fresh = ∅ :=
  p16_fresh

/-- Every operation touches TensorCore references only. -/
theorem ops_sub : (ops : List (HloOp τ sig (Elt F))).Forall fun op => op.bufs ⊆ StableHlo.tcRefs τ sig :=
  fa (fa (fa (fa opsPre_sub opsCh0_sub) opsMid_sub) opsCh1_sub) opsEnd_sub

/-- No operation allocates: each determines its results. -/
theorem ops_fresh : ∀ op ∈ (ops : List (HloOp τ sig (Elt F))), op.fresh = ∅ :=
  fr (fr (fr (fr opsPre_fresh opsCh0_fresh) opsMid_fresh) opsCh1_fresh) opsEnd_fresh

end Cert.ReferenceIdeal.RR

end
-- ==== Proof.RRRun.lean ====
/-
  The reference program's run, read off its list of operations (RROps.lean): from any memory with zero counters
  every weakly fair execution of @main terminates, and each TensorCore buffer ends at the fold `after ops` of the
  operations' results over its launch contents (`run`). The fold over an append is the folds composed
  (`after_append`); an operation writes its own result buffer only, so a reference outside the list of those a
  stretch writes keeps its contents through it (`KeepsOff`, per piece and per stretch) — the arguments in
  particular, which is the frame (`frame`).
-/
import proofs.«128588_j377957122581_2_alg».proof.Proof.RROps

set_option synthInstance.maxSize 4096

noncomputable section

namespace Cert.ReferenceIdeal.RR

open Idealize.ShloMosaic Idealize.SL.Sem
open Cert.ReferenceIdeal
open Facts₀ Facts

variable {F : FTy → Type} [FloatOps F] [Facts]

-- deciding a reference's absence from a list of some three hundred recurses once per entry
set_option maxRecDepth 8192

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ (fun _ => ops_fresh)

/-! ## The fold over an append; what a stretch leaves unchanged -/

/-- The fold over two lines one after the other is the second's fold over the first's. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Every reference outside `W` keeps its contents through the line `l`. -/
def KeepsOff (W : List (Ref sig .tc)) (l : List (HloOp τ sig (Elt F))) : Prop :=
  ∀ r : Ref sig .tc, r ∉ W → ∀ V : Valuation τ sig (Elt F), StableHlo.after l V (Proc.devRef .tc r) = V (Proc.devRef .tc r)

theorem KeepsOff.of_writes {W : List (Ref sig .tc)} {l : List (HloOp τ sig (Elt F))}
    (hW : l.Forall fun op => op.writes ⊆ (W.map (Proc.devRef (τ := τ) .tc)).toFinset) : KeepsOff W l :=
  fun _ h V => StableHlo.after_of_writes_sub l V hW h

theorem KeepsOff.append {W₁ W₂ : List (Ref sig .tc)} {l₁ l₂ : List (HloOp τ sig (Elt F))} (h₁ : KeepsOff W₁ l₁) (h₂ : KeepsOff W₂ l₂) :
    KeepsOff (W₁ ++ W₂) (l₁ ++ l₂) := fun r h V => by
  rw [after_append, h₂ r (fun hm => h (List.mem_append_right _ hm)), h₁ r (fun hm => h (List.mem_append_left _ hm))]

/-- A result reference in the list is among the device buffers the list maps to. -/
private theorem w {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

/-- The references the operations of `p0` write, in order. -/
abbrev p0_W : List (Ref sig .tc) := [main_cst, main_cst_0, main_cst_1, main_v0, main_v1, main_v2]
theorem p0_writes : (p0 : List (HloOp τ sig (Elt F))).Forall fun op => op.writes ⊆ ((p0_W).map (Proc.devRef (τ := τ) .tc)).toFinset :=
  ⟨w (y := main_cst) (by decide), w (y := main_cst_0) (by decide), w (y := main_cst_1) (by decide), w (y := main_v0) (by decide), w (y := main_v1) (by decide), w (y := main_v2) (by decide)⟩
theorem p0_keeps : KeepsOff (F := F) p0_W p0 := .of_writes p0_writes

/-- The references the operations of `p1` write, in order. -/
abbrev p1_W : List (Ref sig .tc) := [main_call0_v0, main_call0_cst, main_call0_v1, main_v3]
theorem p1_writes : (p1 : List (HloOp τ sig (Elt F))).Forall fun op => op.writes ⊆ ((p1_W).map (Proc.devRef (τ := τ) .tc)).toFinset :=
  ⟨w (y := main_call0_v0) (by decide), w (y := main_call0_cst) (by decide), w (y := main_call0_v1) (by decide), w (y := main_v3) (by decide)⟩
theorem p1_keeps : KeepsOff (F := F) p1_W p1 := .of_writes p1_writes

/-- The references the operations of `p2` write, in order. -/
abbrev p2_W : List (Ref sig .tc) := [main_v4, main_v5, main_v6, main_v7, main_v8, main_v9, main_v10, main_v11, main_v12, main_v13, main_cst_2, main_v14, main_v15, main_cst_3, main_v16, main_cst_4, main_v17, main_v18, main_v19, main_cst_5, main_v20, main_v21, main_cst_6, main_v22, main_v23, main_v24, main_cst_7]
theorem p2_writes : (p2 : List (HloOp τ sig (Elt F))).Forall fun op => op.writes ⊆ ((p2_W).map (Proc.devRef (τ := τ) .tc)).toFinset :=
  ⟨w (y := main_v4) (by decide), w (y := main_v5) (by decide), w (y := main_v6) (by decide), w (y := main_v7) (by decide), w (y := main_v8) (by decide), w (y := main_v9) (by decide), w (y := main_v10) (by decide), w (y := main_v11) (by decide), w (y := main_v12) (by decide), w (y := main_v13) (by decide), w (y := main_cst_2) (by decide), w (y := main_v14) (by decide), w (y := main_v15) (by decide), w (y := main_cst_3) (by decide), w (y := main_v16) (by decide), w (y := main_cst_4) (by decide), w (y := main_v17) (by decide), w (y := main_v18) (by decide), w (y := main_v19) (by decide), w (y := main_cst_5) (by decide), w (y := main_v20) (by decide), w (y := main_v21) (by decide), w (y := main_cst_6) (by decide), w (y := main_v22) (by decide), w (y := main_v23) (by decide), w (y := main_v24) (by decide), w (y := main_cst_7) (by decide)⟩
theorem p2_keeps : KeepsOff (F := F) p2_W p2 := .of_writes p2_writes

/-- The references the operations of `p3` write, in order. -/
abbrev p3_W : List (Ref sig .tc) := [main_v25, main_v26, main_cst_8, main_v27, main_v28, main_v29, main_cst_9, main_v30, main_v31, main_cst_10, main_v32, main_v33, main_v34, main_cst_11, main_v35, main_v36, main_cst_12, main_v37, main_cst_13, main_v38, main_v39, main_v40, main_cst_14, main_v41, main_v42, main_cst_15]
theorem p3_writes : (p3 : List (HloOp τ sig (Elt F))).Forall fun op => op.writes ⊆ ((p3_W).map (Proc.devRef (τ := τ) .tc)).toFinset :=
  ⟨w (y := main_v25) (by decide), w (y := main_v26) (by decide), w (y := main_cst_8) (by decide), w (y := main_v27) (by decide), w (y := main_v28) (by decide), w (y := main_v29) (by decide), w (y := main_cst_9) (by decide), w (y := main_v30) (by decide), w (y := main_v31) (by decide), w (y := main_cst_10) (by decide), w (y := main_v32) (by decide), w (y := main_v33) (by decide), w (y := main_v34) (by decide), w (y := main_cst_11) (by decide), w (y := main_v35) (by decide), w (y := main_v36) (by decide), w (y := main_cst_12) (by decide), w (y := main_v37) (by decide), w (y := main_cst_13) (by decide), w (y := main_v38) (by decide), w (y := main_v39) (by decide), w (y := main_v40) (by decide), w (y := main_cst_14) (by decide), w (y := main_v41) (by decide), w (y := main_v42) (by decide), w (y := main_cst_15) (by decide)⟩
theorem p3_keeps : KeepsOff (F := F) p3_W p3 := .of_writes p3_writes

/-- The references the operations of `p4` write, in order. -/
abbrev p4_W : List (Ref sig .tc) := [main_v43, main_v44, main_v45, main_cst_16, main_v46, main_v47, main_cst_17, main_v48, main_v49, main_v50, main_cst_18, main_v51, main_v52, main_cst_19, main_v53, main_v54, main_v55, main_cst_20, main_v56, main_v57, main_cst_21, main_v58, main_cst_22]
theorem p4_writes : (p4 : List (HloOp τ sig (Elt F))).Forall fun op => op.writes ⊆ ((p4_W).map (Proc.devRef (τ := τ) .tc)).toFinset :=
  ⟨w (y := main_v43) (by decide), w (y := main_v44) (by decide), w (y := main_v45) (by decide), w (y := main_cst_16) (by decide), w (y := main_v46) (by decide), w (y := main_v47) (by decide), w (y := main_cst_17) (by decide), w (y := main_v48) (by decide), w (y := main_v49) (by decide), w (y := main_v50) (by decide), w (y := main_cst_18) (by decide), w (y := main_v51) (by decide), w (y := main_v52) (by decide), w (y := main_cst_19) (by decide), w (y := main_v53) (by decide), w (y := main_v54) (by decide), w (y := main_v55) (by decide), w (y := main_cst_20) (by decide), w (y := main_v56) (by decide), w (y := main_v57) (by decide), w (y := main_cst_21) (by decide), w (y := main_v58) (by decide), w (y := main_cst_22) (by decide)⟩
theorem p4_keeps : KeepsOff (F := F) p4_W p4 := .of_writes p4_writes

/-- The references the operations of `p5` write, in order. -/
abbrev p5_W : List (Ref sig .tc) := [main_v59, main_v60, main_v61, main_v62, main_v63, main_v64, main_v65, main_v66, main_v67, main_v68, main_v69, main_v70, main_v71, main_v72, main_v73, main_v74, main_v75, main_v76, main_v77, main_v78, main_v79, main_v80]
theorem p5_writes : (p5 : List (HloOp τ sig (Elt F))).Forall fun op => op.writes ⊆ ((p5_W).map (Proc.devRef (τ := τ) .tc)).toFinset :=
  ⟨w (y := main_v59) (by decide), w (y := main_v60) (by decide), w (y := main_v61) (by decide), w (y := main_v62) (by decide), w (y := main_v63) (by decide), w (y := main_v64) (by decide), w (y := main_v65) (by decide), w (y := main_v66) (by decide), w (y := main_v67) (by decide), w (y := main_v68) (by decide), w (y := main_v69) (by decide), w (y := main_v70) (by decide), w (y := main_v71) (by decide), w (y := main_v72) (by decide), w (y := main_v73) (by decide), w (y := main_v74) (by decide), w (y := main_v75) (by decide), w (y := main_v76) (by decide), w (y := main_v77) (by decide), w (y := main_v78) (by decide), w (y := main_v79) (by decide), w (y := main_v80) (by decide)⟩
theorem p5_keeps : KeepsOff (F := F) p5_W p5 := .of_writes p5_writes

/-- The references the operations of `p6` write, in order. -/
abbrev p6_W : List (Ref sig .tc) := [main_v81, main_cst_23, main_v82, main_v83, main_v84, main_cst_24, main_v85, main_v86, main_v87, main_v88, main_v89, main_cst_25, main_v90, main_v91, main_v92]
theorem p6_writes : (p6 : List (HloOp τ sig (Elt F))).Forall fun op => op.writes ⊆ ((p6_W).map (Proc.devRef (τ := τ) .tc)).toFinset :=
  ⟨w (y := main_v81) (by decide), w (y := main_cst_23) (by decide), w (y := main_v82) (by decide), w (y := main_v83) (by decide), w (y := main_v84) (by decide), w (y := main_cst_24) (by decide), w (y := main_v85) (by decide), w (y := main_v86) (by decide), w (y := main_v87) (by decide), w (y := main_v88) (by decide), w (y := main_v89) (by decide), w (y := main_cst_25) (by decide), w (y := main_v90) (by decide), w (y := main_v91) (by decide), w (y := main_v92) (by decide)⟩
theorem p6_keeps : KeepsOff (F := F) p6_W p6 := .of_writes p6_writes

/-- The references the operations of `p7` write, in order. -/
abbrev p7_W : List (Ref sig .tc) := [main_v93, main_v94, main_cst_26, main_v95, main_v96, main_v97, main_cst_27, main_v98, main_cst_28, main_v99, main_cst_29, main_v100, main_cst_30, main_v101, main_cst_31, main_v102, main_cst_32, main_v103, main_v104]
theorem p7_writes : (p7 : List (HloOp τ sig (Elt F))).Forall fun op => op.writes ⊆ ((p7_W).map (Proc.devRef (τ := τ) .tc)).toFinset :=
  ⟨w (y := main_v93) (by decide), w (y := main_v94) (by decide), w (y := main_cst_26) (by decide), w (y := main_v95) (by decide), w (y := main_v96) (by decide), w (y := main_v97) (by decide), w (y := main_cst_27) (by decide), w (y := main_v98) (by decide), w (y := main_cst_28) (by decide), w (y := main_v99) (by decide), w (y := main_cst_29) (by decide), w (y := main_v100) (by decide), w (y := main_cst_30) (by decide), w (y := main_v101) (by decide), w (y := main_cst_31) (by decide), w (y := main_v102) (by decide), w (y := main_cst_32) (by decide), w (y := main_v103) (by decide), w (y := main_v104) (by decide)⟩
theorem p7_keeps : KeepsOff (F := F) p7_W p7 := .of_writes p7_writes

/-- The references the operations of `p8` write, in order. -/
abbrev p8_W : List (Ref sig .tc) := [main_v105, main_v106, main_v107, main_v108, main_v109, main_v110, main_v111, main_v112, main_v113, main_v114, main_v115, main_v116, main_v117, main_v118, main_v119, main_v120, main_v121, main_v122, main_v123, main_v124, main_v125]
theorem p8_writes : (p8 : List (HloOp τ sig (Elt F))).Forall fun op => op.writes ⊆ ((p8_W).map (Proc.devRef (τ := τ) .tc)).toFinset :=
  ⟨w (y := main_v105) (by decide), w (y := main_v106) (by decide), w (y := main_v107) (by decide), w (y := main_v108) (by decide), w (y := main_v109) (by decide), w (y := main_v110) (by decide), w (y := main_v111) (by decide), w (y := main_v112) (by decide), w (y := main_v113) (by decide), w (y := main_v114) (by decide), w (y := main_v115) (by decide), w (y := main_v116) (by decide), w (y := main_v117) (by decide), w (y := main_v118) (by decide), w (y := main_v119) (by decide), w (y := main_v120) (by decide), w (y := main_v121) (by decide), w (y := main_v122) (by decide), w (y := main_v123) (by decide), w (y := main_v124) (by decide), w (y := main_v125) (by decide)⟩
theorem p8_keeps : KeepsOff (F := F) p8_W p8 := .of_writes p8_writes

/-- The references the operations of `p9` write, in order. -/
abbrev p9_W : List (Ref sig .tc) := [main_v126, main_v127, main_v128, main_v129, main_v130, main_v131, main_cst_33, main_v132, main_v133, main_v134, main_v135, main_v136, main_cst_34, main_v137, main_v138, main_v139, main_v140, main_v141, main_v142, main_v143]
theorem p9_writes : (p9 : List (HloOp τ sig (Elt F))).Forall fun op => op.writes ⊆ ((p9_W).map (Proc.devRef (τ := τ) .tc)).toFinset :=
  ⟨w (y := main_v126) (by decide), w (y := main_v127) (by decide), w (y := main_v128) (by decide), w (y := main_v129) (by decide), w (y := main_v130) (by decide), w (y := main_v131) (by decide), w (y := main_cst_33) (by decide), w (y := main_v132) (by decide), w (y := main_v133) (by decide), w (y := main_v134) (by decide), w (y := main_v135) (by decide), w (y := main_v136) (by decide), w (y := main_cst_34) (by decide), w (y := main_v137) (by decide), w (y := main_v138) (by decide), w (y := main_v139) (by decide), w (y := main_v140) (by decide), w (y := main_v141) (by decide), w (y := main_v142) (by decide), w (y := main_v143) (by decide)⟩
theorem p9_keeps : KeepsOff (F := F) p9_W p9 := .of_writes p9_writes

/-- The references the operations of `p10` write, in order. -/
abbrev p10_W : List (Ref sig .tc) := [main_v144, main_v145, main_v146, main_v147, main_v148, main_v149, main_cst_35, main_v150, main_v151, main_v152, main_v153, main_v154, main_v155, main_v156, main_v157, main_cst_36, main_v158, main_v159, main_v160, main_v161, main_v162, main_v163, main_v164, main_v165, main_v166, main_v167, main_v168, main_cst_37, main_v169, main_v170]
theorem p10_writes : (p10 : List (HloOp τ sig (Elt F))).Forall fun op => op.writes ⊆ ((p10_W).map (Proc.devRef (τ := τ) .tc)).toFinset :=
  ⟨w (y := main_v144) (by decide), w (y := main_v145) (by decide), w (y := main_v146) (by decide), w (y := main_v147) (by decide), w (y := main_v148) (by decide), w (y := main_v149) (by decide), w (y := main_cst_35) (by decide), w (y := main_v150) (by decide), w (y := main_v151) (by decide), w (y := main_v152) (by decide), w (y := main_v153) (by decide), w (y := main_v154) (by decide), w (y := main_v155) (by decide), w (y := main_v156) (by decide), w (y := main_v157) (by decide), w (y := main_cst_36) (by decide), w (y := main_v158) (by decide), w (y := main_v159) (by decide), w (y := main_v160) (by decide), w (y := main_v161) (by decide), w (y := main_v162) (by decide), w (y := main_v163) (by decide), w (y := main_v164) (by decide), w (y := main_v165) (by decide), w (y := main_v166) (by decide), w (y := main_v167) (by decide), w (y := main_v168) (by decide), w (y := main_cst_37) (by decide), w (y := main_v169) (by decide), w (y := main_v170) (by decide)⟩
theorem p10_keeps : KeepsOff (F := F) p10_W p10 := .of_writes p10_writes

/-- The references the operations of `p11` write, in order. -/
abbrev p11_W : List (Ref sig .tc) := [main_v171, main_v172, main_v173, main_v174, main_v175, main_v176, main_v177, main_v178, main_v179, main_v180, main_v181, main_cst_38, main_v182, main_v183, main_v184, main_v185, main_v186, main_v187, main_v188, main_v189, main_cst_39, main_v190, main_v191, main_v192, main_v193, main_v194, main_cst_40, main_v195, main_v196, main_v197]
theorem p11_writes : (p11 : List (HloOp τ sig (Elt F))).Forall fun op => op.writes ⊆ ((p11_W).map (Proc.devRef (τ := τ) .tc)).toFinset :=
  ⟨w (y := main_v171) (by decide), w (y := main_v172) (by decide), w (y := main_v173) (by decide), w (y := main_v174) (by decide), w (y := main_v175) (by decide), w (y := main_v176) (by decide), w (y := main_v177) (by decide), w (y := main_v178) (by decide), w (y := main_v179) (by decide), w (y := main_v180) (by decide), w (y := main_v181) (by decide), w (y := main_cst_38) (by decide), w (y := main_v182) (by decide), w (y := main_v183) (by decide), w (y := main_v184) (by decide), w (y := main_v185) (by decide), w (y := main_v186) (by decide), w (y := main_v187) (by decide), w (y := main_v188) (by decide), w (y := main_v189) (by decide), w (y := main_cst_39) (by decide), w (y := main_v190) (by decide), w (y := main_v191) (by decide), w (y := main_v192) (by decide), w (y := main_v193) (by decide), w (y := main_v194) (by decide), w (y := main_cst_40) (by decide), w (y := main_v195) (by decide), w (y := main_v196) (by decide), w (y := main_v197) (by decide)⟩
theorem p11_keeps : KeepsOff (F := F) p11_W p11 := .of_writes p11_writes

/-- The references the operations of `p12` write, in order. -/
abbrev p12_W : List (Ref sig .tc) := [main_v198, main_v199, main_v200, main_v201, main_v202, main_v203, main_v204, main_v205, main_v206, main_v207, main_v208, main_v209, main_v210, main_v211, main_v212, main_v213, main_cst_41, main_v214, main_v215, main_v216, main_v217, main_v218, main_v219]
theorem p12_writes : (p12 : List (HloOp τ sig (Elt F))).Forall fun op => op.writes ⊆ ((p12_W).map (Proc.devRef (τ := τ) .tc)).toFinset :=
  ⟨w (y := main_v198) (by decide), w (y := main_v199) (by decide), w (y := main_v200) (by decide), w (y := main_v201) (by decide), w (y := main_v202) (by decide), w (y := main_v203) (by decide), w (y := main_v204) (by decide), w (y := main_v205) (by decide), w (y := main_v206) (by decide), w (y := main_v207) (by decide), w (y := main_v208) (by decide), w (y := main_v209) (by decide), w (y := main_v210) (by decide), w (y := main_v211) (by decide), w (y := main_v212) (by decide), w (y := main_v213) (by decide), w (y := main_cst_41) (by decide), w (y := main_v214) (by decide), w (y := main_v215) (by decide), w (y := main_v216) (by decide), w (y := main_v217) (by decide), w (y := main_v218) (by decide), w (y := main_v219) (by decide)⟩
theorem p12_keeps : KeepsOff (F := F) p12_W p12 := .of_writes p12_writes

/-- The references the operations of `p13` write, in order. -/
abbrev p13_W : List (Ref sig .tc) := [main_v220, main_v221, main_v222, main_v223, main_v224, main_v225, main_v226, main_v227, main_v228, main_v229, main_v230, main_v231, main_v232, main_v233, main_v234, main_v235, main_v236, main_v237, main_v238, main_v239, main_v240, main_v241, main_v242]
theorem p13_writes : (p13 : List (HloOp τ sig (Elt F))).Forall fun op => op.writes ⊆ ((p13_W).map (Proc.devRef (τ := τ) .tc)).toFinset :=
  ⟨w (y := main_v220) (by decide), w (y := main_v221) (by decide), w (y := main_v222) (by decide), w (y := main_v223) (by decide), w (y := main_v224) (by decide), w (y := main_v225) (by decide), w (y := main_v226) (by decide), w (y := main_v227) (by decide), w (y := main_v228) (by decide), w (y := main_v229) (by decide), w (y := main_v230) (by decide), w (y := main_v231) (by decide), w (y := main_v232) (by decide), w (y := main_v233) (by decide), w (y := main_v234) (by decide), w (y := main_v235) (by decide), w (y := main_v236) (by decide), w (y := main_v237) (by decide), w (y := main_v238) (by decide), w (y := main_v239) (by decide), w (y := main_v240) (by decide), w (y := main_v241) (by decide), w (y := main_v242) (by decide)⟩
theorem p13_keeps : KeepsOff (F := F) p13_W p13 := .of_writes p13_writes

/-- The references the operations of `p14` write, in order. -/
abbrev p14_W : List (Ref sig .tc) := [main_v243, main_cst_42, main_v244, main_v245, main_v246, main_cst_43, main_v247, main_v248, main_v249, main_v250, main_v251, main_cst_44, main_v252, main_v253]
theorem p14_writes : (p14 : List (HloOp τ sig (Elt F))).Forall fun op => op.writes ⊆ ((p14_W).map (Proc.devRef (τ := τ) .tc)).toFinset :=
  ⟨w (y := main_v243) (by decide), w (y := main_cst_42) (by decide), w (y := main_v244) (by decide), w (y := main_v245) (by decide), w (y := main_v246) (by decide), w (y := main_cst_43) (by decide), w (y := main_v247) (by decide), w (y := main_v248) (by decide), w (y := main_v249) (by decide), w (y := main_v250) (by decide), w (y := main_v251) (by decide), w (y := main_cst_44) (by decide), w (y := main_v252) (by decide), w (y := main_v253) (by decide)⟩
theorem p14_keeps : KeepsOff (F := F) p14_W p14 := .of_writes p14_writes

/-- The references the operations of `p15` write, in order. -/
abbrev p15_W : List (Ref sig .tc) := [main_v254, main_v255, main_v256, main_cst_45, main_v257, main_v258, main_v259, main_cst_46, main_v260, main_cst_47, main_v261, main_cst_48, main_v262, main_cst_49, main_v263, main_cst_50, main_v264, main_cst_51, main_v265, main_v266]
theorem p15_writes : (p15 : List (HloOp τ sig (Elt F))).Forall fun op => op.writes ⊆ ((p15_W).map (Proc.devRef (τ := τ) .tc)).toFinset :=
  ⟨w (y := main_v254) (by decide), w (y := main_v255) (by decide), w (y := main_v256) (by decide), w (y := main_cst_45) (by decide), w (y := main_v257) (by decide), w (y := main_v258) (by decide), w (y := main_v259) (by decide), w (y := main_cst_46) (by decide), w (y := main_v260) (by decide), w (y := main_cst_47) (by decide), w (y := main_v261) (by decide), w (y := main_cst_48) (by decide), w (y := main_v262) (by decide), w (y := main_cst_49) (by decide), w (y := main_v263) (by decide), w (y := main_cst_50) (by decide), w (y := main_v264) (by decide), w (y := main_cst_51) (by decide), w (y := main_v265) (by decide), w (y := main_v266) (by decide)⟩
theorem p15_keeps : KeepsOff (F := F) p15_W p15 := .of_writes p15_writes

/-- The references the operations of `p16` write, in order. -/
abbrev p16_W : List (Ref sig .tc) := [main_v267, main_v268, main_v269, main_v270, main_cst_52, main_v271, main_v272, main_v273]
theorem p16_writes : (p16 : List (HloOp τ sig (Elt F))).Forall fun op => op.writes ⊆ ((p16_W).map (Proc.devRef (τ := τ) .tc)).toFinset :=
  ⟨w (y := main_v267) (by decide), w (y := main_v268) (by decide), w (y := main_v269) (by decide), w (y := main_v270) (by decide), w (y := main_cst_52) (by decide), w (y := main_v271) (by decide), w (y := main_v272) (by decide), w (y := main_v273) (by decide)⟩
theorem p16_keeps : KeepsOff (F := F) p16_W p16 := .of_writes p16_writes

/-! ### The stretches -/

abbrev opsPre_W : List (Ref sig .tc) := p0_W ++ p1_W ++ p2_W ++ p3_W ++ p4_W ++ p5_W
theorem opsPre_keeps : KeepsOff (F := F) opsPre_W opsPre := (((((p0_keeps.append p1_keeps).append p2_keeps).append p3_keeps).append p4_keeps).append p5_keeps)
abbrev opsCh0_W : List (Ref sig .tc) := p6_W ++ p7_W
theorem opsCh0_keeps : KeepsOff (F := F) opsCh0_W opsCh0 := (p6_keeps.append p7_keeps)
abbrev opsMid_W : List (Ref sig .tc) := p8_W ++ p9_W ++ p10_W ++ p11_W ++ p12_W ++ p13_W
theorem opsMid_keeps : KeepsOff (F := F) opsMid_W opsMid := (((((p8_keeps.append p9_keeps).append p10_keeps).append p11_keeps).append p12_keeps).append p13_keeps)
abbrev opsCh1_W : List (Ref sig .tc) := p14_W ++ p15_W
theorem opsCh1_keeps : KeepsOff (F := F) opsCh1_W opsCh1 := (p14_keeps.append p15_keeps)
abbrev opsEnd_W : List (Ref sig .tc) := p16_W
theorem opsEnd_keeps : KeepsOff (F := F) opsEnd_W opsEnd := p16_keeps

/-- The references the reference's operations write: every value of @main and of the call, no argument. -/
abbrev ops_W : List (Ref sig .tc) := opsPre_W ++ opsCh0_W ++ opsMid_W ++ opsCh1_W ++ opsEnd_W
theorem ops_keeps : KeepsOff (F := F) ops_W ops :=
  (((opsPre_keeps.append opsCh0_keeps).append opsMid_keeps).append opsCh1_keeps).append opsEnd_keeps

/-! ## The frame -/

/-- @main runs and its argument arrays end unchanged: no operation writes an argument's buffer. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_arg0).trans (ops_keeps main_arg0 (by decide) _),
      (h c main_arg1).trans (ops_keeps main_arg1 (by decide) _),
      (h c main_arg2).trans (ops_keeps main_arg2 (by decide) _),
      (h c main_arg3).trans (ops_keeps main_arg3 (by decide) _),
      (h c main_arg4).trans (ops_keeps main_arg4 (by decide) _),
      (h c main_arg5).trans (ops_keeps main_arg5 (by decide) _),
      (h c main_arg6).trans (ops_keeps main_arg6 (by decide) _),
      (h c main_arg7).trans (ops_keeps main_arg7 (by decide) _)⟩)
    (run m ρ)

end Cert.ReferenceIdeal.RR

end
-- ==== Proof.LibTiledMinSum.lean ====
import Idealize.ShloMosaic.PureOps.Ideal
import Mathlib.Data.EReal.Basic
import Mathlib.Data.Finset.Fold
import Mathlib.Algebra.BigOperators.Fin
import Mathlib.Algebra.BigOperators.Group.Finset.Basic
import Mathlib.Logic.Equiv.Fin.Basic
import Mathlib.Analysis.SpecialFunctions.Pow.Real

/-!
# Tiled minima and tiled sums over the extended reals

A matrix of extended reals is scanned in square tiles. Row minima are taken tile by
tile (a running minimum of the tiles' minima), a clamped square root is applied, and the
results are summed, again tile by tile. This file shows that the outcome is the plain
"minimum over the whole row of the entrywise clamped root, summed over all rows", and
the same with rows and columns exchanged.

The ingredients are: a monotone map that fixes the top element commutes with a fold
of minima started at the top; a fold of minima (or a sum) over a * b positions is the fold
(sum) over the a tiles of the tiles' folds (sums); a running minimum (running sum) is the
fold (sum) over an initial segment.
-/

namespace TiledMinSum

open Idealize.ShloMosaic

/-! ### The clamped square root -/

/-- The clamped square root x ↦ √(max x 0) on the extended reals: negative values and the
bottom element go to 0, the top element to itself. -/
noncomputable def clampRoot (x : EReal) : EReal := Ideal.sqrt (max x 0)

/-- The square root of the extended reals is monotone on the non-negative half line. -/
theorem sqrt_le_sqrt_of_nonneg {u v : EReal} (hu : 0 ≤ u) (huv : u ≤ v) :
    Ideal.sqrt u ≤ Ideal.sqrt v := by
  induction u using EReal.rec with
  | bot => exact absurd hu (by simp)
  | top =>
    have : v = ⊤ := top_le_iff.mp huv
    subst this; exact le_rfl
  | coe a =>
    induction v using EReal.rec with
    | bot => exact absurd huv (by simp)
    | top => simp
    | coe b =>
      have ha : 0 ≤ a := by exact_mod_cast hu
      have hab : a ≤ b := by exact_mod_cast huv
      have hb : 0 ≤ b := ha.trans hab
      simp only [Ideal.sqrt_coe, not_lt.mpr ha, not_lt.mpr hb, if_false]
      exact_mod_cast Real.sqrt_le_sqrt hab

/-- The clamped square root is monotone: clamping at 0 is monotone and lands in the
non-negative half line, where the square root is monotone. -/
theorem clampRoot_mono : Monotone clampRoot := by
  intro x y hxy
  exact sqrt_le_sqrt_of_nonneg (le_max_right _ _) (max_le_max hxy le_rfl)

/-- The clamped square root fixes the top element. -/
theorem clampRoot_top : clampRoot ⊤ = ⊤ := by
  simp [clampRoot]

/-! ### Monotone maps and folds of minima -/

/-- A monotone map g with g ⊤ = ⊤ commutes with the minimum of a finite family (a fold
of min started at ⊤), over any finite index set. -/
theorem map_fold_min_finset {ι : Type*} (s : Finset ι) (g : EReal → EReal) (hg : Monotone g)
    (htop : g ⊤ = ⊤) (f : ι → EReal) :
    g (s.fold min ⊤ f) = s.fold min ⊤ (fun k => g (f k)) := by
  have h := Finset.fold_hom (op := min) (op' := min) (s := s) (b := (⊤ : EReal)) (f := f)
    (m := g) (fun x y => hg.map_min)
  rw [htop] at h
  exact h.symm

/-- A monotone map g with g ⊤ = ⊤ commutes with the minimum over all of Fin n. -/
theorem map_fold_min {n : ℕ} (g : EReal → EReal) (hg : Monotone g) (htop : g ⊤ = ⊤)
    (f : Fin n → EReal) :
    g ((Finset.univ : Finset (Fin n)).fold min ⊤ f)
      = (Finset.univ : Finset (Fin n)).fold min ⊤ (fun k => g (f k)) :=
  map_fold_min_finset _ g hg htop f

/-! ### Tiling a range of a * b positions -/

/-- Every position below a * b lies in exactly one tile: it is i * b + p for the tile
i = x / b and the offset p = x % b. -/
theorem exists_tile {n a b : ℕ} (hn : n = a * b) (r : Fin a → Fin b → Fin n)
    (hr : ∀ i p, (r i p).val = i.val * b + p.val) (x : Fin n) : ∃ i p, r i p = x := by
  have hx : x.val < a * b := hn ▸ x.isLt
  have hb : 0 < b := by
    rcases Nat.eq_zero_or_pos b with h | h
    · subst h; simp at hx
    · exact h
  refine ⟨⟨x.val / b, (Nat.div_lt_iff_lt_mul hb).mpr hx⟩, ⟨x.val % b, Nat.mod_lt _ hb⟩, ?_⟩
  apply Fin.ext
  rw [hr]
  exact Nat.div_add_mod' _ _

/-- The minimum over n = a * b positions is the minimum over the a tiles of the tiles'
minima (each tile has b consecutive positions, tile i holding i * b + p for p < b). -/
theorem fold_min_tiles {n a b : ℕ} (hn : n = a * b) (f : Fin n → EReal)
    (r : Fin a → Fin b → Fin n) (hr : ∀ i p, (r i p).val = i.val * b + p.val) :
    (Finset.univ : Finset (Fin n)).fold min ⊤ f
      = (Finset.univ : Finset (Fin a)).fold min ⊤
          (fun i => (Finset.univ : Finset (Fin b)).fold min ⊤ (fun p => f (r i p))) := by
  apply eq_of_forall_le_iff
  intro c
  simp only [Finset.le_fold_min, le_top, true_and, Finset.mem_univ, forall_true_left]
  constructor
  · intro h i p; exact h _
  · intro h x
    obtain ⟨i, p, rfl⟩ := exists_tile hn r hr x
    exact h i p

/-- The sum over n = a * b positions is the sum over the a tiles of the tiles' sums, in any
commutative additive monoid. -/
theorem sum_tiles_fin {M : Type*} [AddCommMonoid M] {n a b : ℕ} (hn : n = a * b) (f : Fin n → M)
    (r : Fin a → Fin b → Fin n) (hr : ∀ i p, (r i p).val = i.val * b + p.val) :
    ∑ x : Fin n, f x = ∑ i : Fin a, ∑ p : Fin b, f (r i p) := by
  subst hn
  rw [← Fintype.sum_prod_type' (f := fun i p => f (r i p))]
  symm
  apply Fintype.sum_equiv finProdFinEquiv
  rintro ⟨i, p⟩
  congr 1
  apply Fin.ext
  rw [hr]
  simp [finProdFinEquiv, Nat.mul_comm, Nat.add_comm]

/-! ### Running minima and running sums -/

/-- The running minimum of a sequence: runMin h j = min (h 0) (h 1) ... (h j), built from
the left. -/
noncomputable def runMin (h : ℕ → EReal) : ℕ → EReal
  | 0 => h 0
  | j + 1 => min (runMin h j) (h (j + 1))

/-- The running minimum up to j is the minimum over the initial segment 0, ..., j. -/
theorem runMin_eq (h : ℕ → EReal) (j : ℕ) :
    runMin h j = (Finset.range (j + 1)).fold min ⊤ h := by
  induction j with
  | zero => simp [runMin]
  | succ j ih =>
    rw [Finset.range_add_one, Finset.fold_insert (by simp), ← ih, min_comm]
    rfl

/-- The minimum over the initial segment 0, ..., T, indexed by naturals, is the minimum
over Fin (T + 1). -/
theorem fold_min_range_eq_univ (m : ℕ) (h : ℕ → EReal) :
    (Finset.range m).fold min ⊤ h
      = (Finset.univ : Finset (Fin m)).fold min ⊤ (fun j => h j.val) := by
  apply eq_of_forall_le_iff
  intro c
  simp only [Finset.le_fold_min, le_top, true_and, Finset.mem_univ, forall_true_left,
    Finset.mem_range]
  constructor
  · intro hc j; exact hc j.val j.isLt
  · intro hc k hk; exact hc ⟨k, hk⟩

/-- The running minimum up to T is the minimum over Fin (T + 1). -/
theorem runMin_eq_univ (T : ℕ) (h : ℕ → EReal) :
    runMin h T = (Finset.univ : Finset (Fin (T + 1))).fold min ⊤ (fun j => h j.val) := by
  rw [runMin_eq, fold_min_range_eq_univ]

/-- The running sum of a sequence on top of a starting value s:
runSum s h j = ((s + h 0) + h 1) + ... + h j, nested to the left. -/
def runSum {M : Type*} [AddCommMonoid M] (s : M) (h : ℕ → M) : ℕ → M
  | 0 => s + h 0
  | j + 1 => runSum s h j + h (j + 1)

/-- The running sum up to j is the starting value plus the sum over 0, ..., j. -/
theorem runSum_eq {M : Type*} [AddCommMonoid M] (s : M) (h : ℕ → M) (j : ℕ) :
    runSum s h j = s + ∑ k ∈ Finset.range (j + 1), h k := by
  induction j with
  | zero => simp [runSum]
  | succ j ih =>
    rw [Finset.sum_range_succ _ (j + 1), ← add_assoc, ← ih]
    rfl

/-- The running sum up to T is the starting value plus the sum over Fin (T + 1). -/
theorem runSum_eq_univ {M : Type*} [AddCommMonoid M] (s : M) (T : ℕ) (h : ℕ → M) :
    runSum s h T = s + ∑ j : Fin (T + 1), h j.val := by
  rw [runSum_eq, Finset.sum_range]

/-! ### Pointwise agreement, and the pattern of +∞ -/

/-- A running minimum depends only on the terms up to its index. -/
theorem runMin_congr {h h' : ℕ → EReal} (j : ℕ) (H : ∀ k, k ≤ j → h k = h' k) :
    runMin h j = runMin h' j := by
  induction j with
  | zero => exact H 0 le_rfl
  | succ j ih =>
    show min (runMin h j) (h (j + 1)) = min (runMin h' j) (h' (j + 1))
    rw [ih (fun k hk => H k (Nat.le_succ_of_le hk)), H (j + 1) le_rfl]

/-- A running sum depends only on the terms up to its index. -/
theorem runSum_congr {M : Type*} [AddCommMonoid M] (s : M) {h h' : ℕ → M} (j : ℕ)
    (H : ∀ k, k ≤ j → h k = h' k) : runSum s h j = runSum s h' j := by
  induction j with
  | zero => show s + h 0 = s + h' 0; rw [H 0 le_rfl]
  | succ j ih =>
    show runSum s h j + h (j + 1) = runSum s h' j + h' (j + 1)
    rw [ih (fun k hk => H k (Nat.le_succ_of_le hk)), H (j + 1) le_rfl]

/-- The single-precision pattern of +∞ denotes the top element of the extended reals. -/
theorem ofBits_f32_inf : Ideal.ofBits .f32 0x7F800000#32 = ⊤ := by
  simp [Ideal.ofBits, Ideal.ieee]

/-! ### The two totals -/

/-- Core identity, tiles indexed by Fin a: summing, over all a * b rows tile by tile, the
clamped root of the row's minimum (itself taken tile by tile over the a * b columns) gives
the sum over all rows of the minimum over all columns of the entrywise clamped root. -/
theorem tiled_rowmin_sum {n a b : ℕ} (hn : n = a * b) (d : Fin n → Fin n → EReal)
    (r : Fin a → Fin b → Fin n) (hr : ∀ i p, (r i p).val = i.val * b + p.val) :
    ∑ tn : Fin a, ∑ p : Fin b, clampRoot ((Finset.univ : Finset (Fin a)).fold min ⊤
        (fun tm => (Finset.univ : Finset (Fin b)).fold min ⊤ (fun q => d (r tn p) (r tm q))))
      = ∑ i : Fin n, (Finset.univ : Finset (Fin n)).fold min ⊤ (fun k => clampRoot (d i k)) := by
  rw [sum_tiles_fin hn _ r hr]
  refine Finset.sum_congr rfl fun tn _ => Finset.sum_congr rfl fun p _ => ?_
  refine Eq.trans ?_
    (map_fold_min clampRoot clampRoot_mono clampRoot_top (fun k => d (r tn p) k))
  congr 1
  exact (fold_min_tiles hn (fun k => d (r tn p) k) r hr).symm

/-- Column version of the core identity: for each column, the clamped root of the column's
minimum taken tile by tile over the a * b rows is the minimum over all rows of the entrywise
clamped root. -/
theorem tiled_colmin {n a b : ℕ} (hn : n = a * b) (d : Fin n → Fin n → EReal)
    (r : Fin a → Fin b → Fin n) (hr : ∀ i p, (r i p).val = i.val * b + p.val) (k : Fin n) :
    clampRoot ((Finset.univ : Finset (Fin a)).fold min ⊤
        (fun tn => (Finset.univ : Finset (Fin b)).fold min ⊤ (fun p => d (r tn p) k)))
      = (Finset.univ : Finset (Fin n)).fold min ⊤ (fun i => clampRoot (d i k)) := by
  refine Eq.trans ?_
    (map_fold_min clampRoot clampRoot_mono clampRoot_top (fun i => d i k))
  congr 1
  exact (fold_min_tiles hn (fun i => d i k) r hr).symm

/-- Row total, in running form with tiles counted by naturals 0, ..., T: the running sum over
row tiles of the tile's sum of clamped roots of running row minima equals the sum over all
rows of the minimum over all columns of the entrywise clamped root. The position map rr
sends tile t < T + 1 and offset p to position t * B + p. -/
theorem rows_total {n T B : ℕ} (hn : n = (T + 1) * B) (d : Fin n → Fin n → EReal)
    (rr : ℕ → Fin B → Fin n) (hrr : ∀ t, t < T + 1 → ∀ p, (rr t p).val = t * B + p.val) :
    runSum 0 (fun tn => ∑ p : Fin B, clampRoot (runMin (fun tm =>
        (Finset.univ : Finset (Fin B)).fold min ⊤ (fun q => d (rr tn p) (rr tm q))) T)) T
      = 0 + ∑ i : Fin n,
          (Finset.univ : Finset (Fin n)).fold min ⊤ (fun k => clampRoot (d i k)) := by
  rw [runSum_eq_univ]
  congr 1
  rw [← tiled_rowmin_sum hn d (fun i p => rr i.val p) (fun i p => hrr i.val i.isLt p)]
  refine Finset.sum_congr rfl fun tn _ => Finset.sum_congr rfl fun p _ => ?_
  rw [runMin_eq_univ]

/-- Column total, the sum over columns taken in one go: for each column the clamped root of
the running minimum over row tiles, summed over all columns, equals the sum over all columns
of the minimum over all rows of the entrywise clamped root. -/
theorem cols_total {n T B : ℕ} (hn : n = (T + 1) * B) (d : Fin n → Fin n → EReal)
    (rr : ℕ → Fin B → Fin n) (hrr : ∀ t, t < T + 1 → ∀ p, (rr t p).val = t * B + p.val) :
    0 + ∑ k : Fin n, clampRoot (runMin (fun tn =>
        (Finset.univ : Finset (Fin B)).fold min ⊤ (fun p => d (rr tn p) k)) T)
      = 0 + ∑ k : Fin n,
          (Finset.univ : Finset (Fin n)).fold min ⊤ (fun i => clampRoot (d i k)) := by
  congr 1
  refine Finset.sum_congr rfl fun k _ => ?_
  rw [runMin_eq_univ]
  exact tiled_colmin hn d (fun i p => rr i.val p) (fun i p => hrr i.val i.isLt p) k

/-- Column total with the sum over columns also accumulated tile by tile in running form:
rows_total applied to the transposed matrix. -/
theorem cols_total_tiled {n T B : ℕ} (hn : n = (T + 1) * B) (d : Fin n → Fin n → EReal)
    (rr : ℕ → Fin B → Fin n) (hrr : ∀ t, t < T + 1 → ∀ p, (rr t p).val = t * B + p.val) :
    runSum 0 (fun tk => ∑ q : Fin B, clampRoot (runMin (fun tn =>
        (Finset.univ : Finset (Fin B)).fold min ⊤ (fun p => d (rr tn p) (rr tk q))) T)) T
      = 0 + ∑ k : Fin n,
          (Finset.univ : Finset (Fin n)).fold min ⊤ (fun i => clampRoot (d i k)) :=
  rows_total hn (fun k i => d i k) rr hrr

end TiledMinSum
-- ==== Proof.ChamferSpec.lean ====
import proofs.«128588_j377957122581_2_alg».proof.Proof.LibTiledMinSum

/-!
# The chamfer objective of two clouds of homogeneous points, in two arrangements

A cloud is a family of points `X n : Fin 4 → EReal`. The squared distance of two points is taken
either as a sum of squared coordinate differences (`sqDiff`) or through the expansion
`‖x‖² + ‖y‖² − Σ (2 x_k) y_k` (`sqExp`); on real points the two agree. The objective adds, over the
rows, the clamped root of the row's least squared distance, divided by the number of rows, and the
same over the columns.
-/

noncomputable section

namespace Chamfer

open Idealize.ShloMosaic TiledMinSum

/-- Squared distance as the kernel accumulates it: from zero, one squared coordinate difference at a time. -/
def sqDiff (x y : Fin 4 → EReal) : EReal :=
  (((0 + (x 0 - y 0) * (x 0 - y 0)) + (x 1 - y 1) * (x 1 - y 1)) + (x 2 - y 2) * (x 2 - y 2)) + (x 3 - y 3) * (x 3 - y 3)

/-- Squared distance through the expansion of the square, each sum started at zero; `c` is the factor two. -/
def sqExp (c : EReal) (x y : Fin 4 → EReal) : EReal :=
  ((0 + ∑ k : Fin 4, x k * x k) + (0 + ∑ k : Fin 4, y k * y k)) - (0 + ∑ k : Fin 4, (c * x k) * y k)

/-- A point all of whose coordinates are real numbers. -/
def RealPt (x : Fin 4 → EReal) : Prop := ∀ k, ∃ r : ℝ, x k = (r : EReal)

/-- The objective with the root taken AFTER the minima (of `sqDiff`), `d` the divisor. -/
def objAfter {n : ℕ} (d : EReal) (X Y : Fin n → Fin 4 → EReal) : EReal :=
  Ideal.div (0 + ∑ i : Fin n, clampRoot ((Finset.univ : Finset (Fin n)).fold min ⊤ (fun k => sqDiff (X i) (Y k)))) d
    + Ideal.div (0 + ∑ k : Fin n, clampRoot ((Finset.univ : Finset (Fin n)).fold min ⊤ (fun i => sqDiff (X i) (Y k)))) d

/-- The objective with the root taken entry by entry BEFORE the minima (of `sqExp`). -/
def objBefore {n : ℕ} (c d : EReal) (X Y : Fin n → Fin 4 → EReal) : EReal :=
  Ideal.div (0 + ∑ i : Fin n, (Finset.univ : Finset (Fin n)).fold min ⊤ (fun k => clampRoot (sqExp c (X i) (Y k)))) d
    + Ideal.div (0 + ∑ k : Fin n, (Finset.univ : Finset (Fin n)).fold min ⊤ (fun i => clampRoot (sqExp c (X i) (Y k)))) d

end Chamfer

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.KerTail.lean ====
/-
  The tail of the program after its region: the two result arrays of the region, a column [2, 8192, 1] of row
  values and a row [2, 1, 8192] of column values, are each flattened to [2, 8192], clamped below at zero, rooted,
  summed along the second axis and divided by the number of entries; the two means are added. The vector of the
  two objectives is then cut into its entries, weighted by the two entries of a weight vector, summed and halved.
  Here the tail is written as a function of the region's results and read at an index.
-/
import proofs.«128588_j377957122581_2_alg».proof.Proof.Gen.KernelIdeal.Launch
import proofs.«128588_j377957122581_2_alg».proof.Proof.ChamferSpec
import proofs.«128588_j377957122581_2_alg».proof.Proof.LibHostRead
import Idealize.ShloMosaic.Lib.ValueLayout
import Idealize.ShloMosaic.Lib.StableHlo.Run

set_option maxRecDepth 16384

noncomputable section

namespace Cert.KernelIdeal.KT

open Cert.KernelIdeal Cert.KernelIdeal.Facts₀
open Idealize.ShloMosaic Idealize.ShloMosaic.ValueIdx
open scoped BigOperators

/-! ## The tail as a function of the region's results -/

/-- The vector of the two objectives: operations %217 … %231 in the printed order. -/
noncomputable def kerObj (RM : FVec Ideal S2x8192x1 .f32) (CM : FVec Ideal S2x1x8192 .f32) : FVec Ideal S2 .f32 :=
  let v217 : FVec Ideal S2x8192 .f32 := fun i => shapeCast S2x8192 RM shapeCasts_S2x8192x1_S2x8192 i
  let c32 : FVec Ideal S_ .f32 := constant (F := Ideal) S_ .f32 0x00000000#32
  let v218 : FVec Ideal S2x8192 .f32 := broadcastInDim S2x8192 ![] bcast_S_S2x8192 c32
  let v219 : FVec Ideal S2x8192 .f32 := maximumf v217 v218
  let v220 : FVec Ideal S2x8192 .f32 := Host.sqrt v219
  let v221 : FVec Ideal S2x8192 .f32 := fun i => shapeCast S2x8192 CM shapeCasts_S2x1x8192_S2x8192 i
  let c33 : FVec Ideal S_ .f32 := constant (F := Ideal) S_ .f32 0x00000000#32
  let v222 : FVec Ideal S2x8192 .f32 := broadcastInDim S2x8192 ![] bcast_S_S2x8192 c33
  let v223 : FVec Ideal S2x8192 .f32 := maximumf v221 v222
  let v224 : FVec Ideal S2x8192 .f32 := Host.sqrt v223
  let c34 : FVec Ideal S_ .f32 := constant (F := Ideal) S_ .f32 0x00000000#32
  let v225 : FVec Ideal S2 .f32 := Host.reduceAdd v220 c34 reducesTo_S2x8192_S2_d1 h_S_
  let c35 : FVec Ideal S_ .f32 := constant (F := Ideal) S_ .f32 0x46000000#32
  let v226 : FVec Ideal S2 .f32 := broadcastInDim S2 ![] bcast_S_S2 c35
  let v227 : FVec Ideal S2 .f32 := Host.divf v225 v226
  let c36 : FVec Ideal S_ .f32 := constant (F := Ideal) S_ .f32 0x00000000#32
  let v228 : FVec Ideal S2 .f32 := Host.reduceAdd v224 c36 reducesTo_S2x8192_S2_d1 h_S_
  let c37 : FVec Ideal S_ .f32 := constant (F := Ideal) S_ .f32 0x46000000#32
  let v229 : FVec Ideal S2 .f32 := broadcastInDim S2 ![] bcast_S_S2 c37
  let v230 : FVec Ideal S2 .f32 := Host.divf v228 v229
  addf v227 v230

/-- The weighted half sum of the two objectives, the first objective, and the second kept as a one-entry vector:
    operations %232 … %243 and %245 in the printed order, returning the values of %243, %233 and %245. -/
noncomputable def kerEnd (v231 : FVec Ideal S2 .f32) (w : FVec Ideal S2 .f32) :
    FVec Ideal S_ .f32 × FVec Ideal S_ .f32 × FVec Ideal S1 .f32 :=
  let v232 : FVec Ideal S1 .f32 := extractStridedSlice S1 ![0] v231 slices_S2_S1_0
  let v233 : FVec Ideal S_ .f32 := fun i => shapeCast S_ v232 shapeCasts_S1_S_ i
  let v234 : FVec Ideal S1 .f32 := extractStridedSlice S1 ![0] w slices_S2_S1_0
  let v235 : FVec Ideal S_ .f32 := fun i => shapeCast S_ v234 shapeCasts_S1_S_ i
  let v236 : FVec Ideal S_ .f32 := mulf v235 v233
  let v237 : FVec Ideal S1 .f32 := extractStridedSlice S1 ![1] v231 slices_S2_S1_1
  let v238 : FVec Ideal S_ .f32 := fun i => shapeCast S_ v237 shapeCasts_S1_S_ i
  let v239 : FVec Ideal S1 .f32 := extractStridedSlice S1 ![1] w slices_S2_S1_1
  let v240 : FVec Ideal S_ .f32 := fun i => shapeCast S_ v239 shapeCasts_S1_S_ i
  let v241 : FVec Ideal S_ .f32 := mulf v240 v238
  let v242 : FVec Ideal S_ .f32 := addf v236 v241
  let c38 : FVec Ideal S_ .f32 := constant (F := Ideal) S_ .f32 0x40000000#32
  let v243 : FVec Ideal S_ .f32 := Host.divf v242 c38
  let v245 : FVec Ideal S1 .f32 := broadcastInDim S1 ![] bcast_S_S1 v238
  (v243, v233, v245)

/-! ## The non-pointwise steps read at an index -/

/-- A column array `[2, 8192, 1]` flattened to `[2, 8192]` reads, at `(p, n)`, the column's entry `(p, n, 0)`. -/
theorem flattenCol_apply {α : Type} (x : S2x8192x1.Idx → α) (h : S2x8192x1.ShapeCasts S2x8192) (p : Fin 2) (n : Fin 8192) :
    shapeCast S2x8192 x h (ix2 p n) = x (ix3 p n (0 : Fin 1)) :=
  shapeCast_apply x h _ _ (by
    rw [Shape.rowMajor_val_three, Shape.rowMajor_val_two]
    show (p.val * 8192 + n.val) * 1 + 0 = p.val * 8192 + n.val
    omega)

/-- A row array `[2, 1, 8192]` flattened to `[2, 8192]` reads, at `(p, k)`, the row's entry `(p, 0, k)`. -/
theorem flattenRow_apply {α : Type} (x : S2x1x8192.Idx → α) (h : S2x1x8192.ShapeCasts S2x8192) (p : Fin 2) (k : Fin 8192) :
    shapeCast S2x8192 x h (ix2 p k) = x (ix3 p (0 : Fin 1) k) :=
  shapeCast_apply x h _ _ (by
    rw [Shape.rowMajor_val_three, Shape.rowMajor_val_two]
    show (p.val * 1 + 0) * 8192 + k.val = p.val * 8192 + k.val
    omega)

/-- The host's sum of the clamped roots of a row of a `[2, 8192]` matrix from a zero word — the matrix clamped below
    against a splat of the zero word, rooted, summed along the second axis — is zero plus the sum of the row's
    clamped roots. -/
theorem clampRowSum_apply (X : FVec Ideal S2x8192 .f32) (p : Fin 2) :
    Host.reduceAdd (F := Ideal) (φ := .f32)
        (Host.sqrt (maximumf X (broadcastInDim S2x8192 ![] bcast_S_S2x8192 (constant (F := Ideal) S_ .f32 0x00000000#32))))
        (constant (F := Ideal) S_ .f32 0x00000000#32) reducesTo_S2x8192_S2_d1 h_S_ (ix1 p)
      = 0 + ∑ n : Fin 8192, TiledMinSum.clampRoot (X (ix2 p n)) := by
  rw [Cert.LibHostRead.hostSumAxis1_apply _ _ reducesTo_S2x8192_S2_d1 h_S_ Ideal.ofBits_zero_f32 p, zero_add]
  refine Finset.sum_congr rfl fun n _ => ?_
  show Ideal.sqrt (max (X (ix2 p n)) (Ideal.ofBits .f32 0x00000000#32)) = Ideal.sqrt (max (X (ix2 p n)) 0)
  rw [Ideal.ofBits_zero_f32]

/-- Objective `p`: the mean over the rows of the clamped roots of the row values plus the mean over the columns of
    the clamped roots of the column values, each sum started at zero and divided by the word of 8192. -/
theorem kerObj_apply (RM : FVec Ideal S2x8192x1 .f32) (CM : FVec Ideal S2x1x8192 .f32) (p : Fin 2) :
    kerObj RM CM (ix1 p)
      = Ideal.div (0 + ∑ n : Fin 8192, TiledMinSum.clampRoot (RM (ix3 p n (0 : Fin 1)))) (Ideal.ofBits .f32 0x46000000#32)
        + Ideal.div (0 + ∑ k : Fin 8192, TiledMinSum.clampRoot (CM (ix3 p (0 : Fin 1) k))) (Ideal.ofBits .f32 0x46000000#32) := by
  unfold kerObj
  dsimp only
  rw [addf_apply, Cert.LibHostRead.hostDivf_apply, Cert.LibHostRead.hostDivf_apply,
    Cert.LibHostRead.bcastConst_apply, clampRowSum_apply, clampRowSum_apply]
  simp only [flattenCol_apply, flattenRow_apply]

/-! ## The program's tail is these functions -/

theorem tail_v231 (W : Valuation τ sig (Elt Ideal)) :
    (StableHlo.after (Gen.hostOps1 (F := Ideal)) W (Proc.devRef .tc main_v231) : FVec Ideal S2 .f32)
      = kerObj (W (Proc.devRef .tc main_v216_0)) (W (Proc.devRef .tc main_v216_1)) := by
  dsimp only [Gen.hostOps1]
  after_results
  rfl

theorem tail_v243 (W : Valuation τ sig (Elt Ideal)) :
    (StableHlo.after (Gen.hostOps1 (F := Ideal)) W (Proc.devRef .tc main_v243) : FVec Ideal S_ .f32)
      = (kerEnd (kerObj (W (Proc.devRef .tc main_v216_0)) (W (Proc.devRef .tc main_v216_1))) (W (Proc.devRef .tc main_arg4))).1 := by
  dsimp only [Gen.hostOps1]
  after_results_simp
  rfl

theorem tail_v233 (W : Valuation τ sig (Elt Ideal)) :
    (StableHlo.after (Gen.hostOps1 (F := Ideal)) W (Proc.devRef .tc main_v233) : FVec Ideal S_ .f32)
      = (kerEnd (kerObj (W (Proc.devRef .tc main_v216_0)) (W (Proc.devRef .tc main_v216_1))) (W (Proc.devRef .tc main_arg4))).2.1 := by
  dsimp only [Gen.hostOps1]
  after_results
  rfl

theorem tail_v245 (W : Valuation τ sig (Elt Ideal)) :
    (StableHlo.after (Gen.hostOps1 (F := Ideal)) W (Proc.devRef .tc main_v245) : FVec Ideal S1 .f32)
      = (kerEnd (kerObj (W (Proc.devRef .tc main_v216_0)) (W (Proc.devRef .tc main_v216_1))) (W (Proc.devRef .tc main_arg4))).2.2 := by
  dsimp only [Gen.hostOps1]
  after_results
  rfl

end Cert.KernelIdeal.KT

end
-- ==== Proof.KerTail2.lean ====
/-
  The buffers the program's tail does not compute from the region's results: the program's arguments and one
  earlier value pass through the tail unchanged, and one result of the tail is an earlier matrix kept as a
  one-entry stack of matrices.
-/
import proofs.«128588_j377957122581_2_alg».proof.Proof.Gen.KernelIdeal.Launch
import Idealize.ShloMosaic.Lib.StableHlo.Run
import Idealize.ShloMosaic.PureOps.Ideal

set_option maxRecDepth 16384

noncomputable section

namespace Cert.KernelIdeal.KT

open Cert.KernelIdeal Cert.KernelIdeal.Facts₀
open Idealize.ShloMosaic

/-- No operation of the tail writes this value. -/
theorem tail_v74 (W : Valuation τ sig (Elt Ideal)) :
    StableHlo.after (Gen.hostOps1 (F := Ideal)) W (Proc.devRef .tc main_v74) = W (Proc.devRef .tc main_v74) := by
  dsimp only [Gen.hostOps1]
  after_results_simp

/-- The 4 × 4 matrix computed before the region, kept as a one-entry stack. -/
theorem tail_v244 (W : Valuation τ sig (Elt Ideal)) :
    (StableHlo.after (Gen.hostOps1 (F := Ideal)) W (Proc.devRef .tc main_v244) : FVec Ideal S1x4x4 .f32)
      = broadcastInDim S1x4x4 ![1, 2] bcast_S4x4_S1x4x4_1_2 (W (Proc.devRef .tc main_v206)) := by
  dsimp only [Gen.hostOps1]
  after_results_simp

/-! The program's arguments are not written by the tail. -/

theorem tail_arg0 (W : Valuation τ sig (Elt Ideal)) :
    StableHlo.after (Gen.hostOps1 (F := Ideal)) W (Proc.devRef .tc main_arg0) = W (Proc.devRef .tc main_arg0) := by
  dsimp only [Gen.hostOps1]
  after_results_simp

theorem tail_arg1 (W : Valuation τ sig (Elt Ideal)) :
    StableHlo.after (Gen.hostOps1 (F := Ideal)) W (Proc.devRef .tc main_arg1) = W (Proc.devRef .tc main_arg1) := by
  dsimp only [Gen.hostOps1]
  after_results_simp

theorem tail_arg2 (W : Valuation τ sig (Elt Ideal)) :
    StableHlo.after (Gen.hostOps1 (F := Ideal)) W (Proc.devRef .tc main_arg2) = W (Proc.devRef .tc main_arg2) := by
  dsimp only [Gen.hostOps1]
  after_results_simp

theorem tail_arg3 (W : Valuation τ sig (Elt Ideal)) :
    StableHlo.after (Gen.hostOps1 (F := Ideal)) W (Proc.devRef .tc main_arg3) = W (Proc.devRef .tc main_arg3) := by
  dsimp only [Gen.hostOps1]
  after_results_simp

theorem tail_arg4 (W : Valuation τ sig (Elt Ideal)) :
    StableHlo.after (Gen.hostOps1 (F := Ideal)) W (Proc.devRef .tc main_arg4) = W (Proc.devRef .tc main_arg4) := by
  dsimp only [Gen.hostOps1]
  after_results_simp

theorem tail_arg5 (W : Valuation τ sig (Elt Ideal)) :
    StableHlo.after (Gen.hostOps1 (F := Ideal)) W (Proc.devRef .tc main_arg5) = W (Proc.devRef .tc main_arg5) := by
  dsimp only [Gen.hostOps1]
  after_results_simp

theorem tail_arg6 (W : Valuation τ sig (Elt Ideal)) :
    StableHlo.after (Gen.hostOps1 (F := Ideal)) W (Proc.devRef .tc main_arg6) = W (Proc.devRef .tc main_arg6) := by
  dsimp only [Gen.hostOps1]
  after_results_simp

theorem tail_arg7 (W : Valuation τ sig (Elt Ideal)) :
    StableHlo.after (Gen.hostOps1 (F := Ideal)) W (Proc.devRef .tc main_arg7) = W (Proc.devRef .tc main_arg7) := by
  dsimp only [Gen.hostOps1]
  after_results_simp

end Cert.KernelIdeal.KT

end
-- ==== Proof.KerEndRead.lean ====
/-
  The end of the program's tail read at its entries: the weighted half sum of the two objectives, the first
  objective as a scalar, and the second objective as a one-entry vector.
-/
import proofs.«128588_j377957122581_2_alg».proof.Proof.KerTail
import Idealize.ShloMosaic.Lib.IdealHost

noncomputable section

namespace Cert.KernelIdeal.KT

open Cert.KernelIdeal Cert.KernelIdeal.Facts₀
open Idealize.ShloMosaic Idealize.ShloMosaic.ValueIdx

/-- Entry `q` of a two-entry vector, cut out as a one-entry vector and then read as a scalar, is that entry. -/
theorem entry_apply {α : Type} (o : Nat) (q : Fin 2) (hq : q.val = o) (x : S2.Idx → α) (hs : S2.Slices ![o] S1)
    (hc : S1.ShapeCasts S_) (i : S_.Idx) :
    shapeCast S_ (extractStridedSlice S1 ![o] x hs) hc i = x (ix1 q) := by
  have h1 : S_.numel = 1 := by decide
  rw [shapeCast_apply _ hc i (ix1 (0 : Fin 1)) (by
    rw [Shape.rowMajor_val_one]
    have hlt : (S_.rowMajor i).val < S_.numel := (S_.rowMajor i).isLt
    show 0 = (S_.rowMajor i).val
    omega)]
  exact extractStridedSlice_apply _ _ hs _ _ (fun ax => match ax with
    | ⟨0, _⟩ => by show q.val = o + 0; omega)

/-- The weighted half sum: the two objectives weighted by the two weights, added, divided by the word of two. -/
theorem kerEnd_fst (v w : FVec Ideal S2 .f32) (i : S_.Idx) :
    (kerEnd v w).1 i
      = Ideal.div (w (ix1 (0 : Fin 2)) * v (ix1 (0 : Fin 2)) + w (ix1 (1 : Fin 2)) * v (ix1 (1 : Fin 2)))
          (Ideal.ofBits .f32 0x40000000#32) := by
  unfold kerEnd
  dsimp only
  rw [Cert.LibHostRead.hostDivf_apply, addf_apply, mulf_apply, mulf_apply,
    entry_apply 0 0 rfl, entry_apply 0 0 rfl, entry_apply 1 1 rfl, entry_apply 1 1 rfl]
  rfl

/-- The second result is the first objective. -/
theorem kerEnd_snd (v w : FVec Ideal S2 .f32) (i : S_.Idx) : (kerEnd v w).2.1 i = v (ix1 (0 : Fin 2)) := by
  unfold kerEnd
  dsimp only
  rw [entry_apply 0 0 rfl]

/-- The third result holds the second objective at its one entry. -/
theorem kerEnd_thd (v w : FVec Ideal S2 .f32) (j : S1.Idx) : (kerEnd v w).2.2 j = v (ix1 (1 : Fin 2)) := by
  unfold kerEnd
  dsimp only
  rw [broadcastInDim_scalar_apply, entry_apply 1 1 rfl]

/-! ## The same as functions -/

theorem kerEnd_fst_eq (v w : FVec Ideal S2 .f32) :
    (kerEnd v w).1
      = fun _ => Ideal.div (w (ix1 (0 : Fin 2)) * v (ix1 (0 : Fin 2)) + w (ix1 (1 : Fin 2)) * v (ix1 (1 : Fin 2)))
          (Ideal.ofBits .f32 0x40000000#32) :=
  funext fun i => kerEnd_fst v w i

theorem kerEnd_snd_eq (v w : FVec Ideal S2 .f32) : (kerEnd v w).2.1 = fun _ => v (ix1 (0 : Fin 2)) :=
  funext fun i => kerEnd_snd v w i

theorem kerEnd_thd_eq (v w : FVec Ideal S2 .f32) : (kerEnd v w).2.2 = fun _ => v (ix1 (1 : Fin 2)) :=
  funext fun j => kerEnd_thd v w j

end Cert.KernelIdeal.KT

end
-- ==== Proof.KAfter.lean ====
/-
  The kernel program's buffers after the host operations that follow the region, at the ideal instance:
  each result as a function of the two arrays the region leaves (the row minima and the column minima)
  and of the buffers computed before the region; the arguments untouched.
-/
import proofs.«128588_j377957122581_2_alg».proof.Proof.KFDats
import proofs.«128588_j377957122581_2_alg».proof.Proof.KerTail
import proofs.«128588_j377957122581_2_alg».proof.Proof.KerTail2
import proofs.«128588_j377957122581_2_alg».proof.Proof.KerEndRead

set_option maxRecDepth 16384

noncomputable section

namespace Cert.KernelIdeal.KA

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The row minima and the column minima the region leaves. -/
abbrev RM : FVec Ideal S2x8192x1 .f32 := (KF.dats m 0 c).arrAt 2 cfg0.N
abbrev CM : FVec Ideal S2x1x8192 .f32 := (KF.dats m 0 c).arrAt 3 cfg0.N

/-- The buffers as the tail finds them: the region's arrays at what the region left, the others as before it. -/
abbrev WA : Valuation τ sig (Elt Ideal) :=
  Pipeline.withArrays spec0 c (KF.V0 m c) (fun w => (KF.dats m 0 c).arrAt w cfg0.N)

/-- A buffer after the tail. -/
abbrev AT (b : Ref sig .tc) : Buf (Elt Ideal) ((c.tc : Thread nD τ).loc b) :=
  Pipeline.afterTail₀ cfgs (KF.dats m) 0 (KF.V0 m) [hostOps1] c b

theorem AT_eq (b : Ref sig .tc) :
    AT m c b = StableHlo.after (hostOps1 (F := Ideal)) (WA m c) (Proc.devRef .tc b) := by
  unfold AT Pipeline.afterTail₀
  simp only [List.flatten_cons, List.flatten_nil, List.append_nil]

theorem WA_rm : WA m c (Proc.devRef .tc main_v216_0) = RM m c :=
  Pipeline.withArrays_arr spec0 launch0.win.arr_inj c _ _ 2
theorem WA_cm : WA m c (Proc.devRef .tc main_v216_1) = CM m c :=
  Pipeline.withArrays_arr spec0 launch0.win.arr_inj c _ _ 3
theorem WA_of (b : Ref sig .tc) (hb : ∀ w, Pipeline.arrRef spec0 w ≠ b) :
    WA m c (Proc.devRef .tc b) = KF.V0 m c (Proc.devRef .tc b) :=
  Pipeline.withArrays_of_ne spec0 c _ _ b hb

/-- The per-part objectives the tail computes from the two arrays. -/
abbrev obj : FVec Ideal S2 .f32 := KT.kerObj (RM m c) (CM m c)

/-- The two part weights, as the tail finds them. -/
abbrev wts : FVec Ideal S2 .f32 := KF.V0 m c (Proc.devRef .tc main_arg4)

theorem AT_v233 : (AT m c main_v233 : FVec Ideal S_ .f32) = fun _ => obj m c (ix1 (0 : Fin 2)) := by
  rw [AT_eq, KT.tail_v233, WA_rm, WA_cm, KT.kerEnd_snd_eq]
  rfl

theorem AT_v245 : (AT m c main_v245 : FVec Ideal S1 .f32) = fun _ => obj m c (ix1 (1 : Fin 2)) := by
  rw [AT_eq, KT.tail_v245, WA_rm, WA_cm, KT.kerEnd_thd_eq]
  rfl

theorem AT_v243 : (AT m c main_v243 : FVec Ideal S_ .f32)
    = fun _ => Ideal.div (wts m c (ix1 (0 : Fin 2)) * obj m c (ix1 (0 : Fin 2))
        + wts m c (ix1 (1 : Fin 2)) * obj m c (ix1 (1 : Fin 2))) (Ideal.ofBits .f32 0x40000000#32) := by
  rw [AT_eq, KT.tail_v243, WA_rm, WA_cm, KT.kerEnd_fst_eq, WA_of m c main_arg4 (by decide)]
  rfl

theorem AT_v74 : AT m c main_v74 = KF.V0 m c (Proc.devRef .tc main_v74) := by
  rw [AT_eq, KT.tail_v74, WA_of m c main_v74 (by decide)]

theorem AT_v244 : (AT m c main_v244 : FVec Ideal S1x4x4 .f32)
    = broadcastInDim S1x4x4 ![1, 2] Facts₀.bcast_S4x4_S1x4x4_1_2 (KF.V0 m c (Proc.devRef .tc main_v206)) := by
  rw [AT_eq, KT.tail_v244, WA_of m c main_v206 (by decide)]

end Cert.KernelIdeal.KA

end
-- ==== Proof.KFinal.lean ====
/-
  The kernel program's run at the ideal instance, read: every weakly fair execution terminates with
  the five results at what the tail computes from the region's arrays, and the arguments unchanged.
-/
import proofs.«128588_j377957122581_2_alg».proof.Proof.KFRun
import proofs.«128588_j377957122581_2_alg».proof.Proof.KAfter

set_option maxRecDepth 16384

noncomputable section

namespace Cert.KernelIdeal.KA

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v243) = AT m c main_v243
      ∧ r.2.mem ((c.tc : Thread nD τ).loc main_v233) = AT m c main_v233
      ∧ r.2.mem ((c.tc : Thread nD τ).loc main_v245) = AT m c main_v245
      ∧ r.2.mem ((c.tc : Thread nD τ).loc main_v74) = AT m c main_v74
      ∧ r.2.mem ((c.tc : Thread nD τ).loc main_v244) = AT m c main_v244
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).2 main_v243 (Pipeline.mem_restRefs_of _ rfl (by decide)),
      (h c).2 main_v233 (Pipeline.mem_restRefs_of _ rfl (by decide)),
      (h c).2 main_v245 (Pipeline.mem_restRefs_of _ rfl (by decide)),
      (h c).2 main_v74 (Pipeline.mem_restRefs_of _ rfl (by decide)),
      (h c).2 main_v244 (Pipeline.mem_restRefs_of _ rfl (by decide)),
      KF.arg_kept m c main_arg0 (by decide) (by decide) (fun op hop => (KF.pre_noarg op hop).1) (fun op hop => (KF.sfx_noarg op hop).1) _ h,
      KF.arg_kept m c main_arg1 (by decide) (by decide) (fun op hop => (KF.pre_noarg op hop).2.1) (fun op hop => (KF.sfx_noarg op hop).2.1) _ h,
      KF.arg_kept m c main_arg2 (by decide) (by decide) (fun op hop => (KF.pre_noarg op hop).2.2.1) (fun op hop => (KF.sfx_noarg op hop).2.2.1) _ h,
      KF.arg_kept m c main_arg3 (by decide) (by decide) (fun op hop => (KF.pre_noarg op hop).2.2.2.1) (fun op hop => (KF.sfx_noarg op hop).2.2.2.1) _ h,
      KF.arg_kept m c main_arg4 (by decide) (by decide) (fun op hop => (KF.pre_noarg op hop).2.2.2.2.1) (fun op hop => (KF.sfx_noarg op hop).2.2.2.2.1) _ h,
      KF.arg_kept m c main_arg5 (by decide) (by decide) (fun op hop => (KF.pre_noarg op hop).2.2.2.2.2.1) (fun op hop => (KF.sfx_noarg op hop).2.2.2.2.2.1) _ h,
      KF.arg_kept m c main_arg6 (by decide) (by decide) (fun op hop => (KF.pre_noarg op hop).2.2.2.2.2.2.1) (fun op hop => (KF.sfx_noarg op hop).2.2.2.2.2.2.1) _ h,
      KF.arg_kept m c main_arg7 (by decide) (by decide) (fun op hop => (KF.pre_noarg op hop).2.2.2.2.2.2.2) (fun op hop => (KF.sfx_noarg op hop).2.2.2.2.2.2.2) _ h⟩) (KF.run_main m ρ)

end Cert.KernelIdeal.KA

end
-- ==== Proof.KArr.lean ====
/-
  The two result arrays after the region. The first result, an array [2, 8192, 1], is written back in blocks of
  1024 rows at the grid points congruent to 7 modulo 8; the second, an array [2, 1, 8192], in blocks of one whole
  row at the points congruent to 63 modulo 64. When what the staging buffers hold at those points is, entry by
  entry, one function of the part and of the row (of the column), the arrays end holding that function.
-/
import proofs.«128588_j377957122581_2_alg».proof.Proof.KFDefs
import Idealize.ShloMosaic.Lib.ValueIdx
import Idealize.ShloMosaic.Lib.Pipeline.Value

set_option maxRecDepth 16384

noncomputable section

namespace Cert.KernelIdeal.KV

open Cert.KernelIdeal Cert.KernelIdeal.Gen Cert.KernelIdeal.KF
open Idealize.ShloMosaic Idealize.ShloMosaic.TcCoe Idealize.SL.Sem Idealize.ShloMosaic.ValueIdx
open Idealize.ShloMosaic.Pipeline (Dat)

/-- The index maps of the two output windows over the grid, in closed form. -/
theorem idx2 : ∀ t : Fin cfg0.N, win0_2.index t 0 = t.val / 64 ∧ win0_2.index t 1 = t.val / 8 % 8 ∧ win0_2.index t 2 = 0 :=
  (by decide +kernel : ∀ t : Fin grid0.N, win0_2.index t 0 = t.val / 64 ∧ win0_2.index t 1 = t.val / 8 % 8 ∧ win0_2.index t 2 = 0)
theorem idx3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)

variable {c : Dev nD} (dat : Dat τ (Elt Ideal) Unit ℕ (UR sig nD τ) ℕ cfg0 c)

/-- At a write-back point of the first result, the block written is the block of the one function. -/
theorem flushed2_eq (Gr : ℕ → ℕ → EReal) (X : Fin cfg0.N → Vec Ideal S1x1024x1 .f32)
    (hafter : ∀ t, dat.after 2 t = X t)
    (h2 : ∀ t : Fin cfg0.N, t.val % 8 = 7 → ∀ r : Fin 1024,
      X t (ix3 (0 : Fin 1) r (0 : Fin 1)) = Gr (t.val / 64) (1024 * (t.val / 8 % 8) + r.val))
    (t : Fin cfg0.N) (hf : (cfg0.win 2).flush t = true) :
    dat.flushed 2 t = ((cfg0.win 2).blk t).view.read (Elt Ideal) (fun I : S2x8192x1.Idx => Gr (I 0).val (I 1).val) := by
  have h7 := (flush0_2 t).mp hf
  obtain ⟨e0, e1, e2⟩ := idx2 t
  show (cfg0.win 2).cut (grid0.coords t) (dat.after 2 t) = _
  rw [hafter]
  refine funext fun (y : S1x1024x1.Idx) => ?_
  rw [View.read_apply]
  have hy0 : (y 0).val < 1 := (y 0).isLt
  have hy1 : (y 1).val < 1024 := (y 1).isLt
  have hy2 : (y 2).val < 1 := (y 2).isLt
  have hy : y = ix3 (0 : Fin 1) (⟨(y 1).val, hy1⟩ : Fin 1024) (0 : Fin 1) := by
    funext a; apply Fin.ext
    match a with
    | ⟨0, _⟩ => show (y 0).val = 0; omega
    | ⟨1, _⟩ => rfl
    | ⟨2, _⟩ => show (y 2).val = 0; omega
  have hc0 : ((((cfg0.win 2).blk t).view.emb y) 0).val = t.val / 64 := by
    show win0_2.index t 0 * 1 + 1 * (y 0).val = _; rw [e0]; omega
  have hc1 : ((((cfg0.win 2).blk t).view.emb y) 1).val = 1024 * (t.val / 8 % 8) + (y 1).val := by
    show win0_2.index t 1 * 1024 + 1 * (y 1).val = _; rw [e1]; omega
  show X t y = Gr ((((cfg0.win 2).blk t).view.emb y) 0).val ((((cfg0.win 2).blk t).view.emb y) 1).val
  rw [hc0, hc1]
  conv_lhs => rw [hy]
  exact h2 t h7 ⟨(y 1).val, hy1⟩

/-- Every entry of the first result lies in the block written back at some write-back point. -/
theorem cover2 (I : S2x8192x1.Idx) :
    ∃ t : Fin cfg0.N, (cfg0.win 2).flush t = true ∧ I ∈ ((cfg0.win 2).blk t).view.set := by
  have hN : cfg0.N = 128 := N_0
  have h0 : (I 0).val < 2 := (I 0).isLt
  have h1 : (I 1).val < 8192 := (I 1).isLt
  have h2 : (I 2).val < 1 := (I 2).isLt
  have hlt : 64 * (I 0).val + 8 * ((I 1).val / 1024) + 7 < cfg0.N := by rw [hN]; omega
  refine ⟨⟨64 * (I 0).val + 8 * ((I 1).val / 1024) + 7, hlt⟩, (flush0_2 _).mpr (by
    show (64 * (I 0).val + 8 * ((I 1).val / 1024) + 7) % 8 = 7; omega), ?_⟩
  obtain ⟨e0, e1, e2⟩ := idx2 ⟨64 * (I 0).val + 8 * ((I 1).val / 1024) + 7, hlt⟩
  show I ∈ ((View.whole main_v216_0).slice (win0_2.rect ⟨64 * (I 0).val + 8 * ((I 1).val / 1024) + 7, hlt⟩)).set
  rw [View.set_slice_whole, Rect.mem_set_unit]
  intro a
  match a with
  | ⟨0, _⟩ =>
    show win0_2.index ⟨64 * (I 0).val + 8 * ((I 1).val / 1024) + 7, hlt⟩ 0 * 1 ≤ (I 0).val
      ∧ (I 0).val < win0_2.index ⟨64 * (I 0).val + 8 * ((I 1).val / 1024) + 7, hlt⟩ 0 * 1 + 1
    rw [e0]
    show (64 * (I 0).val + 8 * ((I 1).val / 1024) + 7) / 64 * 1 ≤ (I 0).val
      ∧ (I 0).val < (64 * (I 0).val + 8 * ((I 1).val / 1024) + 7) / 64 * 1 + 1
    omega
  | ⟨1, _⟩ =>
    show win0_2.index ⟨64 * (I 0).val + 8 * ((I 1).val / 1024) + 7, hlt⟩ 1 * 1024 ≤ (I 1).val
      ∧ (I 1).val < win0_2.index ⟨64 * (I 0).val + 8 * ((I 1).val / 1024) + 7, hlt⟩ 1 * 1024 + 1024
    rw [e1]
    show (64 * (I 0).val + 8 * ((I 1).val / 1024) + 7) / 8 % 8 * 1024 ≤ (I 1).val
      ∧ (I 1).val < (64 * (I 0).val + 8 * ((I 1).val / 1024) + 7) / 8 % 8 * 1024 + 1024
    omega
  | ⟨2, _⟩ =>
    show win0_2.index ⟨64 * (I 0).val + 8 * ((I 1).val / 1024) + 7, hlt⟩ 2 * 1 ≤ (I 2).val
      ∧ (I 2).val < win0_2.index ⟨64 * (I 0).val + 8 * ((I 1).val / 1024) + 7, hlt⟩ 2 * 1 + 1
    rw [e2]
    omega

/-- So the first result ends holding the one function. -/
theorem final2_of (Gr : ℕ → ℕ → EReal) (X : Fin cfg0.N → Vec Ideal S1x1024x1 .f32)
    (hafter : ∀ t, dat.after 2 t = X t)
    (h2 : ∀ t : Fin cfg0.N, t.val % 8 = 7 → ∀ r : Fin 1024,
      X t (ix3 (0 : Fin 1) r (0 : Fin 1)) = Gr (t.val / 64) (1024 * (t.val / 8 % 8) + r.val))
    (I : S2x8192x1.Idx) : dat.arrAt 2 cfg0.N I = Gr (I 0).val (I 1).val :=
  congrFun (dat.arrAt_eq_of_cover 2 (fun I : S2x8192x1.Idx => Gr (I 0).val (I 1).val)
    (flushed2_eq dat Gr X hafter h2) cover2) I

/-- At a write-back point of the second result, the block written is the block of the one function. -/
theorem flushed3_eq (Gc : ℕ → ℕ → EReal) (X : Fin cfg0.N → Vec Ideal S1x1x8192 .f32)
    (hafter : ∀ t, dat.after 3 t = X t)
    (h3 : ∀ t : Fin cfg0.N, t.val % 64 = 63 → ∀ col : Fin 8192,
      X t (ix3 (0 : Fin 1) (0 : Fin 1) col) = Gc (t.val / 64) col.val)
    (t : Fin cfg0.N) (hf : (cfg0.win 3).flush t = true) :
    dat.flushed 3 t = ((cfg0.win 3).blk t).view.read (Elt Ideal) (fun I : S2x1x8192.Idx => Gc (I 0).val (I 2).val) := by
  have h63 := (flush0_3 t).mp hf
  obtain ⟨e0, e1, e2⟩ := idx3 t
  show (cfg0.win 3).cut (grid0.coords t) (dat.after 3 t) = _
  rw [hafter]
  refine funext fun (y : S1x1x8192.Idx) => ?_
  rw [View.read_apply]
  have hy0 : (y 0).val < 1 := (y 0).isLt
  have hy1 : (y 1).val < 1 := (y 1).isLt
  have hy2 : (y 2).val < 8192 := (y 2).isLt
  have hy : y = ix3 (0 : Fin 1) (0 : Fin 1) (⟨(y 2).val, hy2⟩ : Fin 8192) := by
    funext a; apply Fin.ext
    match a with
    | ⟨0, _⟩ => show (y 0).val = 0; omega
    | ⟨1, _⟩ => show (y 1).val = 0; omega
    | ⟨2, _⟩ => rfl
  have hc0 : ((((cfg0.win 3).blk t).view.emb y) 0).val = t.val / 64 := by
    show win0_3.index t 0 * 1 + 1 * (y 0).val = _; rw [e0]; omega
  have hc2 : ((((cfg0.win 3).blk t).view.emb y) 2).val = (y 2).val := by
    show win0_3.index t 2 * 8192 + 1 * (y 2).val = _; rw [e2]; omega
  show X t y = Gc ((((cfg0.win 3).blk t).view.emb y) 0).val ((((cfg0.win 3).blk t).view.emb y) 2).val
  rw [hc0, hc2]
  conv_lhs => rw [hy]
  exact h3 t h63 ⟨(y 2).val, hy2⟩

/-- Every entry of the second result lies in the block written back at some write-back point. -/
theorem cover3 (I : S2x1x8192.Idx) :
    ∃ t : Fin cfg0.N, (cfg0.win 3).flush t = true ∧ I ∈ ((cfg0.win 3).blk t).view.set := by
  have hN : cfg0.N = 128 := N_0
  have h0 : (I 0).val < 2 := (I 0).isLt
  have h1 : (I 1).val < 1 := (I 1).isLt
  have h2 : (I 2).val < 8192 := (I 2).isLt
  have hlt : 64 * (I 0).val + 63 < cfg0.N := by rw [hN]; omega
  refine ⟨⟨64 * (I 0).val + 63, hlt⟩, (flush0_3 _).mpr (by
    show (64 * (I 0).val + 63) % 64 = 63; omega), ?_⟩
  obtain ⟨e0, e1, e2⟩ := idx3 ⟨64 * (I 0).val + 63, hlt⟩
  show I ∈ ((View.whole main_v216_1).slice (win0_3.rect ⟨64 * (I 0).val + 63, hlt⟩)).set
  rw [View.set_slice_whole, Rect.mem_set_unit]
  intro a
  match a with
  | ⟨0, _⟩ =>
    show win0_3.index ⟨64 * (I 0).val + 63, hlt⟩ 0 * 1 ≤ (I 0).val
      ∧ (I 0).val < win0_3.index ⟨64 * (I 0).val + 63, hlt⟩ 0 * 1 + 1
    rw [e0]
    show (64 * (I 0).val + 63) / 64 * 1 ≤ (I 0).val ∧ (I 0).val < (64 * (I 0).val + 63) / 64 * 1 + 1
    omega
  | ⟨1, _⟩ =>
    show win0_3.index ⟨64 * (I 0).val + 63, hlt⟩ 1 * 1 ≤ (I 1).val
      ∧ (I 1).val < win0_3.index ⟨64 * (I 0).val + 63, hlt⟩ 1 * 1 + 1
    rw [e1]
    omega
  | ⟨2, _⟩ =>
    show win0_3.index ⟨64 * (I 0).val + 63, hlt⟩ 2 * 8192 ≤ (I 2).val
      ∧ (I 2).val < win0_3.index ⟨64 * (I 0).val + 63, hlt⟩ 2 * 8192 + 8192
    rw [e2]
    omega

/-- So the second result ends holding the one function. -/
theorem final3_of (Gc : ℕ → ℕ → EReal) (X : Fin cfg0.N → Vec Ideal S1x1x8192 .f32)
    (hafter : ∀ t, dat.after 3 t = X t)
    (h3 : ∀ t : Fin cfg0.N, t.val % 64 = 63 → ∀ col : Fin 8192,
      X t (ix3 (0 : Fin 1) (0 : Fin 1) col) = Gc (t.val / 64) col.val)
    (I : S2x1x8192.Idx) : dat.arrAt 3 cfg0.N I = Gc (I 0).val (I 2).val :=
  congrFun (dat.arrAt_eq_of_cover 3 (fun I : S2x1x8192.Idx => Gc (I 0).val (I 2).val)
    (flushed3_eq dat Gc X hafter h3) cover3) I

end Cert.KernelIdeal.KV

end
-- ==== Proof.KBlocks.lean ====
/-
  The input windows' blocks read at an index: at grid point t = 64·p + 8·i + j the first window's block is
  rows 1024·i … 1024·i + 1023 of part p of the stacked clouds, the second window's block is columns
  1024·j … 1024·j + 1023 of part p of the transposed camera cloud.
-/
import proofs.«128588_j377957122581_2_alg».proof.Proof.KFDefs
import Idealize.ShloMosaic.Lib.ValueIdx
import Idealize.ShloMosaic.Lib.Pipeline.Value

set_option maxRecDepth 16384

noncomputable section

namespace Cert.KernelIdeal.KV

open Cert.KernelIdeal Cert.KernelIdeal.Gen Cert.KernelIdeal.KF
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index maps of the two input windows over the grid, in closed form. -/
theorem idx0 : ∀ t : Fin cfg0.N, win0_0.index t 0 = t.val / 64 ∧ win0_0.index t 1 = t.val / 8 % 8 ∧ win0_0.index t 2 = 0 :=
  (by decide +kernel : ∀ t : Fin grid0.N, win0_0.index t 0 = t.val / 64 ∧ win0_0.index t 1 = t.val / 8 % 8 ∧ win0_0.index t 2 = 0)
theorem idx1 : ∀ t : Fin cfg0.N, win0_1.index t 0 = t.val / 64 ∧ win0_1.index t 1 = 0 ∧ win0_1.index t 2 = t.val % 8 :=
  (by decide +kernel : ∀ t : Fin grid0.N, win0_1.index t 0 = t.val / 64 ∧ win0_1.index t 1 = 0 ∧ win0_1.index t 2 = t.val % 8)
/-- The last grid coordinate is the point modulo eight. -/
theorem coord2 : ∀ t : Fin cfg0.N, ((grid0.coords t) 2).val = t.val % 8 :=
  (by decide +kernel : ∀ t : Fin grid0.N, ((grid0.coords t) 2).val = t.val % 8)

/-- Row `r` of the first window's block at point `t` is row `1024·(t/8 % 8) + r` of part `t/64`. -/
theorem iblk0_apply (c : Dev nD) (t : Fin cfg0.N) (r : Fin 1024) (k : Fin 4) (I : S2x8192x4.Idx)
    (h0 : (I 0).val = t.val / 64) (h1 : (I 1).val = 1024 * (t.val / 8 % 8) + r.val) (h2 : (I 2).val = k.val) :
    (iblk m c 0 t : S1x1024x4.Idx → F .f32) (ix3 0 r k) = V m c main_v214 I := by
  unfold iblk
  rw [View.read_apply]
  show V m c main_v214 _ = V m c main_v214 I
  congr 1
  funext a
  apply Fin.ext
  obtain ⟨e0, e1, e2⟩ := idx0 t
  match a with
  | ⟨0, _⟩ => show win0_0.index t 0 * 1 + 1 * 0 = (I 0).val; rw [e0, h0]; omega
  | ⟨1, _⟩ => show win0_0.index t 1 * 1024 + 1 * r.val = (I 1).val; rw [e1, h1]; omega
  | ⟨2, _⟩ => show win0_0.index t 2 * 4 + 1 * k.val = (I 2).val; rw [e2, h2]; omega

/-- Column `q` of the second window's block at point `t` is column `1024·(t % 8) + q` of part `t/64`. -/
theorem iblk1_apply (c : Dev nD) (t : Fin cfg0.N) (k : Fin 4) (q : Fin 1024) (I : S2x4x8192.Idx)
    (h0 : (I 0).val = t.val / 64) (h1 : (I 1).val = k.val) (h2 : (I 2).val = 1024 * (t.val % 8) + q.val) :
    (iblk m c 1 t : S1x4x1024.Idx → F .f32) (ix3 0 k q) = V m c main_v215 I := by
  unfold iblk
  rw [View.read_apply]
  show V m c main_v215 _ = V m c main_v215 I
  congr 1
  funext a
  apply Fin.ext
  obtain ⟨e0, e1, e2⟩ := idx1 t
  match a with
  | ⟨0, _⟩ => show win0_1.index t 0 * 1 + 1 * 0 = (I 0).val; rw [e0, h0]; omega
  | ⟨1, _⟩ => show win0_1.index t 1 * 4 + 1 * k.val = (I 1).val; rw [e1, h1]; omega
  | ⟨2, _⟩ => show win0_1.index t 2 * 1024 + 1 * q.val = (I 2).val; rw [e2, h2]; omega

end Cert.KernelIdeal.KV

end
-- ==== Proof.ChamferMath.lean ====
import proofs.«128588_j377957122581_2_alg».proof.Proof.ChamferSpec
import Idealize.ShloMosaic.PureOps.Ideal.Laws

/-!
# The two arrangements of the chamfer objective agree on real points

On points with real coordinates the sum of squared coordinate differences equals the expanded form
`‖x‖² + ‖y‖² − Σ (2 x_k) y_k`; the clamped root, being monotone and fixing the top element, moves
inside a minimum; so the objective with the root after the minima equals the one with the root
before them. The file also reads a few single-precision patterns as extended reals, shows that
sums, differences and products of real values are real, and restates the tiled minimum for
8 tiles of 1024 positions.
-/

noncomputable section

namespace Chamfer

open Idealize.ShloMosaic TiledMinSum

/-! ### The squared distance, two ways -/

/-- On real points the accumulated squared differences equal the expansion of the square with factor two. -/
theorem sqDiff_eq_sqExp (x y : Fin 4 → EReal) (hx : RealPt x) (hy : RealPt y) :
    sqDiff x y = sqExp ((2 : ℝ) : EReal) x y := by
  choose a ha using hx
  choose b hb using hy
  simp only [sqDiff, sqExp, Fin.sum_univ_four, ha, hb]
  norm_cast
  ring

/-- The objective with the root after the minima equals the one with the root before them, on real clouds. -/
theorem objAfter_eq_objBefore {n : ℕ} (d : EReal) (X Y : Fin n → Fin 4 → EReal)
    (hX : ∀ i, RealPt (X i)) (hY : ∀ k, RealPt (Y k)) :
    objAfter d X Y = objBefore ((2 : ℝ) : EReal) d X Y := by
  have h1 : ∀ i, clampRoot ((Finset.univ : Finset (Fin n)).fold min ⊤ (fun k => sqDiff (X i) (Y k)))
      = (Finset.univ : Finset (Fin n)).fold min ⊤
          (fun k => clampRoot (sqExp ((2 : ℝ) : EReal) (X i) (Y k))) := by
    intro i
    rw [map_fold_min clampRoot clampRoot_mono clampRoot_top]
    refine Finset.fold_congr fun k _ => ?_
    rw [sqDiff_eq_sqExp _ _ (hX i) (hY k)]
  have h2 : ∀ k, clampRoot ((Finset.univ : Finset (Fin n)).fold min ⊤ (fun i => sqDiff (X i) (Y k)))
      = (Finset.univ : Finset (Fin n)).fold min ⊤
          (fun i => clampRoot (sqExp ((2 : ℝ) : EReal) (X i) (Y k))) := by
    intro k
    rw [map_fold_min clampRoot clampRoot_mono clampRoot_top]
    refine Finset.fold_congr fun i _ => ?_
    rw [sqDiff_eq_sqExp _ _ (hX i) (hY k)]
  unfold objAfter objBefore
  simp only [h1, h2]

/-! ### Single-precision patterns as extended reals -/

/-- The pattern `0x40000000` is the real number two. -/
theorem ofBits_two : Ideal.ofBits .f32 0x40000000#32 = ((2 : ℝ) : EReal) := by
  simp [Ideal.ofBits, Ideal.ieee, -EReal.coe_mul]; norm_num

/-- The pattern `0x3F800000` is the real number one. -/
theorem ofBits_one : Ideal.ofBits .f32 0x3F800000#32 = ((1 : ℝ) : EReal) := by
  simp [Ideal.ofBits, Ideal.ieee, -EReal.coe_mul]; norm_num

/-- The all-zero pattern is zero. -/
theorem ofBits_zero : Ideal.ofBits .f32 0x00000000#32 = 0 := Ideal.ofBits_zero_f32

/-- The pattern `0x46000000` is the real number 8192 = 2¹³. -/
theorem ofBits_8192 : Ideal.ofBits .f32 0x46000000#32 = ((8192 : ℝ) : EReal) := by
  simp [Ideal.ofBits, Ideal.ieee, -EReal.coe_mul]; norm_num

/-! ### Real values are closed under the arithmetic -/

theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

theorem real_sub {a b : EReal} (ha : ∃ r : ℝ, a = r) (hb : ∃ r : ℝ, b = r) : ∃ r : ℝ, a - b = r := by
  obtain ⟨r, rfl⟩ := ha; obtain ⟨s, rfl⟩ := hb; exact ⟨r - s, (EReal.coe_sub r s).symm⟩

theorem real_zero : ∃ r : ℝ, (0 : EReal) = r := ⟨0, EReal.coe_zero.symm⟩

/-- A finite sum of real values is real. -/
theorem real_sum {ι : Type*} (s : Finset ι) (f : ι → EReal) (h : ∀ k ∈ s, ∃ r : ℝ, f k = r) :
    ∃ r : ℝ, ∑ k ∈ s, f k = r := by
  classical
  induction s using Finset.induction_on with
  | empty => exact ⟨0, by simp⟩
  | insert a s ha ih =>
    rw [Finset.sum_insert ha]
    exact real_add (h a (Finset.mem_insert_self a s))
      (ih fun k hk => h k (Finset.mem_insert_of_mem hk))

/-- A sum over a whole finite type of real values is real. -/
theorem real_sum_univ {ι : Type*} [Fintype ι] (f : ι → EReal) (h : ∀ k, ∃ r : ℝ, f k = r) :
    ∃ r : ℝ, ∑ k, f k = r :=
  real_sum Finset.univ f fun k _ => h k

/-! ### Running minima over 8 tiles of 1024 positions -/

/-- The running minimum started from the top element: `min ⊤ (h 0)`, then `min` with `h 1`, `h 2`, …. -/
def runMinTop (h : ℕ → EReal) : ℕ → EReal
  | 0 => min ⊤ (h 0)
  | j + 1 => min (runMinTop h j) (h (j + 1))

/-- Starting the running minimum from the top element changes nothing. -/
theorem runMinTop_eq_runMin (h : ℕ → EReal) (j : ℕ) : runMinTop h j = runMin h j := by
  induction j with
  | zero => simp [runMinTop, runMin]
  | succ j ih =>
    show min (runMinTop h j) (h (j + 1)) = min (runMin h j) (h (j + 1))
    rw [ih]

/-- The running minimum over the 8 tiles' minima is the minimum over all 8192 positions. -/
theorem runMin_tiles8 (f : Fin 8192 → EReal) (r : Fin 8 → Fin 1024 → Fin 8192)
    (hr : ∀ t q, (r t q).val = t.val * 1024 + q.val) :
    runMin (fun t => if h : t < 8 then
        (Finset.univ : Finset (Fin 1024)).fold min ⊤ (fun q => f (r ⟨t, h⟩ q)) else ⊤) 7
      = (Finset.univ : Finset (Fin 8192)).fold min ⊤ f := by
  rw [runMin_eq_univ, fold_min_tiles (show 8192 = 8 * 1024 by norm_num) f r hr]
  refine Finset.fold_congr fun t _ => ?_
  rw [dif_pos t.isLt]

/-- The same for the running minimum started from the top element. -/
theorem runMinTop_tiles8 (f : Fin 8192 → EReal) (r : Fin 8 → Fin 1024 → Fin 8192)
    (hr : ∀ t q, (r t q).val = t.val * 1024 + q.val) :
    runMinTop (fun t => if h : t < 8 then
        (Finset.univ : Finset (Fin 1024)).fold min ⊤ (fun q => f (r ⟨t, h⟩ q)) else ⊤) 7
      = (Finset.univ : Finset (Fin 8192)).fold min ⊤ f := by
  rw [runMinTop_eq_runMin, runMin_tiles8 f r hr]

end Chamfer

end
-- ==== Proof.KPay.lean ====
import proofs.«128588_j377957122581_2_alg».proof.Proof.Gen.KernelIdeal.Skeleton
import proofs.«128588_j377957122581_2_alg».proof.Proof.ChamferMath
import Idealize.ShloMosaic.Lib.ValueIdx
import Idealize.ShloMosaic.Lib.ValueLayout
import Idealize.ShloMosaic.Lib.Pipeline.Value
import Idealize.ShloMosaic.PureOps.Ideal.Laws

/-!
# The body's stored values, read at one position

The body holds a block of 1024 points `x` (by rows, 4 coordinates each) and a block of 1024 points
`y` (transposed: 4 rows of coordinates). It forms the 1024 × 1024 table of squared distances, one
squared coordinate difference after the other from zero, takes the least entry of each row and of each
column, and merges these with the values kept so far by a minimum. Each value it stores is read here
at one position, as a plain expression over the extended reals.
-/

noncomputable section

namespace Cert.KernelIdeal.KP

open Idealize.ShloMosaic Idealize.ShloMosaic.ValueIdx Cert.KernelIdeal TiledMinSum

/-- Row `r` of the block of points `x`: its four coordinates. -/
def px (x0 : Vec Ideal S1x1024x4 .f32) (r : Fin 1024) : Fin 4 → EReal := fun k => x0 (ix3 (0 : Fin 1) r k)

/-- Column `q` of the transposed block of points `y`: its four coordinates. -/
def py (x1 : Vec Ideal S1x4x1024 .f32) (q : Fin 1024) : Fin 4 → EReal := fun k => x1 (ix3 (0 : Fin 1) k q)

/-! ### One column spread over all columns, one row spread over all rows -/

/-- A column spread over 1024 columns reads, at `(r, q)`, the column at `r`. -/
theorem bcol_apply (v : FVec Ideal S1024x1 .f32) (h : S1024x1.Broadcasts S1024x1024) (r q : Fin 1024) :
    broadcastTo S1024x1024 v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- Coordinate `c` of the points `x`, spread over the columns, reads at `(r, q)` the coordinate of point `r`. -/
theorem xcol (x0 : Vec Ideal S1x1024x4 .f32) (o : Nat) (c : Fin 4) (ho : c.val = o)
    (hc : S1x1024x4.ShapeCasts S1024x4) (hs : S1024x4.Slices ![0, o] S1024x1)
    (hb : S1024x1.Broadcasts S1024x1024) (r q : Fin 1024) :
    broadcastTo S1024x1024 (extractStridedSlice S1024x1 ![0, o] (shapeCast S1024x4 x0 hc) hs) hb (ix2 r q)
      = x0 (ix3 (0 : Fin 1) r c) :=
  (bcol_apply _ hb r q).trans <|
    (slice2_axis1_apply o _ hs r (0 : Fin 1) c (by rw [ho]; rfl)).trans <|
      shapeCast_1ab_ab_apply x0 hc r c

/-- Coordinate `c` of the points `y`, spread over the rows, reads at `(r, q)` the coordinate of point `q`. -/
theorem yrow (x1 : Vec Ideal S1x4x1024 .f32) (o : Nat) (c : Fin 4) (ho : c.val = o)
    (hc : S1x4x1024.ShapeCasts S4x1024) (hs : S4x1024.Slices ![o, 0] S1x1024)
    (hb : S1x1024.Broadcasts S1024x1024) (r q : Fin 1024) :
    broadcastTo S1024x1024 (extractStridedSlice S1x1024 ![o, 0] (shapeCast S4x1024 x1 hc) hs) hb (ix2 r q)
      = x1 (ix3 (0 : Fin 1) c q) :=
  (broadcastTo_1b_ab_apply _ hb r q).trans <|
    (slice2_axis0_apply o _ hs (0 : Fin 1) q c (by rw [ho]; rfl)).trans <|
      shapeCast_1ab_ab_apply x1 hc c q

/-! ### The table of squared distances -/

/-- The table at `(r, q)` is the squared distance of point `r` of `x` and point `q` of `y`, accumulated from zero. -/
theorem pay4_apply (x0 : Vec Ideal S1x1024x4 .f32) (x1 : Vec Ideal S1x4x1024 .f32) (r q : Fin 1024) :
    Gen.k0_pay4 (F := Ideal) x0 x1 (ix2 r q) = Chamfer.sqDiff (px x0 r) (py x1 q) := by
  unfold Gen.k0_pay4 Chamfer.sqDiff px py
  simp only [addf_apply, mulf_apply, subf_apply, broadcast_apply]
  rw [xcol x0 0 0 rfl, xcol x0 1 1 rfl, xcol x0 2 2 rfl, xcol x0 3 3 rfl,
    yrow x1 0 0 rfl, yrow x1 1 1 rfl, yrow x1 2 2 rfl, yrow x1 3 3 rfl]
  rw [Ideal.ofBits_def, Ideal.ofBits_zero_f32]

/-! ### The least entry of a row, of a column -/

/-- A minimum taken along one axis of an array, read at a position: the fold of `min`, from the value of the
starting word, over that axis's coordinates. -/
theorem multiReduction_minimumf_single {φ : FTy} {s t : Shape} {a : Fin s.rank} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `r` with the column coordinate `q` put back is position `(r, q)`. -/
theorem lift_row (h : S1024x1024.Reduces [1] S1024) (r q : Fin 1024) :
    h.lift (ix1 r) q = ix2 r q := by
  funext c
  match c with
  | ⟨0, _⟩ => exact Fin.ext rfl
  | ⟨1, _⟩ => exact Fin.ext rfl

/-- Column `q` with the row coordinate `r` put back is position `(r, q)`. -/
theorem lift_col (h : S1024x1024.Reduces [0] S1024) (r q : Fin 1024) :
    h.lift (ix1 q) r = ix2 r q := by
  funext c
  match c with
  | ⟨0, _⟩ => exact Fin.ext rfl
  | ⟨1, _⟩ => exact Fin.ext rfl

/-- The row minima at row `r`: the least squared distance of point `r` of `x` to the 1024 points `y`. -/
theorem pay5_apply (x0 : Vec Ideal S1x1024x4 .f32) (x1 : Vec Ideal S1x4x1024 .f32) (r : Fin 1024) :
    Gen.k0_pay5 (F := Ideal) x0 x1 (ix2 r (0 : Fin 1))
      = (Finset.univ : Finset (Fin 1024)).fold min ⊤ (fun q => Chamfer.sqDiff (px x0 r) (py x1 q)) := by
  unfold Gen.k0_pay5
  refine (shapeCast_apply _ _ (ix2 r (0 : Fin 1)) (ix1 r) (by
    rw [Shape.rowMajor_val_one, Shape.rowMajor_val_two]
    show r.val = r.val * 1 + 0
    omega)).trans ?_
  refine (multiReduction_minimumf_single (Gen.k0_pay4 (F := Ideal) x0 x1) 0x7F800000#32
    Gen.reduces_S1024x1024_S1024 (.inl rfl) rfl (ix1 r)).trans ?_
  rw [Ideal.ofBits_def, ofBits_f32_inf]
  show (Finset.univ : Finset (Fin 1024)).fold min ⊤ (fun q : Fin 1024 =>
      Gen.k0_pay4 (F := Ideal) x0 x1 (Gen.reduces_S1024x1024_S1024.lift (ix1 r) q)) = _
  refine Finset.fold_congr fun q _ => ?_
  exact (congrArg (Gen.k0_pay4 (F := Ideal) x0 x1) (lift_row _ r q)).trans (pay4_apply x0 x1 r q)

/-- The column minima at column `q`: the least squared distance of point `q` of `y` to the 1024 points `x`. -/
theorem pay6_apply (x0 : Vec Ideal S1x1024x4 .f32) (x1 : Vec Ideal S1x4x1024 .f32) (q : Fin 1024) :
    Gen.k0_pay6 (F := Ideal) x0 x1 (ix2 (0 : Fin 1) q)
      = (Finset.univ : Finset (Fin 1024)).fold min ⊤ (fun r => Chamfer.sqDiff (px x0 r) (py x1 q)) := by
  unfold Gen.k0_pay6
  refine (shapeCast_a_1a_apply _ _ (0 : Fin 1) q).trans ?_
  refine (multiReduction_minimumf_single (Gen.k0_pay4 (F := Ideal) x0 x1) 0x7F800000#32
    Gen.reduces_S1024x1024_S1024_2 (.inl rfl) rfl (ix1 q)).trans ?_
  rw [Ideal.ofBits_def, ofBits_f32_inf]
  show (Finset.univ : Finset (Fin 1024)).fold min ⊤ (fun r : Fin 1024 =>
      Gen.k0_pay4 (F := Ideal) x0 x1 (Gen.reduces_S1024x1024_S1024_2.lift (ix1 q) r)) = _
  refine Finset.fold_congr fun r _ => ?_
  exact (congrArg (Gen.k0_pay4 (F := Ideal) x0 x1) (lift_col _ r q)).trans (pay4_apply x0 x1 r q)

/-- The row minima with a leading unit axis, as first stored. -/
theorem pay7_apply (x0 : Vec Ideal S1x1024x4 .f32) (x1 : Vec Ideal S1x4x1024 .f32) (r : Fin 1024) :
    Gen.k0_pay7 (F := Ideal) x0 x1 (ix3 (0 : Fin 1) r (0 : Fin 1))
      = (Finset.univ : Finset (Fin 1024)).fold min ⊤ (fun q => Chamfer.sqDiff (px x0 r) (py x1 q)) := by
  unfold Gen.k0_pay7
  exact (shapeCast_ab_1ab_apply _ _ (0 : Fin 1) r (0 : Fin 1)).trans (pay5_apply x0 x1 r)

/-! ### Merging with the values kept so far -/

/-- The merged row minima: the kept value and the new one, by a minimum. -/
theorem pay1_apply (v34 : FVec Ideal S1024x1 .f32) (v58 : Vec Ideal S1x1024x1 .f32) (r : Fin 1024) :
    Gen.k0_pay1 (F := Ideal) v34 v58 (ix3 (0 : Fin 1) r (0 : Fin 1))
      = min (v58 (ix3 (0 : Fin 1) r (0 : Fin 1))) (v34 (ix2 r (0 : Fin 1))) := by
  unfold Gen.k0_pay1
  refine (shapeCast_ab_1ab_apply _ _ (0 : Fin 1) r (0 : Fin 1)).trans ?_
  rw [minimumf_apply]
  exact congrArg (fun z => min z (v34 (ix2 r (0 : Fin 1)))) (shapeCast_1ab_ab_apply v58 _ r (0 : Fin 1))

/-- The column minima start from the top element everywhere. -/
theorem pay2_apply (c : Fin 8192) :
    Gen.k0_pay2 (F := Ideal) (ix3 (0 : Fin 1) (0 : Fin 1) c) = ⊤ := by
  unfold Gen.k0_pay2
  refine (shapeCast_ab_1ab_apply _ _ (0 : Fin 1) (0 : Fin 1) c).trans ?_
  rw [broadcast_apply]
  exact ofBits_f32_inf

/-- The merged column minima: the kept value and the new one, by a minimum. -/
theorem pay3_apply (v36 : FVec Ideal S1x1024 .f32) (v51 : Vec Ideal S1x1x1024 .f32) (q : Fin 1024) :
    Gen.k0_pay3 (F := Ideal) v36 v51 (ix3 (0 : Fin 1) (0 : Fin 1) q)
      = min (v51 (ix3 (0 : Fin 1) (0 : Fin 1) q)) (v36 (ix2 (0 : Fin 1) q)) := by
  unfold Gen.k0_pay3
  refine (shapeCast_ab_1ab_apply _ _ (0 : Fin 1) (0 : Fin 1) q).trans ?_
  rw [minimumf_apply]
  exact congrArg (fun z => min z (v36 (ix2 (0 : Fin 1) q))) (shapeCast_1ab_ab_apply v51 _ (0 : Fin 1) q)

end Cert.KernelIdeal.KP

end
-- ==== Proof.KValueStep.lean ====
import proofs.«128588_j377957122581_2_alg».proof.Proof.KBlocks
import proofs.«128588_j377957122581_2_alg».proof.Proof.KPay

/-!
# One grid point of the running minima

The grid has 128 points `n = 64·p + 8·i + j`: part `p` of the two stacked clouds, row tile `i`,
column tile `j`. At that point the body sees rows `1024·i …` of the points `x` of part `p` and
columns `1024·j …` of the points `y` of part `p`. This file names the whole arrays' points and
distances, the least distance of a row over one column tile and of a column over one row tile, and
reads the body's values at one point in those terms; it also reads the column output after the
body's slice store at one column.
-/

set_option maxRecDepth 16384

noncomputable section

namespace Cert.KernelIdeal.KV

open Cert.KernelIdeal Cert.KernelIdeal.Gen Cert.KernelIdeal.KF Cert.KernelIdeal.KP
open Idealize.ShloMosaic Idealize.ShloMosaic.TcCoe Idealize.SL.Sem Idealize.ShloMosaic.ValueIdx

variable (m : (ℓ : Loc nD τ sig) → Buf (Elt Ideal) ℓ) (c : Dev nD)

/-! ### The whole arrays' points, distances and tile minima -/

/-- Point `n` of part `p` of the stacked clouds. -/
def Xp (p : Fin 2) (n : Fin 8192) : Fin 4 → EReal :=
  fun k => (V m c main_v214 : S2x8192x4.Idx → EReal) (ix3 p n k)

/-- Point `q` of part `p` of the transposed cloud. -/
def Yp (p : Fin 2) (q : Fin 8192) : Fin 4 → EReal :=
  fun k => (V m c main_v215 : S2x4x8192.Idx → EReal) (ix3 p k q)

/-- The squared distance of point `n` and point `q` of part `p`, accumulated from zero. -/
def D (p : Fin 2) (n q : Fin 8192) : EReal := Chamfer.sqDiff (Xp m c p n) (Yp m c p q)

/-- Position `r` of tile `i`. -/
def pos (i : ℕ) (h : i < 8) (r : Fin 1024) : Fin 8192 := ⟨1024 * i + r.val, by have := r.isLt; omega⟩

/-- The part a grid point belongs to. -/
def part (n : ℕ) (h : n < 128) : Fin 2 := ⟨n / 64, by omega⟩

/-- The least distance of point `n` to the points of column tile `j` (the top element past the last tile). -/
def rowT (p : Fin 2) (n : Fin 8192) (j : ℕ) : EReal :=
  if h : j < 8 then (Finset.univ : Finset (Fin 1024)).fold min ⊤ (fun q => D m c p n (pos j h q)) else ⊤

/-- The least distance of point `col` to the points of row tile `i` (the top element past the last tile). -/
def colT (p : Fin 2) (col : Fin 8192) (i : ℕ) : EReal :=
  if h : i < 8 then (Finset.univ : Finset (Fin 1024)).fold min ⊤ (fun r => D m c p (pos i h r) col) else ⊤

/-- How many row tiles column `col` has met after grid point `n` within its part. -/
def cnt (n : ℕ) (col : Fin 8192) : ℕ := if col.val / 1024 ≤ n % 8 then n / 8 % 8 + 1 else n / 8 % 8

/-! ### A minimum over an initial segment, one step -/

/-- The minimum over `0, …, k` is the minimum over `0, …, k − 1` and the term `k`. -/
theorem fold_range_succ (f : ℕ → EReal) (k : ℕ) :
    (Finset.range (k + 1)).fold min ⊤ f = min ((Finset.range k).fold min ⊤ f) (f k) := by
  rw [Finset.range_add_one, Finset.fold_insert (by simp), min_comm]

/-- The minimum over the empty segment is the top element. -/
theorem fold_range_zero (f : ℕ → EReal) : (Finset.range 0).fold min ⊤ f = ⊤ := by
  rw [Finset.range_zero, Finset.fold_empty]

/-- The minimum over the one-term segment is the term. -/
theorem fold_range_one (f : ℕ → EReal) : (Finset.range (0 + 1)).fold min ⊤ f = f 0 := by
  rw [fold_range_succ, fold_range_zero, min_top_left]

/-! ### The blocks at a grid point -/

section Point

variable (t : Fin cfg0.N) (p : Fin 2) (i j : ℕ) (hi : i < 8) (hj : j < 8) (hdec : t.val = 64 * p.val + 8 * i + j)

/-- The block of points `x` at the grid point. -/
abbrev xb : Vec Ideal S1x1024x4 .f32 := iblk m c 0 t
/-- The block of points `y` at the grid point. -/
abbrev yb : Vec Ideal S1x4x1024 .f32 := iblk m c 1 t

include hdec hj in
/-- Row `r` of the block of points `x` is point `1024·i + r` of part `p`. -/
theorem blk_px (r : Fin 1024) : px (xb m c t) r = Xp m c p (pos i hi r) := by
  funext k
  have hp := p.isLt
  refine iblk0_apply m c t r k (ix3 p (pos i hi r) k) ?_ ?_ rfl
  · show p.val = t.val / 64
    omega
  · show 1024 * i + r.val = 1024 * (t.val / 8 % 8) + r.val
    have : t.val / 8 % 8 = i := by omega
    rw [this]

include hdec hi in
/-- Column `q` of the block of points `y` is point `1024·j + q` of part `p`. -/
theorem blk_py (q : Fin 1024) : py (yb m c t) q = Yp m c p (pos j hj q) := by
  funext k
  have hp := p.isLt
  refine iblk1_apply m c t k q (ix3 p k (pos j hj q)) ?_ rfl ?_
  · show p.val = t.val / 64
    omega
  · show 1024 * j + q.val = 1024 * (t.val % 8) + q.val
    have : t.val % 8 = j := by omega
    rw [this]

include hdec hi hj in
/-- The body's row minima at the grid point: the least distance of point `1024·i + r` over column tile `j`. -/
theorem pt_pay5 (r : Fin 1024) :
    Gen.k0_pay5 (F := Ideal) (xb m c t) (yb m c t) (ix2 r (0 : Fin 1)) = rowT m c p (pos i hi r) j := by
  refine (pay5_apply _ _ r).trans ?_
  unfold rowT
  rw [dif_pos hj]
  refine Finset.fold_congr fun q _ => ?_
  unfold D
  rw [blk_px m c t p i j hi hj hdec r, blk_py m c t p i j hi hj hdec q]

include hdec hi hj in
/-- The same with the leading unit axis. -/
theorem pt_pay7 (r : Fin 1024) :
    Gen.k0_pay7 (F := Ideal) (xb m c t) (yb m c t) (ix3 (0 : Fin 1) r (0 : Fin 1)) = rowT m c p (pos i hi r) j := by
  refine (pay7_apply _ _ r).trans ?_
  unfold rowT
  rw [dif_pos hj]
  refine Finset.fold_congr fun q _ => ?_
  unfold D
  rw [blk_px m c t p i j hi hj hdec r, blk_py m c t p i j hi hj hdec q]

include hdec hi hj in
/-- The body's column minima at the grid point: the least distance of point `1024·j + q` over row tile `i`. -/
theorem pt_pay6 (q : Fin 1024) :
    Gen.k0_pay6 (F := Ideal) (xb m c t) (yb m c t) (ix2 (0 : Fin 1) q) = colT m c p (pos j hj q) i := by
  refine (pay6_apply _ _ q).trans ?_
  unfold colT
  rw [dif_pos hi]
  refine Finset.fold_congr fun r _ => ?_
  unfold D
  rw [blk_px m c t p i j hi hj hdec r, blk_py m c t p i j hi hj hdec q]

end Point

/-! ### The column output after the slice store, at one column -/

/-- After the body's slice store at grid coordinates `i` (column tile `j`), column `col` holds, inside tile `j`,
the minimum of what it held and this point's column minimum there; outside, what it held. -/
theorem col3_at (i : grid0.Coords) (j : ℕ) (hj : j < 8) (hij : (i 2).val = j)
    (x : Vec Ideal S1x1024x4 .f32) (y : Vec Ideal S1x4x1024 .f32) (base : Vec Ideal S1x1x8192 .f32)
    (col : Fin 8192) :
    col3 i x y base (ix3 (0 : Fin 1) (0 : Fin 1) col)
      = if hc : col.val / 1024 = j then
          min (base (ix3 (0 : Fin 1) (0 : Fin 1) col))
            (Gen.k0_pay6 (F := Ideal) x y
              (ix2 (0 : Fin 1) (⟨col.val - 1024 * j, by have := col.isLt; omega⟩ : Fin 1024)))
        else base (ix3 (0 : Fin 1) (0 : Fin 1) col) := by
  rw [col3_apply]
  by_cases hc : col.val / 1024 = j
  · have hlo : 1024 * j ≤ col.val := by omega
    have hhi : col.val < 1024 * j + 1024 := by omega
    have h : ∀ a, (![0, 0, 1024 * (i 2).val] : Fin 3 → ℕ) a
          ≤ ((ix3 (0 : Fin 1) (0 : Fin 1) col : S1x1x8192.Idx) a).val
        ∧ ((ix3 (0 : Fin 1) (0 : Fin 1) col : S1x1x8192.Idx) a).val
          < (![0, 0, 1024 * (i 2).val] : Fin 3 → ℕ) a + S1x1x1024.size a := by
      intro a
      match a with
      | ⟨0, _⟩ => exact ⟨Nat.le_refl 0, Nat.zero_lt_one⟩
      | ⟨1, _⟩ => exact ⟨Nat.le_refl 0, Nat.zero_lt_one⟩
      | ⟨2, _⟩ =>
        show 1024 * (i 2).val ≤ col.val ∧ col.val < 1024 * (i 2).val + 1024
        rw [hij]; exact ⟨hlo, hhi⟩
    rw [dif_pos h, dif_pos hc]
    have hu : (Rect.unitLocal (s := S1x1x8192) (off := ![0, 0, 1024 * (i 2).val]) (size := S1x1x1024.size)
          (ix3 (0 : Fin 1) (0 : Fin 1) col) h : S1x1x1024.Idx)
        = ix3 (0 : Fin 1) (0 : Fin 1) (⟨col.val - 1024 * j, by omega⟩ : Fin 1024) := by
      funext a
      match a with
      | ⟨0, _⟩ => exact Fin.ext rfl
      | ⟨1, _⟩ => exact Fin.ext rfl
      | ⟨2, _⟩ => exact Fin.ext (by show col.val - 1024 * (i 2).val = col.val - 1024 * j; rw [hij])
    refine (congrArg (Gen.k0_pay3 (F := Ideal) (Gen.k0_pay6 x y) (slice3 i base)) hu).trans ?_
    refine (pay3_apply _ _ _).trans ?_
    refine congrArg (fun z => min z _) ?_
    refine (slice3_apply i base _).trans (congrArg base ?_)
    funext a
    match a with
    | ⟨0, _⟩ => exact Fin.ext (by
        rw [LoadRect.idx_apply]
        show (k0_off1 i) 0 + 1 * 0 = 0
        rw [Gen.k0_off1_eq i]; rfl)
    | ⟨1, _⟩ => exact Fin.ext (by
        rw [LoadRect.idx_apply]
        show (k0_off1 i) 1 + 1 * 0 = 0
        rw [Gen.k0_off1_eq i]; rfl)
    | ⟨2, _⟩ => exact Fin.ext (by
        rw [LoadRect.idx_apply]
        show (k0_off1 i) 2 + 1 * (col.val - 1024 * j) = col.val
        rw [Gen.k0_off1_eq i]
        show 1024 * (i 2).val + 1 * (col.val - 1024 * j) = col.val
        rw [hij]; omega)
  · rw [dif_neg hc, dif_neg]
    intro h
    have h2 := h 2
    change 1024 * (i 2).val ≤ col.val ∧ col.val < 1024 * (i 2).val + 1024 at h2
    rw [hij] at h2
    exact hc (by omega)

end Cert.KernelIdeal.KV

end
-- ==== Proof.KValue.lean ====
import proofs.«128588_j377957122581_2_alg».proof.Proof.KValueStep

/-!
# The two outputs after each grid point, in closed form

By induction on the grid point `n = 64·p + 8·i + j`: after the body at `n` the row output holds, for
row `r` of row tile `i`, the least distance of point `1024·i + r` of part `p` over the column tiles
`0, …, j`; the column output holds, for column `col`, the least distance of point `col` of part `p`
over the row tiles it has met — tiles `0, …, i` if `col` lies in a column tile up to `j`, tiles
`0, …, i − 1` otherwise.
-/

set_option maxRecDepth 16384

noncomputable section

namespace Cert.KernelIdeal.KV

open Cert.KernelIdeal Cert.KernelIdeal.Gen Cert.KernelIdeal.KF Cert.KernelIdeal.KP
open Idealize.ShloMosaic Idealize.ShloMosaic.TcCoe Idealize.SL.Sem Idealize.ShloMosaic.ValueIdx

variable (m : (ℓ : Loc nD τ sig) → Buf (Elt Ideal) ℓ) (c : Dev nD)

/-- The number of row tiles column `col` has met at row tile `i`, column tile `j`. -/
def cntij (i j : ℕ) (col : Fin 8192) : ℕ := if col.val / 1024 ≤ j then i + 1 else i

/-- The closed form at every grid point, stated over the point's tile coordinates. -/
theorem inv_aux (n : ℕ) : ∀ (hn : n < cfg0.N) (p : Fin 2) (i j : ℕ) (hi : i < 8) (hj : j < 8),
    n = 64 * p.val + 8 * i + j →
    (∀ r : Fin 1024, ((outsAt m c n hn).1 : S1x1024x1.Idx → EReal) (ix3 (0 : Fin 1) r (0 : Fin 1))
        = (Finset.range (j + 1)).fold min ⊤ (rowT m c p (pos i hi r))) ∧
    (∀ col : Fin 8192, ((outsAt m c n hn).2 : S1x1x8192.Idx → EReal) (ix3 (0 : Fin 1) (0 : Fin 1) col)
        = (Finset.range (cntij i j col)).fold min ⊤ (colT m c p col)) := by
  induction n using Nat.strong_induction_on with
  | _ n ih =>
  intro hn p i j hi hj hdec
  have hp := p.isLt
  -- this point's column minimum at a column of tile `j`
  have hpay6 : ∀ (col : Fin 8192) (hc : col.val / 1024 = j),
      Gen.k0_pay6 (F := Ideal) (xb m c ⟨n, hn⟩) (yb m c ⟨n, hn⟩)
          (ix2 (0 : Fin 1) (⟨col.val - 1024 * j, by have := col.isLt; omega⟩ : Fin 1024))
        = colT m c p col i := by
    intro col hc
    refine (pt_pay6 m c ⟨n, hn⟩ p i j hi hj hdec _).trans ?_
    refine congrArg (fun z => colT m c p z i) (Fin.ext ?_)
    show 1024 * j + (col.val - 1024 * j) = col.val
    omega
  have hcoord : ((grid0.coords ⟨n, hn⟩) 2).val = j := by
    rw [coord2 ⟨n, hn⟩]
    show n % 8 = j
    omega
  by_cases hj0 : j = 0
  · subst hj0
    by_cases hi0 : i = 0
    · subst hi0
      have h64 : (⟨n, hn⟩ : Fin cfg0.N).val % 64 = 0 := by show n % 64 = 0; omega
      have hA := outsAt_A m c ⟨n, hn⟩ h64
      have hA1 := congrArg Prod.fst hA
      have hA2 := congrArg Prod.snd hA
      dsimp only at hA1 hA2
      unfold row2A at hA1
      refine ⟨fun r => ?_, fun col => ?_⟩
      · rw [hA1, fold_range_one]
        exact pt_pay7 m c ⟨n, hn⟩ p 0 0 hi hj hdec r
      · rw [hA2, col3_at (grid0.coords ⟨n, hn⟩) 0 hj hcoord]
        by_cases hc : col.val / 1024 = 0
        · rw [dif_pos hc, hpay6 col hc, pay2_apply]
          have e : cntij 0 0 col = 0 + 1 := by unfold cntij; rw [if_pos (by omega)]
          rw [e, fold_range_one, min_top_left]
        · rw [dif_neg hc, pay2_apply]
          have e : cntij 0 0 col = 0 := by unfold cntij; rw [if_neg (by omega)]
          rw [e, fold_range_zero]
    · have h8 : (⟨n, hn⟩ : Fin cfg0.N).val % 8 = 0 := by show n % 8 = 0; omega
      have h64 : ¬ (⟨n, hn⟩ : Fin cfg0.N).val % 64 = 0 := by show ¬ n % 64 = 0; omega
      have hB := outsAt_B m c ⟨n, hn⟩ h8 h64
      have hB1 := congrArg Prod.fst hB
      have hB2 := congrArg Prod.snd hB
      dsimp only at hB1 hB2
      unfold row2A at hB1
      have hprev := (ih (n - 1) (by omega) (by omega) p (i - 1) 7 (by omega) (by omega) (by omega)).2
      refine ⟨fun r => ?_, fun col => ?_⟩
      · rw [hB1, fold_range_one]
        exact pt_pay7 m c ⟨n, hn⟩ p i 0 hi hj hdec r
      · rw [hB2, col3_at (grid0.coords ⟨n, hn⟩) 0 hj hcoord]
        have hcol := col.isLt
        have e1 : cntij (i - 1) 7 col = i := by unfold cntij; rw [if_pos (by omega)]; omega
        by_cases hc : col.val / 1024 = 0
        · rw [dif_pos hc, hpay6 col hc, hprev col, e1]
          have e2 : cntij i 0 col = i + 1 := by unfold cntij; rw [if_pos (by omega)]
          rw [e2, fold_range_succ]
        · rw [dif_neg hc, hprev col, e1]
          have e2 : cntij i 0 col = i := by unfold cntij; rw [if_neg (by omega)]
          rw [e2]
  · have h8 : ¬ (⟨n, hn⟩ : Fin cfg0.N).val % 8 = 0 := by show ¬ n % 8 = 0; omega
    have hC := outsAt_C m c ⟨n, hn⟩ h8
    have hC1 := congrArg Prod.fst hC
    have hC2 := congrArg Prod.snd hC
    dsimp only at hC1 hC2
    unfold row2C at hC1
    have hprev := ih (n - 1) (by omega) (by omega) p i (j - 1) hi (by omega) (by omega)
    have hj1 : j - 1 + 1 = j := by omega
    refine ⟨fun r => ?_, fun col => ?_⟩
    · rw [hC1, pay1_apply, hprev.1 r, pt_pay5 m c ⟨n, hn⟩ p i j hi hj hdec r, hj1, fold_range_succ]
    · rw [hC2, col3_at (grid0.coords ⟨n, hn⟩) j hj hcoord]
      by_cases hc : col.val / 1024 = j
      · rw [dif_pos hc, hpay6 col hc, hprev.2 col]
        have e1 : cntij i (j - 1) col = i := by unfold cntij; rw [if_neg (by omega)]
        have e2 : cntij i j col = i + 1 := by unfold cntij; rw [if_pos (by omega)]
        rw [e1, e2, fold_range_succ]
      · rw [dif_neg hc, hprev.2 col]
        have e : cntij i j col = cntij i (j - 1) col := by
          unfold cntij
          by_cases h : col.val / 1024 ≤ j - 1
          · rw [if_pos h, if_pos (by omega)]
          · rw [if_neg h, if_neg (by omega)]
        rw [e]

/-- After the body at grid point `n`: the row output at row `r` is the least distance of point
`1024·(n/8 % 8) + r` over the column tiles `0, …, n % 8`; the column output at column `col` is the least
distance of point `col` over the row tiles it has met. -/
theorem inv (n : ℕ) (hn : n < cfg0.N) (hn' : n < 128) :
    (∀ r : Fin 1024, ((outsAt m c n hn).1 : S1x1024x1.Idx → EReal) (ix3 (0 : Fin 1) r (0 : Fin 1))
        = (Finset.range (n % 8 + 1)).fold min ⊤
            (rowT m c (part n hn') (pos (n / 8 % 8) (by omega) r))) ∧
    (∀ col : Fin 8192, ((outsAt m c n hn).2 : S1x1x8192.Idx → EReal) (ix3 (0 : Fin 1) (0 : Fin 1) col)
        = (Finset.range (cnt n col)).fold min ⊤ (colT m c (part n hn') col)) :=
  inv_aux m c n hn (part n hn') (n / 8 % 8) (n % 8) (by omega) (by omega)
    (by show n = 64 * (n / 64) + 8 * (n / 8 % 8) + n % 8; omega)

end Cert.KernelIdeal.KV

end
-- ==== Proof.KFlush.lean ====
import proofs.«128588_j377957122581_2_alg».proof.Proof.KValue

/-!
# The two outputs at the points that write them back

The row output is written back after the last column tile of a row tile (grid point `n` with
`n % 8 = 7`): it then holds, for each of its rows, the least distance over ALL 8192 columns. The column
output is written back after the last point of a part (`n % 64 = 63`): it then holds, for each column, the
least distance over ALL 8192 rows. Eight tiles of 1024 positions make up the 8192.
-/

set_option maxRecDepth 16384

noncomputable section

namespace Cert.KernelIdeal.KV

open Cert.KernelIdeal Cert.KernelIdeal.Gen Cert.KernelIdeal.KF Cert.KernelIdeal.KP
open Idealize.ShloMosaic Idealize.ShloMosaic.TcCoe Idealize.SL.Sem Idealize.ShloMosaic.ValueIdx
open TiledMinSum

variable (m : (ℓ : Loc nD τ sig) → Buf (Elt Ideal) ℓ) (c : Dev nD)

/-- The least distance of point `n` of part `p` over all points of the other cloud (the top element off range). -/
def Gr (p n : ℕ) : EReal :=
  if h : p < 2 ∧ n < 8192 then
    (Finset.univ : Finset (Fin 8192)).fold min ⊤ (fun q => D m c ⟨p, h.1⟩ ⟨n, h.2⟩ q)
  else ⊤

/-- The least distance of point `col` of part `p` over all points of the first cloud (the top element off range). -/
def Gc (p col : ℕ) : EReal :=
  if h : p < 2 ∧ col < 8192 then
    (Finset.univ : Finset (Fin 8192)).fold min ⊤ (fun n => D m c ⟨p, h.1⟩ n ⟨col, h.2⟩)
  else ⊤

/-- Position `q` of tile `t` is `t · 1024 + q`. -/
theorem pos_val (t : Fin 8) (q : Fin 1024) : (pos t.val t.isLt q).val = t.val * 1024 + q.val := by
  show 1024 * t.val + q.val = t.val * 1024 + q.val
  omega

/-- The minimum over the eight column tiles' minima is the minimum over all columns. -/
theorem row_all (p : Fin 2) (N : Fin 8192) :
    (Finset.range 8).fold min ⊤ (rowT m c p N)
      = (Finset.univ : Finset (Fin 8192)).fold min ⊤ (fun q => D m c p N q) := by
  rw [fold_min_range_eq_univ,
    fold_min_tiles (show 8192 = 8 * 1024 by norm_num) (fun q => D m c p N q)
      (fun t q => pos t.val t.isLt q) pos_val]
  refine Finset.fold_congr fun j _ => ?_
  unfold rowT
  rw [dif_pos j.isLt]

/-- The minimum over the eight row tiles' minima is the minimum over all rows. -/
theorem col_all (p : Fin 2) (col : Fin 8192) :
    (Finset.range 8).fold min ⊤ (colT m c p col)
      = (Finset.univ : Finset (Fin 8192)).fold min ⊤ (fun n => D m c p n col) := by
  rw [fold_min_range_eq_univ,
    fold_min_tiles (show 8192 = 8 * 1024 by norm_num) (fun n => D m c p n col)
      (fun t r => pos t.val t.isLt r) pos_val]
  refine Finset.fold_congr fun i _ => ?_
  unfold colT
  rw [dif_pos i.isLt]

/-- Where the row output is written back it holds the rows' least distances over all columns. -/
theorem flush2 (t : Fin cfg0.N) (h7 : t.val % 8 = 7) (r : Fin 1024) :
    ((outsAt m c t.val t.isLt).1 : S1x1024x1.Idx → EReal) (ix3 (0 : Fin 1) r (0 : Fin 1))
      = Gr m c (t.val / 64) (1024 * (t.val / 8 % 8) + r.val) := by
  have hN : t.val < 128 := lt_of_lt_of_eq t.isLt (show cfg0.N = 128 from N_0)
  have hr := r.isLt
  have hp : t.val / 64 < 2 := by omega
  have hi : t.val / 8 % 8 < 8 := by omega
  have h := (inv_aux m c t.val t.isLt ⟨t.val / 64, hp⟩ (t.val / 8 % 8) 7 hi (by omega)
    (by show t.val = 64 * (t.val / 64) + 8 * (t.val / 8 % 8) + 7; omega)).1 r
  rw [h, row_all]
  unfold Gr
  rw [dif_pos ⟨hp, by omega⟩]
  rfl

/-- Where the column output is written back it holds the columns' least distances over all rows. -/
theorem flush3 (t : Fin cfg0.N) (h63 : t.val % 64 = 63) (col : Fin 8192) :
    ((outsAt m c t.val t.isLt).2 : S1x1x8192.Idx → EReal) (ix3 (0 : Fin 1) (0 : Fin 1) col)
      = Gc m c (t.val / 64) col.val := by
  have hN : t.val < 128 := lt_of_lt_of_eq t.isLt (show cfg0.N = 128 from N_0)
  have hcol := col.isLt
  have hp : t.val / 64 < 2 := by omega
  have h := (inv_aux m c t.val t.isLt ⟨t.val / 64, hp⟩ 7 7 (by omega) (by omega)
    (by show t.val = 64 * (t.val / 64) + 8 * 7 + 7; omega)).2 col
  have e : cntij 7 7 col = 8 := by unfold cntij; rw [if_pos (by omega)]
  rw [h, e, col_all]
  unfold Gc
  rw [dif_pos ⟨hp, hcol⟩]

end Cert.KernelIdeal.KV

end
-- ==== Proof.KArrays.lean ====
import proofs.«128588_j377957122581_2_alg».proof.Proof.KFDats
import proofs.«128588_j377957122581_2_alg».proof.Proof.KArr
import proofs.«128588_j377957122581_2_alg».proof.Proof.KFlush

/-!
# The two result arrays after the run, in closed form

The first result holds, at point `n` of part `p`, the least squared distance of that point over all
8192 points of the other cloud; the second holds, at point `col` of part `p`, the least squared distance
over all 8192 points of the first cloud.
-/

set_option maxRecDepth 16384

noncomputable section

namespace Cert.KernelIdeal.KV

open Cert.KernelIdeal Cert.KernelIdeal.Gen Cert.KernelIdeal.KF Cert.KernelIdeal.KP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The first result at point `n` of part `p`: the least distance over all points of the other cloud. -/
theorem RM_closed (p : Fin 2) (n : Fin 8192) :
    ((KF.dats m 0 c).arrAt 2 cfg0.N : S2x8192x1.Idx → EReal) (ix3 p n (0 : Fin 1))
      = (Finset.univ : Finset (Fin 8192)).fold min ⊤ (fun q => D m c p n q) := by
  have h := final2_of (KF.dats m 0 c) (Gr m c) (fun t => (outsAt m c t.val t.isLt).1) (KF.after_2 m c)
    (flush2 m c) (ix3 p n (0 : Fin 1))
  refine h.trans ?_
  show Gr m c p.val n.val = _
  unfold Gr
  rw [dif_pos ⟨p.isLt, n.isLt⟩]

/-- The second result at point `col` of part `p`: the least distance over all points of the first cloud. -/
theorem CM_closed (p : Fin 2) (col : Fin 8192) :
    ((KF.dats m 0 c).arrAt 3 cfg0.N : S2x1x8192.Idx → EReal) (ix3 p (0 : Fin 1) col)
      = (Finset.univ : Finset (Fin 8192)).fold min ⊤ (fun n => D m c p n col) := by
  have h := final3_of (KF.dats m 0 c) (Gc m c) (fun t => (outsAt m c t.val t.isLt).2) (KF.after_3 m c)
    (flush3 m c) (ix3 p (0 : Fin 1) col)
  refine h.trans ?_
  show Gc m c p.val col.val = _
  unfold Gc
  rw [dif_pos ⟨p.isLt, col.isLt⟩]

end Cert.KernelIdeal.KV

end
-- ==== Proof.LibKeepsOff.lean ====
/-
  A concatenation of nine, or of twelve, operands is printed as one operation over a literal family of references.
  Its result restated with each operand's contents AT ITS OWN REFERENCE (in place of a function of the position), so
  that reading a line of operations goes on through the operands; and the reading tactic extended by the two.
-/
import Idealize.ShloMosaic.Lib.StableHlo.Run

noncomputable section

namespace Cert.KRIdent

open Idealize.ShloMosaic

variable {τ : Topo} {sig : RefSig} {Val : EltTy → Type}

/-- `nary` over a LITERAL family of 9 references: the result with each operand's contents at its own reference. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [StableHlo.nary_result]; congr 1; funext k; fin_cases k <;> rfl

/-- `nary` over a LITERAL family of 12 references: the result with each operand's contents at its own reference. -/
theorem nary12_result {x0 x1 x2 x3 x4 x5 x6 x7 x8 x9 x10 x11 y : Ref sig .tc}
    (f : ((k : Fin 12) → ((![x0, x1, x2, x3, x4, x5, x6, x7, x8, x9, x10, x11] : Fin 12 → Ref sig .tc) k).ty.Contents Val) → y.ty.Contents Val) (hxs hy)
    (F : Valuation τ sig Val) :
    (StableHlo.nary (τ := τ) ![x0, x1, x2, x3, x4, x5, x6, x7, x8, x9, x10, x11] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (fun i => i.elim0))))))))))))) := by
  rw [StableHlo.nary_result]; congr 1; funext k; fin_cases k <;> rfl

/-! ## What a line leaves unchanged, for any signature -/

/-- The fold over two lines one after the other is the second's fold over the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Every reference outside `W` keeps its contents through the line `l`. -/
def KeepsOff (W : List (Ref sig .tc)) (l : List (HloOp τ sig Val)) : Prop :=
  ∀ r : Ref sig .tc, r ∉ W → ∀ V : Valuation τ sig Val, StableHlo.after l V (Proc.devRef .tc r) = V (Proc.devRef .tc r)

theorem KeepsOff.of_writes {W : List (Ref sig .tc)} {l : List (HloOp τ sig Val)}
    (hW : l.Forall fun op => op.writes ⊆ (W.map (Proc.devRef (τ := τ) .tc)).toFinset) : KeepsOff W l :=
  fun _ h V => StableHlo.after_of_writes_sub l V hW h

theorem KeepsOff.append {W₁ W₂ : List (Ref sig .tc)} {l₁ l₂ : List (HloOp τ sig Val)} (h₁ : KeepsOff W₁ l₁)
    (h₂ : KeepsOff W₂ l₂) : KeepsOff (W₁ ++ W₂) (l₁ ++ l₂) := fun r h V => by
  rw [after_append, h₂ r (fun hm => h (List.mem_append_right _ hm)), h₁ r (fun hm => h (List.mem_append_left _ hm))]

/-- A result reference in the list is among the device buffers the list maps to. -/
theorem wsub {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

/-- Reading a line of operations at a reference in one pass, with the two restated results above. -/
macro "after_results_simp9" : tactic =>
  `(tactic| (simp (disch := decide) only [StableHlo.after_cons, StableHlo.after_nil,
      StableHlo.nullary_result', StableHlo.unary_result', StableHlo.binary_result', StableHlo.ternary_result',
      StableHlo.quaternary_result', StableHlo.reshape_result', nary9_result, nary12_result, StableHlo.nary_result',
      StableHlo.nullary_result_ne', StableHlo.unary_result_ne', StableHlo.binary_result_ne', StableHlo.ternary_result_ne',
      StableHlo.quaternary_result_ne', StableHlo.reshape_result_ne', StableHlo.nary_result_ne']))

end Cert.KRIdent

end
-- ==== Proof.KROps.lean ====
/-
  The kernel program's host operations before its kernel launch — the generated lists `hostOps0`, `hostOps0_1`,
  `hostOps0_2` (252 operations) — with the long third list cut into short pieces `k2 … k12` (equal to it, piece after
  piece), the references each piece writes, and that every other reference keeps its contents through the piece.
-/
import proofs.«128588_j377957122581_2_alg».proof.Proof.Gen.KernelIdeal.Launch
import proofs.«128588_j377957122581_2_alg».proof.Proof.LibKeepsOff

set_option synthInstance.maxSize 4096
set_option maxRecDepth 8192

noncomputable section

namespace Cert.KRIdent.KP

open Idealize.ShloMosaic Idealize.ShloMosaic.TcCoe Idealize.SL.Sem
open Cert.KernelIdeal Cert.KernelIdeal.Gen Cert.KRIdent

variable {F : FTy → Type} [FloatOps F]

/-- The references the operations of `hostOps0` write, in order. -/
abbrev k0_W : List (Ref sig .tc) := [main_cst, main_cst_0, main_cst_1, main_v0, main_v1, main_v2]
theorem k0_writes : (hostOps0 : List (HloOp τ sig (Elt F))).Forall fun op => op.writes ⊆ ((k0_W).map (Proc.devRef (τ := τ) .tc)).toFinset :=
  ⟨wsub (y := main_cst) (by decide), wsub (y := main_cst_0) (by decide), wsub (y := main_cst_1) (by decide), wsub (y := main_v0) (by decide), wsub (y := main_v1) (by decide), wsub (y := main_v2) (by decide)⟩
theorem k0_keeps : KeepsOff k0_W (hostOps0 : List (HloOp τ sig (Elt F))) := .of_writes k0_writes

/-- The references the operations of `hostOps0_1` write, in order. -/
abbrev k1_W : List (Ref sig .tc) := [main_call0_v0, main_call0_cst, main_call0_v1, main_v3]
theorem k1_writes : (hostOps0_1 : List (HloOp τ sig (Elt F))).Forall fun op => op.writes ⊆ ((k1_W).map (Proc.devRef (τ := τ) .tc)).toFinset :=
  ⟨wsub (y := main_call0_v0) (by decide), wsub (y := main_call0_cst) (by decide), wsub (y := main_call0_v1) (by decide), wsub (y := main_v3) (by decide)⟩
theorem k1_keeps : KeepsOff k1_W (hostOps0_1 : List (HloOp τ sig (Elt F))) := .of_writes k1_writes

/-- Operations 11 … 37 of the prefix, in order (results main_v4 … main_cst_7). -/
abbrev k2 : List (HloOp τ sig (Elt F)) :=
  ( StableHlo.unary main_v3 main_v4 (broadcastInDim S4 ![] bcast_S_S4 : (⟨S_, .f32⟩ : BufTy).Contents (Elt F) → (⟨S4, .f32⟩ : BufTy).Contents (Elt F))
  :: StableHlo.binary main_arg5 main_v4 main_v5 (Host.divf : (⟨S4, .f32⟩ : BufTy).Contents (Elt F) → (⟨S4, .f32⟩ : BufTy).Contents (Elt F) → (⟨S4, .f32⟩ : BufTy).Contents (Elt F))
  :: StableHlo.unary main_v5 main_v6 ((extractStridedSlice S1 ![0] · slices_S4_S1_0) : (⟨S4, .f32⟩ : BufTy).Contents (Elt F) → (⟨S1, .f32⟩ : BufTy).Contents (Elt F))
  :: StableHlo.reshape main_v6 main_v7 rfl shapeCasts_S1_S_
  :: StableHlo.unary main_v5 main_v8 ((extractStridedSlice S1 ![1] · slices_S4_S1_1) : (⟨S4, .f32⟩ : BufTy).Contents (Elt F) → (⟨S1, .f32⟩ : BufTy).Contents (Elt F))
  :: StableHlo.reshape main_v8 main_v9 rfl shapeCasts_S1_S_
  :: StableHlo.unary main_v5 main_v10 ((extractStridedSlice S1 ![2] · slices_S4_S1_2) : (⟨S4, .f32⟩ : BufTy).Contents (Elt F) → (⟨S1, .f32⟩ : BufTy).Contents (Elt F))
  :: StableHlo.reshape main_v10 main_v11 rfl shapeCasts_S1_S_
  :: StableHlo.unary main_v5 main_v12 ((extractStridedSlice S1 ![3] · slices_S4_S1_3) : (⟨S4, .f32⟩ : BufTy).Contents (Elt F) → (⟨S1, .f32⟩ : BufTy).Contents (Elt F))
  :: StableHlo.reshape main_v12 main_v13 rfl shapeCasts_S1_S_
  :: StableHlo.nullary main_cst_2 (constant S_ .f32 0x40000000#32)
  :: StableHlo.binary main_cst_2 main_v11 main_v14 (mulf : (⟨S_, .f32⟩ : BufTy).Contents (Elt F) → (⟨S_, .f32⟩ : BufTy).Contents (Elt F) → (⟨S_, .f32⟩ : BufTy).Contents (Elt F))
  :: StableHlo.binary main_v14 main_v11 main_v15 (mulf : (⟨S_, .f32⟩ : BufTy).Contents (Elt F) → (⟨S_, .f32⟩ : BufTy).Contents (Elt F) → (⟨S_, .f32⟩ : BufTy).Contents (Elt F))
  :: StableHlo.nullary main_cst_3 (constant S_ .f32 0x3F800000#32)
  :: StableHlo.binary main_cst_3 main_v15 main_v16 (subf : (⟨S_, .f32⟩ : BufTy).Contents (Elt F) → (⟨S_, .f32⟩ : BufTy).Contents (Elt F) → (⟨S_, .f32⟩ : BufTy).Contents (Elt F))
  :: StableHlo.nullary main_cst_4 (constant S_ .f32 0x40000000#32)
  :: StableHlo.binary main_cst_4 main_v13 main_v17 (mulf : (⟨S_, .f32⟩ : BufTy).Contents (Elt F) → (⟨S_, .f32⟩ : BufTy).Contents (Elt F) → (⟨S_, .f32⟩ : BufTy).Contents (Elt F))
  :: StableHlo.binary main_v17 main_v13 main_v18 (mulf : (⟨S_, .f32⟩ : BufTy).Contents (Elt F) → (⟨S_, .f32⟩ : BufTy).Contents (Elt F) → (⟨S_, .f32⟩ : BufTy).Contents (Elt F))
  :: StableHlo.binary main_v16 main_v18 main_v19 (subf : (⟨S_, .f32⟩ : BufTy).Contents (Elt F) → (⟨S_, .f32⟩ : BufTy).Contents (Elt F) → (⟨S_, .f32⟩ : BufTy).Contents (Elt F))
  :: StableHlo.nullary main_cst_5 (constant S_ .f32 0x40000000#32)
  :: StableHlo.binary main_cst_5 main_v9 main_v20 (mulf : (⟨S_, .f32⟩ : BufTy).Contents (Elt F) → (⟨S_, .f32⟩ : BufTy).Contents (Elt F) → (⟨S_, .f32⟩ : BufTy).Contents (Elt F))
  :: StableHlo.binary main_v20 main_v11 main_v21 (mulf : (⟨S_, .f32⟩ : BufTy).Contents (Elt F) → (⟨S_, .f32⟩ : BufTy).Contents (Elt F) → (⟨S_, .f32⟩ : BufTy).Contents (Elt F))
  :: StableHlo.nullary main_cst_6 (constant S_ .f32 0x40000000#32)
  :: StableHlo.binary main_cst_6 main_v7 main_v22 (mulf : (⟨S_, .f32⟩ : BufTy).Contents (Elt F) → (⟨S_, .f32⟩ : BufTy).Contents (Elt F) → (⟨S_, .f32⟩ : BufTy).Contents (Elt F))
  :: StableHlo.binary main_v22 main_v13 main_v23 (mulf : (⟨S_, .f32⟩ : BufTy).Contents (Elt F) → (⟨S_, .f32⟩ : BufTy).Contents (Elt F) → (⟨S_, .f32⟩ : BufTy).Contents (Elt F))
  :: StableHlo.binary main_v21 main_v23 main_v24 (subf : (⟨S_, .f32⟩ : BufTy).Contents (Elt F) → (⟨S_, .f32⟩ : BufTy).Contents (Elt F) → (⟨S_, .f32⟩ : BufTy).Contents (Elt F))
  :: StableHlo.nullary main_cst_7 (constant S_ .f32 0x40000000#32)
  :: [] )
/-- The references the operations of `k2` write, in order. -/
abbrev k2_W : List (Ref sig .tc) := [main_v4, main_v5, main_v6, main_v7, main_v8, main_v9, main_v10, main_v11, main_v12, main_v13, main_cst_2, main_v14, main_v15, main_cst_3, main_v16, main_cst_4, main_v17, main_v18, main_v19, main_cst_5, main_v20, main_v21, main_cst_6, main_v22, main_v23, main_v24, main_cst_7]
theorem k2_writes : (k2 : List (HloOp τ sig (Elt F))).Forall fun op => op.writes ⊆ ((k2_W).map (Proc.devRef (τ := τ) .tc)).toFinset :=
  ⟨wsub (y := main_v4) (by decide), wsub (y := main_v5) (by decide), wsub (y := main_v6) (by decide), wsub (y := main_v7) (by decide), wsub (y := main_v8) (by decide), wsub (y := main_v9) (by decide), wsub (y := main_v10) (by decide), wsub (y := main_v11) (by decide), wsub (y := main_v12) (by decide), wsub (y := main_v13) (by decide), wsub (y := main_cst_2) (by decide), wsub (y := main_v14) (by decide), wsub (y := main_v15) (by decide), wsub (y := main_cst_3) (by decide), wsub (y := main_v16) (by decide), wsub (y := main_cst_4) (by decide), wsub (y := main_v17) (by decide), wsub (y := main_v18) (by decide), wsub (y := main_v19) (by decide), wsub (y := main_cst_5) (by decide), wsub (y := main_v20) (by decide), wsub (y := main_v21) (by decide), wsub (y := main_cst_6) (by decide), wsub (y := main_v22) (by decide), wsub (y := main_v23) (by decide), wsub (y := main_v24) (by decide), wsub (y := main_cst_7) (by decide)⟩
theorem k2_keeps : KeepsOff k2_W (k2 : List (HloOp τ sig (Elt F))) := .of_writes k2_writes

/-- Operations 38 … 63 of the prefix, in order (results main_v25 … main_cst_15). -/
abbrev k3 : List (HloOp τ sig (Elt F)) :=
  ( StableHlo.binary main_cst_7 main_v7 main_v25 (mulf : (⟨S_, .f32⟩ : BufTy).Contents (Elt F) → (⟨S_, .f32⟩ : BufTy).Contents (Elt F) → (⟨S_, .f32⟩ : BufTy).Contents (Elt F))
  :: StableHlo.binary main_v25 main_v11 main_v26 (mulf : (⟨S_, .f32⟩ : BufTy).Contents (Elt F) → (⟨S_, .f32⟩ : BufTy).Contents (Elt F) → (⟨S_, .f32⟩ : BufTy).Contents (Elt F))
  :: StableHlo.nullary main_cst_8 (constant S_ .f32 0x40000000#32)
  :: StableHlo.binary main_cst_8 main_v9 main_v27 (mulf : (⟨S_, .f32⟩ : BufTy).Contents (Elt F) → (⟨S_, .f32⟩ : BufTy).Contents (Elt F) → (⟨S_, .f32⟩ : BufTy).Contents (Elt F))
  :: StableHlo.binary main_v27 main_v13 main_v28 (mulf : (⟨S_, .f32⟩ : BufTy).Contents (Elt F) → (⟨S_, .f32⟩ : BufTy).Contents (Elt F) → (⟨S_, .f32⟩ : BufTy).Contents (Elt F))
  :: StableHlo.binary main_v26 main_v28 main_v29 (addf : (⟨S_, .f32⟩ : BufTy).Contents (Elt F) → (⟨S_, .f32⟩ : BufTy).Contents (Elt F) → (⟨S_, .f32⟩ : BufTy).Contents (Elt F))
  :: StableHlo.nullary main_cst_9 (constant S_ .f32 0x40000000#32)
  :: StableHlo.binary main_cst_9 main_v9 main_v30 (mulf : (⟨S_, .f32⟩ : BufTy).Contents (Elt F) → (⟨S_, .f32⟩ : BufTy).Contents (Elt F) → (⟨S_, .f32⟩ : BufTy).Contents (Elt F))
  :: StableHlo.binary main_v30 main_v11 main_v31 (mulf : (⟨S_, .f32⟩ : BufTy).Contents (Elt F) → (⟨S_, .f32⟩ : BufTy).Contents (Elt F) → (⟨S_, .f32⟩ : BufTy).Contents (Elt F))
  :: StableHlo.nullary main_cst_10 (constant S_ .f32 0x40000000#32)
  :: StableHlo.binary main_cst_10 main_v7 main_v32 (mulf : (⟨S_, .f32⟩ : BufTy).Contents (Elt F) → (⟨S_, .f32⟩ : BufTy).Contents (Elt F) → (⟨S_, .f32⟩ : BufTy).Contents (Elt F))
  :: StableHlo.binary main_v32 main_v13 main_v33 (mulf : (⟨S_, .f32⟩ : BufTy).Contents (Elt F) → (⟨S_, .f32⟩ : BufTy).Contents (Elt F) → (⟨S_, .f32⟩ : BufTy).Contents (Elt F))
  :: StableHlo.binary main_v31 main_v33 main_v34 (addf : (⟨S_, .f32⟩ : BufTy).Contents (Elt F) → (⟨S_, .f32⟩ : BufTy).Contents (Elt F) → (⟨S_, .f32⟩ : BufTy).Contents (Elt F))
  :: StableHlo.nullary main_cst_11 (constant S_ .f32 0x40000000#32)
  :: StableHlo.binary main_cst_11 main_v9 main_v35 (mulf : (⟨S_, .f32⟩ : BufTy).Contents (Elt F) → (⟨S_, .f32⟩ : BufTy).Contents (Elt F) → (⟨S_, .f32⟩ : BufTy).Contents (Elt F))
  :: StableHlo.binary main_v35 main_v9 main_v36 (mulf : (⟨S_, .f32⟩ : BufTy).Contents (Elt F) → (⟨S_, .f32⟩ : BufTy).Contents (Elt F) → (⟨S_, .f32⟩ : BufTy).Contents (Elt F))
  :: StableHlo.nullary main_cst_12 (constant S_ .f32 0x3F800000#32)
  :: StableHlo.binary main_cst_12 main_v36 main_v37 (subf : (⟨S_, .f32⟩ : BufTy).Contents (Elt F) → (⟨S_, .f32⟩ : BufTy).Contents (Elt F) → (⟨S_, .f32⟩ : BufTy).Contents (Elt F))
  :: StableHlo.nullary main_cst_13 (constant S_ .f32 0x40000000#32)
  :: StableHlo.binary main_cst_13 main_v13 main_v38 (mulf : (⟨S_, .f32⟩ : BufTy).Contents (Elt F) → (⟨S_, .f32⟩ : BufTy).Contents (Elt F) → (⟨S_, .f32⟩ : BufTy).Contents (Elt F))
  :: StableHlo.binary main_v38 main_v13 main_v39 (mulf : (⟨S_, .f32⟩ : BufTy).Contents (Elt F) → (⟨S_, .f32⟩ : BufTy).Contents (Elt F) → (⟨S_, .f32⟩ : BufTy).Contents (Elt F))
  :: StableHlo.binary main_v37 main_v39 main_v40 (subf : (⟨S_, .f32⟩ : BufTy).Contents (Elt F) → (⟨S_, .f32⟩ : BufTy).Contents (Elt F) → (⟨S_, .f32⟩ : BufTy).Contents (Elt F))
  :: StableHlo.nullary main_cst_14 (constant S_ .f32 0x40000000#32)
  :: StableHlo.binary main_cst_14 main_v11 main_v41 (mulf : (⟨S_, .f32⟩ : BufTy).Contents (Elt F) → (⟨S_, .f32⟩ : BufTy).Contents (Elt F) → (⟨S_, .f32⟩ : BufTy).Contents (Elt F))
  :: StableHlo.binary main_v41 main_v13 main_v42 (mulf : (⟨S_, .f32⟩ : BufTy).Contents (Elt F) → (⟨S_, .f32⟩ : BufTy).Contents (Elt F) → (⟨S_, .f32⟩ : BufTy).Contents (Elt F))
  :: StableHlo.nullary main_cst_15 (constant S_ .f32 0x40000000#32)
  :: [] )
/-- The references the operations of `k3` write, in order. -/
abbrev k3_W : List (Ref sig .tc) := [main_v25, main_v26, main_cst_8, main_v27, main_v28, main_v29, main_cst_9, main_v30, main_v31, main_cst_10, main_v32, main_v33, main_v34, main_cst_11, main_v35, main_v36, main_cst_12, main_v37, main_cst_13, main_v38, main_v39, main_v40, main_cst_14, main_v41, main_v42, main_cst_15]
theorem k3_writes : (k3 : List (HloOp τ sig (Elt F))).Forall fun op => op.writes ⊆ ((k3_W).map (Proc.devRef (τ := τ) .tc)).toFinset :=
  ⟨wsub (y := main_v25) (by decide), wsub (y := main_v26) (by decide), wsub (y := main_cst_8) (by decide), wsub (y := main_v27) (by decide), wsub (y := main_v28) (by decide), wsub (y := main_v29) (by decide), wsub (y := main_cst_9) (by decide), wsub (y := main_v30) (by decide), wsub (y := main_v31) (by decide), wsub (y := main_cst_10) (by decide), wsub (y := main_v32) (by decide), wsub (y := main_v33) (by decide), wsub (y := main_v34) (by decide), wsub (y := main_cst_11) (by decide), wsub (y := main_v35) (by decide), wsub (y := main_v36) (by decide), wsub (y := main_cst_12) (by decide), wsub (y := main_v37) (by decide), wsub (y := main_cst_13) (by decide), wsub (y := main_v38) (by decide), wsub (y := main_v39) (by decide), wsub (y := main_v40) (by decide), wsub (y := main_cst_14) (by decide), wsub (y := main_v41) (by decide), wsub (y := main_v42) (by decide), wsub (y := main_cst_15) (by decide)⟩
theorem k3_keeps : KeepsOff k3_W (k3 : List (HloOp τ sig (Elt F))) := .of_writes k3_writes

/-- Operations 64 … 86 of the prefix, in order (results main_v43 … main_cst_22). -/
abbrev k4 : List (HloOp τ sig (Elt F)) :=
  ( StableHlo.binary main_cst_15 main_v7 main_v43 (mulf : (⟨S_, .f32⟩ : BufTy).Contents (Elt F) → (⟨S_, .f32⟩ : BufTy).Contents (Elt F) → (⟨S_, .f32⟩ : BufTy).Contents (Elt F))
  :: StableHlo.binary main_v43 main_v9 main_v44 (mulf : (⟨S_, .f32⟩ : BufTy).Contents (Elt F) → (⟨S_, .f32⟩ : BufTy).Contents (Elt F) → (⟨S_, .f32⟩ : BufTy).Contents (Elt F))
  :: StableHlo.binary main_v42 main_v44 main_v45 (subf : (⟨S_, .f32⟩ : BufTy).Contents (Elt F) → (⟨S_, .f32⟩ : BufTy).Contents (Elt F) → (⟨S_, .f32⟩ : BufTy).Contents (Elt F))
  :: StableHlo.nullary main_cst_16 (constant S_ .f32 0x40000000#32)
  :: StableHlo.binary main_cst_16 main_v9 main_v46 (mulf : (⟨S_, .f32⟩ : BufTy).Contents (Elt F) → (⟨S_, .f32⟩ : BufTy).Contents (Elt F) → (⟨S_, .f32⟩ : BufTy).Contents (Elt F))
  :: StableHlo.binary main_v46 main_v13 main_v47 (mulf : (⟨S_, .f32⟩ : BufTy).Contents (Elt F) → (⟨S_, .f32⟩ : BufTy).Contents (Elt F) → (⟨S_, .f32⟩ : BufTy).Contents (Elt F))
  :: StableHlo.nullary main_cst_17 (constant S_ .f32 0x40000000#32)
  :: StableHlo.binary main_cst_17 main_v7 main_v48 (mulf : (⟨S_, .f32⟩ : BufTy).Contents (Elt F) → (⟨S_, .f32⟩ : BufTy).Contents (Elt F) → (⟨S_, .f32⟩ : BufTy).Contents (Elt F))
  :: StableHlo.binary main_v48 main_v11 main_v49 (mulf : (⟨S_, .f32⟩ : BufTy).Contents (Elt F) → (⟨S_, .f32⟩ : BufTy).Contents (Elt F) → (⟨S_, .f32⟩ : BufTy).Contents (Elt F))
  :: StableHlo.binary main_v47 main_v49 main_v50 (subf : (⟨S_, .f32⟩ : BufTy).Contents (Elt F) → (⟨S_, .f32⟩ : BufTy).Contents (Elt F) → (⟨S_, .f32⟩ : BufTy).Contents (Elt F))
  :: StableHlo.nullary main_cst_18 (constant S_ .f32 0x40000000#32)
  :: StableHlo.binary main_cst_18 main_v7 main_v51 (mulf : (⟨S_, .f32⟩ : BufTy).Contents (Elt F) → (⟨S_, .f32⟩ : BufTy).Contents (Elt F) → (⟨S_, .f32⟩ : BufTy).Contents (Elt F))
  :: StableHlo.binary main_v51 main_v9 main_v52 (mulf : (⟨S_, .f32⟩ : BufTy).Contents (Elt F) → (⟨S_, .f32⟩ : BufTy).Contents (Elt F) → (⟨S_, .f32⟩ : BufTy).Contents (Elt F))
  :: StableHlo.nullary main_cst_19 (constant S_ .f32 0x40000000#32)
  :: StableHlo.binary main_cst_19 main_v11 main_v53 (mulf : (⟨S_, .f32⟩ : BufTy).Contents (Elt F) → (⟨S_, .f32⟩ : BufTy).Contents (Elt F) → (⟨S_, .f32⟩ : BufTy).Contents (Elt F))
  :: StableHlo.binary main_v53 main_v13 main_v54 (mulf : (⟨S_, .f32⟩ : BufTy).Contents (Elt F) → (⟨S_, .f32⟩ : BufTy).Contents (Elt F) → (⟨S_, .f32⟩ : BufTy).Contents (Elt F))
  :: StableHlo.binary main_v52 main_v54 main_v55 (addf : (⟨S_, .f32⟩ : BufTy).Contents (Elt F) → (⟨S_, .f32⟩ : BufTy).Contents (Elt F) → (⟨S_, .f32⟩ : BufTy).Contents (Elt F))
  :: StableHlo.nullary main_cst_20 (constant S_ .f32 0x40000000#32)
  :: StableHlo.binary main_cst_20 main_v9 main_v56 (mulf : (⟨S_, .f32⟩ : BufTy).Contents (Elt F) → (⟨S_, .f32⟩ : BufTy).Contents (Elt F) → (⟨S_, .f32⟩ : BufTy).Contents (Elt F))
  :: StableHlo.binary main_v56 main_v9 main_v57 (mulf : (⟨S_, .f32⟩ : BufTy).Contents (Elt F) → (⟨S_, .f32⟩ : BufTy).Contents (Elt F) → (⟨S_, .f32⟩ : BufTy).Contents (Elt F))
  :: StableHlo.nullary main_cst_21 (constant S_ .f32 0x3F800000#32)
  :: StableHlo.binary main_cst_21 main_v57 main_v58 (subf : (⟨S_, .f32⟩ : BufTy).Contents (Elt F) → (⟨S_, .f32⟩ : BufTy).Contents (Elt F) → (⟨S_, .f32⟩ : BufTy).Contents (Elt F))
  :: StableHlo.nullary main_cst_22 (constant S_ .f32 0x40000000#32)
  :: [] )
/-- The references the operations of `k4` write, in order. -/
abbrev k4_W : List (Ref sig .tc) := [main_v43, main_v44, main_v45, main_cst_16, main_v46, main_v47, main_cst_17, main_v48, main_v49, main_v50, main_cst_18, main_v51, main_v52, main_cst_19, main_v53, main_v54, main_v55, main_cst_20, main_v56, main_v57, main_cst_21, main_v58, main_cst_22]
theorem k4_writes : (k4 : List (HloOp τ sig (Elt F))).Forall fun op => op.writes ⊆ ((k4_W).map (Proc.devRef (τ := τ) .tc)).toFinset :=
  ⟨wsub (y := main_v43) (by decide), wsub (y := main_v44) (by decide), wsub (y := main_v45) (by decide), wsub (y := main_cst_16) (by decide), wsub (y := main_v46) (by decide), wsub (y := main_v47) (by decide), wsub (y := main_cst_17) (by decide), wsub (y := main_v48) (by decide), wsub (y := main_v49) (by decide), wsub (y := main_v50) (by decide), wsub (y := main_cst_18) (by decide), wsub (y := main_v51) (by decide), wsub (y := main_v52) (by decide), wsub (y := main_cst_19) (by decide), wsub (y := main_v53) (by decide), wsub (y := main_v54) (by decide), wsub (y := main_v55) (by decide), wsub (y := main_cst_20) (by decide), wsub (y := main_v56) (by decide), wsub (y := main_v57) (by decide), wsub (y := main_cst_21) (by decide), wsub (y := main_v58) (by decide), wsub (y := main_cst_22) (by decide)⟩
theorem k4_keeps : KeepsOff k4_W (k4 : List (HloOp τ sig (Elt F))) := .of_writes k4_writes

/-- Operations 87 … 106 of the prefix, in order (results main_v59 … main_v78). -/
abbrev k5 : List (HloOp τ sig (Elt F)) :=
  ( StableHlo.binary main_cst_22 main_v11 main_v59 (mulf : (⟨S_, .f32⟩ : BufTy).Contents (Elt F) → (⟨S_, .f32⟩ : BufTy).Contents (Elt F) → (⟨S_, .f32⟩ : BufTy).Contents (Elt F))
  :: StableHlo.binary main_v59 main_v11 main_v60 (mulf : (⟨S_, .f32⟩ : BufTy).Contents (Elt F) → (⟨S_, .f32⟩ : BufTy).Contents (Elt F) → (⟨S_, .f32⟩ : BufTy).Contents (Elt F))
  :: StableHlo.binary main_v58 main_v60 main_v61 (subf : (⟨S_, .f32⟩ : BufTy).Contents (Elt F) → (⟨S_, .f32⟩ : BufTy).Contents (Elt F) → (⟨S_, .f32⟩ : BufTy).Contents (Elt F))
  :: StableHlo.unary main_v19 main_v62 (broadcastInDim S1 ![] bcast_S_S1 : (⟨S_, .f32⟩ : BufTy).Contents (Elt F) → (⟨S1, .f32⟩ : BufTy).Contents (Elt F))
  :: StableHlo.unary main_v24 main_v63 (broadcastInDim S1 ![] bcast_S_S1 : (⟨S_, .f32⟩ : BufTy).Contents (Elt F) → (⟨S1, .f32⟩ : BufTy).Contents (Elt F))
  :: StableHlo.unary main_v29 main_v64 (broadcastInDim S1 ![] bcast_S_S1 : (⟨S_, .f32⟩ : BufTy).Contents (Elt F) → (⟨S1, .f32⟩ : BufTy).Contents (Elt F))
  :: StableHlo.unary main_v34 main_v65 (broadcastInDim S1 ![] bcast_S_S1 : (⟨S_, .f32⟩ : BufTy).Contents (Elt F) → (⟨S1, .f32⟩ : BufTy).Contents (Elt F))
  :: StableHlo.unary main_v40 main_v66 (broadcastInDim S1 ![] bcast_S_S1 : (⟨S_, .f32⟩ : BufTy).Contents (Elt F) → (⟨S1, .f32⟩ : BufTy).Contents (Elt F))
  :: StableHlo.unary main_v45 main_v67 (broadcastInDim S1 ![] bcast_S_S1 : (⟨S_, .f32⟩ : BufTy).Contents (Elt F) → (⟨S1, .f32⟩ : BufTy).Contents (Elt F))
  :: StableHlo.unary main_v50 main_v68 (broadcastInDim S1 ![] bcast_S_S1 : (⟨S_, .f32⟩ : BufTy).Contents (Elt F) → (⟨S1, .f32⟩ : BufTy).Contents (Elt F))
  :: StableHlo.unary main_v55 main_v69 (broadcastInDim S1 ![] bcast_S_S1 : (⟨S_, .f32⟩ : BufTy).Contents (Elt F) → (⟨S1, .f32⟩ : BufTy).Contents (Elt F))
  :: StableHlo.unary main_v61 main_v70 (broadcastInDim S1 ![] bcast_S_S1 : (⟨S_, .f32⟩ : BufTy).Contents (Elt F) → (⟨S1, .f32⟩ : BufTy).Contents (Elt F))
  :: StableHlo.nary ![main_v62, main_v63, main_v64, main_v65, main_v66, main_v67, main_v68, main_v69, main_v70] main_v71 (fun u => concatenate S9 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩] concatenates_S1_S1_S1_S1_S1_S1_S1_S1_S1_S9_d0)
  :: StableHlo.reshape main_v71 main_v72 rfl shapeCasts_S9_S3x3
  :: StableHlo.binary main_v72 main_arg6 main_v73 ((fun a b => concatenate S3x4 1 [⟨S3x3, a⟩, ⟨S3x1, b⟩] concatenates_S3x3_S3x1_S3x4_d1) : (⟨S3x3, .f32⟩ : BufTy).Contents (Elt F) → (⟨S3x1, .f32⟩ : BufTy).Contents (Elt F) → (⟨S3x4, .f32⟩ : BufTy).Contents (Elt F))
  :: StableHlo.binary main_v73 main_cst main_v74 ((fun a b => concatenate S4x4 0 [⟨S3x4, a⟩, ⟨S1x4, b⟩] concatenates_S3x4_S1x4_S4x4_d0) : (⟨S3x4, .f32⟩ : BufTy).Contents (Elt F) → (⟨S1x4, .f32⟩ : BufTy).Contents (Elt F) → (⟨S4x4, .f32⟩ : BufTy).Contents (Elt F))
  :: StableHlo.unary main_v2 main_v75 ((extractStridedSlice S1x8192x4 ![0, 0, 0] · slices_S2x8192x4_S1x8192x4_0_0_0) : (⟨S2x8192x4, .f32⟩ : BufTy).Contents (Elt F) → (⟨S1x8192x4, .f32⟩ : BufTy).Contents (Elt F))
  :: StableHlo.reshape main_v75 main_v76 rfl shapeCasts_S1x8192x4_S8192x4
  :: StableHlo.unary main_v74 main_v77 ((transpose S4x4 [1, 0] · transposes_S4x4_S4x4_1_0) : (⟨S4x4, .f32⟩ : BufTy).Contents (Elt F) → (⟨S4x4, .f32⟩ : BufTy).Contents (Elt F))
  :: StableHlo.binary main_v76 main_v77 main_v78 ((fun l r => Host.dotGeneral dot_S8192x4_S4x4_S8192x4_1_0_0_1_n_n none l r) : (⟨S8192x4, .f32⟩ : BufTy).Contents (Elt F) → (⟨S4x4, .f32⟩ : BufTy).Contents (Elt F) → (⟨S8192x4, .f32⟩ : BufTy).Contents (Elt F))
  :: [] )
/-- The references the operations of `k5` write, in order. -/
abbrev k5_W : List (Ref sig .tc) := [main_v59, main_v60, main_v61, main_v62, main_v63, main_v64, main_v65, main_v66, main_v67, main_v68, main_v69, main_v70, main_v71, main_v72, main_v73, main_v74, main_v75, main_v76, main_v77, main_v78]
theorem k5_writes : (k5 : List (HloOp τ sig (Elt F))).Forall fun op => op.writes ⊆ ((k5_W).map (Proc.devRef (τ := τ) .tc)).toFinset :=
  ⟨wsub (y := main_v59) (by decide), wsub (y := main_v60) (by decide), wsub (y := main_v61) (by decide), wsub (y := main_v62) (by decide), wsub (y := main_v63) (by decide), wsub (y := main_v64) (by decide), wsub (y := main_v65) (by decide), wsub (y := main_v66) (by decide), wsub (y := main_v67) (by decide), wsub (y := main_v68) (by decide), wsub (y := main_v69) (by decide), wsub (y := main_v70) (by decide), wsub (y := main_v71) (by decide), wsub (y := main_v72) (by decide), wsub (y := main_v73) (by decide), wsub (y := main_v74) (by decide), wsub (y := main_v75) (by decide), wsub (y := main_v76) (by decide), wsub (y := main_v77) (by decide), wsub (y := main_v78) (by decide)⟩
theorem k5_keeps : KeepsOff k5_W (k5 : List (HloOp τ sig (Elt F))) := .of_writes k5_writes

/-- Operations 107 … 124 of the prefix, in order (results main_v79 … main_v96). -/
abbrev k6 : List (HloOp τ sig (Elt F)) :=
  ( StableHlo.reshape main_arg2 main_v79 rfl shapeCasts_S1x3_S3
  :: StableHlo.reshape main_arg3 main_v80 rfl shapeCasts_S1x3_S3
  :: StableHlo.reshape main_arg7 main_v81 rfl shapeCasts_S1_S_
  :: StableHlo.unary main_v79 main_v82 ((extractStridedSlice S1 ![0] · slices_S3_S1_0) : (⟨S3, .f32⟩ : BufTy).Contents (Elt F) → (⟨S1, .f32⟩ : BufTy).Contents (Elt F))
  :: StableHlo.reshape main_v82 main_v83 rfl shapeCasts_S1_S_
  :: StableHlo.unary main_v79 main_v84 ((extractStridedSlice S1 ![1] · slices_S3_S1_1) : (⟨S3, .f32⟩ : BufTy).Contents (Elt F) → (⟨S1, .f32⟩ : BufTy).Contents (Elt F))
  :: StableHlo.reshape main_v84 main_v85 rfl shapeCasts_S1_S_
  :: StableHlo.unary main_v79 main_v86 ((extractStridedSlice S1 ![2] · slices_S3_S1_2) : (⟨S3, .f32⟩ : BufTy).Contents (Elt F) → (⟨S1, .f32⟩ : BufTy).Contents (Elt F))
  :: StableHlo.reshape main_v86 main_v87 rfl shapeCasts_S1_S_
  :: StableHlo.unary main_v80 main_v88 ((extractStridedSlice S1 ![0] · slices_S3_S1_0) : (⟨S3, .f32⟩ : BufTy).Contents (Elt F) → (⟨S1, .f32⟩ : BufTy).Contents (Elt F))
  :: StableHlo.reshape main_v88 main_v89 rfl shapeCasts_S1_S_
  :: StableHlo.unary main_v80 main_v90 ((extractStridedSlice S1 ![1] · slices_S3_S1_1) : (⟨S3, .f32⟩ : BufTy).Contents (Elt F) → (⟨S1, .f32⟩ : BufTy).Contents (Elt F))
  :: StableHlo.reshape main_v90 main_v91 rfl shapeCasts_S1_S_
  :: StableHlo.unary main_v80 main_v92 ((extractStridedSlice S1 ![2] · slices_S3_S1_2) : (⟨S3, .f32⟩ : BufTy).Contents (Elt F) → (⟨S1, .f32⟩ : BufTy).Contents (Elt F))
  :: StableHlo.reshape main_v92 main_v93 rfl shapeCasts_S1_S_
  :: StableHlo.unary main_v81 main_v94 (Host.cos : (⟨S_, .f32⟩ : BufTy).Contents (Elt F) → (⟨S_, .f32⟩ : BufTy).Contents (Elt F))
  :: StableHlo.unary main_v81 main_v95 (Host.sin : (⟨S_, .f32⟩ : BufTy).Contents (Elt F) → (⟨S_, .f32⟩ : BufTy).Contents (Elt F))
  :: StableHlo.binary main_v89 main_v89 main_v96 (mulf : (⟨S_, .f32⟩ : BufTy).Contents (Elt F) → (⟨S_, .f32⟩ : BufTy).Contents (Elt F) → (⟨S_, .f32⟩ : BufTy).Contents (Elt F))
  :: [] )
/-- The references the operations of `k6` write, in order. -/
abbrev k6_W : List (Ref sig .tc) := [main_v79, main_v80, main_v81, main_v82, main_v83, main_v84, main_v85, main_v86, main_v87, main_v88, main_v89, main_v90, main_v91, main_v92, main_v93, main_v94, main_v95, main_v96]
theorem k6_writes : (k6 : List (HloOp τ sig (Elt F))).Forall fun op => op.writes ⊆ ((k6_W).map (Proc.devRef (τ := τ) .tc)).toFinset :=
  ⟨wsub (y := main_v79) (by decide), wsub (y := main_v80) (by decide), wsub (y := main_v81) (by decide), wsub (y := main_v82) (by decide), wsub (y := main_v83) (by decide), wsub (y := main_v84) (by decide), wsub (y := main_v85) (by decide), wsub (y := main_v86) (by decide), wsub (y := main_v87) (by decide), wsub (y := main_v88) (by decide), wsub (y := main_v89) (by decide), wsub (y := main_v90) (by decide), wsub (y := main_v91) (by decide), wsub (y := main_v92) (by decide), wsub (y := main_v93) (by decide), wsub (y := main_v94) (by decide), wsub (y := main_v95) (by decide), wsub (y := main_v96) (by decide)⟩
theorem k6_keeps : KeepsOff k6_W (k6 : List (HloOp τ sig (Elt F))) := .of_writes k6_writes

/-- Operations 125 … 144 of the prefix, in order (results main_v97 … main_v114). -/
abbrev k7 : List (HloOp τ sig (Elt F)) :=
  ( StableHlo.binary main_v91 main_v91 main_v97 (mulf : (⟨S_, .f32⟩ : BufTy).Contents (Elt F) → (⟨S_, .f32⟩ : BufTy).Contents (Elt F) → (⟨S_, .f32⟩ : BufTy).Contents (Elt F))
  :: StableHlo.binary main_v93 main_v93 main_v98 (mulf : (⟨S_, .f32⟩ : BufTy).Contents (Elt F) → (⟨S_, .f32⟩ : BufTy).Contents (Elt F) → (⟨S_, .f32⟩ : BufTy).Contents (Elt F))
  :: StableHlo.binary main_v97 main_v98 main_v99 (addf : (⟨S_, .f32⟩ : BufTy).Contents (Elt F) → (⟨S_, .f32⟩ : BufTy).Contents (Elt F) → (⟨S_, .f32⟩ : BufTy).Contents (Elt F))
  :: StableHlo.binary main_v99 main_v94 main_v100 (mulf : (⟨S_, .f32⟩ : BufTy).Contents (Elt F) → (⟨S_, .f32⟩ : BufTy).Contents (Elt F) → (⟨S_, .f32⟩ : BufTy).Contents (Elt F))
  :: StableHlo.binary main_v96 main_v100 main_v101 (addf : (⟨S_, .f32⟩ : BufTy).Contents (Elt F) → (⟨S_, .f32⟩ : BufTy).Contents (Elt F) → (⟨S_, .f32⟩ : BufTy).Contents (Elt F))
  :: StableHlo.binary main_v89 main_v91 main_v102 (mulf : (⟨S_, .f32⟩ : BufTy).Contents (Elt F) → (⟨S_, .f32⟩ : BufTy).Contents (Elt F) → (⟨S_, .f32⟩ : BufTy).Contents (Elt F))
  :: StableHlo.nullary main_cst_23 (constant S_ .f32 0x3F800000#32)
  :: StableHlo.binary main_cst_23 main_v94 main_v103 (subf : (⟨S_, .f32⟩ : BufTy).Contents (Elt F) → (⟨S_, .f32⟩ : BufTy).Contents (Elt F) → (⟨S_, .f32⟩ : BufTy).Contents (Elt F))
  :: StableHlo.binary main_v102 main_v103 main_v104 (mulf : (⟨S_, .f32⟩ : BufTy).Contents (Elt F) → (⟨S_, .f32⟩ : BufTy).Contents (Elt F) → (⟨S_, .f32⟩ : BufTy).Contents (Elt F))
  :: StableHlo.binary main_v93 main_v95 main_v105 (mulf : (⟨S_, .f32⟩ : BufTy).Contents (Elt F) → (⟨S_, .f32⟩ : BufTy).Contents (Elt F) → (⟨S_, .f32⟩ : BufTy).Contents (Elt F))
  :: StableHlo.binary main_v104 main_v105 main_v106 (subf : (⟨S_, .f32⟩ : BufTy).Contents (Elt F) → (⟨S_, .f32⟩ : BufTy).Contents (Elt F) → (⟨S_, .f32⟩ : BufTy).Contents (Elt F))
  :: StableHlo.binary main_v89 main_v93 main_v107 (mulf : (⟨S_, .f32⟩ : BufTy).Contents (Elt F) → (⟨S_, .f32⟩ : BufTy).Contents (Elt F) → (⟨S_, .f32⟩ : BufTy).Contents (Elt F))
  :: StableHlo.nullary main_cst_24 (constant S_ .f32 0x3F800000#32)
  :: StableHlo.binary main_cst_24 main_v94 main_v108 (subf : (⟨S_, .f32⟩ : BufTy).Contents (Elt F) → (⟨S_, .f32⟩ : BufTy).Contents (Elt F) → (⟨S_, .f32⟩ : BufTy).Contents (Elt F))
  :: StableHlo.binary main_v107 main_v108 main_v109 (mulf : (⟨S_, .f32⟩ : BufTy).Contents (Elt F) → (⟨S_, .f32⟩ : BufTy).Contents (Elt F) → (⟨S_, .f32⟩ : BufTy).Contents (Elt F))
  :: StableHlo.binary main_v91 main_v95 main_v110 (mulf : (⟨S_, .f32⟩ : BufTy).Contents (Elt F) → (⟨S_, .f32⟩ : BufTy).Contents (Elt F) → (⟨S_, .f32⟩ : BufTy).Contents (Elt F))
  :: StableHlo.binary main_v109 main_v110 main_v111 (addf : (⟨S_, .f32⟩ : BufTy).Contents (Elt F) → (⟨S_, .f32⟩ : BufTy).Contents (Elt F) → (⟨S_, .f32⟩ : BufTy).Contents (Elt F))
  :: StableHlo.binary main_v91 main_v91 main_v112 (mulf : (⟨S_, .f32⟩ : BufTy).Contents (Elt F) → (⟨S_, .f32⟩ : BufTy).Contents (Elt F) → (⟨S_, .f32⟩ : BufTy).Contents (Elt F))
  :: StableHlo.binary main_v93 main_v93 main_v113 (mulf : (⟨S_, .f32⟩ : BufTy).Contents (Elt F) → (⟨S_, .f32⟩ : BufTy).Contents (Elt F) → (⟨S_, .f32⟩ : BufTy).Contents (Elt F))
  :: StableHlo.binary main_v112 main_v113 main_v114 (addf : (⟨S_, .f32⟩ : BufTy).Contents (Elt F) → (⟨S_, .f32⟩ : BufTy).Contents (Elt F) → (⟨S_, .f32⟩ : BufTy).Contents (Elt F))
  :: [] )
/-- The references the operations of `k7` write, in order. -/
abbrev k7_W : List (Ref sig .tc) := [main_v97, main_v98, main_v99, main_v100, main_v101, main_v102, main_cst_23, main_v103, main_v104, main_v105, main_v106, main_v107, main_cst_24, main_v108, main_v109, main_v110, main_v111, main_v112, main_v113, main_v114]
theorem k7_writes : (k7 : List (HloOp τ sig (Elt F))).Forall fun op => op.writes ⊆ ((k7_W).map (Proc.devRef (τ := τ) .tc)).toFinset :=
  ⟨wsub (y := main_v97) (by decide), wsub (y := main_v98) (by decide), wsub (y := main_v99) (by decide), wsub (y := main_v100) (by decide), wsub (y := main_v101) (by decide), wsub (y := main_v102) (by decide), wsub (y := main_cst_23) (by decide), wsub (y := main_v103) (by decide), wsub (y := main_v104) (by decide), wsub (y := main_v105) (by decide), wsub (y := main_v106) (by decide), wsub (y := main_v107) (by decide), wsub (y := main_cst_24) (by decide), wsub (y := main_v108) (by decide), wsub (y := main_v109) (by decide), wsub (y := main_v110) (by decide), wsub (y := main_v111) (by decide), wsub (y := main_v112) (by decide), wsub (y := main_v113) (by decide), wsub (y := main_v114) (by decide)⟩
theorem k7_keeps : KeepsOff k7_W (k7 : List (HloOp τ sig (Elt F))) := .of_writes k7_writes

/-- Operations 145 … 174 of the prefix, in order (results main_v115 … main_v141). -/
abbrev k8 : List (HloOp τ sig (Elt F)) :=
  ( StableHlo.binary main_v83 main_v114 main_v115 (mulf : (⟨S_, .f32⟩ : BufTy).Contents (Elt F) → (⟨S_, .f32⟩ : BufTy).Contents (Elt F) → (⟨S_, .f32⟩ : BufTy).Contents (Elt F))
  :: StableHlo.binary main_v85 main_v91 main_v116 (mulf : (⟨S_, .f32⟩ : BufTy).Contents (Elt F) → (⟨S_, .f32⟩ : BufTy).Contents (Elt F) → (⟨S_, .f32⟩ : BufTy).Contents (Elt F))
  :: StableHlo.binary main_v87 main_v93 main_v117 (mulf : (⟨S_, .f32⟩ : BufTy).Contents (Elt F) → (⟨S_, .f32⟩ : BufTy).Contents (Elt F) → (⟨S_, .f32⟩ : BufTy).Contents (Elt F))
  :: StableHlo.binary main_v116 main_v117 main_v118 (addf : (⟨S_, .f32⟩ : BufTy).Contents (Elt F) → (⟨S_, .f32⟩ : BufTy).Contents (Elt F) → (⟨S_, .f32⟩ : BufTy).Contents (Elt F))
  :: StableHlo.binary main_v89 main_v118 main_v119 (mulf : (⟨S_, .f32⟩ : BufTy).Contents (Elt F) → (⟨S_, .f32⟩ : BufTy).Contents (Elt F) → (⟨S_, .f32⟩ : BufTy).Contents (Elt F))
  :: StableHlo.binary main_v115 main_v119 main_v120 (subf : (⟨S_, .f32⟩ : BufTy).Contents (Elt F) → (⟨S_, .f32⟩ : BufTy).Contents (Elt F) → (⟨S_, .f32⟩ : BufTy).Contents (Elt F))
  :: StableHlo.nullary main_cst_25 (constant S_ .f32 0x3F800000#32)
  :: StableHlo.binary main_cst_25 main_v94 main_v121 (subf : (⟨S_, .f32⟩ : BufTy).Contents (Elt F) → (⟨S_, .f32⟩ : BufTy).Contents (Elt F) → (⟨S_, .f32⟩ : BufTy).Contents (Elt F))
  :: StableHlo.binary main_v120 main_v121 main_v122 (mulf : (⟨S_, .f32⟩ : BufTy).Contents (Elt F) → (⟨S_, .f32⟩ : BufTy).Contents (Elt F) → (⟨S_, .f32⟩ : BufTy).Contents (Elt F))
  :: StableHlo.binary main_v85 main_v93 main_v123 (mulf : (⟨S_, .f32⟩ : BufTy).Contents (Elt F) → (⟨S_, .f32⟩ : BufTy).Contents (Elt F) → (⟨S_, .f32⟩ : BufTy).Contents (Elt F))
  :: StableHlo.binary main_v87 main_v91 main_v124 (mulf : (⟨S_, .f32⟩ : BufTy).Contents (Elt F) → (⟨S_, .f32⟩ : BufTy).Contents (Elt F) → (⟨S_, .f32⟩ : BufTy).Contents (Elt F))
  :: StableHlo.binary main_v123 main_v124 main_v125 (subf : (⟨S_, .f32⟩ : BufTy).Contents (Elt F) → (⟨S_, .f32⟩ : BufTy).Contents (Elt F) → (⟨S_, .f32⟩ : BufTy).Contents (Elt F))
  :: StableHlo.binary main_v125 main_v95 main_v126 (mulf : (⟨S_, .f32⟩ : BufTy).Contents (Elt F) → (⟨S_, .f32⟩ : BufTy).Contents (Elt F) → (⟨S_, .f32⟩ : BufTy).Contents (Elt F))
  :: StableHlo.binary main_v122 main_v126 main_v127 (addf : (⟨S_, .f32⟩ : BufTy).Contents (Elt F) → (⟨S_, .f32⟩ : BufTy).Contents (Elt F) → (⟨S_, .f32⟩ : BufTy).Contents (Elt F))
  :: StableHlo.binary main_v89 main_v91 main_v128 (mulf : (⟨S_, .f32⟩ : BufTy).Contents (Elt F) → (⟨S_, .f32⟩ : BufTy).Contents (Elt F) → (⟨S_, .f32⟩ : BufTy).Contents (Elt F))
  :: StableHlo.nullary main_cst_26 (constant S_ .f32 0x3F800000#32)
  :: StableHlo.binary main_cst_26 main_v94 main_v129 (subf : (⟨S_, .f32⟩ : BufTy).Contents (Elt F) → (⟨S_, .f32⟩ : BufTy).Contents (Elt F) → (⟨S_, .f32⟩ : BufTy).Contents (Elt F))
  :: StableHlo.binary main_v128 main_v129 main_v130 (mulf : (⟨S_, .f32⟩ : BufTy).Contents (Elt F) → (⟨S_, .f32⟩ : BufTy).Contents (Elt F) → (⟨S_, .f32⟩ : BufTy).Contents (Elt F))
  :: StableHlo.binary main_v93 main_v95 main_v131 (mulf : (⟨S_, .f32⟩ : BufTy).Contents (Elt F) → (⟨S_, .f32⟩ : BufTy).Contents (Elt F) → (⟨S_, .f32⟩ : BufTy).Contents (Elt F))
  :: StableHlo.binary main_v130 main_v131 main_v132 (addf : (⟨S_, .f32⟩ : BufTy).Contents (Elt F) → (⟨S_, .f32⟩ : BufTy).Contents (Elt F) → (⟨S_, .f32⟩ : BufTy).Contents (Elt F))
  :: StableHlo.binary main_v91 main_v91 main_v133 (mulf : (⟨S_, .f32⟩ : BufTy).Contents (Elt F) → (⟨S_, .f32⟩ : BufTy).Contents (Elt F) → (⟨S_, .f32⟩ : BufTy).Contents (Elt F))
  :: StableHlo.binary main_v89 main_v89 main_v134 (mulf : (⟨S_, .f32⟩ : BufTy).Contents (Elt F) → (⟨S_, .f32⟩ : BufTy).Contents (Elt F) → (⟨S_, .f32⟩ : BufTy).Contents (Elt F))
  :: StableHlo.binary main_v93 main_v93 main_v135 (mulf : (⟨S_, .f32⟩ : BufTy).Contents (Elt F) → (⟨S_, .f32⟩ : BufTy).Contents (Elt F) → (⟨S_, .f32⟩ : BufTy).Contents (Elt F))
  :: StableHlo.binary main_v134 main_v135 main_v136 (addf : (⟨S_, .f32⟩ : BufTy).Contents (Elt F) → (⟨S_, .f32⟩ : BufTy).Contents (Elt F) → (⟨S_, .f32⟩ : BufTy).Contents (Elt F))
  :: StableHlo.binary main_v136 main_v94 main_v137 (mulf : (⟨S_, .f32⟩ : BufTy).Contents (Elt F) → (⟨S_, .f32⟩ : BufTy).Contents (Elt F) → (⟨S_, .f32⟩ : BufTy).Contents (Elt F))
  :: StableHlo.binary main_v133 main_v137 main_v138 (addf : (⟨S_, .f32⟩ : BufTy).Contents (Elt F) → (⟨S_, .f32⟩ : BufTy).Contents (Elt F) → (⟨S_, .f32⟩ : BufTy).Contents (Elt F))
  :: StableHlo.binary main_v91 main_v93 main_v139 (mulf : (⟨S_, .f32⟩ : BufTy).Contents (Elt F) → (⟨S_, .f32⟩ : BufTy).Contents (Elt F) → (⟨S_, .f32⟩ : BufTy).Contents (Elt F))
  :: StableHlo.nullary main_cst_27 (constant S_ .f32 0x3F800000#32)
  :: StableHlo.binary main_cst_27 main_v94 main_v140 (subf : (⟨S_, .f32⟩ : BufTy).Contents (Elt F) → (⟨S_, .f32⟩ : BufTy).Contents (Elt F) → (⟨S_, .f32⟩ : BufTy).Contents (Elt F))
  :: StableHlo.binary main_v139 main_v140 main_v141 (mulf : (⟨S_, .f32⟩ : BufTy).Contents (Elt F) → (⟨S_, .f32⟩ : BufTy).Contents (Elt F) → (⟨S_, .f32⟩ : BufTy).Contents (Elt F))
  :: [] )
/-- The references the operations of `k8` write, in order. -/
abbrev k8_W : List (Ref sig .tc) := [main_v115, main_v116, main_v117, main_v118, main_v119, main_v120, main_cst_25, main_v121, main_v122, main_v123, main_v124, main_v125, main_v126, main_v127, main_v128, main_cst_26, main_v129, main_v130, main_v131, main_v132, main_v133, main_v134, main_v135, main_v136, main_v137, main_v138, main_v139, main_cst_27, main_v140, main_v141]
theorem k8_writes : (k8 : List (HloOp τ sig (Elt F))).Forall fun op => op.writes ⊆ ((k8_W).map (Proc.devRef (τ := τ) .tc)).toFinset :=
  ⟨wsub (y := main_v115) (by decide), wsub (y := main_v116) (by decide), wsub (y := main_v117) (by decide), wsub (y := main_v118) (by decide), wsub (y := main_v119) (by decide), wsub (y := main_v120) (by decide), wsub (y := main_cst_25) (by decide), wsub (y := main_v121) (by decide), wsub (y := main_v122) (by decide), wsub (y := main_v123) (by decide), wsub (y := main_v124) (by decide), wsub (y := main_v125) (by decide), wsub (y := main_v126) (by decide), wsub (y := main_v127) (by decide), wsub (y := main_v128) (by decide), wsub (y := main_cst_26) (by decide), wsub (y := main_v129) (by decide), wsub (y := main_v130) (by decide), wsub (y := main_v131) (by decide), wsub (y := main_v132) (by decide), wsub (y := main_v133) (by decide), wsub (y := main_v134) (by decide), wsub (y := main_v135) (by decide), wsub (y := main_v136) (by decide), wsub (y := main_v137) (by decide), wsub (y := main_v138) (by decide), wsub (y := main_v139) (by decide), wsub (y := main_cst_27) (by decide), wsub (y := main_v140) (by decide), wsub (y := main_v141) (by decide)⟩
theorem k8_keeps : KeepsOff k8_W (k8 : List (HloOp τ sig (Elt F))) := .of_writes k8_writes

/-- Operations 175 … 204 of the prefix, in order (results main_v142 … main_v168). -/
abbrev k9 : List (HloOp τ sig (Elt F)) :=
  ( StableHlo.binary main_v89 main_v95 main_v142 (mulf : (⟨S_, .f32⟩ : BufTy).Contents (Elt F) → (⟨S_, .f32⟩ : BufTy).Contents (Elt F) → (⟨S_, .f32⟩ : BufTy).Contents (Elt F))
  :: StableHlo.binary main_v141 main_v142 main_v143 (subf : (⟨S_, .f32⟩ : BufTy).Contents (Elt F) → (⟨S_, .f32⟩ : BufTy).Contents (Elt F) → (⟨S_, .f32⟩ : BufTy).Contents (Elt F))
  :: StableHlo.binary main_v89 main_v89 main_v144 (mulf : (⟨S_, .f32⟩ : BufTy).Contents (Elt F) → (⟨S_, .f32⟩ : BufTy).Contents (Elt F) → (⟨S_, .f32⟩ : BufTy).Contents (Elt F))
  :: StableHlo.binary main_v93 main_v93 main_v145 (mulf : (⟨S_, .f32⟩ : BufTy).Contents (Elt F) → (⟨S_, .f32⟩ : BufTy).Contents (Elt F) → (⟨S_, .f32⟩ : BufTy).Contents (Elt F))
  :: StableHlo.binary main_v144 main_v145 main_v146 (addf : (⟨S_, .f32⟩ : BufTy).Contents (Elt F) → (⟨S_, .f32⟩ : BufTy).Contents (Elt F) → (⟨S_, .f32⟩ : BufTy).Contents (Elt F))
  :: StableHlo.binary main_v85 main_v146 main_v147 (mulf : (⟨S_, .f32⟩ : BufTy).Contents (Elt F) → (⟨S_, .f32⟩ : BufTy).Contents (Elt F) → (⟨S_, .f32⟩ : BufTy).Contents (Elt F))
  :: StableHlo.binary main_v83 main_v89 main_v148 (mulf : (⟨S_, .f32⟩ : BufTy).Contents (Elt F) → (⟨S_, .f32⟩ : BufTy).Contents (Elt F) → (⟨S_, .f32⟩ : BufTy).Contents (Elt F))
  :: StableHlo.binary main_v87 main_v93 main_v149 (mulf : (⟨S_, .f32⟩ : BufTy).Contents (Elt F) → (⟨S_, .f32⟩ : BufTy).Contents (Elt F) → (⟨S_, .f32⟩ : BufTy).Contents (Elt F))
  :: StableHlo.binary main_v148 main_v149 main_v150 (addf : (⟨S_, .f32⟩ : BufTy).Contents (Elt F) → (⟨S_, .f32⟩ : BufTy).Contents (Elt F) → (⟨S_, .f32⟩ : BufTy).Contents (Elt F))
  :: StableHlo.binary main_v91 main_v150 main_v151 (mulf : (⟨S_, .f32⟩ : BufTy).Contents (Elt F) → (⟨S_, .f32⟩ : BufTy).Contents (Elt F) → (⟨S_, .f32⟩ : BufTy).Contents (Elt F))
  :: StableHlo.binary main_v147 main_v151 main_v152 (subf : (⟨S_, .f32⟩ : BufTy).Contents (Elt F) → (⟨S_, .f32⟩ : BufTy).Contents (Elt F) → (⟨S_, .f32⟩ : BufTy).Contents (Elt F))
  :: StableHlo.nullary main_cst_28 (constant S_ .f32 0x3F800000#32)
  :: StableHlo.binary main_cst_28 main_v94 main_v153 (subf : (⟨S_, .f32⟩ : BufTy).Contents (Elt F) → (⟨S_, .f32⟩ : BufTy).Contents (Elt F) → (⟨S_, .f32⟩ : BufTy).Contents (Elt F))
  :: StableHlo.binary main_v152 main_v153 main_v154 (mulf : (⟨S_, .f32⟩ : BufTy).Contents (Elt F) → (⟨S_, .f32⟩ : BufTy).Contents (Elt F) → (⟨S_, .f32⟩ : BufTy).Contents (Elt F))
  :: StableHlo.binary main_v87 main_v89 main_v155 (mulf : (⟨S_, .f32⟩ : BufTy).Contents (Elt F) → (⟨S_, .f32⟩ : BufTy).Contents (Elt F) → (⟨S_, .f32⟩ : BufTy).Contents (Elt F))
  :: StableHlo.binary main_v83 main_v93 main_v156 (mulf : (⟨S_, .f32⟩ : BufTy).Contents (Elt F) → (⟨S_, .f32⟩ : BufTy).Contents (Elt F) → (⟨S_, .f32⟩ : BufTy).Contents (Elt F))
  :: StableHlo.binary main_v155 main_v156 main_v157 (subf : (⟨S_, .f32⟩ : BufTy).Contents (Elt F) → (⟨S_, .f32⟩ : BufTy).Contents (Elt F) → (⟨S_, .f32⟩ : BufTy).Contents (Elt F))
  :: StableHlo.binary main_v157 main_v95 main_v158 (mulf : (⟨S_, .f32⟩ : BufTy).Contents (Elt F) → (⟨S_, .f32⟩ : BufTy).Contents (Elt F) → (⟨S_, .f32⟩ : BufTy).Contents (Elt F))
  :: StableHlo.binary main_v154 main_v158 main_v159 (addf : (⟨S_, .f32⟩ : BufTy).Contents (Elt F) → (⟨S_, .f32⟩ : BufTy).Contents (Elt F) → (⟨S_, .f32⟩ : BufTy).Contents (Elt F))
  :: StableHlo.binary main_v89 main_v93 main_v160 (mulf : (⟨S_, .f32⟩ : BufTy).Contents (Elt F) → (⟨S_, .f32⟩ : BufTy).Contents (Elt F) → (⟨S_, .f32⟩ : BufTy).Contents (Elt F))
  :: StableHlo.nullary main_cst_29 (constant S_ .f32 0x3F800000#32)
  :: StableHlo.binary main_cst_29 main_v94 main_v161 (subf : (⟨S_, .f32⟩ : BufTy).Contents (Elt F) → (⟨S_, .f32⟩ : BufTy).Contents (Elt F) → (⟨S_, .f32⟩ : BufTy).Contents (Elt F))
  :: StableHlo.binary main_v160 main_v161 main_v162 (mulf : (⟨S_, .f32⟩ : BufTy).Contents (Elt F) → (⟨S_, .f32⟩ : BufTy).Contents (Elt F) → (⟨S_, .f32⟩ : BufTy).Contents (Elt F))
  :: StableHlo.binary main_v91 main_v95 main_v163 (mulf : (⟨S_, .f32⟩ : BufTy).Contents (Elt F) → (⟨S_, .f32⟩ : BufTy).Contents (Elt F) → (⟨S_, .f32⟩ : BufTy).Contents (Elt F))
  :: StableHlo.binary main_v162 main_v163 main_v164 (subf : (⟨S_, .f32⟩ : BufTy).Contents (Elt F) → (⟨S_, .f32⟩ : BufTy).Contents (Elt F) → (⟨S_, .f32⟩ : BufTy).Contents (Elt F))
  :: StableHlo.binary main_v91 main_v93 main_v165 (mulf : (⟨S_, .f32⟩ : BufTy).Contents (Elt F) → (⟨S_, .f32⟩ : BufTy).Contents (Elt F) → (⟨S_, .f32⟩ : BufTy).Contents (Elt F))
  :: StableHlo.nullary main_cst_30 (constant S_ .f32 0x3F800000#32)
  :: StableHlo.binary main_cst_30 main_v94 main_v166 (subf : (⟨S_, .f32⟩ : BufTy).Contents (Elt F) → (⟨S_, .f32⟩ : BufTy).Contents (Elt F) → (⟨S_, .f32⟩ : BufTy).Contents (Elt F))
  :: StableHlo.binary main_v165 main_v166 main_v167 (mulf : (⟨S_, .f32⟩ : BufTy).Contents (Elt F) → (⟨S_, .f32⟩ : BufTy).Contents (Elt F) → (⟨S_, .f32⟩ : BufTy).Contents (Elt F))
  :: StableHlo.binary main_v89 main_v95 main_v168 (mulf : (⟨S_, .f32⟩ : BufTy).Contents (Elt F) → (⟨S_, .f32⟩ : BufTy).Contents (Elt F) → (⟨S_, .f32⟩ : BufTy).Contents (Elt F))
  :: [] )
/-- The references the operations of `k9` write, in order. -/
abbrev k9_W : List (Ref sig .tc) := [main_v142, main_v143, main_v144, main_v145, main_v146, main_v147, main_v148, main_v149, main_v150, main_v151, main_v152, main_cst_28, main_v153, main_v154, main_v155, main_v156, main_v157, main_v158, main_v159, main_v160, main_cst_29, main_v161, main_v162, main_v163, main_v164, main_v165, main_cst_30, main_v166, main_v167, main_v168]
theorem k9_writes : (k9 : List (HloOp τ sig (Elt F))).Forall fun op => op.writes ⊆ ((k9_W).map (Proc.devRef (τ := τ) .tc)).toFinset :=
  ⟨wsub (y := main_v142) (by decide), wsub (y := main_v143) (by decide), wsub (y := main_v144) (by decide), wsub (y := main_v145) (by decide), wsub (y := main_v146) (by decide), wsub (y := main_v147) (by decide), wsub (y := main_v148) (by decide), wsub (y := main_v149) (by decide), wsub (y := main_v150) (by decide), wsub (y := main_v151) (by decide), wsub (y := main_v152) (by decide), wsub (y := main_cst_28) (by decide), wsub (y := main_v153) (by decide), wsub (y := main_v154) (by decide), wsub (y := main_v155) (by decide), wsub (y := main_v156) (by decide), wsub (y := main_v157) (by decide), wsub (y := main_v158) (by decide), wsub (y := main_v159) (by decide), wsub (y := main_v160) (by decide), wsub (y := main_cst_29) (by decide), wsub (y := main_v161) (by decide), wsub (y := main_v162) (by decide), wsub (y := main_v163) (by decide), wsub (y := main_v164) (by decide), wsub (y := main_v165) (by decide), wsub (y := main_cst_30) (by decide), wsub (y := main_v166) (by decide), wsub (y := main_v167) (by decide), wsub (y := main_v168) (by decide)⟩
theorem k9_keeps : KeepsOff k9_W (k9 : List (HloOp τ sig (Elt F))) := .of_writes k9_writes

/-- Operations 205 … 227 of the prefix, in order (results main_v169 … main_v190). -/
abbrev k10 : List (HloOp τ sig (Elt F)) :=
  ( StableHlo.binary main_v167 main_v168 main_v169 (addf : (⟨S_, .f32⟩ : BufTy).Contents (Elt F) → (⟨S_, .f32⟩ : BufTy).Contents (Elt F) → (⟨S_, .f32⟩ : BufTy).Contents (Elt F))
  :: StableHlo.binary main_v93 main_v93 main_v170 (mulf : (⟨S_, .f32⟩ : BufTy).Contents (Elt F) → (⟨S_, .f32⟩ : BufTy).Contents (Elt F) → (⟨S_, .f32⟩ : BufTy).Contents (Elt F))
  :: StableHlo.binary main_v89 main_v89 main_v171 (mulf : (⟨S_, .f32⟩ : BufTy).Contents (Elt F) → (⟨S_, .f32⟩ : BufTy).Contents (Elt F) → (⟨S_, .f32⟩ : BufTy).Contents (Elt F))
  :: StableHlo.binary main_v91 main_v91 main_v172 (mulf : (⟨S_, .f32⟩ : BufTy).Contents (Elt F) → (⟨S_, .f32⟩ : BufTy).Contents (Elt F) → (⟨S_, .f32⟩ : BufTy).Contents (Elt F))
  :: StableHlo.binary main_v171 main_v172 main_v173 (addf : (⟨S_, .f32⟩ : BufTy).Contents (Elt F) → (⟨S_, .f32⟩ : BufTy).Contents (Elt F) → (⟨S_, .f32⟩ : BufTy).Contents (Elt F))
  :: StableHlo.binary main_v173 main_v94 main_v174 (mulf : (⟨S_, .f32⟩ : BufTy).Contents (Elt F) → (⟨S_, .f32⟩ : BufTy).Contents (Elt F) → (⟨S_, .f32⟩ : BufTy).Contents (Elt F))
  :: StableHlo.binary main_v170 main_v174 main_v175 (addf : (⟨S_, .f32⟩ : BufTy).Contents (Elt F) → (⟨S_, .f32⟩ : BufTy).Contents (Elt F) → (⟨S_, .f32⟩ : BufTy).Contents (Elt F))
  :: StableHlo.binary main_v89 main_v89 main_v176 (mulf : (⟨S_, .f32⟩ : BufTy).Contents (Elt F) → (⟨S_, .f32⟩ : BufTy).Contents (Elt F) → (⟨S_, .f32⟩ : BufTy).Contents (Elt F))
  :: StableHlo.binary main_v91 main_v91 main_v177 (mulf : (⟨S_, .f32⟩ : BufTy).Contents (Elt F) → (⟨S_, .f32⟩ : BufTy).Contents (Elt F) → (⟨S_, .f32⟩ : BufTy).Contents (Elt F))
  :: StableHlo.binary main_v176 main_v177 main_v178 (addf : (⟨S_, .f32⟩ : BufTy).Contents (Elt F) → (⟨S_, .f32⟩ : BufTy).Contents (Elt F) → (⟨S_, .f32⟩ : BufTy).Contents (Elt F))
  :: StableHlo.binary main_v87 main_v178 main_v179 (mulf : (⟨S_, .f32⟩ : BufTy).Contents (Elt F) → (⟨S_, .f32⟩ : BufTy).Contents (Elt F) → (⟨S_, .f32⟩ : BufTy).Contents (Elt F))
  :: StableHlo.binary main_v83 main_v89 main_v180 (mulf : (⟨S_, .f32⟩ : BufTy).Contents (Elt F) → (⟨S_, .f32⟩ : BufTy).Contents (Elt F) → (⟨S_, .f32⟩ : BufTy).Contents (Elt F))
  :: StableHlo.binary main_v85 main_v91 main_v181 (mulf : (⟨S_, .f32⟩ : BufTy).Contents (Elt F) → (⟨S_, .f32⟩ : BufTy).Contents (Elt F) → (⟨S_, .f32⟩ : BufTy).Contents (Elt F))
  :: StableHlo.binary main_v180 main_v181 main_v182 (addf : (⟨S_, .f32⟩ : BufTy).Contents (Elt F) → (⟨S_, .f32⟩ : BufTy).Contents (Elt F) → (⟨S_, .f32⟩ : BufTy).Contents (Elt F))
  :: StableHlo.binary main_v93 main_v182 main_v183 (mulf : (⟨S_, .f32⟩ : BufTy).Contents (Elt F) → (⟨S_, .f32⟩ : BufTy).Contents (Elt F) → (⟨S_, .f32⟩ : BufTy).Contents (Elt F))
  :: StableHlo.binary main_v179 main_v183 main_v184 (subf : (⟨S_, .f32⟩ : BufTy).Contents (Elt F) → (⟨S_, .f32⟩ : BufTy).Contents (Elt F) → (⟨S_, .f32⟩ : BufTy).Contents (Elt F))
  :: StableHlo.nullary main_cst_31 (constant S_ .f32 0x3F800000#32)
  :: StableHlo.binary main_cst_31 main_v94 main_v185 (subf : (⟨S_, .f32⟩ : BufTy).Contents (Elt F) → (⟨S_, .f32⟩ : BufTy).Contents (Elt F) → (⟨S_, .f32⟩ : BufTy).Contents (Elt F))
  :: StableHlo.binary main_v184 main_v185 main_v186 (mulf : (⟨S_, .f32⟩ : BufTy).Contents (Elt F) → (⟨S_, .f32⟩ : BufTy).Contents (Elt F) → (⟨S_, .f32⟩ : BufTy).Contents (Elt F))
  :: StableHlo.binary main_v83 main_v91 main_v187 (mulf : (⟨S_, .f32⟩ : BufTy).Contents (Elt F) → (⟨S_, .f32⟩ : BufTy).Contents (Elt F) → (⟨S_, .f32⟩ : BufTy).Contents (Elt F))
  :: StableHlo.binary main_v85 main_v89 main_v188 (mulf : (⟨S_, .f32⟩ : BufTy).Contents (Elt F) → (⟨S_, .f32⟩ : BufTy).Contents (Elt F) → (⟨S_, .f32⟩ : BufTy).Contents (Elt F))
  :: StableHlo.binary main_v187 main_v188 main_v189 (subf : (⟨S_, .f32⟩ : BufTy).Contents (Elt F) → (⟨S_, .f32⟩ : BufTy).Contents (Elt F) → (⟨S_, .f32⟩ : BufTy).Contents (Elt F))
  :: StableHlo.binary main_v189 main_v95 main_v190 (mulf : (⟨S_, .f32⟩ : BufTy).Contents (Elt F) → (⟨S_, .f32⟩ : BufTy).Contents (Elt F) → (⟨S_, .f32⟩ : BufTy).Contents (Elt F))
  :: [] )
/-- The references the operations of `k10` write, in order. -/
abbrev k10_W : List (Ref sig .tc) := [main_v169, main_v170, main_v171, main_v172, main_v173, main_v174, main_v175, main_v176, main_v177, main_v178, main_v179, main_v180, main_v181, main_v182, main_v183, main_v184, main_cst_31, main_v185, main_v186, main_v187, main_v188, main_v189, main_v190]
theorem k10_writes : (k10 : List (HloOp τ sig (Elt F))).Forall fun op => op.writes ⊆ ((k10_W).map (Proc.devRef (τ := τ) .tc)).toFinset :=
  ⟨wsub (y := main_v169) (by decide), wsub (y := main_v170) (by decide), wsub (y := main_v171) (by decide), wsub (y := main_v172) (by decide), wsub (y := main_v173) (by decide), wsub (y := main_v174) (by decide), wsub (y := main_v175) (by decide), wsub (y := main_v176) (by decide), wsub (y := main_v177) (by decide), wsub (y := main_v178) (by decide), wsub (y := main_v179) (by decide), wsub (y := main_v180) (by decide), wsub (y := main_v181) (by decide), wsub (y := main_v182) (by decide), wsub (y := main_v183) (by decide), wsub (y := main_v184) (by decide), wsub (y := main_cst_31) (by decide), wsub (y := main_v185) (by decide), wsub (y := main_v186) (by decide), wsub (y := main_v187) (by decide), wsub (y := main_v188) (by decide), wsub (y := main_v189) (by decide), wsub (y := main_v190) (by decide)⟩
theorem k10_keeps : KeepsOff k10_W (k10 : List (HloOp τ sig (Elt F))) := .of_writes k10_writes

/-- Operations 228 … 248 of the prefix, in order (results main_v191 … main_v211). -/
abbrev k11 : List (HloOp τ sig (Elt F)) :=
  ( StableHlo.binary main_v186 main_v190 main_v191 (addf : (⟨S_, .f32⟩ : BufTy).Contents (Elt F) → (⟨S_, .f32⟩ : BufTy).Contents (Elt F) → (⟨S_, .f32⟩ : BufTy).Contents (Elt F))
  :: StableHlo.unary main_v101 main_v192 (broadcastInDim S1 ![] bcast_S_S1 : (⟨S_, .f32⟩ : BufTy).Contents (Elt F) → (⟨S1, .f32⟩ : BufTy).Contents (Elt F))
  :: StableHlo.unary main_v106 main_v193 (broadcastInDim S1 ![] bcast_S_S1 : (⟨S_, .f32⟩ : BufTy).Contents (Elt F) → (⟨S1, .f32⟩ : BufTy).Contents (Elt F))
  :: StableHlo.unary main_v111 main_v194 (broadcastInDim S1 ![] bcast_S_S1 : (⟨S_, .f32⟩ : BufTy).Contents (Elt F) → (⟨S1, .f32⟩ : BufTy).Contents (Elt F))
  :: StableHlo.unary main_v127 main_v195 (broadcastInDim S1 ![] bcast_S_S1 : (⟨S_, .f32⟩ : BufTy).Contents (Elt F) → (⟨S1, .f32⟩ : BufTy).Contents (Elt F))
  :: StableHlo.unary main_v132 main_v196 (broadcastInDim S1 ![] bcast_S_S1 : (⟨S_, .f32⟩ : BufTy).Contents (Elt F) → (⟨S1, .f32⟩ : BufTy).Contents (Elt F))
  :: StableHlo.unary main_v138 main_v197 (broadcastInDim S1 ![] bcast_S_S1 : (⟨S_, .f32⟩ : BufTy).Contents (Elt F) → (⟨S1, .f32⟩ : BufTy).Contents (Elt F))
  :: StableHlo.unary main_v143 main_v198 (broadcastInDim S1 ![] bcast_S_S1 : (⟨S_, .f32⟩ : BufTy).Contents (Elt F) → (⟨S1, .f32⟩ : BufTy).Contents (Elt F))
  :: StableHlo.unary main_v159 main_v199 (broadcastInDim S1 ![] bcast_S_S1 : (⟨S_, .f32⟩ : BufTy).Contents (Elt F) → (⟨S1, .f32⟩ : BufTy).Contents (Elt F))
  :: StableHlo.unary main_v164 main_v200 (broadcastInDim S1 ![] bcast_S_S1 : (⟨S_, .f32⟩ : BufTy).Contents (Elt F) → (⟨S1, .f32⟩ : BufTy).Contents (Elt F))
  :: StableHlo.unary main_v169 main_v201 (broadcastInDim S1 ![] bcast_S_S1 : (⟨S_, .f32⟩ : BufTy).Contents (Elt F) → (⟨S1, .f32⟩ : BufTy).Contents (Elt F))
  :: StableHlo.unary main_v175 main_v202 (broadcastInDim S1 ![] bcast_S_S1 : (⟨S_, .f32⟩ : BufTy).Contents (Elt F) → (⟨S1, .f32⟩ : BufTy).Contents (Elt F))
  :: StableHlo.unary main_v191 main_v203 (broadcastInDim S1 ![] bcast_S_S1 : (⟨S_, .f32⟩ : BufTy).Contents (Elt F) → (⟨S1, .f32⟩ : BufTy).Contents (Elt F))
  :: StableHlo.nary ![main_v192, main_v193, main_v194, main_v195, main_v196, main_v197, main_v198, main_v199, main_v200, main_v201, main_v202, main_v203] main_v204 (fun u => concatenate S12 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩, ⟨S1, u 9⟩, ⟨S1, u 10⟩, ⟨S1, u 11⟩] concatenates_S1_S1_S1_S1_S1_S1_S1_S1_S1_S1_S1_S1_S12_d0)
  :: StableHlo.reshape main_v204 main_v205 rfl shapeCasts_S12_S3x4
  :: StableHlo.binary main_v205 main_cst_0 main_v206 ((fun a b => concatenate S4x4 0 [⟨S3x4, a⟩, ⟨S1x4, b⟩] concatenates_S3x4_S1x4_S4x4_d0) : (⟨S3x4, .f32⟩ : BufTy).Contents (Elt F) → (⟨S1x4, .f32⟩ : BufTy).Contents (Elt F) → (⟨S4x4, .f32⟩ : BufTy).Contents (Elt F))
  :: StableHlo.binary main_v206 main_v74 main_v207 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F))
  :: StableHlo.unary main_v2 main_v208 ((extractStridedSlice S1x8192x4 ![1, 0, 0] · slices_S2x8192x4_S1x8192x4_1_0_0) : (⟨S2x8192x4, .f32⟩ : BufTy).Contents (Elt F) → (⟨S1x8192x4, .f32⟩ : BufTy).Contents (Elt F))
  :: StableHlo.reshape main_v208 main_v209 rfl shapeCasts_S1x8192x4_S8192x4
  :: StableHlo.unary main_v207 main_v210 ((transpose S4x4 [1, 0] · transposes_S4x4_S4x4_1_0) : (⟨S4x4, .f32⟩ : BufTy).Contents (Elt F) → (⟨S4x4, .f32⟩ : BufTy).Contents (Elt F))
  :: StableHlo.binary main_v209 main_v210 main_v211 ((fun l r => Host.dotGeneral dot_S8192x4_S4x4_S8192x4_1_0_0_1_n_n none l r) : (⟨S8192x4, .f32⟩ : BufTy).Contents (Elt F) → (⟨S4x4, .f32⟩ : BufTy).Contents (Elt F) → (⟨S8192x4, .f32⟩ : BufTy).Contents (Elt F))
  :: [] )
/-- The references the operations of `k11` write, in order. -/
abbrev k11_W : List (Ref sig .tc) := [main_v191, main_v192, main_v193, main_v194, main_v195, main_v196, main_v197, main_v198, main_v199, main_v200, main_v201, main_v202, main_v203, main_v204, main_v205, main_v206, main_v207, main_v208, main_v209, main_v210, main_v211]
theorem k11_writes : (k11 : List (HloOp τ sig (Elt F))).Forall fun op => op.writes ⊆ ((k11_W).map (Proc.devRef (τ := τ) .tc)).toFinset :=
  ⟨wsub (y := main_v191) (by decide), wsub (y := main_v192) (by decide), wsub (y := main_v193) (by decide), wsub (y := main_v194) (by decide), wsub (y := main_v195) (by decide), wsub (y := main_v196) (by decide), wsub (y := main_v197) (by decide), wsub (y := main_v198) (by decide), wsub (y := main_v199) (by decide), wsub (y := main_v200) (by decide), wsub (y := main_v201) (by decide), wsub (y := main_v202) (by decide), wsub (y := main_v203) (by decide), wsub (y := main_v204) (by decide), wsub (y := main_v205) (by decide), wsub (y := main_v206) (by decide), wsub (y := main_v207) (by decide), wsub (y := main_v208) (by decide), wsub (y := main_v209) (by decide), wsub (y := main_v210) (by decide), wsub (y := main_v211) (by decide)⟩
theorem k11_keeps : KeepsOff k11_W (k11 : List (HloOp τ sig (Elt F))) := .of_writes k11_writes

/-- Operations 249 … 252 of the prefix, in order (results main_v212 … main_v215). -/
abbrev k12 : List (HloOp τ sig (Elt F)) :=
  ( StableHlo.unary main_v78 main_v212 (broadcastInDim S1x8192x4 ![1, 2] bcast_S8192x4_S1x8192x4_1_2 : (⟨S8192x4, .f32⟩ : BufTy).Contents (Elt F) → (⟨S1x8192x4, .f32⟩ : BufTy).Contents (Elt F))
  :: StableHlo.unary main_v211 main_v213 (broadcastInDim S1x8192x4 ![1, 2] bcast_S8192x4_S1x8192x4_1_2 : (⟨S8192x4, .f32⟩ : BufTy).Contents (Elt F) → (⟨S1x8192x4, .f32⟩ : BufTy).Contents (Elt F))
  :: StableHlo.binary main_v212 main_v213 main_v214 ((fun a b => concatenate S2x8192x4 0 [⟨S1x8192x4, a⟩, ⟨S1x8192x4, b⟩] concatenates_S1x8192x4_S1x8192x4_S2x8192x4_d0) : (⟨S1x8192x4, .f32⟩ : BufTy).Contents (Elt F) → (⟨S1x8192x4, .f32⟩ : BufTy).Contents (Elt F) → (⟨S2x8192x4, .f32⟩ : BufTy).Contents (Elt F))
  :: StableHlo.unary main_v1 main_v215 ((transpose S2x4x8192 [0, 2, 1] · transposes_S2x8192x4_S2x4x8192_0_2_1) : (⟨S2x8192x4, .f32⟩ : BufTy).Contents (Elt F) → (⟨S2x4x8192, .f32⟩ : BufTy).Contents (Elt F))
  :: [] )
/-- The references the operations of `k12` write, in order. -/
abbrev k12_W : List (Ref sig .tc) := [main_v212, main_v213, main_v214, main_v215]
theorem k12_writes : (k12 : List (HloOp τ sig (Elt F))).Forall fun op => op.writes ⊆ ((k12_W).map (Proc.devRef (τ := τ) .tc)).toFinset :=
  ⟨wsub (y := main_v212) (by decide), wsub (y := main_v213) (by decide), wsub (y := main_v214) (by decide), wsub (y := main_v215) (by decide)⟩
theorem k12_keeps : KeepsOff k12_W (k12 : List (HloOp τ sig (Elt F))) := .of_writes k12_writes

/-- The third generated list is its pieces in order. -/
theorem hostOps0_2_eq : (hostOps0_2 : List (HloOp τ sig (Elt F))) = k2 ++ k3 ++ k4 ++ k5 ++ k6 ++ k7 ++ k8 ++ k9 ++ k10 ++ k11 ++ k12 := by
  chain_rfl

/-- The prefix's fold, piece by piece. -/
theorem prefix_eq (V : Valuation τ sig (Elt F)) :
    StableHlo.after (List.flatten [(hostOps0 : List (HloOp τ sig (Elt F))), hostOps0_1, hostOps0_2]) V
      = (StableHlo.after k12 (StableHlo.after k11 (StableHlo.after k10 (StableHlo.after k9 (StableHlo.after k8 (StableHlo.after k7 (StableHlo.after k6 (StableHlo.after k5 (StableHlo.after k4 (StableHlo.after k3 (StableHlo.after k2 (StableHlo.after hostOps0_1 (StableHlo.after hostOps0 V))))))))))))) := by
  simp only [List.flatten_cons, List.flatten_nil, List.append_nil, hostOps0_2_eq, after_append]

end Cert.KRIdent.KP

end
-- ==== Proof.KLast.lean ====
/-
  The last four host operations before the region: the two transformed clouds are each given a leading
  unit axis and stacked, and the homogeneous camera cloud is transposed. What the region's two operands
  hold, in terms of the buffers the earlier operations left.
-/
import proofs.«128588_j377957122581_2_alg».proof.Proof.KROps

set_option maxRecDepth 8192

noncomputable section

namespace Cert.KRIdent.KP

open Idealize.ShloMosaic Idealize.ShloMosaic.TcCoe Idealize.SL.Sem Idealize.ShloMosaic.StableHlo
open Cert.KernelIdeal Cert.KernelIdeal.Gen Cert.KRIdent

variable {F : FTy → Type} [FloatOps F]

/-- The stacked clouds after the last four operations, from the two clouds before them. -/
theorem last_v214 (U : Valuation τ sig (Elt F)) :
    (StableHlo.after (k12 (F := F)) U (Proc.devRef .tc main_v214) : (⟨S2x8192x4, .f32⟩ : BufTy).Contents (Elt F))
      = concatenate S2x8192x4 0
          [⟨S1x8192x4, broadcastInDim S1x8192x4 ![1, 2] Facts₀.bcast_S8192x4_S1x8192x4_1_2 (U (Proc.devRef .tc main_v78))⟩,
           ⟨S1x8192x4, broadcastInDim S1x8192x4 ![1, 2] Facts₀.bcast_S8192x4_S1x8192x4_1_2 (U (Proc.devRef .tc main_v211))⟩]
          Facts₀.concatenates_S1x8192x4_S1x8192x4_S2x8192x4_d0 := by
  after_results

/-- The transposed camera cloud after them, from the homogeneous camera cloud. -/
theorem last_v215 (U : Valuation τ sig (Elt F)) :
    (StableHlo.after (k12 (F := F)) U (Proc.devRef .tc main_v215) : (⟨S2x4x8192, .f32⟩ : BufTy).Contents (Elt F))
      = transpose S2x4x8192 [0, 2, 1] (U (Proc.devRef .tc main_v1)) Facts₀.transposes_S2x8192x4_S2x4x8192_0_2_1 := by
  after_results

end Cert.KRIdent.KP

end
-- ==== Proof.LibStackLayout.lean ====
/-
  Layout steps read at an index, for any element type: the operations that tie two stacked clouds `[2, b, c]` to their
  members `[b, c]`. A matrix kept as a one-member stack; two one-member stacks joined along the leading axis; the two
  trailing axes of a stack exchanged; one member cut out of a stack and its unit axis dropped; a column appended to
  every row of a stack.
-/
import Idealize.ShloMosaic.Lib.ValueIdx
import Idealize.ShloMosaic.Lib.Pipeline.Value
import Idealize.ShloMosaic.PureOps

namespace Cert.Layout

open Idealize.ShloMosaic Idealize.ShloMosaic.ValueIdx

variable {α : Type} {b c : ℕ}

/-! ## A matrix kept as a one-member stack -/

/-- (L1) An `[b, c]` matrix broadcast to `[1, b, c]` reads, at `(z, n, k)`, entry `(n, k)`. -/
theorem bcast_bc_1bc_apply (x : (⟨2, ![b, c]⟩ : Shape).Idx → α)
    (h : (⟨2, ![b, c]⟩ : Shape).BroadcastsInDim ⟨3, ![1, b, c]⟩ (![1, 2] : Fin 2 → Fin 3)) (z : Fin 1) (n : Fin b) (k : Fin c) :
    broadcastInDim ⟨3, ![1, b, c]⟩ (![1, 2] : Fin 2 → Fin 3) h x (ix3 z n k) = x (ix2 n k) := by
  refine broadcastInDim_apply _ h x (ix3 z n k) (ix2 n k) fun ax => ?_
  match ax with
  | ⟨0, _⟩ =>
    show n.val = if b = 1 then 0 else n.val
    split
    · have := n.isLt; omega
    · rfl
  | ⟨1, _⟩ =>
    show k.val = if c = 1 then 0 else k.val
    split
    · have := k.isLt; omega
    · rfl

/-! ## Two one-member stacks joined along the leading axis -/

/-- (L2) Two `[1, b, c]` arrays joined along axis 0 read, at `(p, n, k)`, the first at `(0, n, k)` when `p` is 0 and
    the second there otherwise. -/
theorem concat0_apply (u v : (⟨3, ![1, b, c]⟩ : Shape).Idx → α)
    (h : Shape.Concatenates [(⟨3, ![1, b, c]⟩ : Shape), ⟨3, ![1, b, c]⟩] ⟨3, ![2, b, c]⟩ 0) (p : Fin 2) (n : Fin b) (k : Fin c) :
    concatenate ⟨3, ![2, b, c]⟩ 0 [⟨⟨3, ![1, b, c]⟩, u⟩, ⟨⟨3, ![1, b, c]⟩, v⟩] h (ix3 p n k)
      = if p.val = 0 then u (ix3 (0 : Fin 1) n k) else v (ix3 (0 : Fin 1) n k) := by
  split
  · next hp =>
    refine concatenate_pair_apply_left 0 u v h (ix3 p n k) rfl (ix3 (0 : Fin 1) n k) fun ax => ?_
    match ax with
    | ⟨0, _⟩ => exact hp.symm
    | ⟨1, _⟩ => rfl
    | ⟨2, _⟩ => rfl
  · next hp =>
    refine concatenate_pair_apply_right 0 u v h (ix3 p n k) rfl rfl (ix3 (0 : Fin 1) n k) (fun ax hax => ?_) ?_
    · match ax with
      | ⟨0, _⟩ => exact absurd rfl hax
      | ⟨1, _⟩ => rfl
      | ⟨2, _⟩ => rfl
    · show (0 : ℕ) + 1 = p.val
      have := p.isLt; omega

/-- (L12) Two `[b, c]` matrices, each kept as a one-member stack, joined along axis 0: at `(p, n, k)`, the first matrix
    at `(n, k)` when `p` is 0 and the second there otherwise. -/
theorem stack2_apply (x y : (⟨2, ![b, c]⟩ : Shape).Idx → α)
    (h1 : (⟨2, ![b, c]⟩ : Shape).BroadcastsInDim ⟨3, ![1, b, c]⟩ (![1, 2] : Fin 2 → Fin 3))
    (h : Shape.Concatenates [(⟨3, ![1, b, c]⟩ : Shape), ⟨3, ![1, b, c]⟩] ⟨3, ![2, b, c]⟩ 0) (p : Fin 2) (n : Fin b) (k : Fin c) :
    concatenate ⟨3, ![2, b, c]⟩ 0
        [⟨⟨3, ![1, b, c]⟩, broadcastInDim ⟨3, ![1, b, c]⟩ (![1, 2] : Fin 2 → Fin 3) h1 x⟩,
         ⟨⟨3, ![1, b, c]⟩, broadcastInDim ⟨3, ![1, b, c]⟩ (![1, 2] : Fin 2 → Fin 3) h1 y⟩] h (ix3 p n k)
      = if p.val = 0 then x (ix2 n k) else y (ix2 n k) := by
  rw [concat0_apply, bcast_bc_1bc_apply, bcast_bc_1bc_apply]

/-! ## The two trailing axes of a stack exchanged -/

/-- (L3) An `[2, b, c]` array transposed by `[0, 2, 1]` reads, at `(p, k, n)`, the array at `(p, n, k)`. -/
theorem transpose021_apply (x : (⟨3, ![2, b, c]⟩ : Shape).Idx → α)
    (h : (⟨3, ![2, b, c]⟩ : Shape).Transposes [0, 2, 1] ⟨3, ![2, c, b]⟩) (p : Fin 2) (k : Fin c) (n : Fin b) :
    transpose ⟨3, ![2, c, b]⟩ [0, 2, 1] x h (ix3 p k n) = x (ix3 p n k) := by
  refine transpose_apply [0, 2, 1] x h (ix3 p k n) (ix3 p n k) fun ax => ?_
  match ax with
  | ⟨0, _⟩ => rfl
  | ⟨1, _⟩ => rfl
  | ⟨2, _⟩ => rfl

/-! ## One member cut out of a stack, and its unit axis dropped -/

/-- A unit-stride slice `[1, b, c]` of an `[2, b, c]` array whose offsets are `(p, 0, 0)` reads, at `(z, n, k)`, the array
    at `(p, n, k)`. -/
theorem slice_apply (off : Fin 3 → ℕ) (x : (⟨3, ![2, b, c]⟩ : Shape).Idx → α)
    (h : (⟨3, ![2, b, c]⟩ : Shape).Slices off ⟨3, ![1, b, c]⟩) (p : Fin 2) (h0 : off 0 = p.val) (h1 : off 1 = 0) (h2 : off 2 = 0)
    (z : Fin 1) (n : Fin b) (k : Fin c) :
    extractStridedSlice ⟨3, ![1, b, c]⟩ off x h (ix3 z n k) = x (ix3 p n k) := by
  refine extractStridedSlice_apply off x h (ix3 z n k) (ix3 p n k) fun ax => ?_
  match ax with
  | ⟨0, _⟩ =>
    show p.val = off 0 + z.val
    have := z.isLt; omega
  | ⟨1, _⟩ =>
    show n.val = off 1 + n.val
    omega
  | ⟨2, _⟩ =>
    show k.val = off 2 + k.val
    omega

/-- (L4, first member) The slice at the offsets `(0, 0, 0)`: at `(z, n, k)`, the array at `(0, n, k)`. -/
theorem slice0_apply (x : (⟨3, ![2, b, c]⟩ : Shape).Idx → α)
    (h : (⟨3, ![2, b, c]⟩ : Shape).Slices ![0, 0, 0] ⟨3, ![1, b, c]⟩) (z : Fin 1) (n : Fin b) (k : Fin c) :
    extractStridedSlice ⟨3, ![1, b, c]⟩ ![0, 0, 0] x h (ix3 z n k) = x (ix3 (0 : Fin 2) n k) :=
  slice_apply ![0, 0, 0] x h 0 rfl rfl rfl z n k

/-- (L4, second member) The slice at the offsets `(1, 0, 0)`: at `(z, n, k)`, the array at `(1, n, k)`. -/
theorem slice1_apply (x : (⟨3, ![2, b, c]⟩ : Shape).Idx → α)
    (h : (⟨3, ![2, b, c]⟩ : Shape).Slices ![1, 0, 0] ⟨3, ![1, b, c]⟩) (z : Fin 1) (n : Fin b) (k : Fin c) :
    extractStridedSlice ⟨3, ![1, b, c]⟩ ![1, 0, 0] x h (ix3 z n k) = x (ix3 (1 : Fin 2) n k) :=
  slice_apply ![1, 0, 0] x h 1 rfl rfl rfl z n k

/-- (L5) A `[1, b, c]` array reshaped to `[b, c]` reads, at `(n, k)`, the array at `(0, n, k)`. -/
theorem dropUnit_apply (y : (⟨3, ![1, b, c]⟩ : Shape).Idx → α)
    (h : (⟨3, ![1, b, c]⟩ : Shape).ShapeCasts ⟨2, ![b, c]⟩) (n : Fin b) (k : Fin c) :
    shapeCast ⟨2, ![b, c]⟩ y h (ix2 n k) = y (ix3 (0 : Fin 1) n k) :=
  shapeCast_apply y h _ _ (by
    rw [Shape.rowMajor_val_three, Shape.rowMajor_val_two]
    show (0 * b + n.val) * c + k.val = n.val * c + k.val
    rw [Nat.zero_mul, Nat.zero_add])

/-- (L45) A member cut out of a stack at the offsets `(p, 0, 0)` and reshaped to a matrix reads, at `(n, k)`, the stack at
    `(p, n, k)`. -/
theorem member_apply (off : Fin 3 → ℕ) (x : (⟨3, ![2, b, c]⟩ : Shape).Idx → α)
    (hs : (⟨3, ![2, b, c]⟩ : Shape).Slices off ⟨3, ![1, b, c]⟩) (hc : (⟨3, ![1, b, c]⟩ : Shape).ShapeCasts ⟨2, ![b, c]⟩)
    (p : Fin 2) (h0 : off 0 = p.val) (h1 : off 1 = 0) (h2 : off 2 = 0) (n : Fin b) (k : Fin c) :
    shapeCast ⟨2, ![b, c]⟩ (extractStridedSlice ⟨3, ![1, b, c]⟩ off x hs) hc (ix2 n k) = x (ix3 p n k) :=
  (dropUnit_apply _ hc n k).trans (slice_apply off x hs p h0 h1 h2 0 n k)

/-- (L45, first member) -/
theorem member0_apply (x : (⟨3, ![2, b, c]⟩ : Shape).Idx → α)
    (hs : (⟨3, ![2, b, c]⟩ : Shape).Slices ![0, 0, 0] ⟨3, ![1, b, c]⟩) (hc : (⟨3, ![1, b, c]⟩ : Shape).ShapeCasts ⟨2, ![b, c]⟩)
    (n : Fin b) (k : Fin c) :
    shapeCast ⟨2, ![b, c]⟩ (extractStridedSlice ⟨3, ![1, b, c]⟩ ![0, 0, 0] x hs) hc (ix2 n k) = x (ix3 (0 : Fin 2) n k) :=
  member_apply ![0, 0, 0] x hs hc 0 rfl rfl rfl n k

/-- (L45, second member) -/
theorem member1_apply (x : (⟨3, ![2, b, c]⟩ : Shape).Idx → α)
    (hs : (⟨3, ![2, b, c]⟩ : Shape).Slices ![1, 0, 0] ⟨3, ![1, b, c]⟩) (hc : (⟨3, ![1, b, c]⟩ : Shape).ShapeCasts ⟨2, ![b, c]⟩)
    (n : Fin b) (k : Fin c) :
    shapeCast ⟨2, ![b, c]⟩ (extractStridedSlice ⟨3, ![1, b, c]⟩ ![1, 0, 0] x hs) hc (ix2 n k) = x (ix3 (1 : Fin 2) n k) :=
  member_apply ![1, 0, 0] x hs hc 1 rfl rfl rfl n k

/-! ## A column appended to every row of a stack -/

/-- (L6) An `[2, b, 3]` array and an `[2, b, 1]` array joined along axis 2 read, at `(p, n, k)`, the first at `(p, n, k)`
    for `k` below 3 and the second at `(p, n, 0)` for `k` = 3. -/
theorem appendCol_apply (a : (⟨3, ![2, b, 3]⟩ : Shape).Idx → α) (o : (⟨3, ![2, b, 1]⟩ : Shape).Idx → α)
    (h : Shape.Concatenates [(⟨3, ![2, b, 3]⟩ : Shape), ⟨3, ![2, b, 1]⟩] ⟨3, ![2, b, 4]⟩ 2) (p : Fin 2) (n : Fin b) (k : Fin 4) :
    concatenate ⟨3, ![2, b, 4]⟩ 2 [⟨⟨3, ![2, b, 3]⟩, a⟩, ⟨⟨3, ![2, b, 1]⟩, o⟩] h (ix3 p n k)
      = if hk : k.val < 3 then a (ix3 p n (⟨k.val, hk⟩ : Fin 3)) else o (ix3 p n (0 : Fin 1)) := by
  split
  · next hk =>
    refine concatenate_pair_apply_left 2 a o h (ix3 p n k) rfl (ix3 p n (⟨k.val, hk⟩ : Fin 3)) fun ax => ?_
    match ax with
    | ⟨0, _⟩ => rfl
    | ⟨1, _⟩ => rfl
    | ⟨2, _⟩ => rfl
  · next hk =>
    refine concatenate_pair_apply_right 2 a o h (ix3 p n k) rfl rfl (ix3 p n (0 : Fin 1)) (fun ax hax => ?_) ?_
    · match ax with
      | ⟨0, _⟩ => rfl
      | ⟨1, _⟩ => rfl
      | ⟨2, _⟩ => exact absurd rfl hax
    · show (0 : ℕ) + 3 = k.val
      have := k.isLt; omega

end Cert.Layout
-- ==== Proof.KPrefix.lean ====
/-
  The region's two operands read at an index, in terms of the buffers before the last four host
  operations: part p of the stacked clouds is the first transformed cloud for p = 0 and the second for
  p = 1; the transposed camera cloud at (p, k, n) is the homogeneous camera cloud at (p, n, k).
-/
import proofs.«128588_j377957122581_2_alg».proof.Proof.KLast
import proofs.«128588_j377957122581_2_alg».proof.Proof.LibStackLayout

set_option maxRecDepth 8192

noncomputable section

namespace Cert.KRIdent.KP

open Idealize.ShloMosaic Idealize.ShloMosaic.TcCoe Idealize.SL.Sem Idealize.ShloMosaic.StableHlo Idealize.ShloMosaic.ValueIdx
open Cert.KernelIdeal Cert.KernelIdeal.Gen Cert.KRIdent

variable {F : FTy → Type} [FloatOps F]

/-- The buffers before the last four operations. -/
def UK (V : Valuation τ sig (Elt F)) : Valuation τ sig (Elt F) :=
  StableHlo.after k11 (StableHlo.after k10 (StableHlo.after k9 (StableHlo.after k8 (StableHlo.after k7 (StableHlo.after k6
    (StableHlo.after k5 (StableHlo.after k4 (StableHlo.after k3 (StableHlo.after k2 (StableHlo.after hostOps0_1 (StableHlo.after hostOps0 V)))))))))))

/-- The whole prefix is the last four operations after the rest. -/
theorem pre_split (V : Valuation τ sig (Elt F)) :
    StableHlo.after (List.flatten [(hostOps0 : List (HloOp τ sig (Elt F))), hostOps0_1, hostOps0_2]) V = StableHlo.after k12 (UK V) :=
  prefix_eq V

/-- A buffer the last four operations do not write is as before them. -/
theorem pre_keep (V : Valuation τ sig (Elt F)) (r : Ref sig .tc) (hr : r ∉ k12_W) :
    StableHlo.after (List.flatten [(hostOps0 : List (HloOp τ sig (Elt F))), hostOps0_1, hostOps0_2]) V (Proc.devRef .tc r) = UK V (Proc.devRef .tc r) := by
  rw [pre_split]; exact k12_keeps r hr (UK V)

/-- Part `p`, point `n`, coordinate `k` of the stacked clouds. -/
theorem pre_v214_apply (V : Valuation τ sig (Elt F)) (p : Fin 2) (n : Fin 8192) (k : Fin 4) :
    (StableHlo.after (List.flatten [(hostOps0 : List (HloOp τ sig (Elt F))), hostOps0_1, hostOps0_2]) V (Proc.devRef .tc main_v214)
        : (⟨S2x8192x4, .f32⟩ : BufTy).Contents (Elt F)) (ix3 p n k)
      = if p.val = 0 then (UK V (Proc.devRef .tc main_v78) : (⟨S8192x4, .f32⟩ : BufTy).Contents (Elt F)) (ix2 n k)
        else (UK V (Proc.devRef .tc main_v211) : (⟨S8192x4, .f32⟩ : BufTy).Contents (Elt F)) (ix2 n k) := by
  rw [pre_split, last_v214]
  exact Cert.Layout.stack2_apply _ _ _ _ p n k

/-- Part `p`, coordinate `k`, point `n` of the transposed camera cloud. -/
theorem pre_v215_apply (V : Valuation τ sig (Elt F)) (p : Fin 2) (k : Fin 4) (n : Fin 8192) :
    (StableHlo.after (List.flatten [(hostOps0 : List (HloOp τ sig (Elt F))), hostOps0_1, hostOps0_2]) V (Proc.devRef .tc main_v215)
        : (⟨S2x4x8192, .f32⟩ : BufTy).Contents (Elt F)) (ix3 p k n)
      = (UK V (Proc.devRef .tc main_v1) : (⟨S2x8192x4, .f32⟩ : BufTy).Contents (Elt F)) (ix3 p n k) := by
  rw [pre_split, last_v215]
  exact Cert.Layout.transpose021_apply _ _ p k n

end Cert.KRIdent.KP

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibMatLayout.lean ====
/-
  Two matrix layout facts, for any element type and any extents: the offsets of a rectangle that starts at a matrix's
  origin are the zero function (zero_off2), and the transpose of an [a, b] matrix read at (k, q) is the matrix at
  (q, k) (transpose_ab_ba_apply).
-/
import Idealize.ShloMosaic.Lib.Pipeline.Value
import Idealize.ShloMosaic.Lib.ValueIdx

namespace Cert.LibMatLayout

open Idealize.ShloMosaic Idealize.ShloMosaic.ValueIdx

/-- The offsets of a rectangle that starts at the origin of a matrix. -/
theorem zero_off2 : (![0, 0] : Fin 2 → Nat) = fun _ => 0 := funext fun a => by fin_cases a <;> rfl

/-- The transpose of a matrix `[a, b]` reads, at `(k, q)`, the matrix at `(q, k)`. -/
theorem transpose_ab_ba_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) := by
  refine transpose_apply [1, 0] x h (ix2 k q) (ix2 q k) fun ax => ?_
  match ax with
  | ⟨0, _⟩ => rfl
  | ⟨1, _⟩ => rfl

end Cert.LibMatLayout
-- ==== Proof.RefChamfer.lean ====
import proofs.«128588_j377957122581_2_alg».proof.ReferenceIdeal
import proofs.«128588_j377957122581_2_alg».proof.Proof.Gen.ReferenceIdeal
import proofs.«128588_j377957122581_2_alg».proof.Proof.ChamferSpec
import proofs.«128588_j377957122581_2_alg».proof.Proof.LibHostRead
import proofs.«128588_j377957122581_2_alg».proof.Proof.LibDot
import proofs.«128588_j377957122581_2_alg».proof.Proof.LibMatLayout
import Idealize.ShloMosaic.Lib.ValueIdx
import Idealize.ShloMosaic.PureOps.Ideal.Laws

/-!
# The reference's chamfer chain read at an index

The reference computes, twice, the same chain of twenty-four host operations on two clouds
`x, y : [8192, 4]`: the squared distances through the expansion
`‖x‖² + ‖y‖² − (2·x) yᵀ`, clamped at zero, their square roots, the minimum of every row and of every
column, and the two means added. `refCh` is that chain as one function of the two clouds;
`refCh_apply` reads it as `Chamfer.objBefore` of the clouds' rows.
-/

noncomputable section

namespace Cert.ReferenceIdeal.RC

open Idealize.ShloMosaic Idealize.ShloMosaic.ValueIdx
open Cert.ReferenceIdeal Cert.ReferenceIdeal.Facts₀
open scoped BigOperators

/-! ## The chain -/

/-- The chain's twenty-four operations and ten constants, in the order the reference states them. -/
def refCh (x y : FVec Ideal S8192x4 .f32) : FVec Ideal S_ .f32 :=
  let v81 : FVec Ideal S8192x4 .f32 := mulf x x
  let c23 : FVec Ideal S_ .f32 := constant (F := Ideal) S_ .f32 0x00000000#32
  let v82 : FVec Ideal S8192 .f32 := Host.reduceAdd v81 c23 reducesTo_S8192x4_S8192_d1 h_S_
  let v83 : FVec Ideal S8192x1 .f32 := broadcastInDim S8192x1 ![0] bcast_S8192_S8192x1_0 v82
  let v84 : FVec Ideal S8192x4 .f32 := mulf y y
  let c24 : FVec Ideal S_ .f32 := constant (F := Ideal) S_ .f32 0x00000000#32
  let v85 : FVec Ideal S8192 .f32 := Host.reduceAdd v84 c24 reducesTo_S8192x4_S8192_d1 h_S_
  let v86 : FVec Ideal S1x8192 .f32 := broadcastInDim S1x8192 ![1] bcast_S8192_S1x8192_1 v85
  let v87 : FVec Ideal S8192x8192 .f32 := broadcastInDim S8192x8192 ![0, 1] bcast_S8192x1_S8192x8192_0_1 v83
  let v88 : FVec Ideal S8192x8192 .f32 := broadcastInDim S8192x8192 ![0, 1] bcast_S1x8192_S8192x8192_0_1 v86
  let v89 : FVec Ideal S8192x8192 .f32 := addf v87 v88
  let c25 : FVec Ideal S_ .f32 := constant (F := Ideal) S_ .f32 0x40000000#32
  let v90 : FVec Ideal S8192x4 .f32 := broadcastInDim S8192x4 ![] bcast_S_S8192x4 c25
  let v91 : FVec Ideal S8192x4 .f32 := mulf v90 x
  let v92 : FVec Ideal S4x8192 .f32 := transpose S4x8192 [1, 0] y transposes_S8192x4_S4x8192_1_0
  let v93 : FVec Ideal S8192x8192 .f32 := Host.dotGeneral dot_S8192x4_S4x8192_S8192x8192_1_0_0_1_n_n none v91 v92
  let v94 : FVec Ideal S8192x8192 .f32 := subf v89 v93
  let c26 : FVec Ideal S_ .f32 := constant (F := Ideal) S_ .f32 0x00000000#32
  let v95 : FVec Ideal S8192x8192 .f32 := broadcastInDim S8192x8192 ![] bcast_S_S8192x8192 c26
  let v96 : FVec Ideal S8192x8192 .f32 := maximumf v94 v95
  let v97 : FVec Ideal S8192x8192 .f32 := Host.sqrt v96
  let c27 : FVec Ideal S_ .f32 := constant (F := Ideal) S_ .f32 0x7F800000#32
  let v98 : FVec Ideal S8192 .f32 := Host.reduce FloatOps.minimumf v97 c27 reducesTo_S8192x8192_S8192_d1 h_S_
  let c28 : FVec Ideal S_ .f32 := constant (F := Ideal) S_ .f32 0x00000000#32
  let v99 : FVec Ideal S_ .f32 := Host.reduceAdd v98 c28 reducesTo_S8192_S_d0 h_S_
  let c29 : FVec Ideal S_ .f32 := constant (F := Ideal) S_ .f32 0x46000000#32
  let v100 : FVec Ideal S_ .f32 := Host.divf v99 c29
  let c30 : FVec Ideal S_ .f32 := constant (F := Ideal) S_ .f32 0x7F800000#32
  let v101 : FVec Ideal S8192 .f32 := Host.reduce FloatOps.minimumf v97 c30 reducesTo_S8192x8192_S8192_d0 h_S_
  let c31 : FVec Ideal S_ .f32 := constant (F := Ideal) S_ .f32 0x00000000#32
  let v102 : FVec Ideal S_ .f32 := Host.reduceAdd v101 c31 reducesTo_S8192_S_d0 h_S_
  let c32 : FVec Ideal S_ .f32 := constant (F := Ideal) S_ .f32 0x46000000#32
  let v103 : FVec Ideal S_ .f32 := Host.divf v102 c32
  addf v100 v103

/-! ## The operations that are not entry by entry, each read at an index -/

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a vector's indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row `r` of a matrix with column `k` put back on axis 1 is (r, k). -/
theorem lift_d1 {a b : Nat} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `d` of a matrix with row `k` put back on axis 0 is (k, d). -/
theorem lift_d0 {a b : Nat} (h : (⟨2, ![a, b]⟩ : Shape).Reduces [0] (⟨1, ![b]⟩ : Shape)) (d : Fin b)
    (k : Fin ((⟨2, ![a, b]⟩ : Shape).size 0)) : h.lift (ix1 d) k = ix2 (⟨k.val, k.isLt⟩ : Fin a) d := by
  funext c; apply Fin.ext
  fin_cases c <;> rfl

/-- The single-precision pattern of +∞ is the top element. -/
theorem ofBits_inf : Ideal.ofBits .f32 0x7F800000#32 = (⊤ : EReal) := TiledMinSum.ofBits_f32_inf

/-- The host's minimum over axis 1 from +∞: at row `n`, the least entry of the row. -/
theorem minAxis1_apply (v : FVec Ideal S8192x8192 .f32) (n : Fin 8192) :
    Host.reduce FloatOps.minimumf v (constant (F := Ideal) S_ .f32 0x7F800000#32) reducesTo_S8192x8192_S8192_d1 h_S_ (ix1 n)
      = (Finset.univ : Finset (Fin 8192)).fold min ⊤ (fun m => v (ix2 n m)) := by
  have h' : S8192x8192.ReducesTo [1] S8192 := reducesTo_S8192x8192_S8192_d1
  have h : S8192x8192.Reduces [1] S8192 := ⟨h'.1, Nat.one_pos, h'.2⟩
  rw [Host.reduce_eq_fold_single FloatOps.minimumf v _ h' h h_S_]
  have hf : (v ∘ h.lift (ix1 n)) = fun m : Fin 8192 => v (ix2 n m) := funext fun k => congrArg v (lift_d1 h n k)
  rw [hf]
  show Finset.fold min (Ideal.ofBits .f32 0x7F800000#32) _ _ = _
  rw [ofBits_inf]
  rfl

/-- The host's minimum over axis 0 from +∞: at column `m`, the least entry of the column. -/
theorem minAxis0_apply (v : FVec Ideal S8192x8192 .f32) (m : Fin 8192) :
    Host.reduce FloatOps.minimumf v (constant (F := Ideal) S_ .f32 0x7F800000#32) reducesTo_S8192x8192_S8192_d0 h_S_ (ix1 m)
      = (Finset.univ : Finset (Fin 8192)).fold min ⊤ (fun n => v (ix2 n m)) := by
  have h' : S8192x8192.ReducesTo [0] S8192 := reducesTo_S8192x8192_S8192_d0
  have h : S8192x8192.Reduces [0] S8192 := ⟨h'.1, Nat.one_pos, h'.2⟩
  rw [Host.reduce_eq_fold_single FloatOps.minimumf v _ h' h h_S_]
  have hf : (v ∘ h.lift (ix1 m)) = fun n : Fin 8192 => v (ix2 n m) := funext fun k => congrArg v (lift_d0 h m k)
  rw [hf]
  show Finset.fold min (Ideal.ofBits .f32 0x7F800000#32) _ _ = _
  rw [ofBits_inf]
  rfl

/-- The host's sum of a vector from zero: zero plus the sum of its entries. -/
theorem sumVec_apply (v : FVec Ideal S8192 .f32) (i : S_.Idx) :
    Host.reduceAdd v (constant (F := Ideal) S_ .f32 0x00000000#32) reducesTo_S8192_S_d0 h_S_ i
      = 0 + ∑ n : Fin 8192, v (ix1 n) := by
  show Ideal.hostReduceAdd reducesTo_S8192_S_d0 v (Ideal.ofBits .f32 0x00000000#32) i = _
  rw [Ideal.hostReduceAdd_total reducesTo_S8192_S_d0 (fun b => b.elim0) v _ i, Ideal.ofBits_zero_f32, sum_idx1]

/-- The host's sum of each row of an `[8192, 4]` matrix from zero: zero plus the sum over the four columns. -/
theorem rowSum_apply (v : FVec Ideal S8192x4 .f32) (n : Fin 8192) :
    Host.reduceAdd v (constant (F := Ideal) S_ .f32 0x00000000#32) reducesTo_S8192x4_S8192_d1 h_S_ (ix1 n)
      = 0 + ∑ k : Fin 4, v (ix2 n k) := by
  rw [zero_add]
  exact Cert.LibHostRead.hostSumAxis1_apply v _ reducesTo_S8192x4_S8192_d1 h_S_ Ideal.ofBits_zero_f32 n

/-- The row sums kept as a column and spread over the columns: at (n, m), entry `n`. -/
theorem colBcast_apply (v : FVec Ideal S8192 .f32) (n m : Fin 8192) :
    broadcastInDim S8192x8192 ![0, 1] bcast_S8192x1_S8192x8192_0_1 (broadcastInDim S8192x1 ![0] bcast_S8192_S8192x1_0 v) (ix2 n m)
      = v (ix1 n) :=
  (Cert.LibHostRead.bcast_a1_ab_apply _ bcast_S8192x1_S8192x8192_0_1 n m).trans
    (Cert.LibHostRead.bcast_a_a1_apply v bcast_S8192_S8192x1_0 n 0)

/-- The row sums kept as a row and spread over the rows: at (n, m), entry `m`. -/
theorem rowBcast_apply (v : FVec Ideal S8192 .f32) (n m : Fin 8192) :
    broadcastInDim S8192x8192 ![0, 1] bcast_S1x8192_S8192x8192_0_1 (broadcastInDim S1x8192 ![1] bcast_S8192_S1x8192_1 v) (ix2 n m)
      = v (ix1 m) :=
  Cert.LibHostRead.bcastRow_apply v bcast_S8192_S1x8192_1 bcast_S1x8192_S8192x8192_0_1 n m

/-- The product of an `[8192, 4]` matrix with the transpose of another: at (n, m), the sum over the four columns. -/
theorem dot_apply (A B : FVec Ideal S8192x4 .f32) (n m : Fin 8192) :
    Host.dotGeneral dot_S8192x4_S4x8192_S8192x8192_1_0_0_1_n_n none A
        (transpose S4x8192 [1, 0] B transposes_S8192x4_S4x8192_1_0) (ix2 n m)
      = 0 + ∑ k : Fin 4, A (ix2 n k) * B (ix2 m k) := by
  rw [zero_add]
  refine (Cert.LibDot.dotGeneral_apply (m := 8192) (k := 4) (n := 8192)
    dot_S8192x4_S4x8192_S8192x8192_1_0_0_1_n_n_wf none A _ n m).trans ?_
  exact Finset.sum_congr rfl fun k _ => by
    rw [Cert.LibMatLayout.transpose_ab_ba_apply B transposes_S8192x4_S4x8192_1_0 k m]

/-! ## The chain read at its one index -/

/-- The chain is the objective with the root taken entry by entry before the minima, of the clouds' rows:
    the factor is the word of 2, the divisor the word of 8192. -/
theorem refCh_apply (x y : FVec Ideal S8192x4 .f32) (i : S_.Idx) :
    refCh x y i
      = Chamfer.objBefore (n := 8192) (Ideal.ofBits .f32 0x40000000#32) (Ideal.ofBits .f32 0x46000000#32)
          (fun n k => x (ix2 n k)) (fun n k => y (ix2 n k)) := by
  simp only [refCh]
  generalize hD : Host.sqrt (F := Ideal) (s := S8192x8192) (φ := .f32) _ = D
  have hDa : ∀ n m : Fin 8192, D (ix2 n m)
      = TiledMinSum.clampRoot (Chamfer.sqExp (Ideal.ofBits .f32 0x40000000#32) (fun k => x (ix2 n k)) (fun k => y (ix2 m k))) := by
    intro n m
    rw [← hD, Cert.LibHostRead.hostSqrt_apply, maximumf_apply, subf_apply, addf_apply, colBcast_apply, rowBcast_apply,
      dot_apply, rowSum_apply, rowSum_apply, Cert.LibHostRead.bcastConst_apply, Ideal.ofBits_zero_f32]
    simp only [mulf_apply, Cert.LibHostRead.bcastConst_apply]
    rfl
  rw [addf_apply, Cert.LibHostRead.hostDivf_apply, Cert.LibHostRead.hostDivf_apply, sumVec_apply, sumVec_apply]
  simp only [minAxis1_apply, minAxis0_apply, constant_apply, hDa]
  rfl

end Cert.ReferenceIdeal.RC

end
-- ==== Proof.RRead.lean ====
/-
  The reference's five results read off its list of operations, stretch by stretch (RROps.lean, RRRun.lean), at the
  ideal instance. With `Wpre L`, `W0 L`, `Wmid L`, `W1 L` the buffers' contents after the stretches opsPre, opsCh0,
  opsMid, opsCh1 from contents `L` (and `after ops L` those after opsEnd too): main_v104 and main_v266 are the
  twenty-four-operation chain `RC.refCh` of (main_v78, main_v80) and of (main_v240, main_v242); main_v271 is half the
  sum of the two, each weighted by an entry of main_arg4 (`endR`); main_v273 and main_v272 are main_v266 and main_v235
  seen at another shape; main_v74 is left as the first stretch wrote it.
-/
import proofs.«128588_j377957122581_2_alg».proof.Proof.RRRun
import proofs.«128588_j377957122581_2_alg».proof.Proof.RefChamfer
import Idealize.ShloMosaic.PureOps.Ideal

set_option synthInstance.maxSize 4096
-- deciding a reference's absence from a list of some hundred and fifty recurses once per entry
set_option maxRecDepth 8192

noncomputable section

namespace Cert.ReferenceIdeal.RR

open Idealize.ShloMosaic Idealize.SL.Sem
open Cert.ReferenceIdeal
open Facts₀ Facts

variable [Facts]

/-- Buffer contents at the ideal instance. -/
abbrev VI : Type := Valuation τ sig (Elt Ideal)

/-- The contents after the first stretch, … after the fourth. -/
def Wpre (L : VI) : VI := StableHlo.after (opsPre (F := Ideal)) L
def W0 (L : VI) : VI := StableHlo.after (opsCh0 (F := Ideal)) (Wpre L)
def Wmid (L : VI) : VI := StableHlo.after (opsMid (F := Ideal)) (W0 L)
def W1 (L : VI) : VI := StableHlo.after (opsCh1 (F := Ideal)) (Wmid L)

/-- The whole line's fold is the last stretch's over the fourth's. -/
theorem after_ops (L : VI) : StableHlo.after (ops (F := Ideal)) L = StableHlo.after (opsEnd (F := Ideal)) (W1 L) := by
  show StableHlo.after ((((opsPre ++ opsCh0) ++ opsMid) ++ opsCh1) ++ opsEnd) L = _
  simp only [after_append]
  rfl

/-! ## One stretch at a time, from any contents -/

/-- The second stretch is the chain on (main_v78, main_v80). -/
theorem ch0_read (V : VI) : StableHlo.after (opsCh0 (F := Ideal)) V (Proc.devRef .tc main_v104)
    = RC.refCh (V (Proc.devRef .tc main_v78)) (V (Proc.devRef .tc main_v80)) := by
  simp only [after_append]
  after_results_simp
  rfl

/-- The fourth stretch is the chain on (main_v240, main_v242). -/
theorem ch1_read (V : VI) : StableHlo.after (opsCh1 (F := Ideal)) V (Proc.devRef .tc main_v266)
    = RC.refCh (V (Proc.devRef .tc main_v240)) (V (Proc.devRef .tc main_v242)) := by
  simp only [after_append]
  after_results_simp
  rfl

/-- Entry 0 of a pair, as a scalar (a slice of one entry, reshaped). -/
abbrev pick0 (w : FVec Ideal S2 .f32) : FVec Ideal S_ .f32 :=
  fun i => shapeCast S_ (extractStridedSlice S1 ![0] w slices_S2_S1_0) shapeCasts_S1_S_ i
/-- Entry 1 of a pair, as a scalar. -/
abbrev pick1 (w : FVec Ideal S2 .f32) : FVec Ideal S_ .f32 :=
  fun i => shapeCast S_ (extractStridedSlice S1 ![1] w slices_S2_S1_1) shapeCasts_S1_S_ i

/-- The third stretch's main_v107 is an entry of main_arg4 times main_v104 (its first three operations; no later one writes it). -/
theorem mid_v107 (V : VI) : StableHlo.after (opsMid (F := Ideal)) V (Proc.devRef .tc main_v107)
    = (mulf (pick0 (V (Proc.devRef .tc main_arg4))) (V (Proc.devRef .tc main_v104)) : FVec Ideal S_ .f32) := by
  simp only [after_append]
  rw [p13_keeps main_v107 (by decide), p12_keeps main_v107 (by decide), p11_keeps main_v107 (by decide),
    p10_keeps main_v107 (by decide), p9_keeps main_v107 (by decide)]
  after_results_simp
  rfl

/-- Half the sum of two scalars, each weighted by an entry of a pair: the last stretch's result main_v271 over
    main_arg4, main_v104 and main_v266. -/
def endR (w : FVec Ideal S2 .f32) (a b : FVec Ideal S_ .f32) : FVec Ideal S_ .f32 :=
  Host.divf
    (addf (mulf (pick0 w) a) (mulf (pick1 w) b))
    (constant S_ .f32 0x40000000#32)

/-- The last stretch's main_v271 over main_v107, main_arg4 and main_v266. -/
theorem end_v271 (V : VI) : StableHlo.after (opsEnd (F := Ideal)) V (Proc.devRef .tc main_v271)
    = (Host.divf (addf (V (Proc.devRef .tc main_v107) : FVec Ideal S_ .f32) (mulf (pick1 (V (Proc.devRef .tc main_arg4))) (V (Proc.devRef .tc main_v266))))
        (constant S_ .f32 0x40000000#32) : FVec Ideal S_ .f32) := by
  after_results_simp
  rfl

theorem end_v273 (V : VI) : StableHlo.after (opsEnd (F := Ideal)) V (Proc.devRef .tc main_v273)
    = broadcastInDim S1 ![] bcast_S_S1 (V (Proc.devRef .tc main_v266)) := by
  after_results_simp

theorem end_v272 (V : VI) : StableHlo.after (opsEnd (F := Ideal)) V (Proc.devRef .tc main_v272)
    = broadcastInDim S1x4x4 ![1, 2] bcast_S4x4_S1x4x4_1_2 (V (Proc.devRef .tc main_v235)) := by
  after_results_simp

/-! ## The five results of the whole line -/

variable (L : VI)

/-- (r1) main_v104 ends as the second stretch left it: the chain on the first stretch's main_v78 and main_v80. -/
theorem r1 : StableHlo.after (ops (F := Ideal)) L (Proc.devRef .tc main_v104)
    = RC.refCh (Wpre L (Proc.devRef .tc main_v78)) (Wpre L (Proc.devRef .tc main_v80)) := by
  rw [after_ops, opsEnd_keeps main_v104 (by decide), W1, opsCh1_keeps main_v104 (by decide), Wmid,
    opsMid_keeps main_v104 (by decide), W0, ch0_read]

/-- (r2) main_v266 ends as the fourth stretch left it: the chain on the third stretch's main_v240 and main_v242. -/
theorem r2 : StableHlo.after (ops (F := Ideal)) L (Proc.devRef .tc main_v266)
    = RC.refCh (Wmid L (Proc.devRef .tc main_v240)) (Wmid L (Proc.devRef .tc main_v242)) := by
  rw [after_ops, opsEnd_keeps main_v266 (by decide), W1, ch1_read]

/-- An argument is at its launch contents after any of the stretches. -/
theorem W1_arg4 : W1 L (Proc.devRef .tc main_arg4) = L (Proc.devRef .tc main_arg4) := by
  rw [W1, opsCh1_keeps main_arg4 (by decide), Wmid, opsMid_keeps main_arg4 (by decide), W0,
    opsCh0_keeps main_arg4 (by decide), Wpre, opsPre_keeps main_arg4 (by decide)]
theorem W0_arg4 : W0 L (Proc.devRef .tc main_arg4) = L (Proc.devRef .tc main_arg4) := by
  rw [W0, opsCh0_keeps main_arg4 (by decide), Wpre, opsPre_keeps main_arg4 (by decide)]

/-- (r0) main_v271 is `endR` of main_arg4's launch contents and the final main_v104 and main_v266. -/
theorem r0 : StableHlo.after (ops (F := Ideal)) L (Proc.devRef .tc main_v271)
    = endR (L (Proc.devRef .tc main_arg4)) (StableHlo.after (ops (F := Ideal)) L (Proc.devRef .tc main_v104))
        (StableHlo.after (ops (F := Ideal)) L (Proc.devRef .tc main_v266)) := by
  have h104 : StableHlo.after (ops (F := Ideal)) L (Proc.devRef .tc main_v104) = W0 L (Proc.devRef .tc main_v104) := by
    rw [after_ops, opsEnd_keeps main_v104 (by decide), W1, opsCh1_keeps main_v104 (by decide), Wmid,
      opsMid_keeps main_v104 (by decide)]
  have h266 : StableHlo.after (ops (F := Ideal)) L (Proc.devRef .tc main_v266) = W1 L (Proc.devRef .tc main_v266) := by
    rw [after_ops, opsEnd_keeps main_v266 (by decide)]
  have h107 : W1 L (Proc.devRef .tc main_v107)
      = (mulf (pick0 (L (Proc.devRef .tc main_arg4))) (W0 L (Proc.devRef .tc main_v104)) : FVec Ideal S_ .f32) := by
    rw [W1, opsCh1_keeps main_v107 (by decide), Wmid, mid_v107, W0_arg4]
  rw [h104, h266, after_ops, end_v271, h107, W1_arg4]
  rfl

/-- (r3) main_v273 is the final main_v266 as a one-entry vector. -/
theorem r3 : StableHlo.after (ops (F := Ideal)) L (Proc.devRef .tc main_v273)
    = broadcastInDim S1 ![] bcast_S_S1 (StableHlo.after (ops (F := Ideal)) L (Proc.devRef .tc main_v266)) := by
  rw [after_ops, end_v273, opsEnd_keeps main_v266 (by decide)]

/-- (r4) main_v272 is the third stretch's main_v235 with a leading axis of one. -/
theorem r4 : StableHlo.after (ops (F := Ideal)) L (Proc.devRef .tc main_v272)
    = broadcastInDim S1x4x4 ![1, 2] bcast_S4x4_S1x4x4_1_2 (Wmid L (Proc.devRef .tc main_v235)) := by
  rw [after_ops, end_v272, W1, opsCh1_keeps main_v235 (by decide)]

/-- (r5) main_v74 ends as the first stretch left it. -/
theorem r5 : StableHlo.after (ops (F := Ideal)) L (Proc.devRef .tc main_v74) = Wpre L (Proc.devRef .tc main_v74) := by
  rw [after_ops, opsEnd_keeps main_v74 (by decide), W1, opsCh1_keeps main_v74 (by decide), Wmid,
    opsMid_keeps main_v74 (by decide), W0, opsCh0_keeps main_v74 (by decide)]

/-- The launch contents at a reference are the launch memory at the device's location of it. -/
theorem launch_at (m : (ℓ : Loc nD τ sig) → Buf (Elt Ideal) ℓ) (d : Dev nD) (b : Ref sig .tc) :
    StableHlo.launchContents m d (Proc.devRef .tc b) = m ((d.tc : Thread nD τ).loc b) := rfl

end Cert.ReferenceIdeal.RR

end
-- ==== Proof.RefEndRead.lean ====
/-
  The reference program's last operations read at an index: the two entries of the weight vector, each cut out and
  read as a scalar, weight two scalars; the products are added and the sum is divided by the word of two. A scalar
  broadcast to a one-entry vector reads the scalar.
-/
import proofs.«128588_j377957122581_2_alg».proof.Proof.RRead
import Idealize.ShloMosaic.Lib.ValueIdx
import Idealize.ShloMosaic.Lib.Pipeline.Value
import Idealize.ShloMosaic.Lib.IdealHost

set_option synthInstance.maxSize 4096

noncomputable section

namespace Cert.ReferenceIdeal.RR

open Cert.ReferenceIdeal Cert.ReferenceIdeal.Facts₀
open Idealize.ShloMosaic Idealize.ShloMosaic.ValueIdx

variable [Facts]

/-- Entry `q` of a two-entry vector, cut out as a one-entry vector and then read as a scalar, is that entry. -/
theorem entry_apply {α : Type} (o : Nat) (q : Fin 2) (hq : q.val = o) (x : S2.Idx → α) (hs : S2.Slices ![o] S1)
    (hc : S1.ShapeCasts S_) (i : S_.Idx) :
    shapeCast S_ (extractStridedSlice S1 ![o] x hs) hc i = x (ix1 q) := by
  have h1 : S_.numel = 1 := by decide
  rw [shapeCast_apply _ hc i (ix1 (0 : Fin 1)) (by
    rw [Shape.rowMajor_val_one]
    have hlt : (S_.rowMajor i).val < S_.numel := (S_.rowMajor i).isLt
    show 0 = (S_.rowMajor i).val
    omega)]
  exact extractStridedSlice_apply _ _ hs _ _ (fun ax => match ax with
    | ⟨0, _⟩ => by show q.val = o + 0; omega)

/-- The weighted half sum at its one index: the first weight times the first scalar plus the second weight times
    the second scalar, divided by the word of two. -/
theorem endR_apply (w : FVec Ideal S2 .f32) (a b : FVec Ideal S_ .f32) (i : S_.Idx) :
    endR w a b i
      = Ideal.div (w (ix1 (0 : Fin 2)) * a i + w (ix1 (1 : Fin 2)) * b i) (Ideal.ofBits .f32 0x40000000#32) := by
  unfold endR
  rw [hostDivf_apply, addf_apply, mulf_apply, mulf_apply]
  show Ideal.div (shapeCast S_ (extractStridedSlice S1 ![0] w slices_S2_S1_0) shapeCasts_S1_S_ i * a i
      + shapeCast S_ (extractStridedSlice S1 ![1] w slices_S2_S1_1) shapeCasts_S1_S_ i * b i) _ = _
  rw [entry_apply 0 0 rfl, entry_apply 1 1 rfl]
  rfl

/-- A scalar broadcast to a one-entry vector reads the scalar. -/
theorem bcastScalar_apply (s : FVec Ideal S_ .f32) (j : S1.Idx) (i : S_.Idx) :
    broadcastInDim S1 ![] bcast_S_S1 s j = s i := by
  rw [broadcastInDim_scalar_apply]
  exact congrArg s (funext fun a => a.elim0)

end Cert.ReferenceIdeal.RR

end
-- ==== Proof.Bridge.lean ====
/-
  One part's objective in the two programs. The kernel program's tail takes the clamped root of the
  row minima and of the column minima of the squared coordinate differences and averages them; the
  reference averages the minima of the clamped roots of the expanded squared distances. When the two
  clouds' points are real the two agree: the clamped root is monotone and fixes the top element, so it
  commutes with the minima, and on real points the sum of squared differences is the expansion.
-/
import proofs.«128588_j377957122581_2_alg».proof.Proof.KerTail
import proofs.«128588_j377957122581_2_alg».proof.Proof.RefChamfer
import proofs.«128588_j377957122581_2_alg».proof.Proof.ChamferMath

noncomputable section

namespace Cert.Bridge

open Idealize.ShloMosaic Idealize.ShloMosaic.ValueIdx Chamfer TiledMinSum

theorem part_obj (RM : FVec Ideal Cert.KernelIdeal.S2x8192x1 .f32) (CM : FVec Ideal Cert.KernelIdeal.S2x1x8192 .f32)
    (X Y : Fin 8192 → Fin 4 → EReal) (p : Fin 2)
    (hRM : ∀ n : Fin 8192, RM (ix3 p n (0 : Fin 1)) = (Finset.univ : Finset (Fin 8192)).fold min ⊤ (fun q => sqDiff (X n) (Y q)))
    (hCM : ∀ q : Fin 8192, CM (ix3 p (0 : Fin 1) q) = (Finset.univ : Finset (Fin 8192)).fold min ⊤ (fun n => sqDiff (X n) (Y q)))
    (hX : ∀ n, RealPt (X n)) (hY : ∀ q, RealPt (Y q))
    (x y : FVec Ideal Cert.ReferenceIdeal.S8192x4 .f32)
    (hx : ∀ (n : Fin 8192) (k : Fin 4), x (ix2 n k) = X n k) (hy : ∀ (q : Fin 8192) (k : Fin 4), y (ix2 q k) = Y q k)
    (i : Cert.ReferenceIdeal.S_.Idx) :
    Cert.KernelIdeal.KT.kerObj RM CM (ix1 p) = Cert.ReferenceIdeal.RC.refCh x y i := by
  rw [Cert.KernelIdeal.KT.kerObj_apply, Cert.ReferenceIdeal.RC.refCh_apply, ofBits_two]
  have ex : (fun (n : Fin 8192) (k : Fin 4) => x (ix2 n k)) = X := funext fun n => funext fun k => hx n k
  have ey : (fun (n : Fin 8192) (k : Fin 4) => y (ix2 n k)) = Y := funext fun n => funext fun k => hy n k
  rw [ex, ey, ← objAfter_eq_objBefore _ X Y hX hY]
  unfold objAfter
  simp only [hRM, hCM]

end Cert.Bridge

end
-- ==== Proof.LibAllReal.lean ====
/-
  Arrays of extended reals all of whose entries are real numbers, and the operations that keep them so:
  finite literals, products, sums and differences, cosine and sine, every re-indexing (broadcast, slice, reshape,
  transpose, concatenation: each entry of the result is an entry of an operand), the matrix product (a finite sum of
  products) and the host's sum from a real initial value.
-/
import Idealize.ShloMosaic.PureOps.Ideal.Laws
import Idealize.ShloMosaic.Lib.ValueIdx
import Idealize.ShloMosaic.Lib.Pipeline.Value

noncomputable section

namespace Cert.KernelIdeal.Real

open Idealize.ShloMosaic
open scoped BigOperators

/-- Every entry is a real number. -/
def AllReal {s : Shape} (v : s.Idx → EReal) : Prop := ∀ i, ∃ r : ℝ, v i = (r : EReal)

/-- Every array of a list of arrays (each with its shape) has only real entries. -/
def AllRealL (xs : List ((s : Shape) × (s.Idx → EReal))) : Prop := ∀ p ∈ xs, AllReal p.2

theorem AllRealL.nil : AllRealL [] := fun _ hp => nomatch hp

theorem AllRealL.cons {s : Shape} {x : s.Idx → EReal} {l : List ((s : Shape) × (s.Idx → EReal))}
    (hx : AllReal x) (hl : AllRealL l) : AllRealL (⟨s, x⟩ :: l) := fun p hp => by
  rcases List.mem_cons.1 hp with rfl | hp
  · exact hx
  · exact hl p hp

/-! ## Sums -/

/-- A finite sum of real numbers, taken in the extended reals, is a real number. -/
theorem sum_real {ι : Type} (S : Finset ι) (f : ι → EReal) (hf : ∀ k ∈ S, ∃ r : ℝ, f k = (r : EReal)) :
    ∃ r : ℝ, ∑ k ∈ S, f k = (r : EReal) :=
  Finset.sum_induction f (fun x => ∃ r : ℝ, x = (r : EReal))
    (fun a b ⟨x, hx⟩ ⟨y, hy⟩ => ⟨x + y, by rw [hx, hy, EReal.coe_add]⟩) ⟨0, EReal.coe_zero.symm⟩ hf

/-! ## Literals -/

/-- An f32 word whose exponent field is not all ones denotes a real number. -/
theorem ofBits_f32_real (w : BitVec 32) (h : (w.extractLsb' 23 8).toNat ≠ 255) :
    ∃ r : ℝ, Ideal.ofBits .f32 w = (r : EReal) := by
  show ∃ r : ℝ, Ideal.ieee 8 23 w = (r : EReal)
  unfold Ideal.ieee
  dsimp only
  rw [if_neg (by simpa using h)]
  split_ifs <;> exact ⟨_, rfl⟩

variable {s t : Shape} {φ : FTy}

/-- A splat of a finite f32 literal. -/
theorem AllReal.constant (w : BitVec 32) (h : (w.extractLsb' 23 8).toNat ≠ 255) :
    AllReal (Idealize.ShloMosaic.constant (F := Ideal) s .f32 w) := fun _ => ofBits_f32_real w h

/-- A table of finite f32 literals. -/
theorem AllReal.table {n : Nat} (lit : Fin n → BitVec 32) (h : ∀ k, ((lit k).extractLsb' 23 8).toNat ≠ 255)
    (f : s.Idx → Fin n) : AllReal (fun i => FloatOps.ofBits (F := Ideal) .f32 (lit (f i))) :=
  fun i => ofBits_f32_real _ (h (f i))

/-! ## Arithmetic -/

theorem AllReal.mulf {a b : FVec Ideal s φ} (ha : AllReal a) (hb : AllReal b) :
    AllReal (Idealize.ShloMosaic.mulf a b) := fun i => by
  obtain ⟨x, hx⟩ := ha i
  obtain ⟨y, hy⟩ := hb i
  exact ⟨x * y, by rw [ValueIdx.mulf_apply, hx, hy, EReal.coe_mul]⟩

theorem AllReal.addf {a b : FVec Ideal s φ} (ha : AllReal a) (hb : AllReal b) :
    AllReal (Idealize.ShloMosaic.addf a b) := fun i => by
  obtain ⟨x, hx⟩ := ha i
  obtain ⟨y, hy⟩ := hb i
  exact ⟨x + y, by rw [ValueIdx.addf_apply, hx, hy, EReal.coe_add]⟩

theorem AllReal.subf {a b : FVec Ideal s φ} (ha : AllReal a) (hb : AllReal b) :
    AllReal (Idealize.ShloMosaic.subf a b) := fun i => by
  obtain ⟨x, hx⟩ := ha i
  obtain ⟨y, hy⟩ := hb i
  exact ⟨x - y, by rw [ValueIdx.subf_apply, hx, hy, EReal.coe_sub]⟩

theorem AllReal.cos {a : FVec Ideal s φ} (ha : AllReal a) : AllReal (Host.cos a) := fun i => by
  obtain ⟨x, hx⟩ := ha i
  exact ⟨Real.cos x, by show Ideal.cos (a i) = _; rw [hx, Ideal.cos_coe]⟩

theorem AllReal.sin {a : FVec Ideal s φ} (ha : AllReal a) : AllReal (Host.sin a) := fun i => by
  obtain ⟨x, hx⟩ := ha i
  exact ⟨Real.sin x, by show Ideal.sin (a i) = _; rw [hx, Ideal.sin_coe]⟩

/-! ## Re-indexings: each entry of the result is an entry of the operand -/

theorem AllReal.broadcastInDim {x : s.Idx → EReal} (dims : Fin s.rank → Fin t.rank) (h : s.BroadcastsInDim t dims)
    (hx : AllReal x) : AllReal (Idealize.ShloMosaic.broadcastInDim t dims h x) := fun _ => hx _

theorem AllReal.extractStridedSlice {x : s.Idx → EReal} (off : Fin s.rank → Nat) (h : s.Slices off t)
    (hx : AllReal x) : AllReal (Idealize.ShloMosaic.extractStridedSlice t off x h) := fun _ => hx _

theorem AllReal.shapeCast {x : s.Idx → EReal} (h : s.ShapeCasts t) (hx : AllReal x) :
    AllReal (Idealize.ShloMosaic.shapeCast t x h) := fun _ => hx _

theorem AllReal.transpose {x : s.Idx → EReal} (perm : List (Fin s.rank)) (h : s.Transposes perm t) (hx : AllReal x) :
    AllReal (Idealize.ShloMosaic.transpose t perm x h) := fun _ => hx _

/-- Every entry of a concatenation is an entry of one of the operands. -/
theorem concatenate_entry {α : Type} (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

theorem AllReal.concatenate (a : Fin t.rank) {xs : List ((s : Shape) × (s.Idx → EReal))}
    (h : Shape.Concatenates (xs.map (·.1)) t a) (hx : AllRealL xs) :
    AllReal (Idealize.ShloMosaic.concatenate t a xs h) := fun j => by
  obtain ⟨p, hp, i, e⟩ := concatenate_entry a xs h j
  rw [e]
  exact hx p hp i

/-! ## Contractions -/

/-- The host's matrix product: each entry is a finite sum of products of entries. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ x : ℝ, FloatOps.dotGeneral d prec .single l r j = (x : EReal)
  rw [Ideal.dotGeneral_apply]
  refine sum_real _ _ fun k _ => ?_
  obtain ⟨x, hx⟩ := hl (d.lhsIdx j k)
  obtain ⟨y, hy⟩ := hr (d.rhsIdx j k)
  exact ⟨x * y, by rw [hx, hy, EReal.coe_mul]⟩

/-- The host's sum along some axes from a real initial value. -/
theorem AllReal.reduceAdd {u : Shape} {axes : List (Fin s.rank)} {x : FVec Ideal s φ} {init : u.Idx → Ideal φ}
    (h : s.ReducesTo axes t) (hu : 0 < u.numel) (hx : AllReal x) (hi : AllReal init) :
    AllReal (Host.reduceAdd x init h hu) := fun j => by
  show ∃ r : ℝ, Ideal.hostReduceAdd h x (init (Shape.Idx.first hu)) j = (r : EReal)
  unfold Ideal.hostReduceAdd
  obtain ⟨a, ha⟩ := hi (Shape.Idx.first hu)
  obtain ⟨b, hb⟩ := sum_real (Finset.univ.filter fun i => h.drop i = j) x fun k _ => hx k
  exact ⟨a + b, by rw [ha, hb, EReal.coe_add]⟩

end Cert.KernelIdeal.Real

end
-- ==== Proof.Alg.lean ====
/-
  The five results of the two programs agree. The reference's buffers before its first and second
  distance computations hold the same clouds and transforms as the kernel program's buffers before the
  region (the same operations on the same arguments); each part's objective then agrees by the
  identity of the two arrangements on real points, and the remaining scalar arithmetic is the same
  expression of the two objectives and the two weights.
-/
import proofs.«128588_j377957122581_2_alg».proof.Proof.KAfter
import proofs.«128588_j377957122581_2_alg».proof.Proof.KArrays
import proofs.«128588_j377957122581_2_alg».proof.Proof.KPrefix
import proofs.«128588_j377957122581_2_alg».proof.Proof.RRead
import proofs.«128588_j377957122581_2_alg».proof.Proof.RefEndRead
import proofs.«128588_j377957122581_2_alg».proof.Proof.Bridge
import proofs.«128588_j377957122581_2_alg».proof.Proof.LibAllReal

set_option maxRecDepth 16384

noncomputable section

namespace Cert.Alg

open Idealize.ShloMosaic Idealize.ShloMosaic.TcCoe Idealize.SL.Sem Idealize.ShloMosaic.ValueIdx
open Cert.KernelIdeal.Real (AllReal)

variable (m : (ℓ : Loc Cert.KernelIdeal.nD Cert.KernelIdeal.τ Cert.KernelIdeal.sig) → Buf (Elt Ideal) ℓ) (c : Dev Cert.KernelIdeal.nD)
  (LR : Cert.ReferenceIdeal.RR.VI)

/-- The kernel program's launch valuation on core `c`. -/
abbrev LK : Valuation Cert.KernelIdeal.τ Cert.KernelIdeal.sig (Elt Ideal) := fun b => m (c, b)

/-- The buffers before the last four host operations of the kernel program. -/
abbrev U : Valuation Cert.KernelIdeal.τ Cert.KernelIdeal.sig (Elt Ideal) := Cert.KRIdent.KP.UK (LK m c)

theorem V0_eq : Cert.KernelIdeal.KF.V0 m c = StableHlo.after (List.flatten [(Cert.KernelIdeal.Gen.hostOps0 : List (HloOp Cert.KernelIdeal.τ Cert.KernelIdeal.sig (Elt Ideal))), Cert.KernelIdeal.Gen.hostOps0_1, Cert.KernelIdeal.Gen.hostOps0_2]) (LK m c) := rfl

section
variable
  (I1 : (U m c (Proc.devRef .tc Cert.KernelIdeal.main_v78) : FVec Ideal Cert.KernelIdeal.S8192x4 .f32) = Cert.ReferenceIdeal.RR.Wpre LR (Proc.devRef .tc Cert.ReferenceIdeal.main_v78))
  (I2 : (U m c (Proc.devRef .tc Cert.KernelIdeal.main_v211) : FVec Ideal Cert.KernelIdeal.S8192x4 .f32) = Cert.ReferenceIdeal.RR.Wmid LR (Proc.devRef .tc Cert.ReferenceIdeal.main_v240))
  (I3y0 : ∀ (q : Fin 8192) (k : Fin 4), (Cert.ReferenceIdeal.RR.Wpre LR (Proc.devRef .tc Cert.ReferenceIdeal.main_v80) : FVec Ideal Cert.ReferenceIdeal.S8192x4 .f32) (ix2 q k)
      = (U m c (Proc.devRef .tc Cert.KernelIdeal.main_v1) : FVec Ideal Cert.KernelIdeal.S2x8192x4 .f32) (ix3 (0 : Fin 2) q k))
  (I3y1 : ∀ (q : Fin 8192) (k : Fin 4), (Cert.ReferenceIdeal.RR.Wmid LR (Proc.devRef .tc Cert.ReferenceIdeal.main_v242) : FVec Ideal Cert.ReferenceIdeal.S8192x4 .f32) (ix2 q k)
      = (U m c (Proc.devRef .tc Cert.KernelIdeal.main_v1) : FVec Ideal Cert.KernelIdeal.S2x8192x4 .f32) (ix3 (1 : Fin 2) q k))
  (hXr : AllReal (Cert.KernelIdeal.KF.V0 m c (Proc.devRef .tc Cert.KernelIdeal.main_v214) : Cert.KernelIdeal.S2x8192x4.Idx → EReal))
  (hYr : AllReal (Cert.KernelIdeal.KF.V0 m c (Proc.devRef .tc Cert.KernelIdeal.main_v215) : Cert.KernelIdeal.S2x4x8192.Idx → EReal))

include I1 I3y0 hXr hYr in
/-- Part 0's objective in the two programs. -/
theorem obj0 (i : Cert.ReferenceIdeal.S_.Idx) :
    Cert.KernelIdeal.KA.obj m c (ix1 (0 : Fin 2))
      = Cert.ReferenceIdeal.RC.refCh (Cert.ReferenceIdeal.RR.Wpre LR (Proc.devRef .tc Cert.ReferenceIdeal.main_v78)) (Cert.ReferenceIdeal.RR.Wpre LR (Proc.devRef .tc Cert.ReferenceIdeal.main_v80)) i := by
  refine Cert.Bridge.part_obj _ _ (Cert.KernelIdeal.KV.Xp m c 0) (Cert.KernelIdeal.KV.Yp m c 0) 0
    (fun n => Cert.KernelIdeal.KV.RM_closed m c 0 n) (fun q => Cert.KernelIdeal.KV.CM_closed m c 0 q)
    (fun n k => hXr (ix3 0 n k)) (fun q k => hYr (ix3 0 k q)) _ _ ?_ ?_ i
  · intro n k
    rw [← I1]
    exact ((Cert.KRIdent.KP.pre_v214_apply (LK m c) 0 n k).trans (if_pos rfl)).symm
  · intro q k
    rw [I3y0 q k]
    exact (Cert.KRIdent.KP.pre_v215_apply (LK m c) 0 k q).symm

include I2 I3y1 hXr hYr in
/-- Part 1's objective in the two programs. -/
theorem obj1 (i : Cert.ReferenceIdeal.S_.Idx) :
    Cert.KernelIdeal.KA.obj m c (ix1 (1 : Fin 2))
      = Cert.ReferenceIdeal.RC.refCh (Cert.ReferenceIdeal.RR.Wmid LR (Proc.devRef .tc Cert.ReferenceIdeal.main_v240)) (Cert.ReferenceIdeal.RR.Wmid LR (Proc.devRef .tc Cert.ReferenceIdeal.main_v242)) i := by
  refine Cert.Bridge.part_obj _ _ (Cert.KernelIdeal.KV.Xp m c 1) (Cert.KernelIdeal.KV.Yp m c 1) 1
    (fun n => Cert.KernelIdeal.KV.RM_closed m c 1 n) (fun q => Cert.KernelIdeal.KV.CM_closed m c 1 q)
    (fun n k => hXr (ix3 1 n k)) (fun q k => hYr (ix3 1 k q)) _ _ ?_ ?_ i
  · intro n k
    rw [← I2]
    exact ((Cert.KRIdent.KP.pre_v214_apply (LK m c) 1 n k).trans (if_neg (by decide))).symm
  · intro q k
    rw [I3y1 q k]
    exact (Cert.KRIdent.KP.pre_v215_apply (LK m c) 1 k q).symm

end

section
variable
  (I1 : (U m c (Proc.devRef .tc Cert.KernelIdeal.main_v78) : FVec Ideal Cert.KernelIdeal.S8192x4 .f32) = Cert.ReferenceIdeal.RR.Wpre LR (Proc.devRef .tc Cert.ReferenceIdeal.main_v78))
  (I2 : (U m c (Proc.devRef .tc Cert.KernelIdeal.main_v211) : FVec Ideal Cert.KernelIdeal.S8192x4 .f32) = Cert.ReferenceIdeal.RR.Wmid LR (Proc.devRef .tc Cert.ReferenceIdeal.main_v240))
  (I3y0 : ∀ (q : Fin 8192) (k : Fin 4), (Cert.ReferenceIdeal.RR.Wpre LR (Proc.devRef .tc Cert.ReferenceIdeal.main_v80) : FVec Ideal Cert.ReferenceIdeal.S8192x4 .f32) (ix2 q k)
      = (U m c (Proc.devRef .tc Cert.KernelIdeal.main_v1) : FVec Ideal Cert.KernelIdeal.S2x8192x4 .f32) (ix3 (0 : Fin 2) q k))
  (I3y1 : ∀ (q : Fin 8192) (k : Fin 4), (Cert.ReferenceIdeal.RR.Wmid LR (Proc.devRef .tc Cert.ReferenceIdeal.main_v242) : FVec Ideal Cert.ReferenceIdeal.S8192x4 .f32) (ix2 q k)
      = (U m c (Proc.devRef .tc Cert.KernelIdeal.main_v1) : FVec Ideal Cert.KernelIdeal.S2x8192x4 .f32) (ix3 (1 : Fin 2) q k))
  (I4 : (U m c (Proc.devRef .tc Cert.KernelIdeal.main_v74) : FVec Ideal Cert.KernelIdeal.S4x4 .f32) = Cert.ReferenceIdeal.RR.Wpre LR (Proc.devRef .tc Cert.ReferenceIdeal.main_v74))
  (I5 : (U m c (Proc.devRef .tc Cert.KernelIdeal.main_v206) : FVec Ideal Cert.KernelIdeal.S4x4 .f32) = Cert.ReferenceIdeal.RR.Wmid LR (Proc.devRef .tc Cert.ReferenceIdeal.main_v235))
  (I10 : (U m c (Proc.devRef .tc Cert.KernelIdeal.main_arg4) : FVec Ideal Cert.KernelIdeal.S2 .f32) = LK m c (Proc.devRef .tc Cert.KernelIdeal.main_arg4))
  (HW : (LR (Proc.devRef .tc Cert.ReferenceIdeal.main_arg4) : FVec Ideal Cert.ReferenceIdeal.S2 .f32) = LK m c (Proc.devRef .tc Cert.KernelIdeal.main_arg4))
  (hXr : AllReal (Cert.KernelIdeal.KF.V0 m c (Proc.devRef .tc Cert.KernelIdeal.main_v214) : Cert.KernelIdeal.S2x8192x4.Idx → EReal))
  (hYr : AllReal (Cert.KernelIdeal.KF.V0 m c (Proc.devRef .tc Cert.KernelIdeal.main_v215) : Cert.KernelIdeal.S2x4x8192.Idx → EReal))

include I1 I3y0 hXr hYr in
/-- The base part's objective. -/
theorem res1 : (StableHlo.after (Cert.ReferenceIdeal.RR.ops (F := Ideal)) LR (Proc.devRef .tc Cert.ReferenceIdeal.main_v104) : FVec Ideal Cert.ReferenceIdeal.S_ .f32)
    = Cert.KernelIdeal.KA.AT m c Cert.KernelIdeal.main_v233 := by
  rw [Cert.ReferenceIdeal.RR.r1, Cert.KernelIdeal.KA.AT_v233]
  funext i
  exact (obj0 m c LR I1 I3y0 hXr hYr i).symm

include I2 I3y1 hXr hYr in
/-- The child part's objective, as a one-entry vector. -/
theorem res2 : (StableHlo.after (Cert.ReferenceIdeal.RR.ops (F := Ideal)) LR (Proc.devRef .tc Cert.ReferenceIdeal.main_v273) : FVec Ideal Cert.ReferenceIdeal.S1 .f32)
    = Cert.KernelIdeal.KA.AT m c Cert.KernelIdeal.main_v245 := by
  rw [Cert.ReferenceIdeal.RR.r3, Cert.ReferenceIdeal.RR.r2, Cert.KernelIdeal.KA.AT_v245]
  funext j
  rw [Cert.ReferenceIdeal.RR.bcastScalar_apply _ j ValueIdx.ix0]
  exact (obj1 m c LR I2 I3y1 hXr hYr ValueIdx.ix0).symm

include I1 I2 I3y0 I3y1 I10 HW hXr hYr in
/-- The weighted mean of the two objectives. -/
theorem res0 : (StableHlo.after (Cert.ReferenceIdeal.RR.ops (F := Ideal)) LR (Proc.devRef .tc Cert.ReferenceIdeal.main_v271) : FVec Ideal Cert.ReferenceIdeal.S_ .f32)
    = Cert.KernelIdeal.KA.AT m c Cert.KernelIdeal.main_v243 := by
  rw [Cert.ReferenceIdeal.RR.r0, Cert.ReferenceIdeal.RR.r1, Cert.ReferenceIdeal.RR.r2, Cert.KernelIdeal.KA.AT_v243]
  funext i
  rw [Cert.ReferenceIdeal.RR.endR_apply, ← obj0 m c LR I1 I3y0 hXr hYr i, ← obj1 m c LR I2 I3y1 hXr hYr i]
  have hw : Cert.KernelIdeal.KA.wts m c = LR (Proc.devRef .tc Cert.ReferenceIdeal.main_arg4) := by
    show Cert.KernelIdeal.KF.V0 m c (Proc.devRef .tc Cert.KernelIdeal.main_arg4) = _
    rw [V0_eq, Cert.KRIdent.KP.pre_keep (LK m c) Cert.KernelIdeal.main_arg4 (by decide), HW]
    exact I10
  rw [hw]

include I4 in
/-- The base transform. -/
theorem res3 : (StableHlo.after (Cert.ReferenceIdeal.RR.ops (F := Ideal)) LR (Proc.devRef .tc Cert.ReferenceIdeal.main_v74) : FVec Ideal Cert.ReferenceIdeal.S4x4 .f32)
    = Cert.KernelIdeal.KA.AT m c Cert.KernelIdeal.main_v74 := by
  rw [Cert.ReferenceIdeal.RR.r5, Cert.KernelIdeal.KA.AT_v74, ← I4, V0_eq]
  exact (Cert.KRIdent.KP.pre_keep (LK m c) Cert.KernelIdeal.main_v74 (by decide)).symm

include I5 in
/-- The joint's transform, with a leading unit axis. -/
theorem res4 : (StableHlo.after (Cert.ReferenceIdeal.RR.ops (F := Ideal)) LR (Proc.devRef .tc Cert.ReferenceIdeal.main_v272) : FVec Ideal Cert.ReferenceIdeal.S1x4x4 .f32)
    = Cert.KernelIdeal.KA.AT m c Cert.KernelIdeal.main_v244 := by
  rw [Cert.ReferenceIdeal.RR.r4, Cert.KernelIdeal.KA.AT_v244, ← I5, V0_eq, Cert.KRIdent.KP.pre_keep (LK m c) Cert.KernelIdeal.main_v206 (by decide)]

end

end Cert.Alg

end
-- ==== Proof.KRTac.lean ====
/-
  Reading a line of host operations through its concatenations.
-/
import Idealize.ShloMosaic.Lib.StableHlo.Run
import Mathlib.Data.Fin.VecNotation

namespace Cert.KRIdent

open Idealize.ShloMosaic

/-! ## Reading through concatenations

The one-pass reading of a line of operations stops at a concatenation: its operands stand in pairs `⟨shape, ·⟩`, where
rewriting by congruence is refused (the component's type is the operand reference's only after computing the
signature's tables). The operands' readings are then left as they are — `(op.result F) ↑r`. `read_all` goes on below
them: it names such a leaf (replacing it by a variable, which is sound wherever it stands), reads it alone, where it is at
the head of an equation, substitutes the reading, and repeats until no leaf is left. -/

/-- The one-pass reading (Lib/StableHlo/Run.lean's), with the literal vectors of references of the many-operand
    concatenations evaluated at their literal positions. -/
macro "ars" : tactic =>
  `(tactic| (simp (disch := decide) only [StableHlo.after_cons, StableHlo.after_nil,
      StableHlo.nullary_result', StableHlo.unary_result', StableHlo.binary_result', StableHlo.reshape_result',
      StableHlo.nary_result', Matrix.cons_val,
      StableHlo.nullary_result_ne', StableHlo.unary_result_ne', StableHlo.binary_result_ne', StableHlo.reshape_result_ne',
      StableHlo.nary_result_ne']))
macro "arsAt " h:ident : tactic =>
  `(tactic| (simp (disch := decide) only [StableHlo.after_cons, StableHlo.after_nil,
      StableHlo.nullary_result', StableHlo.unary_result', StableHlo.binary_result', StableHlo.reshape_result',
      StableHlo.nary_result', Matrix.cons_val,
      StableHlo.nullary_result_ne', StableHlo.unary_result_ne', StableHlo.binary_result_ne', StableHlo.reshape_result_ne',
      StableHlo.nary_result_ne'] at $h:ident))

open Lean Meta Elab Tactic in
/-- Name the outermost reading `(op.result F) ↑r` left in the goal: the goal with a variable in its place, and the
    equation between the reading and the variable as the hypothesis `h`. -/
elab "grab_leaf " h:ident : tactic => withMainContext do
  let g ← getMainGoal
  let tgt ← instantiateMVars (← g.getType)
  let isLeaf (e : Expr) : Bool :=
    e.isApp && e.getAppFn.isConst && e.getAppFn.constName!.toString.endsWith "HloOp.result"
      && e.appArg!.isApp && e.appArg!.getAppFn.isConst && e.appArg!.getAppFn.constName!.toString.endsWith "devRef"
  let some e := tgt.find? isLeaf | throwError "grab_leaf: no reading is left in the goal"
  let (_, g') ← g.generalize #[{ expr := e, xName? := some `tleaf, hName? := some h.getId }]
  replaceMainGoal [g']

/-- Read a goal about `after … ↑r` down to the initial contents, through concatenations. -/
macro "read_all" : tactic => `(tactic| (ars; repeat (grab_leaf hleaf; arsAt hleaf; subst hleaf)))

end Cert.KRIdent
-- ==== Proof.KRStepA.lean ====
/-
  The kernel program's and the reference's host operations, piece against piece (pieces 0 to 4): contents that agree on what the pieces read agree, after them, on what the later pieces read.
-/
import proofs.«128588_j377957122581_2_alg».proof.Proof.KROps
import proofs.«128588_j377957122581_2_alg».proof.Proof.RRead
import proofs.«128588_j377957122581_2_alg».proof.Proof.KRTac

set_option synthInstance.maxSize 4096
set_option maxRecDepth 8192

noncomputable section

namespace Cert.KRIdent

open Idealize.ShloMosaic Idealize.SL.Sem
open Cert

set_option maxHeartbeats 4000000 in
/-- Piece 0: contents agreeing on what the two pieces read (and on what later pieces read) still agree, after the
    pieces, on what the later pieces read. -/
theorem step0 (VK : Valuation KernelIdeal.τ KernelIdeal.sig (Elt Ideal)) (VR : ReferenceIdeal.RR.VI)
    (h_arg0 : VK (Proc.devRef .tc KernelIdeal.main_arg0) = VR (Proc.devRef .tc ReferenceIdeal.main_arg0))
    (h_arg1 : VK (Proc.devRef .tc KernelIdeal.main_arg1) = VR (Proc.devRef .tc ReferenceIdeal.main_arg1))
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg5 : VK (Proc.devRef .tc KernelIdeal.main_arg5) = VR (Proc.devRef .tc ReferenceIdeal.main_arg5))
    (h_arg6 : VK (Proc.devRef .tc KernelIdeal.main_arg6) = VR (Proc.devRef .tc ReferenceIdeal.main_arg6))
    (h_arg7 : VK (Proc.devRef .tc KernelIdeal.main_arg7) = VR (Proc.devRef .tc ReferenceIdeal.main_arg7)) :
    StableHlo.after (KernelIdeal.Gen.hostOps0 (F := Ideal)) VK (Proc.devRef .tc KernelIdeal.main_arg2) = StableHlo.after (ReferenceIdeal.RR.p0 (F := Ideal)) VR (Proc.devRef .tc ReferenceIdeal.main_arg2)
      ∧ StableHlo.after (KernelIdeal.Gen.hostOps0 (F := Ideal)) VK (Proc.devRef .tc KernelIdeal.main_arg3) = StableHlo.after (ReferenceIdeal.RR.p0 (F := Ideal)) VR (Proc.devRef .tc ReferenceIdeal.main_arg3)
      ∧ StableHlo.after (KernelIdeal.Gen.hostOps0 (F := Ideal)) VK (Proc.devRef .tc KernelIdeal.main_arg5) = StableHlo.after (ReferenceIdeal.RR.p0 (F := Ideal)) VR (Proc.devRef .tc ReferenceIdeal.main_arg5)
      ∧ StableHlo.after (KernelIdeal.Gen.hostOps0 (F := Ideal)) VK (Proc.devRef .tc KernelIdeal.main_arg6) = StableHlo.after (ReferenceIdeal.RR.p0 (F := Ideal)) VR (Proc.devRef .tc ReferenceIdeal.main_arg6)
      ∧ StableHlo.after (KernelIdeal.Gen.hostOps0 (F := Ideal)) VK (Proc.devRef .tc KernelIdeal.main_arg7) = StableHlo.after (ReferenceIdeal.RR.p0 (F := Ideal)) VR (Proc.devRef .tc ReferenceIdeal.main_arg7)
      ∧ StableHlo.after (KernelIdeal.Gen.hostOps0 (F := Ideal)) VK (Proc.devRef .tc KernelIdeal.main_cst) = StableHlo.after (ReferenceIdeal.RR.p0 (F := Ideal)) VR (Proc.devRef .tc ReferenceIdeal.main_cst)
      ∧ StableHlo.after (KernelIdeal.Gen.hostOps0 (F := Ideal)) VK (Proc.devRef .tc KernelIdeal.main_cst_0) = StableHlo.after (ReferenceIdeal.RR.p0 (F := Ideal)) VR (Proc.devRef .tc ReferenceIdeal.main_cst_0)
      ∧ StableHlo.after (KernelIdeal.Gen.hostOps0 (F := Ideal)) VK (Proc.devRef .tc KernelIdeal.main_v1) = StableHlo.after (ReferenceIdeal.RR.p0 (F := Ideal)) VR (Proc.devRef .tc ReferenceIdeal.main_v1)
      ∧ StableHlo.after (KernelIdeal.Gen.hostOps0 (F := Ideal)) VK (Proc.devRef .tc KernelIdeal.main_v2) = StableHlo.after (ReferenceIdeal.RR.p0 (F := Ideal)) VR (Proc.devRef .tc ReferenceIdeal.main_v2) := by
  refine ⟨?_, ?_, ?_, ?_, ?_, ?_, ?_, ?_, ?_⟩
  · rw [KP.k0_keeps KernelIdeal.main_arg2 (by decide), ReferenceIdeal.RR.p0_keeps ReferenceIdeal.main_arg2 (by decide)]; exact h_arg2
  · rw [KP.k0_keeps KernelIdeal.main_arg3 (by decide), ReferenceIdeal.RR.p0_keeps ReferenceIdeal.main_arg3 (by decide)]; exact h_arg3
  · rw [KP.k0_keeps KernelIdeal.main_arg5 (by decide), ReferenceIdeal.RR.p0_keeps ReferenceIdeal.main_arg5 (by decide)]; exact h_arg5
  · rw [KP.k0_keeps KernelIdeal.main_arg6 (by decide), ReferenceIdeal.RR.p0_keeps ReferenceIdeal.main_arg6 (by decide)]; exact h_arg6
  · rw [KP.k0_keeps KernelIdeal.main_arg7 (by decide), ReferenceIdeal.RR.p0_keeps ReferenceIdeal.main_arg7 (by decide)]; exact h_arg7
  · read_all
    (try rw [h_arg0]); (try rw [h_arg1]); (try rw [h_arg2]); (try rw [h_arg3]); (try rw [h_arg5]); (try rw [h_arg6]); (try rw [h_arg7])
    try rfl
  · read_all
    (try rw [h_arg0]); (try rw [h_arg1]); (try rw [h_arg2]); (try rw [h_arg3]); (try rw [h_arg5]); (try rw [h_arg6]); (try rw [h_arg7])
    try rfl
  · read_all
    (try rw [h_arg0]); (try rw [h_arg1]); (try rw [h_arg2]); (try rw [h_arg3]); (try rw [h_arg5]); (try rw [h_arg6]); (try rw [h_arg7])
    try rfl
  · read_all
    (try rw [h_arg0]); (try rw [h_arg1]); (try rw [h_arg2]); (try rw [h_arg3]); (try rw [h_arg5]); (try rw [h_arg6]); (try rw [h_arg7])
    try rfl

set_option maxHeartbeats 4000000 in
/-- Piece 1: contents agreeing on what the two pieces read (and on what later pieces read) still agree, after the
    pieces, on what the later pieces read. -/
theorem step1 (VK : Valuation KernelIdeal.τ KernelIdeal.sig (Elt Ideal)) (VR : ReferenceIdeal.RR.VI)
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg5 : VK (Proc.devRef .tc KernelIdeal.main_arg5) = VR (Proc.devRef .tc ReferenceIdeal.main_arg5))
    (h_arg6 : VK (Proc.devRef .tc KernelIdeal.main_arg6) = VR (Proc.devRef .tc ReferenceIdeal.main_arg6))
    (h_arg7 : VK (Proc.devRef .tc KernelIdeal.main_arg7) = VR (Proc.devRef .tc ReferenceIdeal.main_arg7))
    (h_cst : VK (Proc.devRef .tc KernelIdeal.main_cst) = VR (Proc.devRef .tc ReferenceIdeal.main_cst))
    (h_cst_0 : VK (Proc.devRef .tc KernelIdeal.main_cst_0) = VR (Proc.devRef .tc ReferenceIdeal.main_cst_0))
    (h_v1 : VK (Proc.devRef .tc KernelIdeal.main_v1) = VR (Proc.devRef .tc ReferenceIdeal.main_v1))
    (h_v2 : VK (Proc.devRef .tc KernelIdeal.main_v2) = VR (Proc.devRef .tc ReferenceIdeal.main_v2)) :
    StableHlo.after (KernelIdeal.Gen.hostOps0_1 (F := Ideal)) VK (Proc.devRef .tc KernelIdeal.main_arg2) = StableHlo.after (ReferenceIdeal.RR.p1 (F := Ideal)) VR (Proc.devRef .tc ReferenceIdeal.main_arg2)
      ∧ StableHlo.after (KernelIdeal.Gen.hostOps0_1 (F := Ideal)) VK (Proc.devRef .tc KernelIdeal.main_arg3) = StableHlo.after (ReferenceIdeal.RR.p1 (F := Ideal)) VR (Proc.devRef .tc ReferenceIdeal.main_arg3)
      ∧ StableHlo.after (KernelIdeal.Gen.hostOps0_1 (F := Ideal)) VK (Proc.devRef .tc KernelIdeal.main_arg5) = StableHlo.after (ReferenceIdeal.RR.p1 (F := Ideal)) VR (Proc.devRef .tc ReferenceIdeal.main_arg5)
      ∧ StableHlo.after (KernelIdeal.Gen.hostOps0_1 (F := Ideal)) VK (Proc.devRef .tc KernelIdeal.main_arg6) = StableHlo.after (ReferenceIdeal.RR.p1 (F := Ideal)) VR (Proc.devRef .tc ReferenceIdeal.main_arg6)
      ∧ StableHlo.after (KernelIdeal.Gen.hostOps0_1 (F := Ideal)) VK (Proc.devRef .tc KernelIdeal.main_arg7) = StableHlo.after (ReferenceIdeal.RR.p1 (F := Ideal)) VR (Proc.devRef .tc ReferenceIdeal.main_arg7)
      ∧ StableHlo.after (KernelIdeal.Gen.hostOps0_1 (F := Ideal)) VK (Proc.devRef .tc KernelIdeal.main_cst) = StableHlo.after (ReferenceIdeal.RR.p1 (F := Ideal)) VR (Proc.devRef .tc ReferenceIdeal.main_cst)
      ∧ StableHlo.after (KernelIdeal.Gen.hostOps0_1 (F := Ideal)) VK (Proc.devRef .tc KernelIdeal.main_cst_0) = StableHlo.after (ReferenceIdeal.RR.p1 (F := Ideal)) VR (Proc.devRef .tc ReferenceIdeal.main_cst_0)
      ∧ StableHlo.after (KernelIdeal.Gen.hostOps0_1 (F := Ideal)) VK (Proc.devRef .tc KernelIdeal.main_v1) = StableHlo.after (ReferenceIdeal.RR.p1 (F := Ideal)) VR (Proc.devRef .tc ReferenceIdeal.main_v1)
      ∧ StableHlo.after (KernelIdeal.Gen.hostOps0_1 (F := Ideal)) VK (Proc.devRef .tc KernelIdeal.main_v2) = StableHlo.after (ReferenceIdeal.RR.p1 (F := Ideal)) VR (Proc.devRef .tc ReferenceIdeal.main_v2)
      ∧ StableHlo.after (KernelIdeal.Gen.hostOps0_1 (F := Ideal)) VK (Proc.devRef .tc KernelIdeal.main_v3) = StableHlo.after (ReferenceIdeal.RR.p1 (F := Ideal)) VR (Proc.devRef .tc ReferenceIdeal.main_v3) := by
  refine ⟨?_, ?_, ?_, ?_, ?_, ?_, ?_, ?_, ?_, ?_⟩
  · rw [KP.k1_keeps KernelIdeal.main_arg2 (by decide), ReferenceIdeal.RR.p1_keeps ReferenceIdeal.main_arg2 (by decide)]; exact h_arg2
  · rw [KP.k1_keeps KernelIdeal.main_arg3 (by decide), ReferenceIdeal.RR.p1_keeps ReferenceIdeal.main_arg3 (by decide)]; exact h_arg3
  · rw [KP.k1_keeps KernelIdeal.main_arg5 (by decide), ReferenceIdeal.RR.p1_keeps ReferenceIdeal.main_arg5 (by decide)]; exact h_arg5
  · rw [KP.k1_keeps KernelIdeal.main_arg6 (by decide), ReferenceIdeal.RR.p1_keeps ReferenceIdeal.main_arg6 (by decide)]; exact h_arg6
  · rw [KP.k1_keeps KernelIdeal.main_arg7 (by decide), ReferenceIdeal.RR.p1_keeps ReferenceIdeal.main_arg7 (by decide)]; exact h_arg7
  · rw [KP.k1_keeps KernelIdeal.main_cst (by decide), ReferenceIdeal.RR.p1_keeps ReferenceIdeal.main_cst (by decide)]; exact h_cst
  · rw [KP.k1_keeps KernelIdeal.main_cst_0 (by decide), ReferenceIdeal.RR.p1_keeps ReferenceIdeal.main_cst_0 (by decide)]; exact h_cst_0
  · rw [KP.k1_keeps KernelIdeal.main_v1 (by decide), ReferenceIdeal.RR.p1_keeps ReferenceIdeal.main_v1 (by decide)]; exact h_v1
  · rw [KP.k1_keeps KernelIdeal.main_v2 (by decide), ReferenceIdeal.RR.p1_keeps ReferenceIdeal.main_v2 (by decide)]; exact h_v2
  · read_all
    (try rw [h_arg2]); (try rw [h_arg3]); (try rw [h_arg5]); (try rw [h_arg6]); (try rw [h_arg7]); (try rw [h_cst]); (try rw [h_cst_0]); (try rw [h_v1]); (try rw [h_v2])
    try rfl

set_option maxHeartbeats 4000000 in
/-- Piece 2: contents agreeing on what the two pieces read (and on what later pieces read) still agree, after the
    pieces, on what the later pieces read. -/
theorem step2 (VK : Valuation KernelIdeal.τ KernelIdeal.sig (Elt Ideal)) (VR : ReferenceIdeal.RR.VI)
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg5 : VK (Proc.devRef .tc KernelIdeal.main_arg5) = VR (Proc.devRef .tc ReferenceIdeal.main_arg5))
    (h_arg6 : VK (Proc.devRef .tc KernelIdeal.main_arg6) = VR (Proc.devRef .tc ReferenceIdeal.main_arg6))
    (h_arg7 : VK (Proc.devRef .tc KernelIdeal.main_arg7) = VR (Proc.devRef .tc ReferenceIdeal.main_arg7))
    (h_cst : VK (Proc.devRef .tc KernelIdeal.main_cst) = VR (Proc.devRef .tc ReferenceIdeal.main_cst))
    (h_cst_0 : VK (Proc.devRef .tc KernelIdeal.main_cst_0) = VR (Proc.devRef .tc ReferenceIdeal.main_cst_0))
    (h_v1 : VK (Proc.devRef .tc KernelIdeal.main_v1) = VR (Proc.devRef .tc ReferenceIdeal.main_v1))
    (h_v2 : VK (Proc.devRef .tc KernelIdeal.main_v2) = VR (Proc.devRef .tc ReferenceIdeal.main_v2))
    (h_v3 : VK (Proc.devRef .tc KernelIdeal.main_v3) = VR (Proc.devRef .tc ReferenceIdeal.main_v3)) :
    StableHlo.after (KP.k2 (F := Ideal)) VK (Proc.devRef .tc KernelIdeal.main_arg2) = StableHlo.after (ReferenceIdeal.RR.p2 (F := Ideal)) VR (Proc.devRef .tc ReferenceIdeal.main_arg2)
      ∧ StableHlo.after (KP.k2 (F := Ideal)) VK (Proc.devRef .tc KernelIdeal.main_arg3) = StableHlo.after (ReferenceIdeal.RR.p2 (F := Ideal)) VR (Proc.devRef .tc ReferenceIdeal.main_arg3)
      ∧ StableHlo.after (KP.k2 (F := Ideal)) VK (Proc.devRef .tc KernelIdeal.main_arg6) = StableHlo.after (ReferenceIdeal.RR.p2 (F := Ideal)) VR (Proc.devRef .tc ReferenceIdeal.main_arg6)
      ∧ StableHlo.after (KP.k2 (F := Ideal)) VK (Proc.devRef .tc KernelIdeal.main_arg7) = StableHlo.after (ReferenceIdeal.RR.p2 (F := Ideal)) VR (Proc.devRef .tc ReferenceIdeal.main_arg7)
      ∧ StableHlo.after (KP.k2 (F := Ideal)) VK (Proc.devRef .tc KernelIdeal.main_cst) = StableHlo.after (ReferenceIdeal.RR.p2 (F := Ideal)) VR (Proc.devRef .tc ReferenceIdeal.main_cst)
      ∧ StableHlo.after (KP.k2 (F := Ideal)) VK (Proc.devRef .tc KernelIdeal.main_cst_0) = StableHlo.after (ReferenceIdeal.RR.p2 (F := Ideal)) VR (Proc.devRef .tc ReferenceIdeal.main_cst_0)
      ∧ StableHlo.after (KP.k2 (F := Ideal)) VK (Proc.devRef .tc KernelIdeal.main_v1) = StableHlo.after (ReferenceIdeal.RR.p2 (F := Ideal)) VR (Proc.devRef .tc ReferenceIdeal.main_v1)
      ∧ StableHlo.after (KP.k2 (F := Ideal)) VK (Proc.devRef .tc KernelIdeal.main_v2) = StableHlo.after (ReferenceIdeal.RR.p2 (F := Ideal)) VR (Proc.devRef .tc ReferenceIdeal.main_v2)
      ∧ StableHlo.after (KP.k2 (F := Ideal)) VK (Proc.devRef .tc KernelIdeal.main_v7) = StableHlo.after (ReferenceIdeal.RR.p2 (F := Ideal)) VR (Proc.devRef .tc ReferenceIdeal.main_v7)
      ∧ StableHlo.after (KP.k2 (F := Ideal)) VK (Proc.devRef .tc KernelIdeal.main_v9) = StableHlo.after (ReferenceIdeal.RR.p2 (F := Ideal)) VR (Proc.devRef .tc ReferenceIdeal.main_v9)
      ∧ StableHlo.after (KP.k2 (F := Ideal)) VK (Proc.devRef .tc KernelIdeal.main_v11) = StableHlo.after (ReferenceIdeal.RR.p2 (F := Ideal)) VR (Proc.devRef .tc ReferenceIdeal.main_v11)
      ∧ StableHlo.after (KP.k2 (F := Ideal)) VK (Proc.devRef .tc KernelIdeal.main_v13) = StableHlo.after (ReferenceIdeal.RR.p2 (F := Ideal)) VR (Proc.devRef .tc ReferenceIdeal.main_v13)
      ∧ StableHlo.after (KP.k2 (F := Ideal)) VK (Proc.devRef .tc KernelIdeal.main_v19) = StableHlo.after (ReferenceIdeal.RR.p2 (F := Ideal)) VR (Proc.devRef .tc ReferenceIdeal.main_v19)
      ∧ StableHlo.after (KP.k2 (F := Ideal)) VK (Proc.devRef .tc KernelIdeal.main_v24) = StableHlo.after (ReferenceIdeal.RR.p2 (F := Ideal)) VR (Proc.devRef .tc ReferenceIdeal.main_v24)
      ∧ StableHlo.after (KP.k2 (F := Ideal)) VK (Proc.devRef .tc KernelIdeal.main_cst_7) = StableHlo.after (ReferenceIdeal.RR.p2 (F := Ideal)) VR (Proc.devRef .tc ReferenceIdeal.main_cst_7) := by
  refine ⟨?_, ?_, ?_, ?_, ?_, ?_, ?_, ?_, ?_, ?_, ?_, ?_, ?_, ?_, ?_⟩
  · rw [KP.k2_keeps KernelIdeal.main_arg2 (by decide), ReferenceIdeal.RR.p2_keeps ReferenceIdeal.main_arg2 (by decide)]; exact h_arg2
  · rw [KP.k2_keeps KernelIdeal.main_arg3 (by decide), ReferenceIdeal.RR.p2_keeps ReferenceIdeal.main_arg3 (by decide)]; exact h_arg3
  · rw [KP.k2_keeps KernelIdeal.main_arg6 (by decide), ReferenceIdeal.RR.p2_keeps ReferenceIdeal.main_arg6 (by decide)]; exact h_arg6
  · rw [KP.k2_keeps KernelIdeal.main_arg7 (by decide), ReferenceIdeal.RR.p2_keeps ReferenceIdeal.main_arg7 (by decide)]; exact h_arg7
  · rw [KP.k2_keeps KernelIdeal.main_cst (by decide), ReferenceIdeal.RR.p2_keeps ReferenceIdeal.main_cst (by decide)]; exact h_cst
  · rw [KP.k2_keeps KernelIdeal.main_cst_0 (by decide), ReferenceIdeal.RR.p2_keeps ReferenceIdeal.main_cst_0 (by decide)]; exact h_cst_0
  · rw [KP.k2_keeps KernelIdeal.main_v1 (by decide), ReferenceIdeal.RR.p2_keeps ReferenceIdeal.main_v1 (by decide)]; exact h_v1
  · rw [KP.k2_keeps KernelIdeal.main_v2 (by decide), ReferenceIdeal.RR.p2_keeps ReferenceIdeal.main_v2 (by decide)]; exact h_v2
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl
  · read_all
    (try rw [h_arg2]); (try rw [h_arg3]); (try rw [h_arg5]); (try rw [h_arg6]); (try rw [h_arg7]); (try rw [h_cst]); (try rw [h_cst_0]); (try rw [h_v1]); (try rw [h_v2]); (try rw [h_v3])
    try rfl

set_option maxHeartbeats 4000000 in
/-- Piece 3: contents agreeing on what the two pieces read (and on what later pieces read) still agree, after the
    pieces, on what the later pieces read. -/
theorem step3 (VK : Valuation KernelIdeal.τ KernelIdeal.sig (Elt Ideal)) (VR : ReferenceIdeal.RR.VI)
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg6 : VK (Proc.devRef .tc KernelIdeal.main_arg6) = VR (Proc.devRef .tc ReferenceIdeal.main_arg6))
    (h_arg7 : VK (Proc.devRef .tc KernelIdeal.main_arg7) = VR (Proc.devRef .tc ReferenceIdeal.main_arg7))
    (h_cst : VK (Proc.devRef .tc KernelIdeal.main_cst) = VR (Proc.devRef .tc ReferenceIdeal.main_cst))
    (h_cst_0 : VK (Proc.devRef .tc KernelIdeal.main_cst_0) = VR (Proc.devRef .tc ReferenceIdeal.main_cst_0))
    (h_v1 : VK (Proc.devRef .tc KernelIdeal.main_v1) = VR (Proc.devRef .tc ReferenceIdeal.main_v1))
    (h_v2 : VK (Proc.devRef .tc KernelIdeal.main_v2) = VR (Proc.devRef .tc ReferenceIdeal.main_v2))
    (h_v7 : VK (Proc.devRef .tc KernelIdeal.main_v7) = VR (Proc.devRef .tc ReferenceIdeal.main_v7))
    (h_v9 : VK (Proc.devRef .tc KernelIdeal.main_v9) = VR (Proc.devRef .tc ReferenceIdeal.main_v9))
    (h_v11 : VK (Proc.devRef .tc KernelIdeal.main_v11) = VR (Proc.devRef .tc ReferenceIdeal.main_v11))
    (h_v13 : VK (Proc.devRef .tc KernelIdeal.main_v13) = VR (Proc.devRef .tc ReferenceIdeal.main_v13))
    (h_v19 : VK (Proc.devRef .tc KernelIdeal.main_v19) = VR (Proc.devRef .tc ReferenceIdeal.main_v19))
    (h_v24 : VK (Proc.devRef .tc KernelIdeal.main_v24) = VR (Proc.devRef .tc ReferenceIdeal.main_v24))
    (h_cst_7 : VK (Proc.devRef .tc KernelIdeal.main_cst_7) = VR (Proc.devRef .tc ReferenceIdeal.main_cst_7)) :
    StableHlo.after (KP.k3 (F := Ideal)) VK (Proc.devRef .tc KernelIdeal.main_arg2) = StableHlo.after (ReferenceIdeal.RR.p3 (F := Ideal)) VR (Proc.devRef .tc ReferenceIdeal.main_arg2)
      ∧ StableHlo.after (KP.k3 (F := Ideal)) VK (Proc.devRef .tc KernelIdeal.main_arg3) = StableHlo.after (ReferenceIdeal.RR.p3 (F := Ideal)) VR (Proc.devRef .tc ReferenceIdeal.main_arg3)
      ∧ StableHlo.after (KP.k3 (F := Ideal)) VK (Proc.devRef .tc KernelIdeal.main_arg6) = StableHlo.after (ReferenceIdeal.RR.p3 (F := Ideal)) VR (Proc.devRef .tc ReferenceIdeal.main_arg6)
      ∧ StableHlo.after (KP.k3 (F := Ideal)) VK (Proc.devRef .tc KernelIdeal.main_arg7) = StableHlo.after (ReferenceIdeal.RR.p3 (F := Ideal)) VR (Proc.devRef .tc ReferenceIdeal.main_arg7)
      ∧ StableHlo.after (KP.k3 (F := Ideal)) VK (Proc.devRef .tc KernelIdeal.main_cst) = StableHlo.after (ReferenceIdeal.RR.p3 (F := Ideal)) VR (Proc.devRef .tc ReferenceIdeal.main_cst)
      ∧ StableHlo.after (KP.k3 (F := Ideal)) VK (Proc.devRef .tc KernelIdeal.main_cst_0) = StableHlo.after (ReferenceIdeal.RR.p3 (F := Ideal)) VR (Proc.devRef .tc ReferenceIdeal.main_cst_0)
      ∧ StableHlo.after (KP.k3 (F := Ideal)) VK (Proc.devRef .tc KernelIdeal.main_v1) = StableHlo.after (ReferenceIdeal.RR.p3 (F := Ideal)) VR (Proc.devRef .tc ReferenceIdeal.main_v1)
      ∧ StableHlo.after (KP.k3 (F := Ideal)) VK (Proc.devRef .tc KernelIdeal.main_v2) = StableHlo.after (ReferenceIdeal.RR.p3 (F := Ideal)) VR (Proc.devRef .tc ReferenceIdeal.main_v2)
      ∧ StableHlo.after (KP.k3 (F := Ideal)) VK (Proc.devRef .tc KernelIdeal.main_v7) = StableHlo.after (ReferenceIdeal.RR.p3 (F := Ideal)) VR (Proc.devRef .tc ReferenceIdeal.main_v7)
      ∧ StableHlo.after (KP.k3 (F := Ideal)) VK (Proc.devRef .tc KernelIdeal.main_v9) = StableHlo.after (ReferenceIdeal.RR.p3 (F := Ideal)) VR (Proc.devRef .tc ReferenceIdeal.main_v9)
      ∧ StableHlo.after (KP.k3 (F := Ideal)) VK (Proc.devRef .tc KernelIdeal.main_v11) = StableHlo.after (ReferenceIdeal.RR.p3 (F := Ideal)) VR (Proc.devRef .tc ReferenceIdeal.main_v11)
      ∧ StableHlo.after (KP.k3 (F := Ideal)) VK (Proc.devRef .tc KernelIdeal.main_v13) = StableHlo.after (ReferenceIdeal.RR.p3 (F := Ideal)) VR (Proc.devRef .tc ReferenceIdeal.main_v13)
      ∧ StableHlo.after (KP.k3 (F := Ideal)) VK (Proc.devRef .tc KernelIdeal.main_v19) = StableHlo.after (ReferenceIdeal.RR.p3 (F := Ideal)) VR (Proc.devRef .tc ReferenceIdeal.main_v19)
      ∧ StableHlo.after (KP.k3 (F := Ideal)) VK (Proc.devRef .tc KernelIdeal.main_v24) = StableHlo.after (ReferenceIdeal.RR.p3 (F := Ideal)) VR (Proc.devRef .tc ReferenceIdeal.main_v24)
      ∧ StableHlo.after (KP.k3 (F := Ideal)) VK (Proc.devRef .tc KernelIdeal.main_v29) = StableHlo.after (ReferenceIdeal.RR.p3 (F := Ideal)) VR (Proc.devRef .tc ReferenceIdeal.main_v29)
      ∧ StableHlo.after (KP.k3 (F := Ideal)) VK (Proc.devRef .tc KernelIdeal.main_v34) = StableHlo.after (ReferenceIdeal.RR.p3 (F := Ideal)) VR (Proc.devRef .tc ReferenceIdeal.main_v34)
      ∧ StableHlo.after (KP.k3 (F := Ideal)) VK (Proc.devRef .tc KernelIdeal.main_v40) = StableHlo.after (ReferenceIdeal.RR.p3 (F := Ideal)) VR (Proc.devRef .tc ReferenceIdeal.main_v40)
      ∧ StableHlo.after (KP.k3 (F := Ideal)) VK (Proc.devRef .tc KernelIdeal.main_v42) = StableHlo.after (ReferenceIdeal.RR.p3 (F := Ideal)) VR (Proc.devRef .tc ReferenceIdeal.main_v42)
      ∧ StableHlo.after (KP.k3 (F := Ideal)) VK (Proc.devRef .tc KernelIdeal.main_cst_15) = StableHlo.after (ReferenceIdeal.RR.p3 (F := Ideal)) VR (Proc.devRef .tc ReferenceIdeal.main_cst_15) := by
  refine ⟨?_, ?_, ?_, ?_, ?_, ?_, ?_, ?_, ?_, ?_, ?_, ?_, ?_, ?_, ?_, ?_, ?_, ?_, ?_⟩
  · rw [KP.k3_keeps KernelIdeal.main_arg2 (by decide), ReferenceIdeal.RR.p3_keeps ReferenceIdeal.main_arg2 (by decide)]; exact h_arg2
  · rw [KP.k3_keeps KernelIdeal.main_arg3 (by decide), ReferenceIdeal.RR.p3_keeps ReferenceIdeal.main_arg3 (by decide)]; exact h_arg3
  · rw [KP.k3_keeps KernelIdeal.main_arg6 (by decide), ReferenceIdeal.RR.p3_keeps ReferenceIdeal.main_arg6 (by decide)]; exact h_arg6
  · rw [KP.k3_keeps KernelIdeal.main_arg7 (by decide), ReferenceIdeal.RR.p3_keeps ReferenceIdeal.main_arg7 (by decide)]; exact h_arg7
  · rw [KP.k3_keeps KernelIdeal.main_cst (by decide), ReferenceIdeal.RR.p3_keeps ReferenceIdeal.main_cst (by decide)]; exact h_cst
  · rw [KP.k3_keeps KernelIdeal.main_cst_0 (by decide), ReferenceIdeal.RR.p3_keeps ReferenceIdeal.main_cst_0 (by decide)]; exact h_cst_0
  · rw [KP.k3_keeps KernelIdeal.main_v1 (by decide), ReferenceIdeal.RR.p3_keeps ReferenceIdeal.main_v1 (by decide)]; exact h_v1
  · rw [KP.k3_keeps KernelIdeal.main_v2 (by decide), ReferenceIdeal.RR.p3_keeps ReferenceIdeal.main_v2 (by decide)]; exact h_v2
  · rw [KP.k3_keeps KernelIdeal.main_v7 (by decide), ReferenceIdeal.RR.p3_keeps ReferenceIdeal.main_v7 (by decide)]; exact h_v7
  · rw [KP.k3_keeps KernelIdeal.main_v9 (by decide), ReferenceIdeal.RR.p3_keeps ReferenceIdeal.main_v9 (by decide)]; exact h_v9
  · rw [KP.k3_keeps KernelIdeal.main_v11 (by decide), ReferenceIdeal.RR.p3_keeps ReferenceIdeal.main_v11 (by decide)]; exact h_v11
  · rw [KP.k3_keeps KernelIdeal.main_v13 (by decide), ReferenceIdeal.RR.p3_keeps ReferenceIdeal.main_v13 (by decide)]; exact h_v13
  · rw [KP.k3_keeps KernelIdeal.main_v19 (by decide), ReferenceIdeal.RR.p3_keeps ReferenceIdeal.main_v19 (by decide)]; exact h_v19
  · rw [KP.k3_keeps KernelIdeal.main_v24 (by decide), ReferenceIdeal.RR.p3_keeps ReferenceIdeal.main_v24 (by decide)]; exact h_v24
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_cst_7])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_cst_7])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_cst_7])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_cst_7])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_cst_7])
    try rfl

set_option maxHeartbeats 4000000 in
/-- Piece 4: contents agreeing on what the two pieces read (and on what later pieces read) still agree, after the
    pieces, on what the later pieces read. -/
theorem step4 (VK : Valuation KernelIdeal.τ KernelIdeal.sig (Elt Ideal)) (VR : ReferenceIdeal.RR.VI)
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg6 : VK (Proc.devRef .tc KernelIdeal.main_arg6) = VR (Proc.devRef .tc ReferenceIdeal.main_arg6))
    (h_arg7 : VK (Proc.devRef .tc KernelIdeal.main_arg7) = VR (Proc.devRef .tc ReferenceIdeal.main_arg7))
    (h_cst : VK (Proc.devRef .tc KernelIdeal.main_cst) = VR (Proc.devRef .tc ReferenceIdeal.main_cst))
    (h_cst_0 : VK (Proc.devRef .tc KernelIdeal.main_cst_0) = VR (Proc.devRef .tc ReferenceIdeal.main_cst_0))
    (h_v1 : VK (Proc.devRef .tc KernelIdeal.main_v1) = VR (Proc.devRef .tc ReferenceIdeal.main_v1))
    (h_v2 : VK (Proc.devRef .tc KernelIdeal.main_v2) = VR (Proc.devRef .tc ReferenceIdeal.main_v2))
    (h_v7 : VK (Proc.devRef .tc KernelIdeal.main_v7) = VR (Proc.devRef .tc ReferenceIdeal.main_v7))
    (h_v9 : VK (Proc.devRef .tc KernelIdeal.main_v9) = VR (Proc.devRef .tc ReferenceIdeal.main_v9))
    (h_v11 : VK (Proc.devRef .tc KernelIdeal.main_v11) = VR (Proc.devRef .tc ReferenceIdeal.main_v11))
    (h_v13 : VK (Proc.devRef .tc KernelIdeal.main_v13) = VR (Proc.devRef .tc ReferenceIdeal.main_v13))
    (h_v19 : VK (Proc.devRef .tc KernelIdeal.main_v19) = VR (Proc.devRef .tc ReferenceIdeal.main_v19))
    (h_v24 : VK (Proc.devRef .tc KernelIdeal.main_v24) = VR (Proc.devRef .tc ReferenceIdeal.main_v24))
    (h_v29 : VK (Proc.devRef .tc KernelIdeal.main_v29) = VR (Proc.devRef .tc ReferenceIdeal.main_v29))
    (h_v34 : VK (Proc.devRef .tc KernelIdeal.main_v34) = VR (Proc.devRef .tc ReferenceIdeal.main_v34))
    (h_v40 : VK (Proc.devRef .tc KernelIdeal.main_v40) = VR (Proc.devRef .tc ReferenceIdeal.main_v40))
    (h_v42 : VK (Proc.devRef .tc KernelIdeal.main_v42) = VR (Proc.devRef .tc ReferenceIdeal.main_v42))
    (h_cst_15 : VK (Proc.devRef .tc KernelIdeal.main_cst_15) = VR (Proc.devRef .tc ReferenceIdeal.main_cst_15)) :
    StableHlo.after (KP.k4 (F := Ideal)) VK (Proc.devRef .tc KernelIdeal.main_arg2) = StableHlo.after (ReferenceIdeal.RR.p4 (F := Ideal)) VR (Proc.devRef .tc ReferenceIdeal.main_arg2)
      ∧ StableHlo.after (KP.k4 (F := Ideal)) VK (Proc.devRef .tc KernelIdeal.main_arg3) = StableHlo.after (ReferenceIdeal.RR.p4 (F := Ideal)) VR (Proc.devRef .tc ReferenceIdeal.main_arg3)
      ∧ StableHlo.after (KP.k4 (F := Ideal)) VK (Proc.devRef .tc KernelIdeal.main_arg6) = StableHlo.after (ReferenceIdeal.RR.p4 (F := Ideal)) VR (Proc.devRef .tc ReferenceIdeal.main_arg6)
      ∧ StableHlo.after (KP.k4 (F := Ideal)) VK (Proc.devRef .tc KernelIdeal.main_arg7) = StableHlo.after (ReferenceIdeal.RR.p4 (F := Ideal)) VR (Proc.devRef .tc ReferenceIdeal.main_arg7)
      ∧ StableHlo.after (KP.k4 (F := Ideal)) VK (Proc.devRef .tc KernelIdeal.main_cst) = StableHlo.after (ReferenceIdeal.RR.p4 (F := Ideal)) VR (Proc.devRef .tc ReferenceIdeal.main_cst)
      ∧ StableHlo.after (KP.k4 (F := Ideal)) VK (Proc.devRef .tc KernelIdeal.main_cst_0) = StableHlo.after (ReferenceIdeal.RR.p4 (F := Ideal)) VR (Proc.devRef .tc ReferenceIdeal.main_cst_0)
      ∧ StableHlo.after (KP.k4 (F := Ideal)) VK (Proc.devRef .tc KernelIdeal.main_v1) = StableHlo.after (ReferenceIdeal.RR.p4 (F := Ideal)) VR (Proc.devRef .tc ReferenceIdeal.main_v1)
      ∧ StableHlo.after (KP.k4 (F := Ideal)) VK (Proc.devRef .tc KernelIdeal.main_v2) = StableHlo.after (ReferenceIdeal.RR.p4 (F := Ideal)) VR (Proc.devRef .tc ReferenceIdeal.main_v2)
      ∧ StableHlo.after (KP.k4 (F := Ideal)) VK (Proc.devRef .tc KernelIdeal.main_v11) = StableHlo.after (ReferenceIdeal.RR.p4 (F := Ideal)) VR (Proc.devRef .tc ReferenceIdeal.main_v11)
      ∧ StableHlo.after (KP.k4 (F := Ideal)) VK (Proc.devRef .tc KernelIdeal.main_v19) = StableHlo.after (ReferenceIdeal.RR.p4 (F := Ideal)) VR (Proc.devRef .tc ReferenceIdeal.main_v19)
      ∧ StableHlo.after (KP.k4 (F := Ideal)) VK (Proc.devRef .tc KernelIdeal.main_v24) = StableHlo.after (ReferenceIdeal.RR.p4 (F := Ideal)) VR (Proc.devRef .tc ReferenceIdeal.main_v24)
      ∧ StableHlo.after (KP.k4 (F := Ideal)) VK (Proc.devRef .tc KernelIdeal.main_v29) = StableHlo.after (ReferenceIdeal.RR.p4 (F := Ideal)) VR (Proc.devRef .tc ReferenceIdeal.main_v29)
      ∧ StableHlo.after (KP.k4 (F := Ideal)) VK (Proc.devRef .tc KernelIdeal.main_v34) = StableHlo.after (ReferenceIdeal.RR.p4 (F := Ideal)) VR (Proc.devRef .tc ReferenceIdeal.main_v34)
      ∧ StableHlo.after (KP.k4 (F := Ideal)) VK (Proc.devRef .tc KernelIdeal.main_v40) = StableHlo.after (ReferenceIdeal.RR.p4 (F := Ideal)) VR (Proc.devRef .tc ReferenceIdeal.main_v40)
      ∧ StableHlo.after (KP.k4 (F := Ideal)) VK (Proc.devRef .tc KernelIdeal.main_v45) = StableHlo.after (ReferenceIdeal.RR.p4 (F := Ideal)) VR (Proc.devRef .tc ReferenceIdeal.main_v45)
      ∧ StableHlo.after (KP.k4 (F := Ideal)) VK (Proc.devRef .tc KernelIdeal.main_v50) = StableHlo.after (ReferenceIdeal.RR.p4 (F := Ideal)) VR (Proc.devRef .tc ReferenceIdeal.main_v50)
      ∧ StableHlo.after (KP.k4 (F := Ideal)) VK (Proc.devRef .tc KernelIdeal.main_v55) = StableHlo.after (ReferenceIdeal.RR.p4 (F := Ideal)) VR (Proc.devRef .tc ReferenceIdeal.main_v55)
      ∧ StableHlo.after (KP.k4 (F := Ideal)) VK (Proc.devRef .tc KernelIdeal.main_v58) = StableHlo.after (ReferenceIdeal.RR.p4 (F := Ideal)) VR (Proc.devRef .tc ReferenceIdeal.main_v58)
      ∧ StableHlo.after (KP.k4 (F := Ideal)) VK (Proc.devRef .tc KernelIdeal.main_cst_22) = StableHlo.after (ReferenceIdeal.RR.p4 (F := Ideal)) VR (Proc.devRef .tc ReferenceIdeal.main_cst_22) := by
  refine ⟨?_, ?_, ?_, ?_, ?_, ?_, ?_, ?_, ?_, ?_, ?_, ?_, ?_, ?_, ?_, ?_, ?_, ?_, ?_⟩
  · rw [KP.k4_keeps KernelIdeal.main_arg2 (by decide), ReferenceIdeal.RR.p4_keeps ReferenceIdeal.main_arg2 (by decide)]; exact h_arg2
  · rw [KP.k4_keeps KernelIdeal.main_arg3 (by decide), ReferenceIdeal.RR.p4_keeps ReferenceIdeal.main_arg3 (by decide)]; exact h_arg3
  · rw [KP.k4_keeps KernelIdeal.main_arg6 (by decide), ReferenceIdeal.RR.p4_keeps ReferenceIdeal.main_arg6 (by decide)]; exact h_arg6
  · rw [KP.k4_keeps KernelIdeal.main_arg7 (by decide), ReferenceIdeal.RR.p4_keeps ReferenceIdeal.main_arg7 (by decide)]; exact h_arg7
  · rw [KP.k4_keeps KernelIdeal.main_cst (by decide), ReferenceIdeal.RR.p4_keeps ReferenceIdeal.main_cst (by decide)]; exact h_cst
  · rw [KP.k4_keeps KernelIdeal.main_cst_0 (by decide), ReferenceIdeal.RR.p4_keeps ReferenceIdeal.main_cst_0 (by decide)]; exact h_cst_0
  · rw [KP.k4_keeps KernelIdeal.main_v1 (by decide), ReferenceIdeal.RR.p4_keeps ReferenceIdeal.main_v1 (by decide)]; exact h_v1
  · rw [KP.k4_keeps KernelIdeal.main_v2 (by decide), ReferenceIdeal.RR.p4_keeps ReferenceIdeal.main_v2 (by decide)]; exact h_v2
  · rw [KP.k4_keeps KernelIdeal.main_v11 (by decide), ReferenceIdeal.RR.p4_keeps ReferenceIdeal.main_v11 (by decide)]; exact h_v11
  · rw [KP.k4_keeps KernelIdeal.main_v19 (by decide), ReferenceIdeal.RR.p4_keeps ReferenceIdeal.main_v19 (by decide)]; exact h_v19
  · rw [KP.k4_keeps KernelIdeal.main_v24 (by decide), ReferenceIdeal.RR.p4_keeps ReferenceIdeal.main_v24 (by decide)]; exact h_v24
  · rw [KP.k4_keeps KernelIdeal.main_v29 (by decide), ReferenceIdeal.RR.p4_keeps ReferenceIdeal.main_v29 (by decide)]; exact h_v29
  · rw [KP.k4_keeps KernelIdeal.main_v34 (by decide), ReferenceIdeal.RR.p4_keeps ReferenceIdeal.main_v34 (by decide)]; exact h_v34
  · rw [KP.k4_keeps KernelIdeal.main_v40 (by decide), ReferenceIdeal.RR.p4_keeps ReferenceIdeal.main_v40 (by decide)]; exact h_v40
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_v29]); (try rw [h_v34]); (try rw [h_v40]); (try rw [h_v42]); (try rw [h_cst_15])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_v29]); (try rw [h_v34]); (try rw [h_v40]); (try rw [h_v42]); (try rw [h_cst_15])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_v29]); (try rw [h_v34]); (try rw [h_v40]); (try rw [h_v42]); (try rw [h_cst_15])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_v29]); (try rw [h_v34]); (try rw [h_v40]); (try rw [h_v42]); (try rw [h_cst_15])
    try rfl
  · read_all
    (try rw [h_arg2]); (try rw [h_arg3]); (try rw [h_arg6]); (try rw [h_arg7]); (try rw [h_cst]); (try rw [h_cst_0]); (try rw [h_v1]); (try rw [h_v2]); (try rw [h_v7]); (try rw [h_v9]); (try rw [h_v11]); (try rw [h_v13]); (try rw [h_v19]); (try rw [h_v24]); (try rw [h_v29]); (try rw [h_v34]); (try rw [h_v40]); (try rw [h_v42]); (try rw [h_cst_15])
    try rfl

end Cert.KRIdent

end
-- ==== Proof.KRStep5.lean ====
/-
  The kernel program's and the reference's host operations, piece against piece (piece 5): agreement carried through.
-/
import proofs.«128588_j377957122581_2_alg».proof.Proof.KROps
import proofs.«128588_j377957122581_2_alg».proof.Proof.RRead
import proofs.«128588_j377957122581_2_alg».proof.Proof.KRTac

set_option synthInstance.maxSize 4096
set_option maxRecDepth 8192

noncomputable section

namespace Cert.KRIdent

open Idealize.ShloMosaic Idealize.SL.Sem
open Cert

set_option maxHeartbeats 4000000 in
/-- Piece 5: contents agreeing on what the two pieces read (and on what later pieces read) still agree, after the
    pieces, on what the later pieces read. -/
theorem step5 (VK : Valuation KernelIdeal.τ KernelIdeal.sig (Elt Ideal)) (VR : ReferenceIdeal.RR.VI)
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg6 : VK (Proc.devRef .tc KernelIdeal.main_arg6) = VR (Proc.devRef .tc ReferenceIdeal.main_arg6))
    (h_arg7 : VK (Proc.devRef .tc KernelIdeal.main_arg7) = VR (Proc.devRef .tc ReferenceIdeal.main_arg7))
    (h_cst : VK (Proc.devRef .tc KernelIdeal.main_cst) = VR (Proc.devRef .tc ReferenceIdeal.main_cst))
    (h_cst_0 : VK (Proc.devRef .tc KernelIdeal.main_cst_0) = VR (Proc.devRef .tc ReferenceIdeal.main_cst_0))
    (h_v1 : VK (Proc.devRef .tc KernelIdeal.main_v1) = VR (Proc.devRef .tc ReferenceIdeal.main_v1))
    (h_v2 : VK (Proc.devRef .tc KernelIdeal.main_v2) = VR (Proc.devRef .tc ReferenceIdeal.main_v2))
    (h_v11 : VK (Proc.devRef .tc KernelIdeal.main_v11) = VR (Proc.devRef .tc ReferenceIdeal.main_v11))
    (h_v19 : VK (Proc.devRef .tc KernelIdeal.main_v19) = VR (Proc.devRef .tc ReferenceIdeal.main_v19))
    (h_v24 : VK (Proc.devRef .tc KernelIdeal.main_v24) = VR (Proc.devRef .tc ReferenceIdeal.main_v24))
    (h_v29 : VK (Proc.devRef .tc KernelIdeal.main_v29) = VR (Proc.devRef .tc ReferenceIdeal.main_v29))
    (h_v34 : VK (Proc.devRef .tc KernelIdeal.main_v34) = VR (Proc.devRef .tc ReferenceIdeal.main_v34))
    (h_v40 : VK (Proc.devRef .tc KernelIdeal.main_v40) = VR (Proc.devRef .tc ReferenceIdeal.main_v40))
    (h_v45 : VK (Proc.devRef .tc KernelIdeal.main_v45) = VR (Proc.devRef .tc ReferenceIdeal.main_v45))
    (h_v50 : VK (Proc.devRef .tc KernelIdeal.main_v50) = VR (Proc.devRef .tc ReferenceIdeal.main_v50))
    (h_v55 : VK (Proc.devRef .tc KernelIdeal.main_v55) = VR (Proc.devRef .tc ReferenceIdeal.main_v55))
    (h_v58 : VK (Proc.devRef .tc KernelIdeal.main_v58) = VR (Proc.devRef .tc ReferenceIdeal.main_v58))
    (h_cst_22 : VK (Proc.devRef .tc KernelIdeal.main_cst_22) = VR (Proc.devRef .tc ReferenceIdeal.main_cst_22)) :
    StableHlo.after (KP.k5 (F := Ideal)) VK (Proc.devRef .tc KernelIdeal.main_arg2) = StableHlo.after (ReferenceIdeal.RR.p5 (F := Ideal)) VR (Proc.devRef .tc ReferenceIdeal.main_arg2)
      ∧ StableHlo.after (KP.k5 (F := Ideal)) VK (Proc.devRef .tc KernelIdeal.main_arg3) = StableHlo.after (ReferenceIdeal.RR.p5 (F := Ideal)) VR (Proc.devRef .tc ReferenceIdeal.main_arg3)
      ∧ StableHlo.after (KP.k5 (F := Ideal)) VK (Proc.devRef .tc KernelIdeal.main_arg7) = StableHlo.after (ReferenceIdeal.RR.p5 (F := Ideal)) VR (Proc.devRef .tc ReferenceIdeal.main_arg7)
      ∧ StableHlo.after (KP.k5 (F := Ideal)) VK (Proc.devRef .tc KernelIdeal.main_cst_0) = StableHlo.after (ReferenceIdeal.RR.p5 (F := Ideal)) VR (Proc.devRef .tc ReferenceIdeal.main_cst_0)
      ∧ StableHlo.after (KP.k5 (F := Ideal)) VK (Proc.devRef .tc KernelIdeal.main_v1) = StableHlo.after (ReferenceIdeal.RR.p5 (F := Ideal)) VR (Proc.devRef .tc ReferenceIdeal.main_v1)
      ∧ StableHlo.after (KP.k5 (F := Ideal)) VK (Proc.devRef .tc KernelIdeal.main_v2) = StableHlo.after (ReferenceIdeal.RR.p5 (F := Ideal)) VR (Proc.devRef .tc ReferenceIdeal.main_v2)
      ∧ StableHlo.after (KP.k5 (F := Ideal)) VK (Proc.devRef .tc KernelIdeal.main_v74) = StableHlo.after (ReferenceIdeal.RR.p5 (F := Ideal)) VR (Proc.devRef .tc ReferenceIdeal.main_v74)
      ∧ StableHlo.after (KP.k5 (F := Ideal)) VK (Proc.devRef .tc KernelIdeal.main_v78) = StableHlo.after (ReferenceIdeal.RR.p5 (F := Ideal)) VR (Proc.devRef .tc ReferenceIdeal.main_v78) := by
  refine ⟨?_, ?_, ?_, ?_, ?_, ?_, ?_, ?_⟩
  · rw [KP.k5_keeps KernelIdeal.main_arg2 (by decide), ReferenceIdeal.RR.p5_keeps ReferenceIdeal.main_arg2 (by decide)]; exact h_arg2
  · rw [KP.k5_keeps KernelIdeal.main_arg3 (by decide), ReferenceIdeal.RR.p5_keeps ReferenceIdeal.main_arg3 (by decide)]; exact h_arg3
  · rw [KP.k5_keeps KernelIdeal.main_arg7 (by decide), ReferenceIdeal.RR.p5_keeps ReferenceIdeal.main_arg7 (by decide)]; exact h_arg7
  · rw [KP.k5_keeps KernelIdeal.main_cst_0 (by decide), ReferenceIdeal.RR.p5_keeps ReferenceIdeal.main_cst_0 (by decide)]; exact h_cst_0
  · rw [KP.k5_keeps KernelIdeal.main_v1 (by decide), ReferenceIdeal.RR.p5_keeps ReferenceIdeal.main_v1 (by decide)]; exact h_v1
  · rw [KP.k5_keeps KernelIdeal.main_v2 (by decide), ReferenceIdeal.RR.p5_keeps ReferenceIdeal.main_v2 (by decide)]; exact h_v2
  · read_all
    (try rw [h_arg2]); (try rw [h_arg3]); (try rw [h_arg6]); (try rw [h_arg7]); (try rw [h_cst]); (try rw [h_cst_0]); (try rw [h_v1]); (try rw [h_v2]); (try rw [h_v11]); (try rw [h_v19]); (try rw [h_v24]); (try rw [h_v29]); (try rw [h_v34]); (try rw [h_v40]); (try rw [h_v45]); (try rw [h_v50]); (try rw [h_v55]); (try rw [h_v58]); (try rw [h_cst_22])
    rfl
  · read_all
    (try rw [h_arg2]); (try rw [h_arg3]); (try rw [h_arg6]); (try rw [h_arg7]); (try rw [h_cst]); (try rw [h_cst_0]); (try rw [h_v1]); (try rw [h_v2]); (try rw [h_v11]); (try rw [h_v19]); (try rw [h_v24]); (try rw [h_v29]); (try rw [h_v34]); (try rw [h_v40]); (try rw [h_v45]); (try rw [h_v50]); (try rw [h_v55]); (try rw [h_v58]); (try rw [h_cst_22])
    rfl

end Cert.KRIdent

end
-- ==== Proof.KRStepB.lean ====
/-
  The kernel program's and the reference's host operations, piece against piece (pieces 6 to 8).
-/
import proofs.«128588_j377957122581_2_alg».proof.Proof.KROps
import proofs.«128588_j377957122581_2_alg».proof.Proof.RRead
import proofs.«128588_j377957122581_2_alg».proof.Proof.KRTac

set_option synthInstance.maxSize 4096
set_option maxRecDepth 8192

noncomputable section

namespace Cert.KRIdent

open Idealize.ShloMosaic Idealize.SL.Sem
open Cert

set_option maxHeartbeats 4000000 in
/-- Piece 6: contents agreeing on what the two pieces read (and on what later pieces read) still agree, after the
    pieces, on what the later pieces read. -/
theorem step6 (VK : Valuation KernelIdeal.τ KernelIdeal.sig (Elt Ideal)) (VR : ReferenceIdeal.RR.VI)
    (h_arg2 : VK (Proc.devRef .tc KernelIdeal.main_arg2) = VR (Proc.devRef .tc ReferenceIdeal.main_arg2))
    (h_arg3 : VK (Proc.devRef .tc KernelIdeal.main_arg3) = VR (Proc.devRef .tc ReferenceIdeal.main_arg3))
    (h_arg7 : VK (Proc.devRef .tc KernelIdeal.main_arg7) = VR (Proc.devRef .tc ReferenceIdeal.main_arg7))
    (h_cst_0 : VK (Proc.devRef .tc KernelIdeal.main_cst_0) = VR (Proc.devRef .tc ReferenceIdeal.main_cst_0))
    (h_v1 : VK (Proc.devRef .tc KernelIdeal.main_v1) = VR (Proc.devRef .tc ReferenceIdeal.main_v1))
    (h_v2 : VK (Proc.devRef .tc KernelIdeal.main_v2) = VR (Proc.devRef .tc ReferenceIdeal.main_v2))
    (h_v74 : VK (Proc.devRef .tc KernelIdeal.main_v74) = VR (Proc.devRef .tc ReferenceIdeal.main_v74))
    (h_v78 : VK (Proc.devRef .tc KernelIdeal.main_v78) = VR (Proc.devRef .tc ReferenceIdeal.main_v78)) :
    StableHlo.after (KP.k6 (F := Ideal)) VK (Proc.devRef .tc KernelIdeal.main_cst_0) = StableHlo.after (ReferenceIdeal.RR.p8 (F := Ideal)) VR (Proc.devRef .tc ReferenceIdeal.main_cst_0)
      ∧ StableHlo.after (KP.k6 (F := Ideal)) VK (Proc.devRef .tc KernelIdeal.main_v2) = StableHlo.after (ReferenceIdeal.RR.p8 (F := Ideal)) VR (Proc.devRef .tc ReferenceIdeal.main_v2)
      ∧ StableHlo.after (KP.k6 (F := Ideal)) VK (Proc.devRef .tc KernelIdeal.main_v74) = StableHlo.after (ReferenceIdeal.RR.p8 (F := Ideal)) VR (Proc.devRef .tc ReferenceIdeal.main_v74)
      ∧ StableHlo.after (KP.k6 (F := Ideal)) VK (Proc.devRef .tc KernelIdeal.main_v83) = StableHlo.after (ReferenceIdeal.RR.p8 (F := Ideal)) VR (Proc.devRef .tc ReferenceIdeal.main_v112)
      ∧ StableHlo.after (KP.k6 (F := Ideal)) VK (Proc.devRef .tc KernelIdeal.main_v85) = StableHlo.after (ReferenceIdeal.RR.p8 (F := Ideal)) VR (Proc.devRef .tc ReferenceIdeal.main_v114)
      ∧ StableHlo.after (KP.k6 (F := Ideal)) VK (Proc.devRef .tc KernelIdeal.main_v87) = StableHlo.after (ReferenceIdeal.RR.p8 (F := Ideal)) VR (Proc.devRef .tc ReferenceIdeal.main_v116)
      ∧ StableHlo.after (KP.k6 (F := Ideal)) VK (Proc.devRef .tc KernelIdeal.main_v89) = StableHlo.after (ReferenceIdeal.RR.p8 (F := Ideal)) VR (Proc.devRef .tc ReferenceIdeal.main_v118)
      ∧ StableHlo.after (KP.k6 (F := Ideal)) VK (Proc.devRef .tc KernelIdeal.main_v91) = StableHlo.after (ReferenceIdeal.RR.p8 (F := Ideal)) VR (Proc.devRef .tc ReferenceIdeal.main_v120)
      ∧ StableHlo.after (KP.k6 (F := Ideal)) VK (Proc.devRef .tc KernelIdeal.main_v93) = StableHlo.after (ReferenceIdeal.RR.p8 (F := Ideal)) VR (Proc.devRef .tc ReferenceIdeal.main_v122)
      ∧ StableHlo.after (KP.k6 (F := Ideal)) VK (Proc.devRef .tc KernelIdeal.main_v94) = StableHlo.after (ReferenceIdeal.RR.p8 (F := Ideal)) VR (Proc.devRef .tc ReferenceIdeal.main_v123)
      ∧ StableHlo.after (KP.k6 (F := Ideal)) VK (Proc.devRef .tc KernelIdeal.main_v95) = StableHlo.after (ReferenceIdeal.RR.p8 (F := Ideal)) VR (Proc.devRef .tc ReferenceIdeal.main_v124)
      ∧ StableHlo.after (KP.k6 (F := Ideal)) VK (Proc.devRef .tc KernelIdeal.main_v96) = StableHlo.after (ReferenceIdeal.RR.p8 (F := Ideal)) VR (Proc.devRef .tc ReferenceIdeal.main_v125) := by
  refine ⟨?_, ?_, ?_, ?_, ?_, ?_, ?_, ?_, ?_, ?_, ?_, ?_⟩
  · rw [KP.k6_keeps KernelIdeal.main_cst_0 (by decide), ReferenceIdeal.RR.p8_keeps ReferenceIdeal.main_cst_0 (by decide)]; exact h_cst_0
  · rw [KP.k6_keeps KernelIdeal.main_v2 (by decide), ReferenceIdeal.RR.p8_keeps ReferenceIdeal.main_v2 (by decide)]; exact h_v2
  · rw [KP.k6_keeps KernelIdeal.main_v74 (by decide), ReferenceIdeal.RR.p8_keeps ReferenceIdeal.main_v74 (by decide)]; exact h_v74
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl
  · read_all
    (try rw [h_arg2]); (try rw [h_arg3]); (try rw [h_arg7]); (try rw [h_cst_0]); (try rw [h_v1]); (try rw [h_v2]); (try rw [h_v74]); (try rw [h_v78])
    try rfl

set_option maxHeartbeats 4000000 in
/-- Piece 7: contents agreeing on what the two pieces read (and on what later pieces read) still agree, after the
    pieces, on what the later pieces read. -/
theorem step7 (VK : Valuation KernelIdeal.τ KernelIdeal.sig (Elt Ideal)) (VR : ReferenceIdeal.RR.VI)
    (h_cst_0 : VK (Proc.devRef .tc KernelIdeal.main_cst_0) = VR (Proc.devRef .tc ReferenceIdeal.main_cst_0))
    (h_v2 : VK (Proc.devRef .tc KernelIdeal.main_v2) = VR (Proc.devRef .tc ReferenceIdeal.main_v2))
    (h_v74 : VK (Proc.devRef .tc KernelIdeal.main_v74) = VR (Proc.devRef .tc ReferenceIdeal.main_v74))
    (h_v83 : VK (Proc.devRef .tc KernelIdeal.main_v83) = VR (Proc.devRef .tc ReferenceIdeal.main_v112))
    (h_v85 : VK (Proc.devRef .tc KernelIdeal.main_v85) = VR (Proc.devRef .tc ReferenceIdeal.main_v114))
    (h_v87 : VK (Proc.devRef .tc KernelIdeal.main_v87) = VR (Proc.devRef .tc ReferenceIdeal.main_v116))
    (h_v89 : VK (Proc.devRef .tc KernelIdeal.main_v89) = VR (Proc.devRef .tc ReferenceIdeal.main_v118))
    (h_v91 : VK (Proc.devRef .tc KernelIdeal.main_v91) = VR (Proc.devRef .tc ReferenceIdeal.main_v120))
    (h_v93 : VK (Proc.devRef .tc KernelIdeal.main_v93) = VR (Proc.devRef .tc ReferenceIdeal.main_v122))
    (h_v94 : VK (Proc.devRef .tc KernelIdeal.main_v94) = VR (Proc.devRef .tc ReferenceIdeal.main_v123))
    (h_v95 : VK (Proc.devRef .tc KernelIdeal.main_v95) = VR (Proc.devRef .tc ReferenceIdeal.main_v124))
    (h_v96 : VK (Proc.devRef .tc KernelIdeal.main_v96) = VR (Proc.devRef .tc ReferenceIdeal.main_v125)) :
    StableHlo.after (KP.k7 (F := Ideal)) VK (Proc.devRef .tc KernelIdeal.main_cst_0) = StableHlo.after (ReferenceIdeal.RR.p9 (F := Ideal)) VR (Proc.devRef .tc ReferenceIdeal.main_cst_0)
      ∧ StableHlo.after (KP.k7 (F := Ideal)) VK (Proc.devRef .tc KernelIdeal.main_v2) = StableHlo.after (ReferenceIdeal.RR.p9 (F := Ideal)) VR (Proc.devRef .tc ReferenceIdeal.main_v2)
      ∧ StableHlo.after (KP.k7 (F := Ideal)) VK (Proc.devRef .tc KernelIdeal.main_v74) = StableHlo.after (ReferenceIdeal.RR.p9 (F := Ideal)) VR (Proc.devRef .tc ReferenceIdeal.main_v74)
      ∧ StableHlo.after (KP.k7 (F := Ideal)) VK (Proc.devRef .tc KernelIdeal.main_v83) = StableHlo.after (ReferenceIdeal.RR.p9 (F := Ideal)) VR (Proc.devRef .tc ReferenceIdeal.main_v112)
      ∧ StableHlo.after (KP.k7 (F := Ideal)) VK (Proc.devRef .tc KernelIdeal.main_v85) = StableHlo.after (ReferenceIdeal.RR.p9 (F := Ideal)) VR (Proc.devRef .tc ReferenceIdeal.main_v114)
      ∧ StableHlo.after (KP.k7 (F := Ideal)) VK (Proc.devRef .tc KernelIdeal.main_v87) = StableHlo.after (ReferenceIdeal.RR.p9 (F := Ideal)) VR (Proc.devRef .tc ReferenceIdeal.main_v116)
      ∧ StableHlo.after (KP.k7 (F := Ideal)) VK (Proc.devRef .tc KernelIdeal.main_v89) = StableHlo.after (ReferenceIdeal.RR.p9 (F := Ideal)) VR (Proc.devRef .tc ReferenceIdeal.main_v118)
      ∧ StableHlo.after (KP.k7 (F := Ideal)) VK (Proc.devRef .tc KernelIdeal.main_v91) = StableHlo.after (ReferenceIdeal.RR.p9 (F := Ideal)) VR (Proc.devRef .tc ReferenceIdeal.main_v120)
      ∧ StableHlo.after (KP.k7 (F := Ideal)) VK (Proc.devRef .tc KernelIdeal.main_v93) = StableHlo.after (ReferenceIdeal.RR.p9 (F := Ideal)) VR (Proc.devRef .tc ReferenceIdeal.main_v122)
      ∧ StableHlo.after (KP.k7 (F := Ideal)) VK (Proc.devRef .tc KernelIdeal.main_v94) = StableHlo.after (ReferenceIdeal.RR.p9 (F := Ideal)) VR (Proc.devRef .tc ReferenceIdeal.main_v123)
      ∧ StableHlo.after (KP.k7 (F := Ideal)) VK (Proc.devRef .tc KernelIdeal.main_v95) = StableHlo.after (ReferenceIdeal.RR.p9 (F := Ideal)) VR (Proc.devRef .tc ReferenceIdeal.main_v124)
      ∧ StableHlo.after (KP.k7 (F := Ideal)) VK (Proc.devRef .tc KernelIdeal.main_v101) = StableHlo.after (ReferenceIdeal.RR.p9 (F := Ideal)) VR (Proc.devRef .tc ReferenceIdeal.main_v130)
      ∧ StableHlo.after (KP.k7 (F := Ideal)) VK (Proc.devRef .tc KernelIdeal.main_v106) = StableHlo.after (ReferenceIdeal.RR.p9 (F := Ideal)) VR (Proc.devRef .tc ReferenceIdeal.main_v135)
      ∧ StableHlo.after (KP.k7 (F := Ideal)) VK (Proc.devRef .tc KernelIdeal.main_v111) = StableHlo.after (ReferenceIdeal.RR.p9 (F := Ideal)) VR (Proc.devRef .tc ReferenceIdeal.main_v140)
      ∧ StableHlo.after (KP.k7 (F := Ideal)) VK (Proc.devRef .tc KernelIdeal.main_v114) = StableHlo.after (ReferenceIdeal.RR.p9 (F := Ideal)) VR (Proc.devRef .tc ReferenceIdeal.main_v143) := by
  refine ⟨?_, ?_, ?_, ?_, ?_, ?_, ?_, ?_, ?_, ?_, ?_, ?_, ?_, ?_, ?_⟩
  · rw [KP.k7_keeps KernelIdeal.main_cst_0 (by decide), ReferenceIdeal.RR.p9_keeps ReferenceIdeal.main_cst_0 (by decide)]; exact h_cst_0
  · rw [KP.k7_keeps KernelIdeal.main_v2 (by decide), ReferenceIdeal.RR.p9_keeps ReferenceIdeal.main_v2 (by decide)]; exact h_v2
  · rw [KP.k7_keeps KernelIdeal.main_v74 (by decide), ReferenceIdeal.RR.p9_keeps ReferenceIdeal.main_v74 (by decide)]; exact h_v74
  · rw [KP.k7_keeps KernelIdeal.main_v83 (by decide), ReferenceIdeal.RR.p9_keeps ReferenceIdeal.main_v112 (by decide)]; exact h_v83
  · rw [KP.k7_keeps KernelIdeal.main_v85 (by decide), ReferenceIdeal.RR.p9_keeps ReferenceIdeal.main_v114 (by decide)]; exact h_v85
  · rw [KP.k7_keeps KernelIdeal.main_v87 (by decide), ReferenceIdeal.RR.p9_keeps ReferenceIdeal.main_v116 (by decide)]; exact h_v87
  · rw [KP.k7_keeps KernelIdeal.main_v89 (by decide), ReferenceIdeal.RR.p9_keeps ReferenceIdeal.main_v118 (by decide)]; exact h_v89
  · rw [KP.k7_keeps KernelIdeal.main_v91 (by decide), ReferenceIdeal.RR.p9_keeps ReferenceIdeal.main_v120 (by decide)]; exact h_v91
  · rw [KP.k7_keeps KernelIdeal.main_v93 (by decide), ReferenceIdeal.RR.p9_keeps ReferenceIdeal.main_v122 (by decide)]; exact h_v93
  · rw [KP.k7_keeps KernelIdeal.main_v94 (by decide), ReferenceIdeal.RR.p9_keeps ReferenceIdeal.main_v123 (by decide)]; exact h_v94
  · rw [KP.k7_keeps KernelIdeal.main_v95 (by decide), ReferenceIdeal.RR.p9_keeps ReferenceIdeal.main_v124 (by decide)]; exact h_v95
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v96])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v96])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v96])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v96])
    try rfl

set_option maxHeartbeats 4000000 in
/-- Piece 8: contents agreeing on what the two pieces read (and on what later pieces read) still agree, after the
    pieces, on what the later pieces read. -/
theorem step8 (VK : Valuation KernelIdeal.τ KernelIdeal.sig (Elt Ideal)) (VR : ReferenceIdeal.RR.VI)
    (h_cst_0 : VK (Proc.devRef .tc KernelIdeal.main_cst_0) = VR (Proc.devRef .tc ReferenceIdeal.main_cst_0))
    (h_v2 : VK (Proc.devRef .tc KernelIdeal.main_v2) = VR (Proc.devRef .tc ReferenceIdeal.main_v2))
    (h_v74 : VK (Proc.devRef .tc KernelIdeal.main_v74) = VR (Proc.devRef .tc ReferenceIdeal.main_v74))
    (h_v83 : VK (Proc.devRef .tc KernelIdeal.main_v83) = VR (Proc.devRef .tc ReferenceIdeal.main_v112))
    (h_v85 : VK (Proc.devRef .tc KernelIdeal.main_v85) = VR (Proc.devRef .tc ReferenceIdeal.main_v114))
    (h_v87 : VK (Proc.devRef .tc KernelIdeal.main_v87) = VR (Proc.devRef .tc ReferenceIdeal.main_v116))
    (h_v89 : VK (Proc.devRef .tc KernelIdeal.main_v89) = VR (Proc.devRef .tc ReferenceIdeal.main_v118))
    (h_v91 : VK (Proc.devRef .tc KernelIdeal.main_v91) = VR (Proc.devRef .tc ReferenceIdeal.main_v120))
    (h_v93 : VK (Proc.devRef .tc KernelIdeal.main_v93) = VR (Proc.devRef .tc ReferenceIdeal.main_v122))
    (h_v94 : VK (Proc.devRef .tc KernelIdeal.main_v94) = VR (Proc.devRef .tc ReferenceIdeal.main_v123))
    (h_v95 : VK (Proc.devRef .tc KernelIdeal.main_v95) = VR (Proc.devRef .tc ReferenceIdeal.main_v124))
    (h_v101 : VK (Proc.devRef .tc KernelIdeal.main_v101) = VR (Proc.devRef .tc ReferenceIdeal.main_v130))
    (h_v106 : VK (Proc.devRef .tc KernelIdeal.main_v106) = VR (Proc.devRef .tc ReferenceIdeal.main_v135))
    (h_v111 : VK (Proc.devRef .tc KernelIdeal.main_v111) = VR (Proc.devRef .tc ReferenceIdeal.main_v140))
    (h_v114 : VK (Proc.devRef .tc KernelIdeal.main_v114) = VR (Proc.devRef .tc ReferenceIdeal.main_v143)) :
    StableHlo.after (KP.k8 (F := Ideal)) VK (Proc.devRef .tc KernelIdeal.main_cst_0) = StableHlo.after (ReferenceIdeal.RR.p10 (F := Ideal)) VR (Proc.devRef .tc ReferenceIdeal.main_cst_0)
      ∧ StableHlo.after (KP.k8 (F := Ideal)) VK (Proc.devRef .tc KernelIdeal.main_v2) = StableHlo.after (ReferenceIdeal.RR.p10 (F := Ideal)) VR (Proc.devRef .tc ReferenceIdeal.main_v2)
      ∧ StableHlo.after (KP.k8 (F := Ideal)) VK (Proc.devRef .tc KernelIdeal.main_v74) = StableHlo.after (ReferenceIdeal.RR.p10 (F := Ideal)) VR (Proc.devRef .tc ReferenceIdeal.main_v74)
      ∧ StableHlo.after (KP.k8 (F := Ideal)) VK (Proc.devRef .tc KernelIdeal.main_v83) = StableHlo.after (ReferenceIdeal.RR.p10 (F := Ideal)) VR (Proc.devRef .tc ReferenceIdeal.main_v112)
      ∧ StableHlo.after (KP.k8 (F := Ideal)) VK (Proc.devRef .tc KernelIdeal.main_v85) = StableHlo.after (ReferenceIdeal.RR.p10 (F := Ideal)) VR (Proc.devRef .tc ReferenceIdeal.main_v114)
      ∧ StableHlo.after (KP.k8 (F := Ideal)) VK (Proc.devRef .tc KernelIdeal.main_v87) = StableHlo.after (ReferenceIdeal.RR.p10 (F := Ideal)) VR (Proc.devRef .tc ReferenceIdeal.main_v116)
      ∧ StableHlo.after (KP.k8 (F := Ideal)) VK (Proc.devRef .tc KernelIdeal.main_v89) = StableHlo.after (ReferenceIdeal.RR.p10 (F := Ideal)) VR (Proc.devRef .tc ReferenceIdeal.main_v118)
      ∧ StableHlo.after (KP.k8 (F := Ideal)) VK (Proc.devRef .tc KernelIdeal.main_v91) = StableHlo.after (ReferenceIdeal.RR.p10 (F := Ideal)) VR (Proc.devRef .tc ReferenceIdeal.main_v120)
      ∧ StableHlo.after (KP.k8 (F := Ideal)) VK (Proc.devRef .tc KernelIdeal.main_v93) = StableHlo.after (ReferenceIdeal.RR.p10 (F := Ideal)) VR (Proc.devRef .tc ReferenceIdeal.main_v122)
      ∧ StableHlo.after (KP.k8 (F := Ideal)) VK (Proc.devRef .tc KernelIdeal.main_v94) = StableHlo.after (ReferenceIdeal.RR.p10 (F := Ideal)) VR (Proc.devRef .tc ReferenceIdeal.main_v123)
      ∧ StableHlo.after (KP.k8 (F := Ideal)) VK (Proc.devRef .tc KernelIdeal.main_v95) = StableHlo.after (ReferenceIdeal.RR.p10 (F := Ideal)) VR (Proc.devRef .tc ReferenceIdeal.main_v124)
      ∧ StableHlo.after (KP.k8 (F := Ideal)) VK (Proc.devRef .tc KernelIdeal.main_v101) = StableHlo.after (ReferenceIdeal.RR.p10 (F := Ideal)) VR (Proc.devRef .tc ReferenceIdeal.main_v130)
      ∧ StableHlo.after (KP.k8 (F := Ideal)) VK (Proc.devRef .tc KernelIdeal.main_v106) = StableHlo.after (ReferenceIdeal.RR.p10 (F := Ideal)) VR (Proc.devRef .tc ReferenceIdeal.main_v135)
      ∧ StableHlo.after (KP.k8 (F := Ideal)) VK (Proc.devRef .tc KernelIdeal.main_v111) = StableHlo.after (ReferenceIdeal.RR.p10 (F := Ideal)) VR (Proc.devRef .tc ReferenceIdeal.main_v140)
      ∧ StableHlo.after (KP.k8 (F := Ideal)) VK (Proc.devRef .tc KernelIdeal.main_v127) = StableHlo.after (ReferenceIdeal.RR.p10 (F := Ideal)) VR (Proc.devRef .tc ReferenceIdeal.main_v156)
      ∧ StableHlo.after (KP.k8 (F := Ideal)) VK (Proc.devRef .tc KernelIdeal.main_v132) = StableHlo.after (ReferenceIdeal.RR.p10 (F := Ideal)) VR (Proc.devRef .tc ReferenceIdeal.main_v161)
      ∧ StableHlo.after (KP.k8 (F := Ideal)) VK (Proc.devRef .tc KernelIdeal.main_v138) = StableHlo.after (ReferenceIdeal.RR.p10 (F := Ideal)) VR (Proc.devRef .tc ReferenceIdeal.main_v167)
      ∧ StableHlo.after (KP.k8 (F := Ideal)) VK (Proc.devRef .tc KernelIdeal.main_v141) = StableHlo.after (ReferenceIdeal.RR.p10 (F := Ideal)) VR (Proc.devRef .tc ReferenceIdeal.main_v170) := by
  refine ⟨?_, ?_, ?_, ?_, ?_, ?_, ?_, ?_, ?_, ?_, ?_, ?_, ?_, ?_, ?_, ?_, ?_, ?_⟩
  · rw [KP.k8_keeps KernelIdeal.main_cst_0 (by decide), ReferenceIdeal.RR.p10_keeps ReferenceIdeal.main_cst_0 (by decide)]; exact h_cst_0
  · rw [KP.k8_keeps KernelIdeal.main_v2 (by decide), ReferenceIdeal.RR.p10_keeps ReferenceIdeal.main_v2 (by decide)]; exact h_v2
  · rw [KP.k8_keeps KernelIdeal.main_v74 (by decide), ReferenceIdeal.RR.p10_keeps ReferenceIdeal.main_v74 (by decide)]; exact h_v74
  · rw [KP.k8_keeps KernelIdeal.main_v83 (by decide), ReferenceIdeal.RR.p10_keeps ReferenceIdeal.main_v112 (by decide)]; exact h_v83
  · rw [KP.k8_keeps KernelIdeal.main_v85 (by decide), ReferenceIdeal.RR.p10_keeps ReferenceIdeal.main_v114 (by decide)]; exact h_v85
  · rw [KP.k8_keeps KernelIdeal.main_v87 (by decide), ReferenceIdeal.RR.p10_keeps ReferenceIdeal.main_v116 (by decide)]; exact h_v87
  · rw [KP.k8_keeps KernelIdeal.main_v89 (by decide), ReferenceIdeal.RR.p10_keeps ReferenceIdeal.main_v118 (by decide)]; exact h_v89
  · rw [KP.k8_keeps KernelIdeal.main_v91 (by decide), ReferenceIdeal.RR.p10_keeps ReferenceIdeal.main_v120 (by decide)]; exact h_v91
  · rw [KP.k8_keeps KernelIdeal.main_v93 (by decide), ReferenceIdeal.RR.p10_keeps ReferenceIdeal.main_v122 (by decide)]; exact h_v93
  · rw [KP.k8_keeps KernelIdeal.main_v94 (by decide), ReferenceIdeal.RR.p10_keeps ReferenceIdeal.main_v123 (by decide)]; exact h_v94
  · rw [KP.k8_keeps KernelIdeal.main_v95 (by decide), ReferenceIdeal.RR.p10_keeps ReferenceIdeal.main_v124 (by decide)]; exact h_v95
  · rw [KP.k8_keeps KernelIdeal.main_v101 (by decide), ReferenceIdeal.RR.p10_keeps ReferenceIdeal.main_v130 (by decide)]; exact h_v101
  · rw [KP.k8_keeps KernelIdeal.main_v106 (by decide), ReferenceIdeal.RR.p10_keeps ReferenceIdeal.main_v135 (by decide)]; exact h_v106
  · rw [KP.k8_keeps KernelIdeal.main_v111 (by decide), ReferenceIdeal.RR.p10_keeps ReferenceIdeal.main_v140 (by decide)]; exact h_v111
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v114])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v114])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v114])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v114])
    try rfl

end Cert.KRIdent

end
-- ==== Proof.KRStepC.lean ====
/-
  The kernel program's and the reference's host operations, piece against piece (pieces 9 to 11).
-/
import proofs.«128588_j377957122581_2_alg».proof.Proof.KROps
import proofs.«128588_j377957122581_2_alg».proof.Proof.RRead
import proofs.«128588_j377957122581_2_alg».proof.Proof.KRTac

set_option synthInstance.maxSize 4096
set_option maxRecDepth 8192

noncomputable section

namespace Cert.KRIdent

open Idealize.ShloMosaic Idealize.SL.Sem
open Cert

set_option maxHeartbeats 4000000 in
/-- Piece 9: contents agreeing on what the two pieces read (and on what later pieces read) still agree, after the
    pieces, on what the later pieces read. -/
theorem step9 (VK : Valuation KernelIdeal.τ KernelIdeal.sig (Elt Ideal)) (VR : ReferenceIdeal.RR.VI)
    (h_cst_0 : VK (Proc.devRef .tc KernelIdeal.main_cst_0) = VR (Proc.devRef .tc ReferenceIdeal.main_cst_0))
    (h_v2 : VK (Proc.devRef .tc KernelIdeal.main_v2) = VR (Proc.devRef .tc ReferenceIdeal.main_v2))
    (h_v74 : VK (Proc.devRef .tc KernelIdeal.main_v74) = VR (Proc.devRef .tc ReferenceIdeal.main_v74))
    (h_v83 : VK (Proc.devRef .tc KernelIdeal.main_v83) = VR (Proc.devRef .tc ReferenceIdeal.main_v112))
    (h_v85 : VK (Proc.devRef .tc KernelIdeal.main_v85) = VR (Proc.devRef .tc ReferenceIdeal.main_v114))
    (h_v87 : VK (Proc.devRef .tc KernelIdeal.main_v87) = VR (Proc.devRef .tc ReferenceIdeal.main_v116))
    (h_v89 : VK (Proc.devRef .tc KernelIdeal.main_v89) = VR (Proc.devRef .tc ReferenceIdeal.main_v118))
    (h_v91 : VK (Proc.devRef .tc KernelIdeal.main_v91) = VR (Proc.devRef .tc ReferenceIdeal.main_v120))
    (h_v93 : VK (Proc.devRef .tc KernelIdeal.main_v93) = VR (Proc.devRef .tc ReferenceIdeal.main_v122))
    (h_v94 : VK (Proc.devRef .tc KernelIdeal.main_v94) = VR (Proc.devRef .tc ReferenceIdeal.main_v123))
    (h_v95 : VK (Proc.devRef .tc KernelIdeal.main_v95) = VR (Proc.devRef .tc ReferenceIdeal.main_v124))
    (h_v101 : VK (Proc.devRef .tc KernelIdeal.main_v101) = VR (Proc.devRef .tc ReferenceIdeal.main_v130))
    (h_v106 : VK (Proc.devRef .tc KernelIdeal.main_v106) = VR (Proc.devRef .tc ReferenceIdeal.main_v135))
    (h_v111 : VK (Proc.devRef .tc KernelIdeal.main_v111) = VR (Proc.devRef .tc ReferenceIdeal.main_v140))
    (h_v127 : VK (Proc.devRef .tc KernelIdeal.main_v127) = VR (Proc.devRef .tc ReferenceIdeal.main_v156))
    (h_v132 : VK (Proc.devRef .tc KernelIdeal.main_v132) = VR (Proc.devRef .tc ReferenceIdeal.main_v161))
    (h_v138 : VK (Proc.devRef .tc KernelIdeal.main_v138) = VR (Proc.devRef .tc ReferenceIdeal.main_v167))
    (h_v141 : VK (Proc.devRef .tc KernelIdeal.main_v141) = VR (Proc.devRef .tc ReferenceIdeal.main_v170)) :
    StableHlo.after (KP.k9 (F := Ideal)) VK (Proc.devRef .tc KernelIdeal.main_cst_0) = StableHlo.after (ReferenceIdeal.RR.p11 (F := Ideal)) VR (Proc.devRef .tc ReferenceIdeal.main_cst_0)
      ∧ StableHlo.after (KP.k9 (F := Ideal)) VK (Proc.devRef .tc KernelIdeal.main_v2) = StableHlo.after (ReferenceIdeal.RR.p11 (F := Ideal)) VR (Proc.devRef .tc ReferenceIdeal.main_v2)
      ∧ StableHlo.after (KP.k9 (F := Ideal)) VK (Proc.devRef .tc KernelIdeal.main_v74) = StableHlo.after (ReferenceIdeal.RR.p11 (F := Ideal)) VR (Proc.devRef .tc ReferenceIdeal.main_v74)
      ∧ StableHlo.after (KP.k9 (F := Ideal)) VK (Proc.devRef .tc KernelIdeal.main_v83) = StableHlo.after (ReferenceIdeal.RR.p11 (F := Ideal)) VR (Proc.devRef .tc ReferenceIdeal.main_v112)
      ∧ StableHlo.after (KP.k9 (F := Ideal)) VK (Proc.devRef .tc KernelIdeal.main_v85) = StableHlo.after (ReferenceIdeal.RR.p11 (F := Ideal)) VR (Proc.devRef .tc ReferenceIdeal.main_v114)
      ∧ StableHlo.after (KP.k9 (F := Ideal)) VK (Proc.devRef .tc KernelIdeal.main_v87) = StableHlo.after (ReferenceIdeal.RR.p11 (F := Ideal)) VR (Proc.devRef .tc ReferenceIdeal.main_v116)
      ∧ StableHlo.after (KP.k9 (F := Ideal)) VK (Proc.devRef .tc KernelIdeal.main_v89) = StableHlo.after (ReferenceIdeal.RR.p11 (F := Ideal)) VR (Proc.devRef .tc ReferenceIdeal.main_v118)
      ∧ StableHlo.after (KP.k9 (F := Ideal)) VK (Proc.devRef .tc KernelIdeal.main_v91) = StableHlo.after (ReferenceIdeal.RR.p11 (F := Ideal)) VR (Proc.devRef .tc ReferenceIdeal.main_v120)
      ∧ StableHlo.after (KP.k9 (F := Ideal)) VK (Proc.devRef .tc KernelIdeal.main_v93) = StableHlo.after (ReferenceIdeal.RR.p11 (F := Ideal)) VR (Proc.devRef .tc ReferenceIdeal.main_v122)
      ∧ StableHlo.after (KP.k9 (F := Ideal)) VK (Proc.devRef .tc KernelIdeal.main_v94) = StableHlo.after (ReferenceIdeal.RR.p11 (F := Ideal)) VR (Proc.devRef .tc ReferenceIdeal.main_v123)
      ∧ StableHlo.after (KP.k9 (F := Ideal)) VK (Proc.devRef .tc KernelIdeal.main_v95) = StableHlo.after (ReferenceIdeal.RR.p11 (F := Ideal)) VR (Proc.devRef .tc ReferenceIdeal.main_v124)
      ∧ StableHlo.after (KP.k9 (F := Ideal)) VK (Proc.devRef .tc KernelIdeal.main_v101) = StableHlo.after (ReferenceIdeal.RR.p11 (F := Ideal)) VR (Proc.devRef .tc ReferenceIdeal.main_v130)
      ∧ StableHlo.after (KP.k9 (F := Ideal)) VK (Proc.devRef .tc KernelIdeal.main_v106) = StableHlo.after (ReferenceIdeal.RR.p11 (F := Ideal)) VR (Proc.devRef .tc ReferenceIdeal.main_v135)
      ∧ StableHlo.after (KP.k9 (F := Ideal)) VK (Proc.devRef .tc KernelIdeal.main_v111) = StableHlo.after (ReferenceIdeal.RR.p11 (F := Ideal)) VR (Proc.devRef .tc ReferenceIdeal.main_v140)
      ∧ StableHlo.after (KP.k9 (F := Ideal)) VK (Proc.devRef .tc KernelIdeal.main_v127) = StableHlo.after (ReferenceIdeal.RR.p11 (F := Ideal)) VR (Proc.devRef .tc ReferenceIdeal.main_v156)
      ∧ StableHlo.after (KP.k9 (F := Ideal)) VK (Proc.devRef .tc KernelIdeal.main_v132) = StableHlo.after (ReferenceIdeal.RR.p11 (F := Ideal)) VR (Proc.devRef .tc ReferenceIdeal.main_v161)
      ∧ StableHlo.after (KP.k9 (F := Ideal)) VK (Proc.devRef .tc KernelIdeal.main_v138) = StableHlo.after (ReferenceIdeal.RR.p11 (F := Ideal)) VR (Proc.devRef .tc ReferenceIdeal.main_v167)
      ∧ StableHlo.after (KP.k9 (F := Ideal)) VK (Proc.devRef .tc KernelIdeal.main_v143) = StableHlo.after (ReferenceIdeal.RR.p11 (F := Ideal)) VR (Proc.devRef .tc ReferenceIdeal.main_v172)
      ∧ StableHlo.after (KP.k9 (F := Ideal)) VK (Proc.devRef .tc KernelIdeal.main_v159) = StableHlo.after (ReferenceIdeal.RR.p11 (F := Ideal)) VR (Proc.devRef .tc ReferenceIdeal.main_v188)
      ∧ StableHlo.after (KP.k9 (F := Ideal)) VK (Proc.devRef .tc KernelIdeal.main_v164) = StableHlo.after (ReferenceIdeal.RR.p11 (F := Ideal)) VR (Proc.devRef .tc ReferenceIdeal.main_v193)
      ∧ StableHlo.after (KP.k9 (F := Ideal)) VK (Proc.devRef .tc KernelIdeal.main_v167) = StableHlo.after (ReferenceIdeal.RR.p11 (F := Ideal)) VR (Proc.devRef .tc ReferenceIdeal.main_v196)
      ∧ StableHlo.after (KP.k9 (F := Ideal)) VK (Proc.devRef .tc KernelIdeal.main_v168) = StableHlo.after (ReferenceIdeal.RR.p11 (F := Ideal)) VR (Proc.devRef .tc ReferenceIdeal.main_v197) := by
  refine ⟨?_, ?_, ?_, ?_, ?_, ?_, ?_, ?_, ?_, ?_, ?_, ?_, ?_, ?_, ?_, ?_, ?_, ?_, ?_, ?_, ?_, ?_⟩
  · rw [KP.k9_keeps KernelIdeal.main_cst_0 (by decide), ReferenceIdeal.RR.p11_keeps ReferenceIdeal.main_cst_0 (by decide)]; exact h_cst_0
  · rw [KP.k9_keeps KernelIdeal.main_v2 (by decide), ReferenceIdeal.RR.p11_keeps ReferenceIdeal.main_v2 (by decide)]; exact h_v2
  · rw [KP.k9_keeps KernelIdeal.main_v74 (by decide), ReferenceIdeal.RR.p11_keeps ReferenceIdeal.main_v74 (by decide)]; exact h_v74
  · rw [KP.k9_keeps KernelIdeal.main_v83 (by decide), ReferenceIdeal.RR.p11_keeps ReferenceIdeal.main_v112 (by decide)]; exact h_v83
  · rw [KP.k9_keeps KernelIdeal.main_v85 (by decide), ReferenceIdeal.RR.p11_keeps ReferenceIdeal.main_v114 (by decide)]; exact h_v85
  · rw [KP.k9_keeps KernelIdeal.main_v87 (by decide), ReferenceIdeal.RR.p11_keeps ReferenceIdeal.main_v116 (by decide)]; exact h_v87
  · rw [KP.k9_keeps KernelIdeal.main_v89 (by decide), ReferenceIdeal.RR.p11_keeps ReferenceIdeal.main_v118 (by decide)]; exact h_v89
  · rw [KP.k9_keeps KernelIdeal.main_v91 (by decide), ReferenceIdeal.RR.p11_keeps ReferenceIdeal.main_v120 (by decide)]; exact h_v91
  · rw [KP.k9_keeps KernelIdeal.main_v93 (by decide), ReferenceIdeal.RR.p11_keeps ReferenceIdeal.main_v122 (by decide)]; exact h_v93
  · rw [KP.k9_keeps KernelIdeal.main_v94 (by decide), ReferenceIdeal.RR.p11_keeps ReferenceIdeal.main_v123 (by decide)]; exact h_v94
  · rw [KP.k9_keeps KernelIdeal.main_v95 (by decide), ReferenceIdeal.RR.p11_keeps ReferenceIdeal.main_v124 (by decide)]; exact h_v95
  · rw [KP.k9_keeps KernelIdeal.main_v101 (by decide), ReferenceIdeal.RR.p11_keeps ReferenceIdeal.main_v130 (by decide)]; exact h_v101
  · rw [KP.k9_keeps KernelIdeal.main_v106 (by decide), ReferenceIdeal.RR.p11_keeps ReferenceIdeal.main_v135 (by decide)]; exact h_v106
  · rw [KP.k9_keeps KernelIdeal.main_v111 (by decide), ReferenceIdeal.RR.p11_keeps ReferenceIdeal.main_v140 (by decide)]; exact h_v111
  · rw [KP.k9_keeps KernelIdeal.main_v127 (by decide), ReferenceIdeal.RR.p11_keeps ReferenceIdeal.main_v156 (by decide)]; exact h_v127
  · rw [KP.k9_keeps KernelIdeal.main_v132 (by decide), ReferenceIdeal.RR.p11_keeps ReferenceIdeal.main_v161 (by decide)]; exact h_v132
  · rw [KP.k9_keeps KernelIdeal.main_v138 (by decide), ReferenceIdeal.RR.p11_keeps ReferenceIdeal.main_v167 (by decide)]; exact h_v138
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v141])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v141])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v141])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v141])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v141])
    try rfl

set_option maxHeartbeats 4000000 in
/-- Piece 10: contents agreeing on what the two pieces read (and on what later pieces read) still agree, after the
    pieces, on what the later pieces read. -/
theorem step10 (VK : Valuation KernelIdeal.τ KernelIdeal.sig (Elt Ideal)) (VR : ReferenceIdeal.RR.VI)
    (h_cst_0 : VK (Proc.devRef .tc KernelIdeal.main_cst_0) = VR (Proc.devRef .tc ReferenceIdeal.main_cst_0))
    (h_v2 : VK (Proc.devRef .tc KernelIdeal.main_v2) = VR (Proc.devRef .tc ReferenceIdeal.main_v2))
    (h_v74 : VK (Proc.devRef .tc KernelIdeal.main_v74) = VR (Proc.devRef .tc ReferenceIdeal.main_v74))
    (h_v83 : VK (Proc.devRef .tc KernelIdeal.main_v83) = VR (Proc.devRef .tc ReferenceIdeal.main_v112))
    (h_v85 : VK (Proc.devRef .tc KernelIdeal.main_v85) = VR (Proc.devRef .tc ReferenceIdeal.main_v114))
    (h_v87 : VK (Proc.devRef .tc KernelIdeal.main_v87) = VR (Proc.devRef .tc ReferenceIdeal.main_v116))
    (h_v89 : VK (Proc.devRef .tc KernelIdeal.main_v89) = VR (Proc.devRef .tc ReferenceIdeal.main_v118))
    (h_v91 : VK (Proc.devRef .tc KernelIdeal.main_v91) = VR (Proc.devRef .tc ReferenceIdeal.main_v120))
    (h_v93 : VK (Proc.devRef .tc KernelIdeal.main_v93) = VR (Proc.devRef .tc ReferenceIdeal.main_v122))
    (h_v94 : VK (Proc.devRef .tc KernelIdeal.main_v94) = VR (Proc.devRef .tc ReferenceIdeal.main_v123))
    (h_v95 : VK (Proc.devRef .tc KernelIdeal.main_v95) = VR (Proc.devRef .tc ReferenceIdeal.main_v124))
    (h_v101 : VK (Proc.devRef .tc KernelIdeal.main_v101) = VR (Proc.devRef .tc ReferenceIdeal.main_v130))
    (h_v106 : VK (Proc.devRef .tc KernelIdeal.main_v106) = VR (Proc.devRef .tc ReferenceIdeal.main_v135))
    (h_v111 : VK (Proc.devRef .tc KernelIdeal.main_v111) = VR (Proc.devRef .tc ReferenceIdeal.main_v140))
    (h_v127 : VK (Proc.devRef .tc KernelIdeal.main_v127) = VR (Proc.devRef .tc ReferenceIdeal.main_v156))
    (h_v132 : VK (Proc.devRef .tc KernelIdeal.main_v132) = VR (Proc.devRef .tc ReferenceIdeal.main_v161))
    (h_v138 : VK (Proc.devRef .tc KernelIdeal.main_v138) = VR (Proc.devRef .tc ReferenceIdeal.main_v167))
    (h_v143 : VK (Proc.devRef .tc KernelIdeal.main_v143) = VR (Proc.devRef .tc ReferenceIdeal.main_v172))
    (h_v159 : VK (Proc.devRef .tc KernelIdeal.main_v159) = VR (Proc.devRef .tc ReferenceIdeal.main_v188))
    (h_v164 : VK (Proc.devRef .tc KernelIdeal.main_v164) = VR (Proc.devRef .tc ReferenceIdeal.main_v193))
    (h_v167 : VK (Proc.devRef .tc KernelIdeal.main_v167) = VR (Proc.devRef .tc ReferenceIdeal.main_v196))
    (h_v168 : VK (Proc.devRef .tc KernelIdeal.main_v168) = VR (Proc.devRef .tc ReferenceIdeal.main_v197)) :
    StableHlo.after (KP.k10 (F := Ideal)) VK (Proc.devRef .tc KernelIdeal.main_cst_0) = StableHlo.after (ReferenceIdeal.RR.p12 (F := Ideal)) VR (Proc.devRef .tc ReferenceIdeal.main_cst_0)
      ∧ StableHlo.after (KP.k10 (F := Ideal)) VK (Proc.devRef .tc KernelIdeal.main_v2) = StableHlo.after (ReferenceIdeal.RR.p12 (F := Ideal)) VR (Proc.devRef .tc ReferenceIdeal.main_v2)
      ∧ StableHlo.after (KP.k10 (F := Ideal)) VK (Proc.devRef .tc KernelIdeal.main_v74) = StableHlo.after (ReferenceIdeal.RR.p12 (F := Ideal)) VR (Proc.devRef .tc ReferenceIdeal.main_v74)
      ∧ StableHlo.after (KP.k10 (F := Ideal)) VK (Proc.devRef .tc KernelIdeal.main_v101) = StableHlo.after (ReferenceIdeal.RR.p12 (F := Ideal)) VR (Proc.devRef .tc ReferenceIdeal.main_v130)
      ∧ StableHlo.after (KP.k10 (F := Ideal)) VK (Proc.devRef .tc KernelIdeal.main_v106) = StableHlo.after (ReferenceIdeal.RR.p12 (F := Ideal)) VR (Proc.devRef .tc ReferenceIdeal.main_v135)
      ∧ StableHlo.after (KP.k10 (F := Ideal)) VK (Proc.devRef .tc KernelIdeal.main_v111) = StableHlo.after (ReferenceIdeal.RR.p12 (F := Ideal)) VR (Proc.devRef .tc ReferenceIdeal.main_v140)
      ∧ StableHlo.after (KP.k10 (F := Ideal)) VK (Proc.devRef .tc KernelIdeal.main_v127) = StableHlo.after (ReferenceIdeal.RR.p12 (F := Ideal)) VR (Proc.devRef .tc ReferenceIdeal.main_v156)
      ∧ StableHlo.after (KP.k10 (F := Ideal)) VK (Proc.devRef .tc KernelIdeal.main_v132) = StableHlo.after (ReferenceIdeal.RR.p12 (F := Ideal)) VR (Proc.devRef .tc ReferenceIdeal.main_v161)
      ∧ StableHlo.after (KP.k10 (F := Ideal)) VK (Proc.devRef .tc KernelIdeal.main_v138) = StableHlo.after (ReferenceIdeal.RR.p12 (F := Ideal)) VR (Proc.devRef .tc ReferenceIdeal.main_v167)
      ∧ StableHlo.after (KP.k10 (F := Ideal)) VK (Proc.devRef .tc KernelIdeal.main_v143) = StableHlo.after (ReferenceIdeal.RR.p12 (F := Ideal)) VR (Proc.devRef .tc ReferenceIdeal.main_v172)
      ∧ StableHlo.after (KP.k10 (F := Ideal)) VK (Proc.devRef .tc KernelIdeal.main_v159) = StableHlo.after (ReferenceIdeal.RR.p12 (F := Ideal)) VR (Proc.devRef .tc ReferenceIdeal.main_v188)
      ∧ StableHlo.after (KP.k10 (F := Ideal)) VK (Proc.devRef .tc KernelIdeal.main_v164) = StableHlo.after (ReferenceIdeal.RR.p12 (F := Ideal)) VR (Proc.devRef .tc ReferenceIdeal.main_v193)
      ∧ StableHlo.after (KP.k10 (F := Ideal)) VK (Proc.devRef .tc KernelIdeal.main_v169) = StableHlo.after (ReferenceIdeal.RR.p12 (F := Ideal)) VR (Proc.devRef .tc ReferenceIdeal.main_v198)
      ∧ StableHlo.after (KP.k10 (F := Ideal)) VK (Proc.devRef .tc KernelIdeal.main_v175) = StableHlo.after (ReferenceIdeal.RR.p12 (F := Ideal)) VR (Proc.devRef .tc ReferenceIdeal.main_v204)
      ∧ StableHlo.after (KP.k10 (F := Ideal)) VK (Proc.devRef .tc KernelIdeal.main_v186) = StableHlo.after (ReferenceIdeal.RR.p12 (F := Ideal)) VR (Proc.devRef .tc ReferenceIdeal.main_v215)
      ∧ StableHlo.after (KP.k10 (F := Ideal)) VK (Proc.devRef .tc KernelIdeal.main_v190) = StableHlo.after (ReferenceIdeal.RR.p12 (F := Ideal)) VR (Proc.devRef .tc ReferenceIdeal.main_v219) := by
  refine ⟨?_, ?_, ?_, ?_, ?_, ?_, ?_, ?_, ?_, ?_, ?_, ?_, ?_, ?_, ?_, ?_⟩
  · rw [KP.k10_keeps KernelIdeal.main_cst_0 (by decide), ReferenceIdeal.RR.p12_keeps ReferenceIdeal.main_cst_0 (by decide)]; exact h_cst_0
  · rw [KP.k10_keeps KernelIdeal.main_v2 (by decide), ReferenceIdeal.RR.p12_keeps ReferenceIdeal.main_v2 (by decide)]; exact h_v2
  · rw [KP.k10_keeps KernelIdeal.main_v74 (by decide), ReferenceIdeal.RR.p12_keeps ReferenceIdeal.main_v74 (by decide)]; exact h_v74
  · rw [KP.k10_keeps KernelIdeal.main_v101 (by decide), ReferenceIdeal.RR.p12_keeps ReferenceIdeal.main_v130 (by decide)]; exact h_v101
  · rw [KP.k10_keeps KernelIdeal.main_v106 (by decide), ReferenceIdeal.RR.p12_keeps ReferenceIdeal.main_v135 (by decide)]; exact h_v106
  · rw [KP.k10_keeps KernelIdeal.main_v111 (by decide), ReferenceIdeal.RR.p12_keeps ReferenceIdeal.main_v140 (by decide)]; exact h_v111
  · rw [KP.k10_keeps KernelIdeal.main_v127 (by decide), ReferenceIdeal.RR.p12_keeps ReferenceIdeal.main_v156 (by decide)]; exact h_v127
  · rw [KP.k10_keeps KernelIdeal.main_v132 (by decide), ReferenceIdeal.RR.p12_keeps ReferenceIdeal.main_v161 (by decide)]; exact h_v132
  · rw [KP.k10_keeps KernelIdeal.main_v138 (by decide), ReferenceIdeal.RR.p12_keeps ReferenceIdeal.main_v167 (by decide)]; exact h_v138
  · rw [KP.k10_keeps KernelIdeal.main_v143 (by decide), ReferenceIdeal.RR.p12_keeps ReferenceIdeal.main_v172 (by decide)]; exact h_v143
  · rw [KP.k10_keeps KernelIdeal.main_v159 (by decide), ReferenceIdeal.RR.p12_keeps ReferenceIdeal.main_v188 (by decide)]; exact h_v159
  · rw [KP.k10_keeps KernelIdeal.main_v164 (by decide), ReferenceIdeal.RR.p12_keeps ReferenceIdeal.main_v193 (by decide)]; exact h_v164
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v143]); (try rw [h_v159]); (try rw [h_v164]); (try rw [h_v167]); (try rw [h_v168])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v143]); (try rw [h_v159]); (try rw [h_v164]); (try rw [h_v167]); (try rw [h_v168])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v143]); (try rw [h_v159]); (try rw [h_v164]); (try rw [h_v167]); (try rw [h_v168])
    try rfl
  · read_all
    (try rw [h_cst_0]); (try rw [h_v2]); (try rw [h_v74]); (try rw [h_v83]); (try rw [h_v85]); (try rw [h_v87]); (try rw [h_v89]); (try rw [h_v91]); (try rw [h_v93]); (try rw [h_v94]); (try rw [h_v95]); (try rw [h_v101]); (try rw [h_v106]); (try rw [h_v111]); (try rw [h_v127]); (try rw [h_v132]); (try rw [h_v138]); (try rw [h_v143]); (try rw [h_v159]); (try rw [h_v164]); (try rw [h_v167]); (try rw [h_v168])
    try rfl

set_option maxHeartbeats 4000000 in
/-- Piece 11: contents agreeing on what the two pieces read (and on what later pieces read) still agree, after the
    pieces, on what the later pieces read. -/
theorem step11 (VK : Valuation KernelIdeal.τ KernelIdeal.sig (Elt Ideal)) (VR : ReferenceIdeal.RR.VI)
    (h_cst_0 : VK (Proc.devRef .tc KernelIdeal.main_cst_0) = VR (Proc.devRef .tc ReferenceIdeal.main_cst_0))
    (h_v2 : VK (Proc.devRef .tc KernelIdeal.main_v2) = VR (Proc.devRef .tc ReferenceIdeal.main_v2))
    (h_v74 : VK (Proc.devRef .tc KernelIdeal.main_v74) = VR (Proc.devRef .tc ReferenceIdeal.main_v74))
    (h_v101 : VK (Proc.devRef .tc KernelIdeal.main_v101) = VR (Proc.devRef .tc ReferenceIdeal.main_v130))
    (h_v106 : VK (Proc.devRef .tc KernelIdeal.main_v106) = VR (Proc.devRef .tc ReferenceIdeal.main_v135))
    (h_v111 : VK (Proc.devRef .tc KernelIdeal.main_v111) = VR (Proc.devRef .tc ReferenceIdeal.main_v140))
    (h_v127 : VK (Proc.devRef .tc KernelIdeal.main_v127) = VR (Proc.devRef .tc ReferenceIdeal.main_v156))
    (h_v132 : VK (Proc.devRef .tc KernelIdeal.main_v132) = VR (Proc.devRef .tc ReferenceIdeal.main_v161))
    (h_v138 : VK (Proc.devRef .tc KernelIdeal.main_v138) = VR (Proc.devRef .tc ReferenceIdeal.main_v167))
    (h_v143 : VK (Proc.devRef .tc KernelIdeal.main_v143) = VR (Proc.devRef .tc ReferenceIdeal.main_v172))
    (h_v159 : VK (Proc.devRef .tc KernelIdeal.main_v159) = VR (Proc.devRef .tc ReferenceIdeal.main_v188))
    (h_v164 : VK (Proc.devRef .tc KernelIdeal.main_v164) = VR (Proc.devRef .tc ReferenceIdeal.main_v193))
    (h_v169 : VK (Proc.devRef .tc KernelIdeal.main_v169) = VR (Proc.devRef .tc ReferenceIdeal.main_v198))
    (h_v175 : VK (Proc.devRef .tc KernelIdeal.main_v175) = VR (Proc.devRef .tc ReferenceIdeal.main_v204))
    (h_v186 : VK (Proc.devRef .tc KernelIdeal.main_v186) = VR (Proc.devRef .tc ReferenceIdeal.main_v215))
    (h_v190 : VK (Proc.devRef .tc KernelIdeal.main_v190) = VR (Proc.devRef .tc ReferenceIdeal.main_v219)) :
    StableHlo.after (KP.k11 (F := Ideal)) VK (Proc.devRef .tc KernelIdeal.main_v206) = StableHlo.after (ReferenceIdeal.RR.p13 (F := Ideal)) VR (Proc.devRef .tc ReferenceIdeal.main_v235)
      ∧ StableHlo.after (KP.k11 (F := Ideal)) VK (Proc.devRef .tc KernelIdeal.main_v211) = StableHlo.after (ReferenceIdeal.RR.p13 (F := Ideal)) VR (Proc.devRef .tc ReferenceIdeal.main_v240) := by
  refine ⟨?_, ?_⟩
  · read_all
    (try rw [h_cst_0]); (try rw [h_v2]); (try rw [h_v74]); (try rw [h_v101]); (try rw [h_v106]); (try rw [h_v111]); (try rw [h_v127]); (try rw [h_v132]); (try rw [h_v138]); (try rw [h_v143]); (try rw [h_v159]); (try rw [h_v164]); (try rw [h_v169]); (try rw [h_v175]); (try rw [h_v186]); (try rw [h_v190])
    try rfl
  · read_all
    (try rw [h_cst_0]); (try rw [h_v2]); (try rw [h_v74]); (try rw [h_v101]); (try rw [h_v106]); (try rw [h_v111]); (try rw [h_v127]); (try rw [h_v132]); (try rw [h_v138]); (try rw [h_v143]); (try rw [h_v159]); (try rw [h_v164]); (try rw [h_v169]); (try rw [h_v175]); (try rw [h_v186]); (try rw [h_v190])
    try rfl

end Cert.KRIdent

end
-- ==== Proof.KRIdent.lean ====
/-
  The kernel program and the reference compute the SAME host prefix: the piece-against-piece agreement (KRStepA/B) chained, from contents agreeing on the arguments, to the values both sides keep.
-/
import proofs.«128588_j377957122581_2_alg».proof.Proof.KROps
import proofs.«128588_j377957122581_2_alg».proof.Proof.RRead
import proofs.«128588_j377957122581_2_alg».proof.Proof.KRStepA
import proofs.«128588_j377957122581_2_alg».proof.Proof.KRStep5
import proofs.«128588_j377957122581_2_alg».proof.Proof.KRStepB
import proofs.«128588_j377957122581_2_alg».proof.Proof.KRStepC

set_option synthInstance.maxSize 4096
set_option maxRecDepth 8192

noncomputable section

namespace Cert.KRIdent

open Idealize.ShloMosaic Idealize.SL.Sem
open Cert

variable (LK : Valuation KernelIdeal.τ KernelIdeal.sig (Elt Ideal)) (LR : ReferenceIdeal.RR.VI)

/-- The kernel program's contents after the operations that answer the reference's first stretch (up to main_v78). -/
abbrev KPre : Valuation KernelIdeal.τ KernelIdeal.sig (Elt Ideal) :=
  (StableHlo.after (KP.k5 (F := Ideal)) (StableHlo.after (KP.k4 (F := Ideal)) (StableHlo.after (KP.k3 (F := Ideal)) (StableHlo.after (KP.k2 (F := Ideal)) (StableHlo.after (KernelIdeal.Gen.hostOps0_1 (F := Ideal)) (StableHlo.after (KernelIdeal.Gen.hostOps0 (F := Ideal)) LK))))))
/-- The kernel program's contents before its last four host operations. -/
abbrev KMid : Valuation KernelIdeal.τ KernelIdeal.sig (Elt Ideal) :=
  (StableHlo.after (KP.k11 (F := Ideal)) (StableHlo.after (KP.k10 (F := Ideal)) (StableHlo.after (KP.k9 (F := Ideal)) (StableHlo.after (KP.k8 (F := Ideal)) (StableHlo.after (KP.k7 (F := Ideal)) (StableHlo.after (KP.k6 (F := Ideal)) (KPre LK)))))))

theorem Wpre_eq : ReferenceIdeal.RR.Wpre LR = (StableHlo.after (ReferenceIdeal.RR.p5 (F := Ideal)) (StableHlo.after (ReferenceIdeal.RR.p4 (F := Ideal)) (StableHlo.after (ReferenceIdeal.RR.p3 (F := Ideal)) (StableHlo.after (ReferenceIdeal.RR.p2 (F := Ideal)) (StableHlo.after (ReferenceIdeal.RR.p1 (F := Ideal)) (StableHlo.after (ReferenceIdeal.RR.p0 (F := Ideal)) LR)))))) := by
  rw [ReferenceIdeal.RR.Wpre]; simp only [after_append]
theorem Wmid_eq : ReferenceIdeal.RR.Wmid LR = (StableHlo.after (ReferenceIdeal.RR.p13 (F := Ideal)) (StableHlo.after (ReferenceIdeal.RR.p12 (F := Ideal)) (StableHlo.after (ReferenceIdeal.RR.p11 (F := Ideal)) (StableHlo.after (ReferenceIdeal.RR.p10 (F := Ideal)) (StableHlo.after (ReferenceIdeal.RR.p9 (F := Ideal)) (StableHlo.after (ReferenceIdeal.RR.p8 (F := Ideal)) (ReferenceIdeal.RR.W0 LR))))))) := by
  rw [ReferenceIdeal.RR.Wmid]; simp only [after_append]

/-- After the first stretch the two sides agree on what the later operations read, and on main_v1, main_v74, main_v78. -/
theorem pre_agree
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KPre LK (Proc.devRef .tc KernelIdeal.main_arg2) = ReferenceIdeal.RR.Wpre LR (Proc.devRef .tc ReferenceIdeal.main_arg2)
      ∧ KPre LK (Proc.devRef .tc KernelIdeal.main_arg3) = ReferenceIdeal.RR.Wpre LR (Proc.devRef .tc ReferenceIdeal.main_arg3)
      ∧ KPre LK (Proc.devRef .tc KernelIdeal.main_arg7) = ReferenceIdeal.RR.Wpre LR (Proc.devRef .tc ReferenceIdeal.main_arg7)
      ∧ KPre LK (Proc.devRef .tc KernelIdeal.main_cst_0) = ReferenceIdeal.RR.Wpre LR (Proc.devRef .tc ReferenceIdeal.main_cst_0)
      ∧ KPre LK (Proc.devRef .tc KernelIdeal.main_v1) = ReferenceIdeal.RR.Wpre LR (Proc.devRef .tc ReferenceIdeal.main_v1)
      ∧ KPre LK (Proc.devRef .tc KernelIdeal.main_v2) = ReferenceIdeal.RR.Wpre LR (Proc.devRef .tc ReferenceIdeal.main_v2)
      ∧ KPre LK (Proc.devRef .tc KernelIdeal.main_v74) = ReferenceIdeal.RR.Wpre LR (Proc.devRef .tc ReferenceIdeal.main_v74)
      ∧ KPre LK (Proc.devRef .tc KernelIdeal.main_v78) = ReferenceIdeal.RR.Wpre LR (Proc.devRef .tc ReferenceIdeal.main_v78) := by
  rw [Wpre_eq]
  obtain ⟨s0_arg2, s0_arg3, s0_arg5, s0_arg6, s0_arg7, s0_cst, s0_cst_0, s0_v1, s0_v2⟩ := step0 LK LR h0.symm h1.symm h2.symm h3.symm h5.symm h6.symm h7.symm
  obtain ⟨s1_arg2, s1_arg3, s1_arg5, s1_arg6, s1_arg7, s1_cst, s1_cst_0, s1_v1, s1_v2, s1_v3⟩ := step1 _ _ s0_arg2 s0_arg3 s0_arg5 s0_arg6 s0_arg7 s0_cst s0_cst_0 s0_v1 s0_v2
  obtain ⟨s2_arg2, s2_arg3, s2_arg6, s2_arg7, s2_cst, s2_cst_0, s2_v1, s2_v2, s2_v7, s2_v9, s2_v11, s2_v13, s2_v19, s2_v24, s2_cst_7⟩ := step2 _ _ s1_arg2 s1_arg3 s1_arg5 s1_arg6 s1_arg7 s1_cst s1_cst_0 s1_v1 s1_v2 s1_v3
  obtain ⟨s3_arg2, s3_arg3, s3_arg6, s3_arg7, s3_cst, s3_cst_0, s3_v1, s3_v2, s3_v7, s3_v9, s3_v11, s3_v13, s3_v19, s3_v24, s3_v29, s3_v34, s3_v40, s3_v42, s3_cst_15⟩ := step3 _ _ s2_arg2 s2_arg3 s2_arg6 s2_arg7 s2_cst s2_cst_0 s2_v1 s2_v2 s2_v7 s2_v9 s2_v11 s2_v13 s2_v19 s2_v24 s2_cst_7
  obtain ⟨s4_arg2, s4_arg3, s4_arg6, s4_arg7, s4_cst, s4_cst_0, s4_v1, s4_v2, s4_v11, s4_v19, s4_v24, s4_v29, s4_v34, s4_v40, s4_v45, s4_v50, s4_v55, s4_v58, s4_cst_22⟩ := step4 _ _ s3_arg2 s3_arg3 s3_arg6 s3_arg7 s3_cst s3_cst_0 s3_v1 s3_v2 s3_v7 s3_v9 s3_v11 s3_v13 s3_v19 s3_v24 s3_v29 s3_v34 s3_v40 s3_v42 s3_cst_15
  obtain ⟨s5_arg2, s5_arg3, s5_arg7, s5_cst_0, s5_v1, s5_v2, s5_v74, s5_v78⟩ := step5 _ _ s4_arg2 s4_arg3 s4_arg6 s4_arg7 s4_cst s4_cst_0 s4_v1 s4_v2 s4_v11 s4_v19 s4_v24 s4_v29 s4_v34 s4_v40 s4_v45 s4_v50 s4_v55 s4_v58 s4_cst_22
  exact ⟨s5_arg2, s5_arg3, s5_arg7, s5_cst_0, s5_v1, s5_v2, s5_v74, s5_v78⟩

/-- Before the kernel program's last four operations the two sides agree on main_v206 / main_v235 and main_v211 / main_v240. -/
theorem mid_agree
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KMid LK (Proc.devRef .tc KernelIdeal.main_v206) = ReferenceIdeal.RR.Wmid LR (Proc.devRef .tc ReferenceIdeal.main_v235)
      ∧ KMid LK (Proc.devRef .tc KernelIdeal.main_v211) = ReferenceIdeal.RR.Wmid LR (Proc.devRef .tc ReferenceIdeal.main_v240) := by
  obtain ⟨q_arg2, q_arg3, q_arg7, q_cst_0, q_v1, q_v2, q_v74, q_v78⟩ := pre_agree LK LR h0 h1 h2 h3 h4 h5 h6 h7
  have s5_arg2 : KPre LK (Proc.devRef .tc KernelIdeal.main_arg2) = ReferenceIdeal.RR.W0 LR (Proc.devRef .tc ReferenceIdeal.main_arg2) := by
    rw [ReferenceIdeal.RR.W0, ReferenceIdeal.RR.opsCh0_keeps ReferenceIdeal.main_arg2 (by decide)]; exact q_arg2
  have s5_arg3 : KPre LK (Proc.devRef .tc KernelIdeal.main_arg3) = ReferenceIdeal.RR.W0 LR (Proc.devRef .tc ReferenceIdeal.main_arg3) := by
    rw [ReferenceIdeal.RR.W0, ReferenceIdeal.RR.opsCh0_keeps ReferenceIdeal.main_arg3 (by decide)]; exact q_arg3
  have s5_arg7 : KPre LK (Proc.devRef .tc KernelIdeal.main_arg7) = ReferenceIdeal.RR.W0 LR (Proc.devRef .tc ReferenceIdeal.main_arg7) := by
    rw [ReferenceIdeal.RR.W0, ReferenceIdeal.RR.opsCh0_keeps ReferenceIdeal.main_arg7 (by decide)]; exact q_arg7
  have s5_cst_0 : KPre LK (Proc.devRef .tc KernelIdeal.main_cst_0) = ReferenceIdeal.RR.W0 LR (Proc.devRef .tc ReferenceIdeal.main_cst_0) := by
    rw [ReferenceIdeal.RR.W0, ReferenceIdeal.RR.opsCh0_keeps ReferenceIdeal.main_cst_0 (by decide)]; exact q_cst_0
  have s5_v1 : KPre LK (Proc.devRef .tc KernelIdeal.main_v1) = ReferenceIdeal.RR.W0 LR (Proc.devRef .tc ReferenceIdeal.main_v1) := by
    rw [ReferenceIdeal.RR.W0, ReferenceIdeal.RR.opsCh0_keeps ReferenceIdeal.main_v1 (by decide)]; exact q_v1
  have s5_v2 : KPre LK (Proc.devRef .tc KernelIdeal.main_v2) = ReferenceIdeal.RR.W0 LR (Proc.devRef .tc ReferenceIdeal.main_v2) := by
    rw [ReferenceIdeal.RR.W0, ReferenceIdeal.RR.opsCh0_keeps ReferenceIdeal.main_v2 (by decide)]; exact q_v2
  have s5_v74 : KPre LK (Proc.devRef .tc KernelIdeal.main_v74) = ReferenceIdeal.RR.W0 LR (Proc.devRef .tc ReferenceIdeal.main_v74) := by
    rw [ReferenceIdeal.RR.W0, ReferenceIdeal.RR.opsCh0_keeps ReferenceIdeal.main_v74 (by decide)]; exact q_v74
  have s5_v78 : KPre LK (Proc.devRef .tc KernelIdeal.main_v78) = ReferenceIdeal.RR.W0 LR (Proc.devRef .tc ReferenceIdeal.main_v78) := by
    rw [ReferenceIdeal.RR.W0, ReferenceIdeal.RR.opsCh0_keeps ReferenceIdeal.main_v78 (by decide)]; exact q_v78
  rw [Wmid_eq]
  obtain ⟨s6_cst_0, s6_v2, s6_v74, s6_v83, s6_v85, s6_v87, s6_v89, s6_v91, s6_v93, s6_v94, s6_v95, s6_v96⟩ := step6 _ _ s5_arg2 s5_arg3 s5_arg7 s5_cst_0 s5_v1 s5_v2 s5_v74 s5_v78
  obtain ⟨s7_cst_0, s7_v2, s7_v74, s7_v83, s7_v85, s7_v87, s7_v89, s7_v91, s7_v93, s7_v94, s7_v95, s7_v101, s7_v106, s7_v111, s7_v114⟩ := step7 _ _ s6_cst_0 s6_v2 s6_v74 s6_v83 s6_v85 s6_v87 s6_v89 s6_v91 s6_v93 s6_v94 s6_v95 s6_v96
  obtain ⟨s8_cst_0, s8_v2, s8_v74, s8_v83, s8_v85, s8_v87, s8_v89, s8_v91, s8_v93, s8_v94, s8_v95, s8_v101, s8_v106, s8_v111, s8_v127, s8_v132, s8_v138, s8_v141⟩ := step8 _ _ s7_cst_0 s7_v2 s7_v74 s7_v83 s7_v85 s7_v87 s7_v89 s7_v91 s7_v93 s7_v94 s7_v95 s7_v101 s7_v106 s7_v111 s7_v114
  obtain ⟨s9_cst_0, s9_v2, s9_v74, s9_v83, s9_v85, s9_v87, s9_v89, s9_v91, s9_v93, s9_v94, s9_v95, s9_v101, s9_v106, s9_v111, s9_v127, s9_v132, s9_v138, s9_v143, s9_v159, s9_v164, s9_v167, s9_v168⟩ := step9 _ _ s8_cst_0 s8_v2 s8_v74 s8_v83 s8_v85 s8_v87 s8_v89 s8_v91 s8_v93 s8_v94 s8_v95 s8_v101 s8_v106 s8_v111 s8_v127 s8_v132 s8_v138 s8_v141
  obtain ⟨s10_cst_0, s10_v2, s10_v74, s10_v101, s10_v106, s10_v111, s10_v127, s10_v132, s10_v138, s10_v143, s10_v159, s10_v164, s10_v169, s10_v175, s10_v186, s10_v190⟩ := step10 _ _ s9_cst_0 s9_v2 s9_v74 s9_v83 s9_v85 s9_v87 s9_v89 s9_v91 s9_v93 s9_v94 s9_v95 s9_v101 s9_v106 s9_v111 s9_v127 s9_v132 s9_v138 s9_v143 s9_v159 s9_v164 s9_v167 s9_v168
  obtain ⟨s11_v206, s11_v211⟩ := step11 _ _ s10_cst_0 s10_v2 s10_v74 s10_v101 s10_v106 s10_v111 s10_v127 s10_v132 s10_v138 s10_v143 s10_v159 s10_v164 s10_v169 s10_v175 s10_v186 s10_v190
  exact ⟨s11_v206, s11_v211⟩

/-! ## The statements consumed -/

/-- (I1) main_v78 agrees. -/
theorem I1
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KMid LK (Proc.devRef .tc KernelIdeal.main_v78) = ReferenceIdeal.RR.Wpre LR (Proc.devRef .tc ReferenceIdeal.main_v78) := by
  unfold KMid
  rw [KP.k11_keeps KernelIdeal.main_v78 (by decide), KP.k10_keeps KernelIdeal.main_v78 (by decide), KP.k9_keeps KernelIdeal.main_v78 (by decide), KP.k8_keeps KernelIdeal.main_v78 (by decide), KP.k7_keeps KernelIdeal.main_v78 (by decide), KP.k6_keeps KernelIdeal.main_v78 (by decide)]
  exact (pre_agree LK LR h0 h1 h2 h3 h4 h5 h6 h7).2.2.2.2.2.2.2

/-- (I3) main_v1 agrees. -/
theorem I3
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KMid LK (Proc.devRef .tc KernelIdeal.main_v1) = ReferenceIdeal.RR.Wpre LR (Proc.devRef .tc ReferenceIdeal.main_v1) := by
  unfold KMid
  rw [KP.k11_keeps KernelIdeal.main_v1 (by decide), KP.k10_keeps KernelIdeal.main_v1 (by decide), KP.k9_keeps KernelIdeal.main_v1 (by decide), KP.k8_keeps KernelIdeal.main_v1 (by decide), KP.k7_keeps KernelIdeal.main_v1 (by decide), KP.k6_keeps KernelIdeal.main_v1 (by decide)]
  exact (pre_agree LK LR h0 h1 h2 h3 h4 h5 h6 h7).2.2.2.2.1

/-- (I4) main_v74 agrees. -/
theorem I4
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KMid LK (Proc.devRef .tc KernelIdeal.main_v74) = ReferenceIdeal.RR.Wpre LR (Proc.devRef .tc ReferenceIdeal.main_v74) := by
  unfold KMid
  rw [KP.k11_keeps KernelIdeal.main_v74 (by decide), KP.k10_keeps KernelIdeal.main_v74 (by decide), KP.k9_keeps KernelIdeal.main_v74 (by decide), KP.k8_keeps KernelIdeal.main_v74 (by decide), KP.k7_keeps KernelIdeal.main_v74 (by decide), KP.k6_keeps KernelIdeal.main_v74 (by decide)]
  exact (pre_agree LK LR h0 h1 h2 h3 h4 h5 h6 h7).2.2.2.2.2.2.1

/-- (I2) the kernel program's main_v211 is the reference's main_v240. -/
theorem I2
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KMid LK (Proc.devRef .tc KernelIdeal.main_v211) = ReferenceIdeal.RR.Wmid LR (Proc.devRef .tc ReferenceIdeal.main_v240) :=
  (mid_agree LK LR h0 h1 h2 h3 h4 h5 h6 h7).2

/-- (I5) the kernel program's main_v206 is the reference's main_v235. -/
theorem I5
    (h0 : LR (Proc.devRef .tc ReferenceIdeal.main_arg0) = LK (Proc.devRef .tc KernelIdeal.main_arg0))
    (h1 : LR (Proc.devRef .tc ReferenceIdeal.main_arg1) = LK (Proc.devRef .tc KernelIdeal.main_arg1))
    (h2 : LR (Proc.devRef .tc ReferenceIdeal.main_arg2) = LK (Proc.devRef .tc KernelIdeal.main_arg2))
    (h3 : LR (Proc.devRef .tc ReferenceIdeal.main_arg3) = LK (Proc.devRef .tc KernelIdeal.main_arg3))
    (h4 : LR (Proc.devRef .tc ReferenceIdeal.main_arg4) = LK (Proc.devRef .tc KernelIdeal.main_arg4))
    (h5 : LR (Proc.devRef .tc ReferenceIdeal.main_arg5) = LK (Proc.devRef .tc KernelIdeal.main_arg5))
    (h6 : LR (Proc.devRef .tc ReferenceIdeal.main_arg6) = LK (Proc.devRef .tc KernelIdeal.main_arg6))
    (h7 : LR (Proc.devRef .tc ReferenceIdeal.main_arg7) = LK (Proc.devRef .tc KernelIdeal.main_arg7)) :
    KMid LK (Proc.devRef .tc KernelIdeal.main_v206) = ReferenceIdeal.RR.Wmid LR (Proc.devRef .tc ReferenceIdeal.main_v235) :=
  (mid_agree LK LR h0 h1 h2 h3 h4 h5 h6 h7).1

/-- (I10) the prefix writes no argument. -/
theorem I10 (r : Ref KernelIdeal.sig .tc)
    (n0 : r ∉ KP.k0_W) (n1 : r ∉ KP.k1_W) (n2 : r ∉ KP.k2_W) (n3 : r ∉ KP.k3_W) (n4 : r ∉ KP.k4_W) (n5 : r ∉ KP.k5_W) (n6 : r ∉ KP.k6_W) (n7 : r ∉ KP.k7_W) (n8 : r ∉ KP.k8_W) (n9 : r ∉ KP.k9_W) (n10 : r ∉ KP.k10_W) (n11 : r ∉ KP.k11_W) :
    KMid LK (Proc.devRef .tc r) = LK (Proc.devRef .tc r) := by
  unfold KMid KPre
  rw [KP.k11_keeps r n11, KP.k10_keeps r n10, KP.k9_keeps r n9, KP.k8_keeps r n8, KP.k7_keeps r n7, KP.k6_keeps r n6, KP.k5_keeps r n5, KP.k4_keeps r n4, KP.k3_keeps r n3, KP.k2_keeps r n2, KP.k1_keeps r n1, KP.k0_keeps r n0]
theorem I10_arg0 : KMid LK (Proc.devRef .tc KernelIdeal.main_arg0) = LK (Proc.devRef .tc KernelIdeal.main_arg0) :=
  I10 LK _ (by decide) (by decide) (by decide) (by decide) (by decide) (by decide) (by decide) (by decide) (by decide) (by decide) (by decide) (by decide)
theorem I10_arg1 : KMid LK (Proc.devRef .tc KernelIdeal.main_arg1) = LK (Proc.devRef .tc KernelIdeal.main_arg1) :=
  I10 LK _ (by decide) (by decide) (by decide) (by decide) (by decide) (by decide) (by decide) (by decide) (by decide) (by decide) (by decide) (by decide)
theorem I10_arg2 : KMid LK (Proc.devRef .tc KernelIdeal.main_arg2) = LK (Proc.devRef .tc KernelIdeal.main_arg2) :=
  I10 LK _ (by decide) (by decide) (by decide) (by decide) (by decide) (by decide) (by decide) (by decide) (by decide) (by decide) (by decide) (by decide)
theorem I10_arg3 : KMid LK (Proc.devRef .tc KernelIdeal.main_arg3) = LK (Proc.devRef .tc KernelIdeal.main_arg3) :=
  I10 LK _ (by decide) (by decide) (by decide) (by decide) (by decide) (by decide) (by decide) (by decide) (by decide) (by decide) (by decide) (by decide)
theorem I10_arg4 : KMid LK (Proc.devRef .tc KernelIdeal.main_arg4) = LK (Proc.devRef .tc KernelIdeal.main_arg4) :=
  I10 LK _ (by decide) (by decide) (by decide) (by decide) (by decide) (by decide) (by decide) (by decide) (by decide) (by decide) (by decide) (by decide)
theorem I10_arg5 : KMid LK (Proc.devRef .tc KernelIdeal.main_arg5) = LK (Proc.devRef .tc KernelIdeal.main_arg5) :=
  I10 LK _ (by decide) (by decide) (by decide) (by decide) (by decide) (by decide) (by decide) (by decide) (by decide) (by decide) (by decide) (by decide)
theorem I10_arg6 : KMid LK (Proc.devRef .tc KernelIdeal.main_arg6) = LK (Proc.devRef .tc KernelIdeal.main_arg6) :=
  I10 LK _ (by decide) (by decide) (by decide) (by decide) (by decide) (by decide) (by decide) (by decide) (by decide) (by decide) (by decide) (by decide)
theorem I10_arg7 : KMid LK (Proc.devRef .tc KernelIdeal.main_arg7) = LK (Proc.devRef .tc KernelIdeal.main_arg7) :=
  I10 LK _ (by decide) (by decide) (by decide) (by decide) (by decide) (by decide) (by decide) (by decide) (by decide) (by decide) (by decide) (by decide)

/-! ## The reference's two slices of main_v1 -/

/-- Batch 0, resp. 1, of a pair of clouds: the slice of one batch, reshaped. -/
abbrev batch0 (a : FVec Ideal ReferenceIdeal.S2x8192x4 .f32) : FVec Ideal ReferenceIdeal.S8192x4 .f32 :=
  fun i => shapeCast ReferenceIdeal.S8192x4 (extractStridedSlice ReferenceIdeal.S1x8192x4 ![0, 0, 0] a ReferenceIdeal.Gen.slices_S2x8192x4_S1x8192x4_0_0_0)
    ReferenceIdeal.Gen.shapeCasts_S1x8192x4_S8192x4 i
abbrev batch1 (a : FVec Ideal ReferenceIdeal.S2x8192x4 .f32) : FVec Ideal ReferenceIdeal.S8192x4 .f32 :=
  fun i => shapeCast ReferenceIdeal.S8192x4 (extractStridedSlice ReferenceIdeal.S1x8192x4 ![1, 0, 0] a ReferenceIdeal.Gen.slices_S2x8192x4_S1x8192x4_1_0_0)
    ReferenceIdeal.Gen.shapeCasts_S1x8192x4_S8192x4 i

/-- (i6) main_v80 is batch 0 of main_v1. -/
theorem i6 : ReferenceIdeal.RR.Wpre LR (Proc.devRef .tc ReferenceIdeal.main_v80) = batch0 (ReferenceIdeal.RR.Wpre LR (Proc.devRef .tc ReferenceIdeal.main_v1)) := by
  rw [Wpre_eq, ReferenceIdeal.RR.p5_keeps ReferenceIdeal.main_v1 (by decide)]
  generalize (StableHlo.after (ReferenceIdeal.RR.p4 (F := Ideal)) (StableHlo.after (ReferenceIdeal.RR.p3 (F := Ideal)) (StableHlo.after (ReferenceIdeal.RR.p2 (F := Ideal)) (StableHlo.after (ReferenceIdeal.RR.p1 (F := Ideal)) (StableHlo.after (ReferenceIdeal.RR.p0 (F := Ideal)) LR))))) = V
  ars
  rfl

/-- (i7) main_v242 is batch 1 of main_v1. -/
theorem i7 : ReferenceIdeal.RR.Wmid LR (Proc.devRef .tc ReferenceIdeal.main_v242) = batch1 (ReferenceIdeal.RR.Wpre LR (Proc.devRef .tc ReferenceIdeal.main_v1)) := by
  have e : ReferenceIdeal.RR.Wpre LR (Proc.devRef .tc ReferenceIdeal.main_v1) = (StableHlo.after (ReferenceIdeal.RR.p12 (F := Ideal)) (StableHlo.after (ReferenceIdeal.RR.p11 (F := Ideal)) (StableHlo.after (ReferenceIdeal.RR.p10 (F := Ideal)) (StableHlo.after (ReferenceIdeal.RR.p9 (F := Ideal)) (StableHlo.after (ReferenceIdeal.RR.p8 (F := Ideal)) (ReferenceIdeal.RR.W0 LR)))))) (Proc.devRef .tc ReferenceIdeal.main_v1) := by
    rw [ReferenceIdeal.RR.p12_keeps ReferenceIdeal.main_v1 (by decide), ReferenceIdeal.RR.p11_keeps ReferenceIdeal.main_v1 (by decide), ReferenceIdeal.RR.p10_keeps ReferenceIdeal.main_v1 (by decide), ReferenceIdeal.RR.p9_keeps ReferenceIdeal.main_v1 (by decide), ReferenceIdeal.RR.p8_keeps ReferenceIdeal.main_v1 (by decide), ReferenceIdeal.RR.W0, ReferenceIdeal.RR.opsCh0_keeps ReferenceIdeal.main_v1 (by decide)]
  rw [e, Wmid_eq]
  generalize (StableHlo.after (ReferenceIdeal.RR.p12 (F := Ideal)) (StableHlo.after (ReferenceIdeal.RR.p11 (F := Ideal)) (StableHlo.after (ReferenceIdeal.RR.p10 (F := Ideal)) (StableHlo.after (ReferenceIdeal.RR.p9 (F := Ideal)) (StableHlo.after (ReferenceIdeal.RR.p8 (F := Ideal)) (ReferenceIdeal.RR.W0 LR)))))) = V
  ars
  rfl

end Cert.KRIdent

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.RealPre.lean ====
/-
  What the precondition gives: every argument array holds only real numbers, and the squared length of the
  quaternion argument is positive, so that its length is a positive real and each of its coordinates divided by the
  length is a real number.
-/
import proofs.«128588_j377957122581_2_alg».proof.Defs
import proofs.«128588_j377957122581_2_alg».proof.Proof.Gen.Pre_finite_inputs
import Idealize.ShloMosaic.Lib.ReduceAll
import proofs.«128588_j377957122581_2_alg».proof.Proof.LibRealEntry
import proofs.«128588_j377957122581_2_alg».proof.Proof.LibAllReal

noncomputable section

namespace Cert.KernelIdeal.Real

open Idealize.ShloMosaic Idealize.SL.Sem
open scoped BigOperators

/-- The shape of a scalar has one index. -/
instance subsingleton_scalarIdx : Subsingleton (⟨0, ![]⟩ : Shape).Idx := ⟨fun a b => funext fun d => d.elim0⟩

/-- "All entries are finite", as the precondition prints it — the and-reduction over every entry of
    "the absolute value compares below the word of +infinity" is one — gives a real number at every entry. -/
theorem allReal_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf x) (broadcastInDim s ![] hb (constant ⟨0, ![]⟩ .f32 0x7F800000#32)))
        (constantI ⟨0, ![]⟩ 1 1#1) hr hu ValueIdx.ix0 = 1#1) : AllReal x :=
  fun i => Cert.LibRealEntry.real_of_abs_lt_inf (x i) (Host.reduce_andi_all _ _ hr hu _ h i)

/-- The word of zero denotes zero. -/
theorem zero_word : Ideal.ofBits .f32 0x00000000#32 = (0 : EReal) := Ideal.ofBits_zero_f32

/-- A vector of real numbers whose sum of squares compares above zero, divided entry by entry by the square root
    of that sum: every quotient is a real number, because the sum is a positive real, so its square root is a
    positive real too. -/
theorem normalized_real {s : Shape} {axes : List (Fin s.rank)} (q : FVec Ideal s .f32) (hq : AllReal q)
    (hr : s.ReducesTo axes ⟨0, ![]⟩) (hu : 0 < (⟨0, ![]⟩ : Shape).numel)
    (hb : (⟨0, ![]⟩ : Shape).BroadcastsInDim s (![] : Fin 0 → Fin s.rank))
    (hpos : cmpf .ogt (Host.reduceAdd (mulf q q) (constant ⟨0, ![]⟩ .f32 0x00000000#32) hr hu)
        (constant ⟨0, ![]⟩ .f32 0x00000000#32) ValueIdx.ix0 = 1#1) :
    AllReal (Host.divf q (broadcastInDim s ![] hb
      (Host.sqrt (Host.reduceAdd (mulf q q) (constant ⟨0, ![]⟩ .f32 0x00000000#32) hr hu)))) := by
  intro i
  -- the sum of squares is a real number, and the comparison says it is positive
  obtain ⟨n, hn⟩ := AllReal.reduceAdd hr hu (AllReal.mulf hq hq)
    (AllReal.constant (s := ⟨0, ![]⟩) 0x00000000#32 (by decide)) ValueIdx.ix0
  have hlt : (0 : EReal) < Host.reduceAdd (mulf q q) (constant ⟨0, ![]⟩ .f32 0x00000000#32) hr hu ValueIdx.ix0 := by
    have h1 : Ideal.cmp .ogt (Host.reduceAdd (mulf q q) (constant ⟨0, ![]⟩ .f32 0x00000000#32) hr hu ValueIdx.ix0)
        (Ideal.ofBits .f32 0x00000000#32) = 1#1 := hpos
    rw [zero_word] at h1
    by_contra hn'
    simp [Ideal.cmp, hn'] at h1
  rw [hn] at hlt
  have hn0 : 0 < n := by exact_mod_cast hlt
  -- the entry is the quotient of a real by the positive square root
  obtain ⟨x, hx⟩ := hq i
  have hN : ∀ j : (⟨0, ![]⟩ : Shape).Idx,
      Host.reduceAdd (mulf q q) (constant ⟨0, ![]⟩ .f32 0x00000000#32) hr hu j = (n : EReal) := fun j => by
    rw [Subsingleton.elim j ValueIdx.ix0]; exact hn
  show ∃ r : ℝ, Ideal.div (q i) (Ideal.sqrt (Host.reduceAdd (mulf q q) (constant ⟨0, ![]⟩ .f32 0x00000000#32) hr hu _)) = (r : EReal)
  rw [hN, hx, Ideal.sqrt_coe, if_neg (not_lt.mpr hn0.le), Ideal.div_coe (Real.sqrt_pos.mpr hn0).ne']
  exact ⟨x * (1 / Real.sqrt n), (EReal.coe_mul _ _).symm⟩

section Pre

open Cert.KernelIdeal

variable (m : (ℓ : Loc nD τ sig) → Buf (Elt Ideal) ℓ)

/-- The nine conjuncts of the precondition, opened. -/
theorem pre_conjuncts (hpre : Cert.Pre_KernelIdeal m) (c : Dev nD) :
    AllReal (m ((c.tc : Thread nD τ).loc main_arg0)) ∧ AllReal (m ((c.tc : Thread nD τ).loc main_arg1))
    ∧ AllReal (m ((c.tc : Thread nD τ).loc main_arg2)) ∧ AllReal (m ((c.tc : Thread nD τ).loc main_arg3))
    ∧ AllReal (m ((c.tc : Thread nD τ).loc main_arg4)) ∧ AllReal (m ((c.tc : Thread nD τ).loc main_arg5))
    ∧ AllReal (m ((c.tc : Thread nD τ).loc main_arg6)) ∧ AllReal (m ((c.tc : Thread nD τ).loc main_arg7))
    ∧ cmpf .ogt (Host.reduceAdd (mulf (F := Ideal) (s := ⟨1, ![4]⟩) (φ := .f32) (m ((c.tc : Thread nD τ).loc main_arg5)) (m ((c.tc : Thread nD τ).loc main_arg5)))
          (constant ⟨0, ![]⟩ .f32 0x00000000#32) Cert.Pre_finite_inputs.Facts.reducesTo_S4_S_d0 Cert.Pre_finite_inputs.Facts.h_S_)
        (constant ⟨0, ![]⟩ .f32 0x00000000#32) ValueIdx.ix0 = 1#1 := by
  have h := congrFun (hpre c) ValueIdx.ix0
  dsimp only [Cert.Pre_finite_inputs.fn, Cert.Pre_finite_inputs.fn_part1, Cert.Pre_finite_inputs.fn_part2] at h
  simp only [Idealize.ShloMosaic.andi, IntOp.andi_eq_one] at h
  obtain ⟨⟨⟨⟨⟨⟨⟨⟨h0, h1⟩, h2⟩, h3⟩, h4⟩, h5⟩, h6⟩, h7⟩, h8⟩ := h
  exact ⟨allReal_of_all_finite _ _ _ _ h0, allReal_of_all_finite _ _ _ _ h1, allReal_of_all_finite _ _ _ _ h2,
    allReal_of_all_finite _ _ _ _ h3, allReal_of_all_finite _ _ _ _ h4, allReal_of_all_finite _ _ _ _ h5,
    allReal_of_all_finite _ _ _ _ h6, allReal_of_all_finite _ _ _ _ h7, h8⟩

/-- Every argument array holds only real numbers. -/
theorem args_real (hpre : Cert.Pre_KernelIdeal m) (c : Dev nD) :
    AllReal (m ((c.tc : Thread nD τ).loc main_arg0)) ∧ AllReal (m ((c.tc : Thread nD τ).loc main_arg1))
    ∧ AllReal (m ((c.tc : Thread nD τ).loc main_arg2)) ∧ AllReal (m ((c.tc : Thread nD τ).loc main_arg3))
    ∧ AllReal (m ((c.tc : Thread nD τ).loc main_arg4)) ∧ AllReal (m ((c.tc : Thread nD τ).loc main_arg5))
    ∧ AllReal (m ((c.tc : Thread nD τ).loc main_arg6)) ∧ AllReal (m ((c.tc : Thread nD τ).loc main_arg7)) := by
  obtain ⟨h0, h1, h2, h3, h4, h5, h6, h7, _⟩ := pre_conjuncts m hpre c
  exact ⟨h0, h1, h2, h3, h4, h5, h6, h7⟩

/-- The quaternion argument as an array of four extended reals. -/
abbrev qArg (c : Dev nD) : FVec Ideal ⟨1, ![4]⟩ .f32 := m ((c.tc : Thread nD τ).loc main_arg5)

/-- The sum of the squares of the quaternion argument's four coordinates is positive. -/
theorem sumsq_pos (hpre : Cert.Pre_KernelIdeal m) (c : Dev nD) :
    (0 : EReal) < ∑ k : (⟨1, ![4]⟩ : Shape).Idx, qArg m c k * qArg m c k := by
  have h8 := (pre_conjuncts m hpre c).2.2.2.2.2.2.2.2
  have h1 : Ideal.cmp .ogt (Ideal.hostReduceAdd Cert.Pre_finite_inputs.Facts.reducesTo_S4_S_d0
      (mulf (F := Ideal) (s := ⟨1, ![4]⟩) (φ := .f32) (m ((c.tc : Thread nD τ).loc main_arg5)) (m ((c.tc : Thread nD τ).loc main_arg5)))
      (Ideal.ofBits .f32 0x00000000#32) ValueIdx.ix0) (Ideal.ofBits .f32 0x00000000#32) = 1#1 := h8
  rw [zero_word, Ideal.hostReduceAdd_total _ (fun b => b.elim0), zero_add] at h1
  by_contra hn'
  have hn'' : ¬ (0 : EReal) < ∑ k : (⟨1, ![4]⟩ : Shape).Idx,
      mulf (F := Ideal) (s := ⟨1, ![4]⟩) (φ := .f32) (m ((c.tc : Thread nD τ).loc main_arg5)) (m ((c.tc : Thread nD τ).loc main_arg5)) k := hn'
  simp [Ideal.cmp, hn''] at h1

/-- The quaternion argument divided, coordinate by coordinate, by its length (the square root of zero plus the sum
    of its squares): four real numbers. Stated for any witnesses of the three shape facts the operations take. -/
theorem q_normalized_real (hpre : Cert.Pre_KernelIdeal m) (c : Dev nD)
    (hr : (⟨1, ![4]⟩ : Shape).ReducesTo [0] ⟨0, ![]⟩) (hu : 0 < (⟨0, ![]⟩ : Shape).numel)
    (hb : (⟨0, ![]⟩ : Shape).BroadcastsInDim ⟨1, ![4]⟩ (![] : Fin 0 → Fin 1)) :
    AllReal (Host.divf (F := Ideal) (s := ⟨1, ![4]⟩) (φ := .f32) (m ((c.tc : Thread nD τ).loc main_arg5))
      (broadcastInDim ⟨1, ![4]⟩ ![] hb (Host.sqrt (Host.reduceAdd
        (mulf (F := Ideal) (s := ⟨1, ![4]⟩) (φ := .f32) (m ((c.tc : Thread nD τ).loc main_arg5)) (m ((c.tc : Thread nD τ).loc main_arg5)))
        (constant ⟨0, ![]⟩ .f32 0x00000000#32) hr hu)))) := by
  obtain ⟨_, _, _, _, _, h5, _, _, h8⟩ := pre_conjuncts m hpre c
  exact normalized_real _ h5 hr hu hb h8

end Pre

end Cert.KernelIdeal.Real

end
-- ==== Proof.RealX.lean ====
/-
  Under the precondition, every entry of the two arrays the kernel region reads — the transformed point clouds and the
  transposed homogeneous cloud, as the host operations before the region leave them — is a real number.

  A buffer is followed through the line of host operations by an invariant: the buffers written so far, and the
  arguments, hold only real numbers. Every operation after the normalisation of the quaternion is a product, sum,
  difference, cosine, sine, re-indexing, concatenation or matrix product of such buffers, or a finite literal, so
  it keeps the invariant; the normalised quaternion itself is real because the precondition makes the sum of the
  squares positive.
-/
import proofs.«128588_j377957122581_2_alg».proof.Proof.Gen.KernelIdeal.Launch
import proofs.«128588_j377957122581_2_alg».proof.Proof.LibAllReal
import proofs.«128588_j377957122581_2_alg».proof.Proof.RealPre
import Idealize.ShloMosaic.Lib.StableHlo.Run

set_option maxRecDepth 16384
set_option maxHeartbeats 8000000

noncomputable section

namespace Cert.KernelIdeal.Real

open Idealize.ShloMosaic Idealize.ShloMosaic.TcCoe Idealize.ShloMosaic.StableHlo
open Idealize.SL.Sem

/-! ## Real-valued buffers along a line of host operations

A buffer of f32 elements is *real* when every element is a real number (nothing is asked of a buffer of any other
element type). A list of buffers is *good* under a valuation when each is real there. An operation that writes one
buffer, from buffers of a good list, through a function that takes real arrays to a real array, leaves the list with
the written buffer added good; a line of such operations is a chain of such steps. -/

section Framework

variable {τ : Topo} {sig : RefSig}

/-- An f32 element is a real number; nothing is asked of an element of any other type. -/
def IsRealElt : (e : EltTy) → Elt Ideal e → Prop
  | .f32, x => ∃ r : ℝ, x = (r : EReal)
  | _, _ => True

/-- Every element of the buffer contents is real. -/
def RealBuf {T : BufTy} (v : T.Contents (Elt Ideal)) : Prop := ∀ i, IsRealElt T.elt (v i)

/-- Each buffer of the list is real under the valuation. -/
def Good (L : List (Ref sig .tc)) (W : Valuation τ sig (Elt Ideal)) : Prop :=
  ∀ r ∈ L, RealBuf (W (Proc.devRef .tc r))

/-- The operation takes a valuation good on `L` to one good on `y :: L`. -/
def Step (L : List (Ref sig .tc)) (op : HloOp τ sig (Elt Ideal)) (y : Ref sig .tc) : Prop :=
  ∀ W : Valuation τ sig (Elt Ideal), Good L W → Good (y :: L) (op.result W)

/-- A line of operations, each a step from the list the previous ones have built. -/
inductive Chain : List (Ref sig .tc) → List (HloOp τ sig (Elt Ideal)) → List (Ref sig .tc) → Prop
  | nil (L : List (Ref sig .tc)) : Chain L [] L
  | cons {L : List (Ref sig .tc)} {op : HloOp τ sig (Elt Ideal)} {y : Ref sig .tc} {ops : List (HloOp τ sig (Elt Ideal))}
      {L' : List (Ref sig .tc)} : Step L op y → Chain (y :: L) ops L' → Chain L (op :: ops) L'

theorem Chain.good {L L' : List (Ref sig .tc)} {ops : List (HloOp τ sig (Elt Ideal))} (h : Chain (τ := τ) L ops L') :
    ∀ W : Valuation τ sig (Elt Ideal), Good L W → Good L' (after ops W) := by
  induction h with
  | nil L => exact fun W hg => hg
  | cons hs _ ih => exact fun W hg => ih _ (hs W hg)

/-- Two lines run one after the other. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- An operation that writes the one buffer `y`, and leaves it real whenever the list was good, is a step. -/
theorem step_of_writes {L : List (Ref sig .tc)} {op : HloOp τ sig (Elt Ideal)} {y : Ref sig .tc}
    (hw : op.writes = {Proc.devRef .tc y})
    (hy : ∀ W : Valuation τ sig (Elt Ideal), Good L W → RealBuf (op.result W (Proc.devRef .tc y))) : Step L op y := by
  intro W hg r hr
  by_cases h : r = y
  · subst h; exact hy W hg
  · have hr' : r ∈ L := by
      rcases List.mem_cons.1 hr with h' | h'
      · exact absurd h' h
      · exact h'
    rw [op.result_of_not_mem W (by rw [hw, Finset.mem_singleton]; exact devRef_ne_of_ne h)]
    exact hg r hr'

theorem step_nullary {L : List (Ref sig .tc)} (y : Ref sig .tc) (v : y.ty.Contents (Elt Ideal)) (hy)
    (hv : RealBuf v) : Step L (nullary (τ := τ) y v hy) y :=
  step_of_writes (nullary_writes y v hy) fun W _ => by rw [nullary_result]; exact hv

theorem step_unary {L : List (Ref sig .tc)} (x y : Ref sig .tc) (f : x.ty.Contents (Elt Ideal) → y.ty.Contents (Elt Ideal)) (hx hy)
    (hxL : x ∈ L) (hf : ∀ A, RealBuf A → RealBuf (f A)) : Step L (unary (τ := τ) x y f hx hy) y :=
  step_of_writes (unary_writes x y f hx hy) fun W hg => by rw [unary_result]; exact hf _ (hg x hxL)

theorem step_binary {L : List (Ref sig .tc)} (a b y : Ref sig .tc)
    (f : a.ty.Contents (Elt Ideal) → b.ty.Contents (Elt Ideal) → y.ty.Contents (Elt Ideal)) (ha hb hy)
    (haL : a ∈ L) (hbL : b ∈ L) (hf : ∀ A B, RealBuf A → RealBuf B → RealBuf (f A B)) :
    Step L (binary (τ := τ) a b y f ha hb hy) y :=
  step_of_writes (binary_writes a b y f ha hb hy) fun W hg => by
    rw [binary_result]; exact hf _ _ (hg a haL) (hg b hbL)

theorem step_nary {L : List (Ref sig .tc)} {n : Nat} (xs : Fin n → Ref sig .tc) (y : Ref sig .tc)
    (f : ((k : Fin n) → (xs k).ty.Contents (Elt Ideal)) → y.ty.Contents (Elt Ideal)) (hxs hy)
    (hL : ∀ k, xs k ∈ L) (hf : ∀ u : (k : Fin n) → (xs k).ty.Contents (Elt Ideal), (∀ k, RealBuf (u k)) → RealBuf (f u)) :
    Step L (nary (τ := τ) xs y f hxs hy) y :=
  step_of_writes (nary_writes y xs f hxs hy) fun W hg => by
    rw [nary_result]; exact hf _ fun k => hg (xs k) (hL k)

/-- A real element moved along an equality of element types is real. -/
theorem isRealElt_cast {e₁ e₂ : EltTy} (he : e₁ = e₂) (v : Elt Ideal e₁) (h : IsRealElt e₁ v) : IsRealElt e₂ (he ▸ v) := by
  subst he; exact h

theorem step_reshape {L : List (Ref sig .tc)} (x y : Ref sig .tc) (he : x.ty.elt = y.ty.elt)
    (hn : x.ty.shape.ShapeCasts y.ty.shape) (hx hy) (hxL : x ∈ L) :
    Step L (reshape (τ := τ) (Val := Elt Ideal) x y he hn hx hy) y :=
  step_of_writes (reshape_writes x y he hn hx hy) fun W hg => by
    rw [reshape_result]
    intro i
    exact isRealElt_cast he _ (hg x hxL _)

theorem good_nil (W : Valuation τ sig (Elt Ideal)) : Good [] W := fun _ hr => nomatch hr

theorem good_cons {L : List (Ref sig .tc)} {W : Valuation τ sig (Elt Ideal)} {y : Ref sig .tc}
    (hy : RealBuf (W (Proc.devRef .tc y))) (hL : Good L W) : Good (y :: L) W := fun r hr => by
  rcases List.mem_cons.1 hr with rfl | hr
  · exact hy
  · exact hL r hr

end Framework

open Cert.KernelIdeal Cert.KernelIdeal.Gen

macro "step_nullary_tac" : tactic => `(tactic| (
  with_reducible refine step_nullary _ _ _ ?_
  exact AllReal.constant _ (by decide)))

macro "step_unary_tac" : tactic => `(tactic| (
  with_reducible refine step_unary _ _ _ _ _ ?_ ?_
  · decide
  intro A hA
  have hA' : AllReal A := hA
  first
  | exact AllReal.broadcastInDim _ _ hA'
  | exact AllReal.extractStridedSlice _ _ hA'
  | exact AllReal.transpose _ _ hA'
  | exact AllReal.cos hA'
  | exact AllReal.sin hA'))

macro "step_binary_tac" : tactic => `(tactic| (
  with_reducible refine step_binary _ _ _ _ _ _ _ ?_ ?_ ?_
  · decide
  · decide
  intro A B hA hB
  have hA' : AllReal A := hA
  have hB' : AllReal B := hB
  first
  | exact AllReal.mulf hA' hB'
  | exact AllReal.subf hA' hB'
  | exact AllReal.addf hA' hB'
  | exact AllReal.dotGeneral _ _ hA' hB'
  | exact AllReal.concatenate _ _ (AllRealL.cons hA' (AllRealL.cons hB' AllRealL.nil))))

macro "step_reshape_tac" : tactic => `(tactic| (
  with_reducible refine step_reshape _ _ _ _ _ _ ?_
  decide))

macro "step_nary_tac" : tactic => `(tactic| (
  with_reducible refine step_nary _ _ _ _ _ ?_ ?_
  · decide
  intro u hu
  exact AllReal.concatenate _ _ (by
    repeat (first
      | exact AllRealL.nil
      | (refine AllRealL.cons ?_ ?_
         first | exact hu 0 | exact hu 1 | exact hu 2 | exact hu 3 | exact hu 4 | exact hu 5 | exact hu 6 | exact hu 7
               | exact hu 8 | exact hu 9 | exact hu 10 | exact hu 11)))))

macro "step_tac" : tactic => `(tactic| first
  | step_binary_tac
  | step_nullary_tac
  | step_unary_tac
  | step_reshape_tac
  | step_nary_tac)

/-! ## The line before the region, in two parts -/

/-- The arguments. -/
abbrev L0 : List (Ref sig .tc) := [main_arg0, main_arg1, main_arg2, main_arg3, main_arg4, main_arg5, main_arg6, main_arg7]

/-- The buffers of the first twelve operations that later operations read, and the arguments. -/
abbrev LP : List (Ref sig .tc) := main_v5 :: main_v2 :: main_v1 :: main_cst_0 :: main_cst :: L0

/-- The first twelve operations: up to the normalised quaternion. -/
abbrev P : List (HloOp τ sig (Elt Ideal)) := hostOps0 ++ (hostOps0_1 ++ List.take 2 hostOps0_2)

/-- The rest. -/
abbrev C : List (HloOp τ sig (Elt Ideal)) := List.drop 2 hostOps0_2

theorem take2_eq : List.take 2 (hostOps0_2 (F := Ideal)) =
    [StableHlo.unary main_v3 main_v4 (broadcastInDim S4 ![] bcast_S_S4 : (⟨S_, .f32⟩ : BufTy).Contents (Elt Ideal) → (⟨S4, .f32⟩ : BufTy).Contents (Elt Ideal)),
     StableHlo.binary main_arg5 main_v4 main_v5 (Host.divf (F := Ideal) (φ := .f32) : (⟨S4, .f32⟩ : BufTy).Contents (Elt Ideal) → (⟨S4, .f32⟩ : BufTy).Contents (Elt Ideal) → (⟨S4, .f32⟩ : BufTy).Contents (Elt Ideal))] := rfl

theorem flatten_eq : List.flatten [hostOps0 (F := Ideal), hostOps0_1, hostOps0_2] = P ++ C := by
  simp only [P, C, List.flatten_cons, List.flatten_nil, List.append_nil, List.append_assoc, List.take_append_drop]

section Prefix

variable (m : (ℓ : Loc nD τ sig) → Buf (Elt Ideal) ℓ)

macro "read_prefix" : tactic => `(tactic| (
  simp only [P, hostOps0, hostOps0_1, take2_eq, List.cons_append, List.nil_append]
  after_results))

/-- After the first twelve operations the buffers later operations read hold only real numbers. -/
theorem prefix_good (hpre : Cert.Pre_KernelIdeal m) (c : Dev nD) : Good LP (after P (fun b => m (c, b))) := by
  obtain ⟨h0, h1, h2, h3, h4, h5, h6, h7⟩ := args_real m hpre c
  have hq := q_normalized_real m hpre c reducesTo_S4_S_d0 h_S_ bcast_S_S4
  have hone : AllReal (broadcastInDim S2x8192x1 ![] bcast_S_S2x8192x1 (constant (F := Ideal) S_ .f32 0x3F800000#32)) :=
    AllReal.broadcastInDim _ _ (AllReal.constant _ (by decide))
  refine good_cons ?_ (good_cons ?_ (good_cons ?_ (good_cons ?_ (good_cons ?_ (good_cons ?_ (good_cons ?_ (good_cons ?_
    (good_cons ?_ (good_cons ?_ (good_cons ?_ (good_cons ?_ (good_cons ?_ (good_nil _)))))))))))))
  · show AllReal (after P _ (Proc.devRef .tc main_v5))
    read_prefix
    exact hq
  · show AllReal (after P _ (Proc.devRef .tc main_v2))
    read_prefix
    exact AllReal.concatenate _ _ (AllRealL.cons h1 (AllRealL.cons hone AllRealL.nil))
  · show AllReal (after P _ (Proc.devRef .tc main_v1))
    read_prefix
    exact AllReal.concatenate _ _ (AllRealL.cons h0 (AllRealL.cons hone AllRealL.nil))
  · show AllReal (after P _ (Proc.devRef .tc main_cst_0))
    read_prefix
    exact AllReal.table lit1 (by decide) _
  · show AllReal (after P _ (Proc.devRef .tc main_cst))
    read_prefix
    exact AllReal.table lit0 (by decide) _
  · show AllReal (after P _ (Proc.devRef .tc main_arg0))
    read_prefix
    exact h0
  · show AllReal (after P _ (Proc.devRef .tc main_arg1))
    read_prefix
    exact h1
  · show AllReal (after P _ (Proc.devRef .tc main_arg2))
    read_prefix
    exact h2
  · show AllReal (after P _ (Proc.devRef .tc main_arg3))
    read_prefix
    exact h3
  · show AllReal (after P _ (Proc.devRef .tc main_arg4))
    read_prefix
    exact h4
  · show AllReal (after P _ (Proc.devRef .tc main_arg5))
    read_prefix
    exact h5
  · show AllReal (after P _ (Proc.devRef .tc main_arg6))
    read_prefix
    exact h6
  · show AllReal (after P _ (Proc.devRef .tc main_arg7))
    read_prefix
    exact h7

end Prefix

/-! ## The rest of the line keeps the invariant -/

/-- Each of the 240 operations after the normalised quaternion is a step: its operands are among the buffers already
    known real, and its function keeps real arrays real. The last two buffers written are the kernel's two operands. -/
theorem chainC : ∃ L', Chain (τ := τ) LP C L' ∧ main_v214 ∈ L' ∧ main_v215 ∈ L' := by
  apply Exists.intro
  apply And.intro
  · repeat (first | exact Chain.nil _ | (apply Chain.cons; step_tac))
  · exact ⟨List.mem_cons_of_mem _ List.mem_cons_self, List.mem_cons_self⟩

/-! ## The two arrays the region reads -/

section Final

variable (m : (ℓ : Loc nD τ sig) → Buf (Elt Ideal) ℓ)

theorem xy_real (hpre : Cert.Pre_KernelIdeal m) (c : Dev nD) :
    RealBuf (StableHlo.after (List.flatten [hostOps0 (F := Ideal), hostOps0_1, hostOps0_2]) (fun b => m (c, b)) (Proc.devRef .tc main_v214))
    ∧ RealBuf (StableHlo.after (List.flatten [hostOps0 (F := Ideal), hostOps0_1, hostOps0_2]) (fun b => m (c, b)) (Proc.devRef .tc main_v215)) := by
  obtain ⟨L', hch, h214, h215⟩ := chainC
  have hg : Good L' (StableHlo.after (List.flatten [hostOps0 (F := Ideal), hostOps0_1, hostOps0_2]) (fun b => m (c, b))) := by
    rw [flatten_eq, after_append']
    exact hch.good _ (prefix_good m hpre c)
  exact ⟨hg main_v214 h214, hg main_v215 h215⟩

/-- The kernel's first operand — the two transformed clouds, [2, 8192, 4] — holds only real numbers. -/
theorem x_real (hpre : Cert.Pre_KernelIdeal m) (c : Dev nD) :
    AllReal (StableHlo.after (List.flatten [hostOps0 (F := Ideal), hostOps0_1, hostOps0_2]) (fun b => m (c, b)) (Proc.devRef .tc main_v214)) :=
  (xy_real m hpre c).1

/-- The kernel's second operand — the transposed homogeneous cloud, [2, 4, 8192] — holds only real numbers. -/
theorem y_real (hpre : Cert.Pre_KernelIdeal m) (c : Dev nD) :
    AllReal (StableHlo.after (List.flatten [hostOps0 (F := Ideal), hostOps0_1, hostOps0_2]) (fun b => m (c, b)) (Proc.devRef .tc main_v215)) :=
  (xy_real m hpre c).2

end Final

end Cert.KernelIdeal.Real

end
-- ==== Proof.lean ====
/-
  The certificate of a fused chamfer-distance kernel against its plain reference.

  The kernel program transforms two clouds of 8192 homogeneous points by a base transform (a rotation from
  a normalised quaternion and a translation) and by that transform composed with a screw rotation, stacks
  them, and runs one region over a grid 2 × 8 × 8: at grid point (p, i, j) the body takes the squared
  coordinate differences of row tile i of part p's transformed cloud against column tile j of part p's
  camera cloud, folds their row minima into a block carried across j and their column minima into one
  slice of a block carried across (i, j); the host tail takes clamped square roots of the two arrays of
  minima and averages them. The reference expands the squared distance as ‖x‖² + ‖y‖² − Σ (2x_k) y_k,
  clamps, takes the root of every entry, then the minima and the means.

  The frames: the kernel's run at both instances goes through the pipeline's frame theorem with proof
  data that names what the two outputs' staging buffers hold after every point, by recursion on the point
  over three control cases (KFDefs … KFRun and their word-level copies); the reference is a straight line
  of host operations (RROps, RRRun).

  The value: the region's arrays are the whole-row and whole-column minima (KValue, KFlush, KArr,
  KArrays), the host prefixes of the two programs are the same operations on the same arguments (LibKeepsOff, KROps …
  KRIdent), under the precondition every point of the four clouds is real (LibAllReal, RealPre, RealX: the
  quaternion's squared length is positive, so its normalisation divides by a positive real), and on real
  points the clamped root — monotone, fixing the top element — commutes with the minima while the sum of
  squared differences is the expansion (ChamferSpec, ChamferMath, Bridge); the remaining scalar
  arithmetic is the same expression on both sides (KerTail, KerEndRead, RRead, RefEndRead, Alg).
-/
import proofs.«128588_j377957122581_2_alg».proof.Defs
import proofs.«128588_j377957122581_2_alg».proof.Proof.Gen.Kernel
import proofs.«128588_j377957122581_2_alg».proof.Proof.Gen.KernelIdeal
import proofs.«128588_j377957122581_2_alg».proof.Proof.Gen.ReferenceIdeal
import proofs.«128588_j377957122581_2_alg».proof.Proof.Gen.Pre_finite_inputs
import proofs.«128588_j377957122581_2_alg».proof.Proof.KFBitsRun
import proofs.«128588_j377957122581_2_alg».proof.Proof.KFRun
import proofs.«128588_j377957122581_2_alg».proof.Proof.RRRun
import proofs.«128588_j377957122581_2_alg».proof.Proof.KFinal
import proofs.«128588_j377957122581_2_alg».proof.Proof.Alg
import proofs.«128588_j377957122581_2_alg».proof.Proof.KRIdent
import proofs.«128588_j377957122581_2_alg».proof.Proof.RealX

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.KF.frame m ρ
theorem frame_ki : Cert.frame_KernelIdeal := fun m ρ _ => Cert.KernelIdeal.KF.frame m ρ
theorem frame_ri : Cert.frame_ReferenceIdeal := fun m ρ _ => Cert.ReferenceIdeal.RR.frame m ρ

/-- The ideal pass rewrote nothing. -/
theorem preserves : Cert.preserves_Kernel_KernelIdeal := trivial

/-- At the ideal instance the two programs, run from memories that agree on the arguments, end with equal
    results: the kernel program's five results are named by its own run, and the reference's run ends at the
    same values. -/
theorem algebraic : Cert.algebraic_KernelIdeal_ReferenceIdeal := by
  intro m ρ m' ρ' hpre hagree
  refine ⟨fun c => Cert.KernelIdeal.KA.AT m c Cert.KernelIdeal.main_v243, fun c => Cert.KernelIdeal.KA.AT m c Cert.KernelIdeal.main_v233,
    fun c => Cert.KernelIdeal.KA.AT m c Cert.KernelIdeal.main_v245, fun c => Cert.KernelIdeal.KA.AT m c Cert.KernelIdeal.main_v74,
    fun c => Cert.KernelIdeal.KA.AT m c Cert.KernelIdeal.main_v244, Cert.KernelIdeal.KA.run m ρ, ?_⟩
  refine (θ_run Cert.ReferenceIdeal.defs _ _).mono (fun r h c => ?_) (Cert.ReferenceIdeal.RR.run (F := Ideal) m' ρ')
  obtain ⟨a0, a1, a2, a3, a4, a5, a6, a7⟩ := hagree c
  -- the two launch valuations agree on the arguments
  have h0 : StableHlo.launchContents m' c (Proc.devRef .tc Cert.ReferenceIdeal.main_arg0) = Cert.Alg.LK m c (Proc.devRef .tc Cert.KernelIdeal.main_arg0) := a0
  have h1 : StableHlo.launchContents m' c (Proc.devRef .tc Cert.ReferenceIdeal.main_arg1) = Cert.Alg.LK m c (Proc.devRef .tc Cert.KernelIdeal.main_arg1) := a1
  have h2 : StableHlo.launchContents m' c (Proc.devRef .tc Cert.ReferenceIdeal.main_arg2) = Cert.Alg.LK m c (Proc.devRef .tc Cert.KernelIdeal.main_arg2) := a2
  have h3 : StableHlo.launchContents m' c (Proc.devRef .tc Cert.ReferenceIdeal.main_arg3) = Cert.Alg.LK m c (Proc.devRef .tc Cert.KernelIdeal.main_arg3) := a3
  have h4 : StableHlo.launchContents m' c (Proc.devRef .tc Cert.ReferenceIdeal.main_arg4) = Cert.Alg.LK m c (Proc.devRef .tc Cert.KernelIdeal.main_arg4) := a4
  have h5 : StableHlo.launchContents m' c (Proc.devRef .tc Cert.ReferenceIdeal.main_arg5) = Cert.Alg.LK m c (Proc.devRef .tc Cert.KernelIdeal.main_arg5) := a5
  have h6 : StableHlo.launchContents m' c (Proc.devRef .tc Cert.ReferenceIdeal.main_arg6) = Cert.Alg.LK m c (Proc.devRef .tc Cert.KernelIdeal.main_arg6) := a6
  have h7 : StableHlo.launchContents m' c (Proc.devRef .tc Cert.ReferenceIdeal.main_arg7) = Cert.Alg.LK m c (Proc.devRef .tc Cert.KernelIdeal.main_arg7) := a7
  generalize hLR : StableHlo.launchContents m' c = LR at h0 h1 h2 h3 h4 h5 h6 h7
  have hh : ∀ b : Ref Cert.ReferenceIdeal.sig .tc, r.2.mem ((c.tc : Thread Cert.ReferenceIdeal.nD Cert.ReferenceIdeal.τ).loc b)
      = StableHlo.after (Cert.ReferenceIdeal.RR.ops (F := Ideal)) LR (Proc.devRef .tc b) := fun b => hLR ▸ h c b
  have hL : ∀ b : Ref Cert.ReferenceIdeal.sig .tc, LR (Proc.devRef .tc b) = m' ((c.tc : Thread Cert.ReferenceIdeal.nD Cert.ReferenceIdeal.τ).loc b) :=
    fun b => hLR ▸ rfl
  -- the same host prefix in the two programs
  have eU : Cert.Alg.U m c = Cert.KRIdent.KMid (Cert.Alg.LK m c) := rfl
  have I1 := Cert.KRIdent.I1 (Cert.Alg.LK m c) LR h0 h1 h2 h3 h4 h5 h6 h7
  have I2 := Cert.KRIdent.I2 (Cert.Alg.LK m c) LR h0 h1 h2 h3 h4 h5 h6 h7
  have I3 := Cert.KRIdent.I3 (Cert.Alg.LK m c) LR h0 h1 h2 h3 h4 h5 h6 h7
  have I4 := Cert.KRIdent.I4 (Cert.Alg.LK m c) LR h0 h1 h2 h3 h4 h5 h6 h7
  have I5 := Cert.KRIdent.I5 (Cert.Alg.LK m c) LR h0 h1 h2 h3 h4 h5 h6 h7
  have I10 := Cert.KRIdent.I10_arg4 (Cert.Alg.LK m c)
  rw [← eU] at I1 I2 I3 I4 I5 I10
  have I3y0 : ∀ (q : Fin 8192) (k : Fin 4), (Cert.ReferenceIdeal.RR.Wpre LR (Proc.devRef .tc Cert.ReferenceIdeal.main_v80) : FVec Ideal Cert.ReferenceIdeal.S8192x4 .f32) (ix2 q k)
      = (Cert.Alg.U m c (Proc.devRef .tc Cert.KernelIdeal.main_v1) : FVec Ideal Cert.KernelIdeal.S2x8192x4 .f32) (ix3 (0 : Fin 2) q k) := fun q k => by
    rw [Cert.KRIdent.i6, I3]
    exact Cert.Layout.member0_apply _ _ _ q k
  have I3y1 : ∀ (q : Fin 8192) (k : Fin 4), (Cert.ReferenceIdeal.RR.Wmid LR (Proc.devRef .tc Cert.ReferenceIdeal.main_v242) : FVec Ideal Cert.ReferenceIdeal.S8192x4 .f32) (ix2 q k)
      = (Cert.Alg.U m c (Proc.devRef .tc Cert.KernelIdeal.main_v1) : FVec Ideal Cert.KernelIdeal.S2x8192x4 .f32) (ix3 (1 : Fin 2) q k) := fun q k => by
    rw [Cert.KRIdent.i7, I3]
    exact Cert.Layout.member1_apply _ _ _ q k
  -- under the precondition the clouds' points are real
  have hXr := Cert.KernelIdeal.Real.x_real m hpre c
  have hYr := Cert.KernelIdeal.Real.y_real m hpre c
  refine ⟨(hh _).trans (Cert.Alg.res0 m c LR I1 I2 I3y0 I3y1 I10 h4 hXr hYr),
    (hh _).trans (Cert.Alg.res1 m c LR I1 I3y0 hXr hYr),
    (hh _).trans (Cert.Alg.res2 m c LR I2 I3y1 hXr hYr),
    (hh _).trans (Cert.Alg.res3 m c LR I4),
    (hh _).trans (Cert.Alg.res4 m c LR I5),
    (hh _).trans ((Cert.ReferenceIdeal.RR.ops_keeps Cert.ReferenceIdeal.main_arg0 (by decide) LR).trans (hL _)),
    (hh _).trans ((Cert.ReferenceIdeal.RR.ops_keeps Cert.ReferenceIdeal.main_arg1 (by decide) LR).trans (hL _)),
    (hh _).trans ((Cert.ReferenceIdeal.RR.ops_keeps Cert.ReferenceIdeal.main_arg2 (by decide) LR).trans (hL _)),
    (hh _).trans ((Cert.ReferenceIdeal.RR.ops_keeps Cert.ReferenceIdeal.main_arg3 (by decide) LR).trans (hL _)),
    (hh _).trans ((Cert.ReferenceIdeal.RR.ops_keeps Cert.ReferenceIdeal.main_arg4 (by decide) LR).trans (hL _)),
    (hh _).trans ((Cert.ReferenceIdeal.RR.ops_keeps Cert.ReferenceIdeal.main_arg5 (by decide) LR).trans (hL _)),
    (hh _).trans ((Cert.ReferenceIdeal.RR.ops_keeps Cert.ReferenceIdeal.main_arg6 (by decide) LR).trans (hL _)),
    (hh _).trans ((Cert.ReferenceIdeal.RR.ops_keeps Cert.ReferenceIdeal.main_arg7 (by decide) LR).trans (hL _))⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
